-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S200x1024 : Shape := ⟨2, ![200, 1024]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200x1024 : S_.BroadcastsInDim S200x1024 (![] : Fin 0 → Fin S200x1024.rank)
  reducesTo_S200x1024_S_d0_1 : S200x1024.ReducesTo [0, 1] S_

variable [Facts]

def fn {F : FTy → Type} [FloatOps F] (main_arg0 : IVec S200x1024 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S200x1024 32 := broadcastInDim S200x1024 ![] bcast_S_S200x1024 main_c_0
  let main_v5 : IVec S200x1024 1 := cmpi .sge main_arg0 main_v4
  let main_c_1 : IVec S_ 32 := constantI S_ 32 99999#32
  let main_v6 : IVec S200x1024 32 := broadcastInDim S200x1024 ![] bcast_S_S200x1024 main_c_1
  let main_v7 : IVec S200x1024 1 := cmpi .sle main_arg0 main_v6
  let main_v8 : IVec S200x1024 1 := andi main_v5 main_v7
  let main_c_2 : IVec S_ 1 := constantI S_ 1 1#1
  let main_v9 : IVec S_ 1 := (fun x v => Host.reduce IntOp.andi x v reducesTo_S200x1024_S_d0_1 h_S_) main_v8 main_c_2
  let main_v10 : IVec S_ 1 := andi main_v3 main_v9
  main_v10
-- ==== Kernel.lean ====
abbrev S200x1024 : Shape := ⟨2, ![200, 1024]⟩
abbrev S100000x128 : Shape := ⟨2, ![100000, 128]⟩
abbrev S1024x200 : Shape := ⟨2, ![1024, 200]⟩
abbrev S204800 : Shape := ⟨1, ![204800]⟩
abbrev S204800x128 : Shape := ⟨2, ![204800, 128]⟩
abbrev S128 : Shape := ⟨1, ![128]⟩
abbrev S128x128 : Shape := ⟨2, ![128, 128]⟩
abbrev S_ : Shape := ⟨0, ![]⟩
abbrev S1024x200x128 : Shape := ⟨3, ![1024, 200, 128]⟩

abbrev nBuf : Table → Nat
  | .hbm => 6
  | .local .scVector .vmem => 8
  | _ => 0

abbrev bufTy : (tb : Table) → Fin (nBuf tb) → BufTy
  | .hbm, ⟨0, _⟩ => ⟨S200x1024, .i32⟩
  | .hbm, ⟨1, _⟩ => ⟨S100000x128, .f32⟩
  | .hbm, ⟨2, _⟩ => ⟨S1024x200, .i32⟩
  | .hbm, ⟨3, _⟩ => ⟨S204800, .i32⟩
  | .hbm, ⟨4, _⟩ => ⟨S204800x128, .f32⟩
  | .hbm, ⟨5, _⟩ => ⟨S1024x200x128, .f32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128, .i32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | .local .scVector .vmem, ⟨7, _⟩ => ⟨S128x128, .f32⟩
  | _, _ => ⟨S200x1024, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_arg1_scv : Ref sig .scVector := ⟨.hbm, 1, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v3 : BitVec 32 := Scalar.addi v2 c0_i32
  ![v3.toNat]
def k0_off1_at (r : Fin 6) : BitVec 32 :=
  if r.val < 3 then
    if r.val < 1 then
      0#32
    else
      if r.val < 2 then
        128#32
      else
        256#32
  else
    if r.val < 4 then
      384#32
    else
      if r.val < 5 then
        6144#32
      else
        6272#32
@[reducible] def k0_t1_loop : Scf.Loop 32 :=
  let c0_i32_1 : BitVec 32 := 0#32
  let c12_i32 : BitVec 32 := 12#32
  let v15 : BitVec 32 := Scalar.addi c0_i32_1 c12_i32
  let c1_i32 : BitVec 32 := 1#32
  ⟨c0_i32_1, v15, c1_i32⟩
def k0_cond1 (k0_t1 : Fin k0_t1_loop.trips) : BitVec 1 :=
  let c0_i32_1 : BitVec 32 := 0#32
  let c1_i32 : BitVec 32 := 1#32
  let arg25 : BitVec 32 := Scf.iv c0_i32_1 c1_i32 k0_t1
  let c0_i32_31 : BitVec 32 := 0#32
  let v48 : BitVec 1 := Scalar.cmpi .sgt arg25 c0_i32_31
  let v49 : BitVec 32 := Scalar.extui v48
  let c0_i32_32 : BitVec 32 := 0#32
  let v50 : BitVec 1 := Scalar.cmpi .ne v49 c0_i32_32
  v50

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c4_i32 : BitVec 32 := 4#32
  let c0_i32_1 : BitVec 32 := 0#32
  let c1_i32 : BitVec 32 := 1#32
  let arg25 : BitVec 32 := Scf.iv c0_i32_1 c1_i32 k0_t1
  let v44 : BitVec 32 := Scalar.muli c4_i32 arg25
  let c0_i32_29 : BitVec 32 := 0#32
  let v45 : BitVec 32 := Scalar.addi v44 c0_i32_29
  let c128_i32_30 : BitVec 32 := 128#32
  let v46 : BitVec 32 := Scalar.muli v45 c128_i32_30
  let v47 : BitVec 32 := Scalar.addi v2 v46
  let c0_i32_94 : BitVec 32 := 0#32
  ![v47.toNat, 0]
def k0_off3 (i : grid0.Coords) (k0_t1 : Fin k0_t1_loop.trips) (c0_i32_29 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c4_i32 : BitVec 32 := 4#32
  let c0_i32_1 : BitVec 32 := 0#32
  let c1_i32 : BitVec 32 := 1#32
  let arg25 : BitVec 32 := Scf.iv c0_i32_1 c1_i32 k0_t1
  let v44 : BitVec 32 := Scalar.muli c4_i32 arg25
  let v45 : BitVec 32 := Scalar.addi v44 c0_i32_29
  let c128_i32_30 : BitVec 32 := 128#32
  let v46 : BitVec 32 := Scalar.muli v45 c128_i32_30
  let v47 : BitVec 32 := Scalar.addi v2 v46
  ![v47.toNat]
def k0_cond2 (k0_t1 : Fin k0_t1_loop.trips) : BitVec 1 :=
  let c0_i32_1 : BitVec 32 := 0#32
  let c1_i32 : BitVec 32 := 1#32
  let arg25 : BitVec 32 := Scf.iv c0_i32_1 c1_i32 k0_t1
  let c0_i32_38 : BitVec 32 := 0#32
  let v58 : BitVec 1 := Scalar.cmpi .sgt arg25 c0_i32_38
  let v59 : BitVec 32 := Scalar.extui v58
  let c0_i32_39 : BitVec 32 := 0#32
  let v60 : BitVec 1 := Scalar.cmpi .ne v59 c0_i32_39
  v60

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c4_i32_35 : BitVec 32 := 4#32
  let c0_i32_1 : BitVec 32 := 0#32
  let c1_i32 : BitVec 32 := 1#32
  let arg25 : BitVec 32 := Scf.iv c0_i32_1 c1_i32 k0_t1
  let v54 : BitVec 32 := Scalar.muli c4_i32_35 arg25
  let c1_i32_36 : BitVec 32 := 1#32
  let v55 : BitVec 32 := Scalar.addi v54 c1_i32_36
  let c128_i32_37 : BitVec 32 := 128#32
  let v56 : BitVec 32 := Scalar.muli v55 c128_i32_37
  let v57 : BitVec 32 := Scalar.addi v2 v56
  let c0_i32_94 : BitVec 32 := 0#32
  ![v57.toNat, 0]
def k0_cond3 (k0_t1 : Fin k0_t1_loop.trips) : BitVec 1 :=
  let c0_i32_1 : BitVec 32 := 0#32
  let c1_i32 : BitVec 32 := 1#32
  let arg25 : BitVec 32 := Scf.iv c0_i32_1 c1_i32 k0_t1
  let c0_i32_45 : BitVec 32 := 0#32
  let v68 : BitVec 1 := Scalar.cmpi .sgt arg25 c0_i32_45
  let v69 : BitVec 32 := Scalar.extui v68
  let c0_i32_46 : BitVec 32 := 0#32
  let v70 : BitVec 1 := Scalar.cmpi .ne v69 c0_i32_46
  v70

def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c4_i32_42 : BitVec 32 := 4#32
  let c0_i32_1 : BitVec 32 := 0#32
  let c1_i32 : BitVec 32 := 1#32
  let arg25 : BitVec 32 := Scf.iv c0_i32_1 c1_i32 k0_t1
  let v64 : BitVec 32 := Scalar.muli c4_i32_42 arg25
  let c2_i32_43 : BitVec 32 := 2#32
  let v65 : BitVec 32 := Scalar.addi v64 c2_i32_43
  let c128_i32_44 : BitVec 32 := 128#32
  let v66 : BitVec 32 := Scalar.muli v65 c128_i32_44
  let v67 : BitVec 32 := Scalar.addi v2 v66
  let c0_i32_94 : BitVec 32 := 0#32
  ![v67.toNat, 0]
def k0_cond4 (k0_t1 : Fin k0_t1_loop.trips) : BitVec 1 :=
  let c0_i32_1 : BitVec 32 := 0#32
  let c1_i32 : BitVec 32 := 1#32
  let arg25 : BitVec 32 := Scf.iv c0_i32_1 c1_i32 k0_t1
  let c0_i32_51 : BitVec 32 := 0#32
  let v78 : BitVec 1 := Scalar.cmpi .sgt arg25 c0_i32_51
  let v79 : BitVec 32 := Scalar.extui v78
  let c0_i32_52 : BitVec 32 := 0#32
  let v80 : BitVec 1 := Scalar.cmpi .ne v79 c0_i32_52
  v80

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c4_i32_49 : BitVec 32 := 4#32
  let c0_i32_1 : BitVec 32 := 0#32
  let c1_i32 : BitVec 32 := 1#32
  let arg25 : BitVec 32 := Scf.iv c0_i32_1 c1_i32 k0_t1
  let v74 : BitVec 32 := Scalar.muli c4_i32_49 arg25
  let c3_i32 : BitVec 32 := 3#32
  let v75 : BitVec 32 := Scalar.addi v74 c3_i32
  let c128_i32_50 : BitVec 32 := 128#32
  let v76 : BitVec 32 := Scalar.muli v75 c128_i32_50
  let v77 : BitVec 32 := Scalar.addi v2 v76
  let c0_i32_94 : BitVec 32 := 0#32
  ![v77.toNat, 0]
def k0_off7 (i : grid0.Coords) (k0_t1 : Fin k0_t1_loop.trips) (c0_i32_56 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c4_i32_55 : BitVec 32 := 4#32
  let c0_i32_1 : BitVec 32 := 0#32
  let c1_i32 : BitVec 32 := 1#32
  let arg25 : BitVec 32 := Scf.iv c0_i32_1 c1_i32 k0_t1
  let v84 : BitVec 32 := Scalar.muli c4_i32_55 arg25
  let v85 : BitVec 32 := Scalar.addi v84 c0_i32_56
  let c128_i32_57 : BitVec 32 := 128#32
  let v86 : BitVec 32 := Scalar.muli v85 c128_i32_57
  let v87 : BitVec 32 := Scalar.addi v2 v86
  let c0_i32_60 : BitVec 32 := 0#32
  ![v87.toNat, 0]
def k0_cond5 (k0_t1 : Fin k0_t1_loop.trips) : BitVec 1 :=
  let c4_i32_55 : BitVec 32 := 4#32
  let c0_i32_1 : BitVec 32 := 0#32
  let c1_i32 : BitVec 32 := 1#32
  let arg25 : BitVec 32 := Scf.iv c0_i32_1 c1_i32 k0_t1
  let v84 : BitVec 32 := Scalar.muli c4_i32_55 arg25
  let c0_i32_56 : BitVec 32 := 0#32
  let v85 : BitVec 32 := Scalar.addi v84 c0_i32_56
  let c4_i32_62 : BitVec 32 := 4#32
  let v91 : BitVec 32 := Scalar.addi v85 c4_i32_62
  let c50_i32 : BitVec 32 := 50#32
  let v92 : BitVec 1 := Scalar.cmpi .slt v91 c50_i32
  let v93 : BitVec 32 := Scalar.extui v92
  let c0_i32_63 : BitVec 32 := 0#32
  let v94 : BitVec 1 := Scalar.cmpi .ne v93 c0_i32_63
  v94

def k0_off8 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c4_i32_55 : BitVec 32 := 4#32
  let c0_i32_1 : BitVec 32 := 0#32
  let c1_i32 : BitVec 32 := 1#32
  let arg25 : BitVec 32 := Scf.iv c0_i32_1 c1_i32 k0_t1
  let v84 : BitVec 32 := Scalar.muli c4_i32_55 arg25
  let c0_i32_56 : BitVec 32 := 0#32
  let v85 : BitVec 32 := Scalar.addi v84 c0_i32_56
  let c128_i32_57 : BitVec 32 := 128#32
  let v86 : BitVec 32 := Scalar.muli v85 c128_i32_57
  let v87 : BitVec 32 := Scalar.addi v2 v86
  let c512_i32 : BitVec 32 := 512#32
  let v128 : BitVec 32 := Scalar.addi v87 c512_i32
  ![v128.toNat]
def k0_cond6 (k0_t1 : Fin k0_t1_loop.trips) : BitVec 1 :=
  let c4_i32_64 : BitVec 32 := 4#32
  let c0_i32_1 : BitVec 32 := 0#32
  let c1_i32 : BitVec 32 := 1#32
  let arg25 : BitVec 32 := Scf.iv c0_i32_1 c1_i32 k0_t1
  let v95 : BitVec 32 := Scalar.muli c4_i32_64 arg25
  let c1_i32_65 : BitVec 32 := 1#32
  let v96 : BitVec 32 := Scalar.addi v95 c1_i32_65
  let c4_i32_71 : BitVec 32 := 4#32
  let v102 : BitVec 32 := Scalar.addi v96 c4_i32_71
  let c50_i32_72 : BitVec 32 := 50#32
  let v103 : BitVec 1 := Scalar.cmpi .slt v102 c50_i32_72
  let v104 : BitVec 32 := Scalar.extui v103
  let c0_i32_73 : BitVec 32 := 0#32
  let v105 : BitVec 1 := Scalar.cmpi .ne v104 c0_i32_73
  v105

def k0_off9 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c4_i32_64 : BitVec 32 := 4#32
  let c0_i32_1 : BitVec 32 := 0#32
  let c1_i32 : BitVec 32 := 1#32
  let arg25 : BitVec 32 := Scf.iv c0_i32_1 c1_i32 k0_t1
  let v95 : BitVec 32 := Scalar.muli c4_i32_64 arg25
  let c1_i32_65 : BitVec 32 := 1#32
  let v96 : BitVec 32 := Scalar.addi v95 c1_i32_65
  let c128_i32_66 : BitVec 32 := 128#32
  let v97 : BitVec 32 := Scalar.muli v96 c128_i32_66
  let v98 : BitVec 32 := Scalar.addi v2 v97
  let c512_i32 : BitVec 32 := 512#32
  let v128 : BitVec 32 := Scalar.addi v98 c512_i32
  ![v128.toNat]
def k0_cond7 (k0_t1 : Fin k0_t1_loop.trips) : BitVec 1 :=
  let c4_i32_74 : BitVec 32 := 4#32
  let c0_i32_1 : BitVec 32 := 0#32
  let c1_i32 : BitVec 32 := 1#32
  let arg25 : BitVec 32 := Scf.iv c0_i32_1 c1_i32 k0_t1
  let v106 : BitVec 32 := Scalar.muli c4_i32_74 arg25
  let c2_i32_75 : BitVec 32 := 2#32
  let v107 : BitVec 32 := Scalar.addi v106 c2_i32_75
  let c4_i32_81 : BitVec 32 := 4#32
  let v113 : BitVec 32 := Scalar.addi v107 c4_i32_81
  let c50_i32_82 : BitVec 32 := 50#32
  let v114 : BitVec 1 := Scalar.cmpi .slt v113 c50_i32_82
  let v115 : BitVec 32 := Scalar.extui v114
  let c0_i32_83 : BitVec 32 := 0#32
  let v116 : BitVec 1 := Scalar.cmpi .ne v115 c0_i32_83
  v116

def k0_off10 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c4_i32_74 : BitVec 32 := 4#32
  let c0_i32_1 : BitVec 32 := 0#32
  let c1_i32 : BitVec 32 := 1#32
  let arg25 : BitVec 32 := Scf.iv c0_i32_1 c1_i32 k0_t1
  let v106 : BitVec 32 := Scalar.muli c4_i32_74 arg25
  let c2_i32_75 : BitVec 32 := 2#32
  let v107 : BitVec 32 := Scalar.addi v106 c2_i32_75
  let c128_i32_76 : BitVec 32 := 128#32
  let v108 : BitVec 32 := Scalar.muli v107 c128_i32_76
  let v109 : BitVec 32 := Scalar.addi v2 v108
  let c512_i32 : BitVec 32 := 512#32
  let v128 : BitVec 32 := Scalar.addi v109 c512_i32
  ![v128.toNat]
def k0_cond8 (k0_t1 : Fin k0_t1_loop.trips) : BitVec 1 :=
  let c4_i32_84 : BitVec 32 := 4#32
  let c0_i32_1 : BitVec 32 := 0#32
  let c1_i32 : BitVec 32 := 1#32
  let arg25 : BitVec 32 := Scf.iv c0_i32_1 c1_i32 k0_t1
  let v117 : BitVec 32 := Scalar.muli c4_i32_84 arg25
  let c3_i32_85 : BitVec 32 := 3#32
  let v118 : BitVec 32 := Scalar.addi v117 c3_i32_85
  let c4_i32_91 : BitVec 32 := 4#32
  let v124 : BitVec 32 := Scalar.addi v118 c4_i32_91
  let c50_i32_92 : BitVec 32 := 50#32
  let v125 : BitVec 1 := Scalar.cmpi .slt v124 c50_i32_92
  let v126 : BitVec 32 := Scalar.extui v125
  let c0_i32_93 : BitVec 32 := 0#32
  let v127 : BitVec 1 := Scalar.cmpi .ne v126 c0_i32_93
  v127

def k0_off11 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c4_i32_84 : BitVec 32 := 4#32
  let c0_i32_1 : BitVec 32 := 0#32
  let c1_i32 : BitVec 32 := 1#32
  let arg25 : BitVec 32 := Scf.iv c0_i32_1 c1_i32 k0_t1
  let v117 : BitVec 32 := Scalar.muli c4_i32_84 arg25
  let c3_i32_85 : BitVec 32 := 3#32
  let v118 : BitVec 32 := Scalar.addi v117 c3_i32_85
  let c128_i32_86 : BitVec 32 := 128#32
  let v119 : BitVec 32 := Scalar.muli v118 c128_i32_86
  let v120 : BitVec 32 := Scalar.addi v2 v119
  let c512_i32 : BitVec 32 := 512#32
  let v128 : BitVec 32 := Scalar.addi v120 c512_i32
  ![v128.toNat]
def k0_off12 (i : grid0.Coords) (c6144_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v16 : BitVec 32 := Scalar.addi v2 c6144_i32
  let c0_i32_3 : BitVec 32 := 0#32
  ![v16.toNat, 0]
def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_21 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S200x1024_S1024x200_1_0 : S200x1024.Transposes [1, 0] S1024x200
  shapeCasts_S1024x200_S204800 : S1024x200.ShapeCasts S204800
  inb_S100000x128_S100000x128_0_0 : ∀ a, (![0, 0] : Fin 2 → Nat) a + S100000x128.size a ≤ S100000x128.size a
  gathers_S100000x128_S128x128 : S100000x128.Gathers 0 S128x128
  shapeCasts_S204800x128_S1024x200x128 : S204800x128.ShapeCasts S1024x200x128
  hcc0_scratch8 : 0 + S_.numel ≤ 12
  hcc0_scratch9 : 1 + S_.numel ≤ 12
  hcc0_scratch10 : 2 + S_.numel ≤ 12
  hcc0_scratch11 : 3 + S_.numel ≤ 12
  hcc0_scratch12 : 4 + S_.numel ≤ 12
  hcc0_scratch13 : 5 + S_.numel ≤ 12
  hcc0_scratch14 : 6 + S_.numel ≤ 12
  hcc0_scratch15 : 7 + S_.numel ≤ 12
  hcc0_scratch16 : 8 + S_.numel ≤ 12
  hcc0_scratch17 : 9 + S_.numel ≤ 12
  hcc0_scratch18 : 10 + S_.numel ≤ 12
  hcc0_scratch19 : 11 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 6), ∀ a, (k0_off1 i (k0_off1_at r)) a + S128.size a ≤ S204800.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S128x128.size a ≤ S204800x128.size a
  k0_off3_inb : ∀ (i : grid0.Coords) (k0_t1 : Fin k0_t1_loop.trips), ∀ (r : Fin 4), ∀ a, (k0_off3 i k0_t1 (BitVec.ofNat 32 r.val)) a + S128.size a ≤ S204800.size a
  k0_off4_inb : ∀ (i : grid0.Coords) (k0_t1 : Fin k0_t1_loop.trips), ∀ (k0_h2 : k0_cond2 k0_t1 = 1#1), ∀ a, (k0_off4 i k0_t1) a + S128x128.size a ≤ S204800x128.size a
  k0_off5_inb : ∀ (i : grid0.Coords) (k0_t1 : Fin k0_t1_loop.trips), ∀ (k0_h3 : k0_cond3 k0_t1 = 1#1), ∀ a, (k0_off5 i k0_t1) a + S128x128.size a ≤ S204800x128.size a
  k0_off6_inb : ∀ (i : grid0.Coords) (k0_t1 : Fin k0_t1_loop.trips), ∀ (k0_h4 : k0_cond4 k0_t1 = 1#1), ∀ a, (k0_off6 i k0_t1) a + S128x128.size a ≤ S204800x128.size a
  k0_off7_inb : ∀ (i : grid0.Coords) (k0_t1 : Fin k0_t1_loop.trips), ∀ (r : Fin 4), ∀ a, (k0_off7 i k0_t1 (BitVec.ofNat 32 r.val)) a + S128x128.size a ≤ S204800x128.size a
  k0_off8_inb : ∀ (i : grid0.Coords) (k0_t1 : Fin k0_t1_loop.trips), ∀ (k0_h5 : k0_cond5 k0_t1 = 1#1), ∀ a, (k0_off8 i k0_t1) a + S128.size a ≤ S204800.size a
  k0_off9_inb : ∀ (i : grid0.Coords) (k0_t1 : Fin k0_t1_loop.trips), ∀ (k0_h6 : k0_cond6 k0_t1 = 1#1), ∀ a, (k0_off9 i k0_t1) a + S128.size a ≤ S204800.size a
  k0_off10_inb : ∀ (i : grid0.Coords) (k0_t1 : Fin k0_t1_loop.trips), ∀ (k0_h7 : k0_cond7 k0_t1 = 1#1), ∀ a, (k0_off10 i k0_t1) a + S128.size a ≤ S204800.size a
  k0_off11_inb : ∀ (i : grid0.Coords) (k0_t1 : Fin k0_t1_loop.trips), ∀ (k0_h8 : k0_cond8 k0_t1 = 1#1), ∀ a, (k0_off11 i k0_t1) a + S128.size a ≤ S204800.size a
  k0_off12_inb : ∀ i : grid0.Coords, ∀ (r : Fin 2), ∀ a, (k0_off12 i (BitVec.ofNat 32 (6144 + 128 * r.val))) a + S128x128.size a ≤ S204800x128.size a
  k0_off13_inb : ∀ i : grid0.Coords, ∀ a, (k0_off13 i) a + S128x128.size a ≤ S204800x128.size a

variable [Facts₀]

abbrev cc0_scratch8 : DmaSems sig S_ := SemArray.consecutive 0 S_ hcc0_scratch8
abbrev cc0_scratch9 : DmaSems sig S_ := SemArray.consecutive 1 S_ hcc0_scratch9
abbrev cc0_scratch10 : DmaSems sig S_ := SemArray.consecutive 2 S_ hcc0_scratch10
abbrev cc0_scratch11 : DmaSems sig S_ := SemArray.consecutive 3 S_ hcc0_scratch11
abbrev cc0_scratch12 : DmaSems sig S_ := SemArray.consecutive 4 S_ hcc0_scratch12
abbrev cc0_scratch13 : DmaSems sig S_ := SemArray.consecutive 5 S_ hcc0_scratch13
abbrev cc0_scratch14 : DmaSems sig S_ := SemArray.consecutive 6 S_ hcc0_scratch14
abbrev cc0_scratch15 : DmaSems sig S_ := SemArray.consecutive 7 S_ hcc0_scratch15
abbrev cc0_scratch16 : DmaSems sig S_ := SemArray.consecutive 8 S_ hcc0_scratch16
abbrev cc0_scratch17 : DmaSems sig S_ := SemArray.consecutive 9 S_ hcc0_scratch17
abbrev cc0_scratch18 : DmaSems sig S_ := SemArray.consecutive 10 S_ hcc0_scratch18
abbrev cc0_scratch19 : DmaSems sig S_ := SemArray.consecutive 11 S_ hcc0_scratch19

class Facts : Prop extends Facts₀ where

variable [Facts]
-- ==== ReferenceIdeal.lean ====
abbrev S200x1024 : Shape := ⟨2, ![200, 1024]⟩
abbrev S100000x128 : Shape := ⟨2, ![100000, 128]⟩
abbrev S_ : Shape := ⟨0, ![]⟩
abbrev S200x1024x1 : Shape := ⟨3, ![200, 1024, 1]⟩
abbrev S1 : Shape := ⟨1, ![1]⟩
abbrev S1x1x1 : Shape := ⟨3, ![1, 1, 1]⟩
abbrev S200x1024x128 : Shape := ⟨3, ![200, 1024, 128]⟩
abbrev S1024x200x128 : Shape := ⟨3, ![1024, 200, 128]⟩

abbrev nBuf : Space → Nat
  | .hbm => 26
  | .vmem => 0
  | .smem => 0
  | _ => 0

abbrev bufTy : (tb : Table) → Fin (tcTables nBuf tb) → BufTy
  | .hbm, ⟨0, _⟩ => ⟨S200x1024, .i32⟩
  | .hbm, ⟨1, _⟩ => ⟨S100000x128, .f32⟩
  | .hbm, ⟨2, _⟩ => ⟨S_, .i32⟩
  | .hbm, ⟨3, _⟩ => ⟨S200x1024, .i32⟩
  | .hbm, ⟨4, _⟩ => ⟨S200x1024, .i1⟩
  | .hbm, ⟨5, _⟩ => ⟨S_, .i32⟩
  | .hbm, ⟨6, _⟩ => ⟨S200x1024, .i32⟩
  | .hbm, ⟨7, _⟩ => ⟨S200x1024, .i32⟩
  | .hbm, ⟨8, _⟩ => ⟨S200x1024, .i32⟩
  | .hbm, ⟨9, _⟩ => ⟨S200x1024x1, .i32⟩
  | .hbm, ⟨10, _⟩ => ⟨S1, .i32⟩
  | .hbm, ⟨11, _⟩ => ⟨S_, .i32⟩
  | .hbm, ⟨12, _⟩ => ⟨S200x1024x1, .i32⟩
  | .hbm, ⟨13, _⟩ => ⟨S200x1024x1, .i1⟩
  | .hbm, ⟨14, _⟩ => ⟨S1x1x1, .i32⟩
  | .hbm, ⟨15, _⟩ => ⟨S200x1024x1, .i32⟩
  | .hbm, ⟨16, _⟩ => ⟨S200x1024x1, .i1⟩
  | .hbm, ⟨17, _⟩ => ⟨S200x1024x1, .i1⟩
  | .hbm, ⟨18, _⟩ => ⟨S_, .i1⟩
  | .hbm, ⟨19, _⟩ => ⟨S200x1024, .i1⟩
  | .hbm, ⟨20, _⟩ => ⟨S200x1024x128, .f32⟩
  | .hbm, ⟨21, _⟩ => ⟨S200x1024x128, .i1⟩
  | .hbm, ⟨22, _⟩ => ⟨S_, .f32⟩
  | .hbm, ⟨23, _⟩ => ⟨S200x1024x128, .f32⟩
  | .hbm, ⟨24, _⟩ => ⟨S200x1024x128, .f32⟩
  | .hbm, ⟨25, _⟩ => ⟨S1024x200x128, .f32⟩
  | _, _ => ⟨S200x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S200x1024 : S_.BroadcastsInDim S200x1024 (![] : Fin 0 → Fin S200x1024.rank)
  bcast_S200x1024_S200x1024x1_0_1 : S200x1024.BroadcastsInDim S200x1024x1 (![0, 1] : Fin 2 → Fin S200x1024x1.rank)
  bcast_S_S200x1024x1 : S_.BroadcastsInDim S200x1024x1 (![] : Fin 0 → Fin S200x1024x1.rank)
  bcast_S1_S1x1x1_2 : S1.BroadcastsInDim S1x1x1 (![2] : Fin 1 → Fin S1x1x1.rank)
  bcast_S1x1x1_S200x1024x1_0_1_2 : S1x1x1.BroadcastsInDim S200x1024x1 (![0, 1, 2] : Fin 3 → Fin S200x1024x1.rank)
  reducesTo_S200x1024x1_S200x1024_d2 : S200x1024x1.ReducesTo [2] S200x1024
  h_S_ : 0 < S_.numel
  bcast_S200x1024_S200x1024x128_0_1 : S200x1024.BroadcastsInDim S200x1024x128 (![0, 1] : Fin 2 → Fin S200x1024x128.rank)
  bcast_S_S200x1024x128 : S_.BroadcastsInDim S200x1024x128 (![] : Fin 0 → Fin S200x1024x128.rank)
  transposes_S200x1024x128_S1024x200x128_1_0_2 : S200x1024x128.Transposes [1, 0, 2] S1024x200x128
  gather_S100000x128_S200x1024x1_S200x1024x128_2_0_n_n_0_2_1128_wf : GatherDims.WF S100000x128 S200x1024x1 S200x1024x128 [2] [0] [] [0] [] 2 ![1, 128]

variable [Facts₀]

def gather_S100000x128_S200x1024x1_S200x1024x128_2_0_n_n_0_2_1128 : GatherDims S100000x128 S200x1024x1 S200x1024x128 where
  offsetDims := [2]
  collapsedSliceDims := [0]
  operandBatchingDims := []
  startIndicesBatchingDims := []
  startIndexMap := [0]
  indexVectorDim := 2
  sliceSizes := ![1, 128]
  wf := gather_S100000x128_S200x1024x1_S200x1024x128_2_0_n_n_0_2_1128_wf

class Facts : Prop extends Facts₀ where

variable [Facts]
-- ==== Proof.PreDecode.lean ====
/-
  The precondition, read back: the predicate is the conjunction of two "all" reductions, one over the
  table (every entry finite) and one over the index array (every word between 0 and 99999 as a signed
  number). From the predicate being true we keep the second conjunct only: every index word, read as a
  natural number, is below 100000.
-/
import proofs.«206846_g4063039062876_cont_8to1_b_342_28_alg».proof.Pre_input_domain
import Idealize.ShloMosaic.Lib.ReduceAll

namespace Cert.Proof.PreDecode

open Idealize.ShloMosaic

/-- The rank-zero shape has exactly one index. -/
instance subsingleton_scalarIdx : Subsingleton Cert.Pre_input_domain.S_.Idx :=
  ⟨fun _ _ => funext fun d => d.elim0⟩

/-- A 32-bit word that tests, as a signed number, at least 0 and at most 99999 is, as a natural number,
    below 100000: being nonnegative its signed and unsigned readings agree. -/
theorem word_inRange (w : BitVec 32)
    (e : IntOp.andi (IntOp.cmpi .sge w 0#32) (IntOp.cmpi .sle w 99999#32) = 1#1) : w.toNat < 100000 := by
  obtain ⟨h0, h1⟩ := IntOp.andi_eq_one.1 e
  have hc0 : (0#32 : BitVec 32).toInt = 0 := by decide
  have hc1 : (99999#32 : BitVec 32).toInt = 99999 := by decide
  rw [IntOp.cmpi_sge, hc0] at h0
  rw [IntOp.cmpi_sle, hc1] at h1
  have hw := BitVec.toInt_eq_toNat_cond w
  have hlt := w.isLt
  split at hw <;> omega

/-- Under the precondition every word of the index array is below 100000. -/
theorem inRange {F : FTy → Type} [FloatOps F] [Cert.Pre_input_domain.Facts]
    (a0 : IVec Cert.Pre_input_domain.S200x1024 32) (a1 : FVec F Cert.Pre_input_domain.S100000x128 .f32)
    (h : Cert.Pre_input_domain.fn (F := F) a0 a1 = fun _ => 1#1) : ∀ j, (a0 j).toNat < 100000 := by
  intro j
  have e := congrFun h (fun d => d.elim0)
  dsimp only [Cert.Pre_input_domain.fn] at e
  obtain ⟨-, e9⟩ := IntOp.andi_eq_one.1 e
  have ej := Host.reduce_andi_all _ _ _ _ _ e9 j
  exact word_inRange _ ej

end Cert.Proof.PreDecode
-- ==== Proof.Spec.lean ====
/-
  The specification shared by both sides: the result array, index by index, as one function of the two
  argument arrays. Entry (b, s, d) of the result is entry d of the table row named by word (s, b) of the
  index array. A word is read as the row number it denotes; a word that names no row is sent to the last
  row, so that the function is total (under the precondition every word names a row, and the clamp is
  never taken).
-/
import Idealize.ShloMosaic.PureOps
import Idealize.ShloMosaic.Lib.ValueIdx

namespace Cert.Proof.Spec

open Idealize.ShloMosaic Idealize.ShloMosaic.ValueIdx

/-- The index array's shape: sequence position by batch entry. -/
abbrev Ssent : Shape := ⟨2, ![200, 1024]⟩
/-- The table's shape: one row of 128 entries per vocabulary word. -/
abbrev Stab : Shape := ⟨2, ![100000, 128]⟩
/-- The result's shape: batch entry by sequence position by row entry. -/
abbrev Sout : Shape := ⟨3, ![1024, 200, 128]⟩

/-- The table row a word names (the last row for a word that names none). -/
def rowOf (w : BitVec 32) : Fin 100000 := ⟨min w.toNat 99999, by omega⟩

theorem rowOf_val_of_lt {w : BitVec 32} (h : w.toNat < 100000) : (rowOf w).val = w.toNat := by
  simp only [rowOf]; omega

/-- The result array as one function of the argument arrays. -/
def G {α : Type} (sent : IVec Ssent 32) (tab : Stab.Idx → α) : Sout.Idx → α :=
  fun i => tab (ix2 (rowOf (sent (ix2 (i 1) (i 0)))) (i 2))

theorem G_apply {α : Type} (sent : IVec Ssent 32) (tab : Stab.Idx → α) (b : Fin 1024) (s : Fin 200) (d : Fin 128) :
    G sent tab (ix3 b s d) = tab (ix2 (rowOf (sent (ix2 s b))) d) := rfl

/-- The flattened index array's shape (batch entry major, sequence position minor). -/
abbrev Sflat : Shape := ⟨1, ![204800]⟩
/-- The gathered rows' shape before the final reshape: one row per flattened index. -/
abbrev Srows : Shape := ⟨2, ![204800, 128]⟩

/-- The gathered rows as one function of the flattened index array and the table: row r is the table row
    named by word r. -/
def Gflat {α : Type} (idx : IVec Sflat 32) (tab : Stab.Idx → α) : Srows.Idx → α :=
  fun i => tab (ix2 (rowOf (idx (ix1 (i 0)))) (i 1))

theorem Gflat_apply {α : Type} (idx : IVec Sflat 32) (tab : Stab.Idx → α) (r : Fin 204800) (d : Fin 128) :
    Gflat idx tab (ix2 r d) = tab (ix2 (rowOf (idx (ix1 r))) d) := rfl

end Cert.Proof.Spec
-- ==== Proof.HostValue.lean ====
/-
  The program's layout operations around the gather, read at an index.

  The index array, of shape 200 × 1024 (sequence position by batch entry), is transposed to 1024 × 200 and
  flattened in row-major order to 204800 words: word b·200 + s of the flat array is word (s, b) of the index
  array. The gathered rows, of shape 204800 × 128, are reshaped in row-major order to 1024 × 200 × 128: entry
  (b, s, d) of the result is entry (b·200 + s, d) of the gathered rows, since (b·200 + s)·128 + d is the row-major
  position of both. Put together, the reshape of the rows gathered at the flattened index array is the shared
  specification of the result.
-/
import proofs.«206846_g4063039062876_cont_8to1_b_342_28_alg».proof.Proof.Spec
import Idealize.ShloMosaic.Lib.ValueLayout

namespace Cert.Proof.HostValue

open Idealize.ShloMosaic Idealize.ShloMosaic.ValueIdx

/-- The flattened transpose of the index array at position b·200 + s is the index array at (s, b). -/
theorem flat_apply (a0 : IVec Spec.Ssent 32) (hT : Spec.Ssent.Transposes [1, 0] (⟨2, ![1024, 200]⟩ : Shape))
    (hC : (⟨2, ![1024, 200]⟩ : Shape).ShapeCasts Spec.Sflat) (b : Fin 1024) (s : Fin 200) :
    shapeCast Spec.Sflat (transpose (⟨2, ![1024, 200]⟩ : Shape) [1, 0] a0 hT) hC (ix1 ⟨b.val * 200 + s.val, by omega⟩)
      = a0 (ix2 s b) := by
  refine (shapeCast_apply _ hC _ (ix2 b s) ?_).trans (transpose_ix2_apply a0 hT b s)
  rw [Shape.rowMajor_val_two, Shape.rowMajor_val_one]
  rfl

/-- An array of 204800 rows of 128 entries reshaped to 1024 × 200 × 128 reads, at (b, s, d), row b·200 + s at
    entry d. -/
theorem rows_apply {α : Type} (x : Spec.Srows.Idx → α) (hR : Spec.Srows.ShapeCasts Spec.Sout)
    (b : Fin 1024) (s : Fin 200) (d : Fin 128) :
    shapeCast Spec.Sout x hR (ix3 b s d) = x (ix2 ⟨b.val * 200 + s.val, by omega⟩ d) := by
  refine shapeCast_apply x hR _ _ ?_
  rw [Shape.rowMajor_val_two, Shape.rowMajor_val_three]
  rfl

/-- The reshape of the rows gathered at the flattened transposed index array is the shared specification. -/
theorem result_eq {α : Type} (a0 : IVec Spec.Ssent 32) (tab : Spec.Stab.Idx → α)
    (hT : Spec.Ssent.Transposes [1, 0] (⟨2, ![1024, 200]⟩ : Shape))
    (hC : (⟨2, ![1024, 200]⟩ : Shape).ShapeCasts Spec.Sflat) (hR : Spec.Srows.ShapeCasts Spec.Sout) :
    shapeCast Spec.Sout
        (Spec.Gflat (shapeCast Spec.Sflat (transpose (⟨2, ![1024, 200]⟩ : Shape) [1, 0] a0 hT) hC) tab) hR
      = Spec.G a0 tab := by
  funext i
  obtain ⟨b, s, d, rfl⟩ : ∃ (b : Fin 1024) (s : Fin 200) (d : Fin 128), i = ix3 b s d :=
    ⟨i 0, i 1, i 2, eq_ix3 i⟩
  rw [rows_apply, Spec.Gflat_apply, flat_apply, Spec.G_apply]

end Cert.Proof.HostValue
-- ==== Proof.RefRun.lean ====
/-
  The reference program's run. Its entry function calls one outlined function (the row lookup), which calls
  another (the three-way choice), then transposes the result. A call means the callee's body run on the
  operands, so the whole program is one straight line of twenty-four array operations; this module lists them
  in order, shows the entry function equal to that line, and reads the run back: every execution terminates
  with the result buffer at the operations' composed term of the two argument arrays, the arguments unchanged.

  The composed term is stated through named stages, each a function of the argument arrays:
  `idx` (a negative word moved up by the table's height, any other word kept), `idx3` (the same words with a
  trailing unit axis), `valid` (a word is inside the table: at least zero and at most the last row, folded
  over the unit axis), `rows` (the table rows the words name), `masked` (those rows where the word is valid,
  the not-a-number constant elsewhere) and `out` (the first two axes exchanged).
-/
import proofs.«206846_g4063039062876_cont_8to1_b_342_28_alg».proof.ReferenceIdeal
import Idealize.ShloMosaic.Lib.StableHlo.Run

noncomputable section

namespace Cert.Proof.Ref

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-! ## The stages of the composed term -/

/-- The words with a negative one moved up by the table's height (100000) and any other kept. -/
def idx (sent : IVec S200x1024 32) : IVec S200x1024 32 :=
  select (cmpi .slt sent (broadcastInDim S200x1024 ![] bcast_S_S200x1024 (constantI S_ 32 0#32)))
    (addi sent (broadcastInDim S200x1024 ![] bcast_S_S200x1024 (constantI S_ 32 100000#32))) sent

/-- The same words under a trailing unit axis. -/
def idx3 (sent : IVec S200x1024 32) : IVec S200x1024x1 32 :=
  broadcastInDim S200x1024x1 ![0, 1] bcast_S200x1024_S200x1024x1_0_1 (idx sent)

/-- Whether a word names a row: at least zero and at most 99999, before the fold over the unit axis. -/
def inside (sent : IVec S200x1024 32) : IVec S200x1024x1 1 :=
  andi (cmpi .sge (idx3 sent) (broadcastInDim S200x1024x1 ![] bcast_S_S200x1024x1 (constantI S_ 32 0#32)))
    (cmpi .sle (idx3 sent)
      (broadcastInDim S200x1024x1 ![0, 1, 2] bcast_S1x1x1_S200x1024x1_0_1_2
        (broadcastInDim S1x1x1 ![2] bcast_S1_S1x1x1_2 (constantI S1 32 99999#32))))

/-- The same, folded over the unit axis by conjunction from `true`. -/
def valid (sent : IVec S200x1024 32) : IVec S200x1024 1 :=
  Host.reduce IntOp.andi (inside sent) (constantI S_ 1 1#1) reducesTo_S200x1024x1_S200x1024_d2 h_S_

/-- The table rows the words name. -/
def rows (sent : IVec S200x1024 32) (tab : FVec F S100000x128 .f32) : FVec F S200x1024x128 .f32 :=
  Host.gather gather_S100000x128_S200x1024x1_S200x1024x128_2_0_n_n_0_2_1128 tab (idx3 sent)

/-- Those rows where the word is valid, the not-a-number constant elsewhere. -/
def masked (sent : IVec S200x1024 32) (tab : FVec F S100000x128 .f32) : FVec F S200x1024x128 .f32 :=
  select (broadcastInDim S200x1024x128 ![0, 1] bcast_S200x1024_S200x1024x128_0_1 (valid sent)) (rows sent tab)
    (broadcastInDim S200x1024x128 ![] bcast_S_S200x1024x128 (constant S_ .f32 0x7FC00000#32))

/-- The program's result: the first two axes exchanged. -/
def out (sent : IVec S200x1024 32) (tab : FVec F S100000x128 .f32) : FVec F S1024x200x128 .f32 :=
  transpose S1024x200x128 [1, 0, 2] (masked sent tab) transposes_S200x1024x128_S1024x200x128_1_0_2

/-! ## The program as one line of operations -/

/-- The program's twenty-four operations in order, the calls unfolded: the row lookup's twenty-three (its call of
    the three-way choice being the seventh, one `select`) over the buffers of the entry function's call, then the
    entry function's own transpose. -/
abbrev ops : List (HloOp τ sig (Elt F)) :=
  [ TRef.nullary main_call0.c (constantI S_ 32 0#32),
    TRef.unary main_call0.c main_call0.v0 (broadcastInDim S200x1024 ![] bcast_S_S200x1024),
    TRef.binary (.of main_arg0) main_call0.v0 main_call0.v1 (cmpi .slt),
    TRef.nullary main_call0.c_0 (constantI S_ 32 100000#32),
    TRef.unary main_call0.c_0 main_call0.v2 (broadcastInDim S200x1024 ![] bcast_S_S200x1024),
    TRef.binary (.of main_arg0) main_call0.v2 main_call0.v3 addi,
    TRef.ternary main_call0.v1 main_call0.v3 (.of main_arg0) main_call0.call0.v0 select,
    TRef.unary main_call0.call0.v0 main_call0.v5 (broadcastInDim S200x1024x1 ![0, 1] bcast_S200x1024_S200x1024x1_0_1),
    TRef.nullary main_call0.c_1 (constantI S1 32 99999#32),
    TRef.nullary main_call0.c_2 (constantI S_ 32 0#32),
    TRef.unary main_call0.c_2 main_call0.v6 (broadcastInDim S200x1024x1 ![] bcast_S_S200x1024x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S200x1024x1 ![0, 1, 2] bcast_S1x1x1_S200x1024x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12
      (fun x v => Host.reduce IntOp.andi x v reducesTo_S200x1024x1_S200x1024_d2 h_S_),
    TRef.binary (.of main_arg1) main_call0.v5 main_call0.v13
      (fun x i => Host.gather gather_S100000x128_S200x1024x1_S200x1024x128_2_0_n_n_0_2_1128 x i),
    TRef.unary main_call0.v12 main_call0.v14 (broadcastInDim S200x1024x128 ![0, 1] bcast_S200x1024_S200x1024x128_0_1),
    TRef.nullary main_call0.cst (constant S_ .f32 0x7FC00000#32),
    TRef.unary main_call0.cst main_call0.v15 (broadcastInDim S200x1024x128 ![] bcast_S_S200x1024x128),
    TRef.ternary main_call0.v14 main_call0.v13 main_call0.v15 main_call0.v16 select,
    unary main_v0 main_v1
      ((transpose S1024x200x128 [1, 0, 2] · transposes_S200x1024x128_S1024x200x128_1_0_2) :
        (⟨S200x1024x128, .f32⟩ : BufTy).Contents (Elt F) → (⟨S1024x200x128, .f32⟩ : BufTy).Contents (Elt F)) ]

set_option maxRecDepth 1024 in
/-- The entry function is that line: the two outlined functions' definitions unfolded at their calls, both sides
    are one chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..⟩

/-! ## The fold of the line at the three buffers the statement reads -/

attribute [local irreducible] Host.reduce Host.gather in
/-- The fold at the result buffer is `out` of the two argument arrays: each operation's result read at its own
    buffer is its function's value, at any other buffer what was there. The fold over the unit axis and the row
    lookup stay folded meanwhile (the equation never looks inside them). -/
theorem out_eq (V : Valuation τ sig (Elt F)) :
    after ops V (Proc.devRef .tc main_v1)
      = out (V (Proc.devRef .tc main_arg0)) (V (Proc.devRef .tc main_arg1)) := by
  after_results
  rfl

theorem arg0_eq (V : Valuation τ sig (Elt F)) :
    after ops V (Proc.devRef .tc main_arg0) = V (Proc.devRef .tc main_arg0) := by
  after_results

theorem arg1_eq (V : Valuation τ sig (Elt F)) :
    after ops V (Proc.devRef .tc main_arg1) = V (Proc.devRef .tc main_arg1) := by
  after_results

/-! ## The run -/

/-- From any memory with zero counters every weakly fair execution of the entry function terminates, the result
    buffer at `out` of the two argument arrays' launch contents and the arguments unchanged. -/
theorem run_out (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v1)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v1).trans (out_eq _), (h c main_arg0).trans (arg0_eq _),
      (h c main_arg1).trans (arg1_eq _)⟩)
    (run_seq scopedRefs_eq scopedSems_eq defs main (fun _ => ops) main_eq (fun _ => ops_sub) m ρ)

end Cert.Proof.Ref

end
-- ==== Proof.RefValue.lean ====
/-
  The reference program's result read index by index. Under the hypothesis that every word of the index array
  names a table row (as a number it is below 100000), the composed term of the run is the shared specification:
  entry (b, s, d) of the result is entry d of the table row named by word (s, b).

  The argument goes through the stages of the composed term. A word below 100000 has its sign bit clear, so as a
  signed number it is itself: it is not negative, so the first choice keeps it; it is at least zero and at most
  99999, so the validity bit is one, and the fold of that bit over the unit axis by conjunction from one is one;
  so the masked choice takes the looked-up row and never the not-a-number constant. The lookup reads the table at
  the word clamped into the table's rows, which for such a word is the row the specification names. The final
  exchange of the first two axes reads entry (b, s, d) at (s, b, d).
-/
import proofs.«206846_g4063039062876_cont_8to1_b_342_28_alg».proof.Proof.RefRun
import proofs.«206846_g4063039062876_cont_8to1_b_342_28_alg».proof.Proof.Spec
import Idealize.ShloMosaic.Lib.ValueIdx
import Idealize.ShloMosaic.Lib.Pipeline.Value
import Idealize.ShloMosaic.Lib.Affine
import Idealize.ShloMosaic.PureOps.Reduce

noncomputable section

namespace Cert.Proof.Ref

open Cert.ReferenceIdeal Cert.ReferenceIdeal.Facts₀ Idealize.ShloMosaic Idealize.ShloMosaic.ValueIdx Idealize.SL.Sem

/-! ## The row lookup read at an index

A lookup of whole rows of a matrix `[N, D]` at an index array `[R, C, 1]`: the result's entry `(r, c, k)` is entry
`k` of the row whose number is word `(r, c, 0)`, read signed and clamped into `[0, N - 1]`. -/

section Lookup
variable {α : Type}

/-- The lookup's dimension numbers: the result's last axis runs along the row, the operand's row axis is
    collapsed and is the one the index names, and the index array's last axis holds the one-component index. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The lookup at `(r, c, k)`: on the row axis the clamped start (no batching or offset coordinate there), on the
    column axis the offset coordinate `k` (no start or batching coordinate there). -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (k : Fin D) :
    Host.gather (rowDims N D R C wf) x idx (ix3 r c k)
      = x (ix2 ⟨min (idx (ix3 r c (0 : Fin 1))).toInt.toNat (N - 1), by omega⟩ k) := by
  have h0 : ((rowDims N D R C wf).operandIdx (ix3 r c k) idx (0 : Fin 2)).val
      = min (idx (ix3 r c (0 : Fin 1))).toInt.toNat (N - 1) := by
    show (rowDims N D R C wf).start (ix3 r c k) idx (0 : Fin 2) + (rowDims N D R C wf).batchCoord (ix3 r c k) (0 : Fin 2)
        + (rowDims N D R C wf).offCoord (ix3 r c k) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowDims N D R C wf).startIndexMap from List.mem_singleton.mpr rfl)]
    have hsi : (rowDims N D R C wf).siIdx (ix3 r c k) ⟨List.idxOf (0 : Fin 2) (rowDims N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  have h1 : ((rowDims N D R C wf).operandIdx (ix3 r c k) idx (1 : Fin 2)).val = k.val := by
    show (rowDims N D R C wf).start (ix3 r c k) idx (1 : Fin 2) + (rowDims N D R C wf).batchCoord (ix3 r c k) (1 : Fin 2)
        + (rowDims N D R C wf).offCoord (ix3 r c k) (1 : Fin 2) = _
    have hs : (rowDims N D R C wf).start (ix3 r c k) idx (1 : Fin 2) = 0 := by
      unfold GatherDims.start
      rw [dif_neg (show (1 : Fin 2) ∉ ([0] : List (Fin 2)) from by decide)]
    rw [GatherDims.batchCoord_eq_zero _ _ _ List.not_mem_nil, Nat.add_zero, hs, Nat.zero_add]
    unfold GatherDims.offCoord
    rw [dif_pos ((GatherDims.mem_sKept _ _).mpr
      ⟨(show (1 : Fin 2) ∉ ([0] : List (Fin 2)) from by decide), List.not_mem_nil⟩)]
    rfl
  unfold Host.gather
  refine congrArg x (funext fun a => Fin.ext ?_)
  match a with
  | ⟨0, _⟩ => exact h0
  | ⟨1, _⟩ => exact h1

end Lookup

/-! ## A conjunction of ones -/

/-- A left fold by conjunction, from one, over bits that are all one, is one. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-- A reduction by conjunction, from one, of an array of ones is one at every index. -/
theorem reduce_andi_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_one x hx _

/-! ## A word that names a row -/

section Words
variable {w : BitVec 32}

/-- Below 100000 the sign bit is clear: read signed, the word is itself. -/
theorem toInt_of_lt (h : w.toNat < 100000) : w.toInt = (w.toNat : Int) :=
  BitVec.toInt_eq_toNat_of_lt (by omega)

/-- It is not negative. -/
theorem slt_zero (h : w.toNat < 100000) : IntOp.cmpi .slt w 0#32 = 0#1 :=
  eq_zero_of_ne_one fun e => by
    have hlt := IntOp.cmpi_slt.mp e
    rw [toInt_of_lt h, show (0#32 : BitVec 32).toInt = 0 from by decide] at hlt
    omega

/-- It is at least zero. -/
theorem sge_zero (h : w.toNat < 100000) : IntOp.cmpi .sge w 0#32 = 1#1 :=
  IntOp.cmpi_sge.mpr (by rw [toInt_of_lt h, show (0#32 : BitVec 32).toInt = 0 from by decide]; omega)

/-- It is at most the last row's number. -/
theorem sle_last (h : w.toNat < 100000) : IntOp.cmpi .sle w 99999#32 = 1#1 :=
  IntOp.cmpi_sle.mpr (by rw [toInt_of_lt h, show (99999#32 : BitVec 32).toInt = 99999 from by decide]; omega)

/-- A word read signed and clamped into the table's rows. -/
def clampRow (w : BitVec 32) : Fin 100000 := ⟨min w.toInt.toNat (100000 - 1), by omega⟩

/-- For a word that names a row that is the row the specification names. -/
theorem clampRow_eq_rowOf (h : w.toNat < 100000) : clampRow w = Spec.rowOf w := by
  refine Fin.ext ?_
  show min w.toInt.toNat (100000 - 1) = min w.toNat 99999
  rw [toInt_of_lt h]
  omega

end Words

/-! ## The stages at an index -/

variable {F : FTy → Type} [FloatOps F] [Cert.ReferenceIdeal.Facts]

/-- A word that names a row is kept by the first choice. -/
theorem idx_apply (sent : IVec S200x1024 32) (j : S200x1024.Idx) (h : (sent j).toNat < 100000) : idx sent j = sent j := by
  show Scalar.select (IntOp.cmpi .slt (sent j) 0#32) (IntOp.addi (sent j) 100000#32) (sent j) = sent j
  rw [slt_zero h, select_zero]

/-- Under the trailing unit axis the words are the same. -/
theorem idx3_apply (sent : IVec S200x1024 32) (r : Fin 200) (c : Fin 1024) (u : Fin 1) :
    idx3 sent (ix3 r c u) = idx sent (ix2 r c) := by
  unfold idx3
  exact broadcastInDim_apply _ _ _ (ix3 r c u) (ix2 r c) fun a => by
    match a with
    | ⟨0, _⟩ => rfl
    | ⟨1, _⟩ => rfl

/-- A word that names a row is inside the table. -/
theorem inside_apply (sent : IVec S200x1024 32) (r : Fin 200) (c : Fin 1024) (u : Fin 1)
    (h : (sent (ix2 r c)).toNat < 100000) : inside sent (ix3 r c u) = 1#1 := by
  show IntOp.andi (IntOp.cmpi .sge (idx3 sent (ix3 r c u)) 0#32) (IntOp.cmpi .sle (idx3 sent (ix3 r c u)) 99999#32) = 1#1
  rw [idx3_apply, idx_apply _ _ h, sge_zero h, sle_last h]
  decide

/-- When every word names a row the validity bit is one everywhere. -/
theorem valid_apply (sent : IVec S200x1024 32) (hall : ∀ j, (sent j).toNat < 100000) (j : S200x1024.Idx) :
    valid sent j = 1#1 := by
  unfold valid
  refine reduce_andi_one _ _ _ _ (fun i => ?_) (fun _ => rfl) j
  obtain ⟨r, c, u, rfl⟩ : ∃ (r : Fin 200) (c : Fin 1024) (u : Fin 1), i = ix3 r c u := ⟨i 0, i 1, i 2, eq_ix3 i⟩
  exact inside_apply sent r c u (hall _)

/-- The program's lookup record is the lookup of whole rows. -/
theorem gather_dims_eq :
    gather_S100000x128_S200x1024x1_S200x1024x128_2_0_n_n_0_2_1128
      = rowDims 100000 128 200 1024 gather_S100000x128_S200x1024x1_S200x1024x128_2_0_n_n_0_2_1128_wf := rfl

/-- The looked-up rows at an index. -/
theorem rows_apply (sent : IVec S200x1024 32) (tab : FVec F S100000x128 .f32) (r : Fin 200) (c : Fin 1024) (k : Fin 128) :
    rows sent tab (ix3 r c k)
      = tab (ix2 (clampRow (idx3 sent (ix3 r c (0 : Fin 1)))) k) := by
  unfold rows
  rw [gather_dims_eq]
  exact gather_rows_apply (by decide) _ tab (idx3 sent) r c k

/-- When every word names a row the masked choice is the row the specification names. -/
theorem masked_apply (sent : IVec S200x1024 32) (tab : FVec F S100000x128 .f32) (hall : ∀ j, (sent j).toNat < 100000)
    (r : Fin 200) (c : Fin 1024) (k : Fin 128) :
    masked sent tab (ix3 r c k) = tab (ix2 (Spec.rowOf (sent (ix2 r c))) k) := by
  have hv : broadcastInDim S200x1024x128 ![0, 1] bcast_S200x1024_S200x1024x128_0_1 (valid sent) (ix3 r c k) = 1#1 := by
    rw [broadcastInDim_apply _ _ _ (ix3 r c k) (ix2 r c) (fun a => by
      match a with
      | ⟨0, _⟩ => rfl
      | ⟨1, _⟩ => rfl)]
    exact valid_apply sent hall _
  unfold masked
  rw [select_apply, hv, select_one, rows_apply, idx3_apply, idx_apply _ _ (hall _), clampRow_eq_rowOf (hall _)]

/-- The exchange of the first two axes at an index. -/
theorem out_apply (sent : IVec S200x1024 32) (tab : FVec F S100000x128 .f32) (b : Fin 1024) (s : Fin 200) (d : Fin 128) :
    out sent tab (ix3 b s d) = masked sent tab (ix3 s b d) := by
  unfold out
  exact transpose_apply _ _ _ (ix3 b s d) (ix3 s b d) fun a => by
    match a with
    | ⟨0, _⟩ => rfl
    | ⟨1, _⟩ => rfl
    | ⟨2, _⟩ => rfl

/-- When every word names a row the composed term is the shared specification. -/
theorem out_eq_G (sent : IVec S200x1024 32) (tab : FVec F S100000x128 .f32) (hall : ∀ j, (sent j).toNat < 100000) :
    out sent tab = Spec.G sent tab := by
  funext i
  obtain ⟨b, s, d, rfl⟩ : ∃ (b : Fin 1024) (s : Fin 200) (d : Fin 128), i = ix3 b s d := ⟨i 0, i 1, i 2, eq_ix3 i⟩
  rw [out_apply, masked_apply _ _ hall, Spec.G_apply]

/-! ## The run against the specification -/

/-- From any memory whose index array names only table rows, with zero counters: every weakly fair execution of the
    reference terminates with the result buffer at the shared specification of the two argument arrays, and the
    arguments unchanged. -/
theorem run
    (m : (ℓ : Loc Cert.ReferenceIdeal.nD Cert.ReferenceIdeal.τ Cert.ReferenceIdeal.sig) → Buf (Elt Ideal) ℓ)
    (ρ : Dev Cert.ReferenceIdeal.nD → PrngReg)
    (hpre : ∀ (c : Dev Cert.ReferenceIdeal.nD) (j : Cert.Proof.Spec.Ssent.Idx),
      (m ((c.tc : Thread Cert.ReferenceIdeal.nD Cert.ReferenceIdeal.τ).loc Cert.ReferenceIdeal.main_arg0) j).toNat < 100000) :
    θ_run (Cert.ReferenceIdeal.defs (F := Ideal)) (onTc (τ := Cert.ReferenceIdeal.τ) (Cert.ReferenceIdeal.main (F := Ideal)))
      ⟨m, fun _ => 0, ρ⟩
      (fun r => ∀ c : Dev Cert.ReferenceIdeal.nD,
        r.2.mem ((c.tc : Thread Cert.ReferenceIdeal.nD Cert.ReferenceIdeal.τ).loc Cert.ReferenceIdeal.main_v1)
            = Cert.Proof.Spec.G
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run _ _ _).mono
    (fun _ h c => ⟨(h c).1.trans (out_eq_G _ _ (hpre c)), (h c).2⟩)
    (run_out (F := Ideal) m ρ)

end Cert.Proof.Ref

end
-- ==== Proof.KISetup.lean ====
/-
  The lookup kernel's program as the launch theorem sees it, the ghost state, and what each vector subcore
  is handed: a read share of the flattened index array and of the table, and its own 6400 consecutive rows of
  the output array (worker w = 2 * subcore + core owns rows 6400 w .. 6400 w + 6399).
-/
import proofs.«206846_g4063039062876_cont_8to1_b_342_28_alg».proof.Defs
import proofs.«206846_g4063039062876_cont_8to1_b_342_28_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206846_g4063039062876_cont_8to1_b_342_28_alg».proof.Proof.Gen.KernelIdeal
import proofs.«206846_g4063039062876_cont_8to1_b_342_28_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The flattened index array, the table and the kernel's output array, as the TensorCore names them. -/
abbrev iLoc (d : Dev nD) : Loc nD τ sig := (SparseCore.T d).loc main_v1
abbrev xLoc (d : Dev nD) : Loc nD τ sig := (SparseCore.T d).loc main_arg1
abbrev oLoc (d : Dev nD) : Loc nD τ sig := (SparseCore.T d).loc main_v2

local notation "iV" => (Memref.whole Cert.KernelIdeal.main_v1_scv : Memref Cert.KernelIdeal.sig Kind.scVector Space.hbm Cert.KernelIdeal.S204800 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S204800x128 EltTy.f32)
local notation "s0V" => (Memref.whole Cert.KernelIdeal.cc0_scratch0 : Memref Cert.KernelIdeal.sig Kind.scVector Space.vmem Cert.KernelIdeal.S128 EltTy.i32)
local notation "s1V" => (Memref.whole Cert.KernelIdeal.cc0_scratch1 : Memref Cert.KernelIdeal.sig Kind.scVector Space.vmem Cert.KernelIdeal.S128 EltTy.i32)
local notation "s2V" => (Memref.whole Cert.KernelIdeal.cc0_scratch2 : Memref Cert.KernelIdeal.sig Kind.scVector Space.vmem Cert.KernelIdeal.S128 EltTy.i32)
local notation "s3V" => (Memref.whole Cert.KernelIdeal.cc0_scratch3 : Memref Cert.KernelIdeal.sig Kind.scVector Space.vmem Cert.KernelIdeal.S128 EltTy.i32)
local notation "r0V" => (Memref.whole Cert.KernelIdeal.cc0_scratch4 : Memref Cert.KernelIdeal.sig Kind.scVector Space.vmem Cert.KernelIdeal.S128x128 EltTy.f32)
local notation "r1V" => (Memref.whole Cert.KernelIdeal.cc0_scratch5 : Memref Cert.KernelIdeal.sig Kind.scVector Space.vmem Cert.KernelIdeal.S128x128 EltTy.f32)
local notation "r2V" => (Memref.whole Cert.KernelIdeal.cc0_scratch6 : Memref Cert.KernelIdeal.sig Kind.scVector Space.vmem Cert.KernelIdeal.S128x128 EltTy.f32)
local notation "r3V" => (Memref.whole Cert.KernelIdeal.cc0_scratch7 : Memref Cert.KernelIdeal.sig Kind.scVector Space.vmem Cert.KernelIdeal.S128x128 EltTy.f32)

/-! ## Read shares: the full share halved five times, one leaf per worker -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

omit m ρ in
theorem sumEquiv_inl (n : ℕ) (i : Fin (2 ^ n)) : (sumEquiv n (Sum.inl i)).val = i.val := by simp [sumEquiv]
omit m ρ in
theorem sumEquiv_inr (n : ℕ) (i : Fin (2 ^ n)) : (sumEquiv n (Sum.inr i)).val = 2 ^ n + i.val := by simp [sumEquiv]; omega

omit m ρ in
theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
omit m ρ in
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

omit m ρ in
/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Worker `w`'s read share. -/
abbrev wq (w : Fin 32) : PosShare TreeShare := leaf 5 fullShare w

/-! ## What the handshakes carry -/

section Pay

variable [FloatOps F]

/-- The index array as the TensorCore names it. -/
abbrev aLoc (d : Dev nD) : Loc nD τ sig := (SparseCore.T d).loc main_arg0

/-- The flattened index array after @main's transpose and reshape, as a function of the index argument. -/
def Vi (d : Dev nD) : Buf (Elt F) (iLoc d) :=
  shapeCast S204800 (transpose S1024x200 [1, 0] (m (aLoc d)) Facts₀.transposes_S200x1024_S1024x200_1_0) Facts₀.shapeCasts_S1024x200_S204800

/-- The gathered rows, the kernel's output array after the call: row r is the table row named by word r of the
    flattened index array. -/
def Go (d : Dev nD) : Buf (Elt F) (oLoc d) := Spec.Gflat (Vi m d) (m (xLoc d))

theorem odiv : 32 ∣ S204800x128.size 0 := ⟨6400, rfl⟩
/-- Worker `w`'s rows of the output array: 6400 w .. 6400 w + 6399. -/
abbrev oreg (w : Fin 32) : Rect S204800x128 := Rect.part (s := S204800x128) (a₀ := 0) odiv w
abbrev oRegSet (w : Fin 32) : Finset S204800x128.Idx := ((oV).view.slice (oreg w)).set

/-- The worker that runs on vector subcore `s` of SparseCore `c`. -/
def wid (c : Fin 2) (s : Fin 16) : Fin 32 := ⟨2 * s.val + c.val, by omega⟩

/-- What one worker holds: a read share of the flattened index array and of the table, and its rows of the output
    array at contents `fo`. -/
abbrev tileRes (d : Dev nD) (w : Fin 32) (fo : Buf (Elt F) (oLoc d)) : sProp 𝕄 :=
  iprop((iLoc d ↦{wq w} Vi m d) ∗ (xLoc d ↦{wq w} m (xLoc d)) ∗ (oLoc d ↦[oRegSet w]{fullShare} fo))

/-- The one call hands each SparseCore its sixteen workers' resources, the output rows at their launch contents, and
    takes them back with the output rows at the gathered rows; each worker takes and returns its own. -/
def P : (K (F := F)).Pay (nD := nD) (Val := Elt F) (Name := ℕ) (U := UU) where
  st := fun q d c => match q with
    | 0 => bigSep Finset.univ fun s : Fin 16 => tileRes m d (wid (Fin.cast nCore_zero c) s) (m (oLoc d))
  dn := fun q d c => match q with
    | 0 => bigSep Finset.univ fun s : Fin 16 => tileRes m d (wid (Fin.cast nCore_zero c) s) (Go m d)
  go := fun q d c i => match q with
    | 0 => tileRes m d (wid (Fin.cast nCore_zero c) (Fin.cast nSub_zero i)) (m (oLoc d))
  td := fun q d c i => match q with
    | 0 => tileRes m d (wid (Fin.cast nCore_zero c) (Fin.cast nSub_zero i)) (Go m d)
  x := fun _ _ => iprop(emp)

instance P_storable : (P (F := F) m).IsStorable where
  st q d c := match q with
    | 0 => (inferInstance : BI.Storable (upEmb : UEmb _ 𝕄) (bigSep Finset.univ fun s : Fin 16 => tileRes m d (wid (Fin.cast nCore_zero c) s) (m (oLoc d))))
  dn q d c := match q with
    | 0 => (inferInstance : BI.Storable (upEmb : UEmb _ 𝕄) (bigSep Finset.univ fun s : Fin 16 => tileRes m d (wid (Fin.cast nCore_zero c) s) (Go m d)))
  go q d c i := match q with
    | 0 => (inferInstance : BI.Storable (upEmb : UEmb _ 𝕄) (tileRes m d (wid (Fin.cast nCore_zero c) (Fin.cast nSub_zero i)) (m (oLoc d))))
  td q d c i := match q with
    | 0 => (inferInstance : BI.Storable (upEmb : UEmb _ 𝕄) (tileRes m d (wid (Fin.cast nCore_zero c) (Fin.cast nSub_zero i)) (Go m d)))

/-- What the proof asks of the launch memory: every word of the index argument names a table row. -/
def PreOK : Prop := ∀ (d : Dev nD) (j : S200x1024.Idx), (m (aLoc d) j).toNat < 100000

end Pay

/-! ## A vector subcore's own semaphores and scratch buffers -/

section Tile

variable (d : Dev nD) (L : grid0.Coords)

abbrev cV (L : grid0.Coords) : Fin τ.nSC := (L 0).castLE hcore0
abbrev jV (L : grid0.Coords) : Fin τ.nSub := (L 1).castLE hsub0

abbrev cell0 (d : Dev nD) (c : Fin τ.nSC) (i : Fin τ.nSub) : GSem nD τ sig := (V d c i, .dma cc0_scratch8.sem)
abbrev cell1 (d : Dev nD) (c : Fin τ.nSC) (i : Fin τ.nSub) : GSem nD τ sig := (V d c i, .dma cc0_scratch9.sem)
abbrev cell2 (d : Dev nD) (c : Fin τ.nSC) (i : Fin τ.nSub) : GSem nD τ sig := (V d c i, .dma cc0_scratch10.sem)
abbrev cell3 (d : Dev nD) (c : Fin τ.nSC) (i : Fin τ.nSub) : GSem nD τ sig := (V d c i, .dma cc0_scratch11.sem)
abbrev cell4 (d : Dev nD) (c : Fin τ.nSC) (i : Fin τ.nSub) : GSem nD τ sig := (V d c i, .dma cc0_scratch12.sem)
abbrev cell5 (d : Dev nD) (c : Fin τ.nSC) (i : Fin τ.nSub) : GSem nD τ sig := (V d c i, .dma cc0_scratch13.sem)
abbrev cell6 (d : Dev nD) (c : Fin τ.nSC) (i : Fin τ.nSub) : GSem nD τ sig := (V d c i, .dma cc0_scratch14.sem)
abbrev cell7 (d : Dev nD) (c : Fin τ.nSC) (i : Fin τ.nSub) : GSem nD τ sig := (V d c i, .dma cc0_scratch15.sem)
abbrev cell8 (d : Dev nD) (c : Fin τ.nSC) (i : Fin τ.nSub) : GSem nD τ sig := (V d c i, .dma cc0_scratch16.sem)
abbrev cell9 (d : Dev nD) (c : Fin τ.nSC) (i : Fin τ.nSub) : GSem nD τ sig := (V d c i, .dma cc0_scratch17.sem)
abbrev cell10 (d : Dev nD) (c : Fin τ.nSC) (i : Fin τ.nSub) : GSem nD τ sig := (V d c i, .dma cc0_scratch18.sem)
abbrev cell11 (d : Dev nD) (c : Fin τ.nSC) (i : Fin τ.nSub) : GSem nD τ sig := (V d c i, .dma cc0_scratch19.sem)

omit m ρ in
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0 ∗ semVal (cell6 d (cV L) (jV L)) 0 ∗ semVal (cell7 d (cV L) (jV L)) 0 ∗ semVal (cell8 d (cV L) (jV L)) 0 ∗ semVal (cell9 d (cV L) (jV L)) 0 ∗ semVal (cell10 d (cV L) (jV L)) 0 ∗ semVal (cell11 d (cV L) (jV L)) 0 ∗ bigSep (((((((((((((ownCells (V d (cV L) (jV L))).erase (cell0 d (cV L) (jV L))).erase (cell1 d (cV L) (jV L))).erase (cell2 d (cV L) (jV L))).erase (cell3 d (cV L) (jV L))).erase (cell4 d (cV L) (jV L))).erase (cell5 d (cV L) (jV L))).erase (cell6 d (cV L) (jV L))).erase (cell7 d (cV L) (jV L))).erase (cell8 d (cV L) (jV L))).erase (cell9 d (cV L) (jV L))).erase (cell10 d (cV L) (jV L))).erase (cell11 d (cV L) (jV L))) fun g => semVal g 0) := by
  unfold SparseCore.Cfg.ownSems0
  rw [SparseCore.bigSep_erase' ((mem_ownCells (g := (cell0 d (cV L) (jV L)))).mpr ⟨rfl, by show (SemLoc.dma cc0_scratch8.sem : SemLoc sig).isScoped .scVector = true; decide⟩),
    SparseCore.bigSep_erase' (Finset.mem_erase.mpr ⟨by simp [cell1, cell0]; decide, (mem_ownCells (g := (cell1 d (cV L) (jV L)))).mpr ⟨rfl, by show (SemLoc.dma cc0_scratch9.sem : SemLoc sig).isScoped .scVector = true; decide⟩⟩),
    SparseCore.bigSep_erase' (Finset.mem_erase.mpr ⟨by simp [cell2, cell1]; decide, Finset.mem_erase.mpr ⟨by simp [cell2, cell0]; decide, (mem_ownCells (g := (cell2 d (cV L) (jV L)))).mpr ⟨rfl, by show (SemLoc.dma cc0_scratch10.sem : SemLoc sig).isScoped .scVector = true; decide⟩⟩⟩),
    SparseCore.bigSep_erase' (Finset.mem_erase.mpr ⟨by simp [cell3, cell2]; decide, Finset.mem_erase.mpr ⟨by simp [cell3, cell1]; decide, Finset.mem_erase.mpr ⟨by simp [cell3, cell0]; decide, (mem_ownCells (g := (cell3 d (cV L) (jV L)))).mpr ⟨rfl, by show (SemLoc.dma cc0_scratch11.sem : SemLoc sig).isScoped .scVector = true; decide⟩⟩⟩⟩),
    SparseCore.bigSep_erase' (Finset.mem_erase.mpr ⟨by simp [cell4, cell3]; decide, Finset.mem_erase.mpr ⟨by simp [cell4, cell2]; decide, Finset.mem_erase.mpr ⟨by simp [cell4, cell1]; decide, Finset.mem_erase.mpr ⟨by simp [cell4, cell0]; decide, (mem_ownCells (g := (cell4 d (cV L) (jV L)))).mpr ⟨rfl, by show (SemLoc.dma cc0_scratch12.sem : SemLoc sig).isScoped .scVector = true; decide⟩⟩⟩⟩⟩),
    SparseCore.bigSep_erase' (Finset.mem_erase.mpr ⟨by simp [cell5, cell4]; decide, Finset.mem_erase.mpr ⟨by simp [cell5, cell3]; decide, Finset.mem_erase.mpr ⟨by simp [cell5, cell2]; decide, Finset.mem_erase.mpr ⟨by simp [cell5, cell1]; decide, Finset.mem_erase.mpr ⟨by simp [cell5, cell0]; decide, (mem_ownCells (g := (cell5 d (cV L) (jV L)))).mpr ⟨rfl, by show (SemLoc.dma cc0_scratch13.sem : SemLoc sig).isScoped .scVector = true; decide⟩⟩⟩⟩⟩⟩),
    SparseCore.bigSep_erase' (Finset.mem_erase.mpr ⟨by simp [cell6, cell5]; decide, Finset.mem_erase.mpr ⟨by simp [cell6, cell4]; decide, Finset.mem_erase.mpr ⟨by simp [cell6, cell3]; decide, Finset.mem_erase.mpr ⟨by simp [cell6, cell2]; decide, Finset.mem_erase.mpr ⟨by simp [cell6, cell1]; decide, Finset.mem_erase.mpr ⟨by simp [cell6, cell0]; decide, (mem_ownCells (g := (cell6 d (cV L) (jV L)))).mpr ⟨rfl, by show (SemLoc.dma cc0_scratch14.sem : SemLoc sig).isScoped .scVector = true; decide⟩⟩⟩⟩⟩⟩⟩),
    SparseCore.bigSep_erase' (Finset.mem_erase.mpr ⟨by simp [cell7, cell6]; decide, Finset.mem_erase.mpr ⟨by simp [cell7, cell5]; decide, Finset.mem_erase.mpr ⟨by simp [cell7, cell4]; decide, Finset.mem_erase.mpr ⟨by simp [cell7, cell3]; decide, Finset.mem_erase.mpr ⟨by simp [cell7, cell2]; decide, Finset.mem_erase.mpr ⟨by simp [cell7, cell1]; decide, Finset.mem_erase.mpr ⟨by simp [cell7, cell0]; decide, (mem_ownCells (g := (cell7 d (cV L) (jV L)))).mpr ⟨rfl, by show (SemLoc.dma cc0_scratch15.sem : SemLoc sig).isScoped .scVector = true; decide⟩⟩⟩⟩⟩⟩⟩⟩),
    SparseCore.bigSep_erase' (Finset.mem_erase.mpr ⟨by simp [cell8, cell7]; decide, Finset.mem_erase.mpr ⟨by simp [cell8, cell6]; decide, Finset.mem_erase.mpr ⟨by simp [cell8, cell5]; decide, Finset.mem_erase.mpr ⟨by simp [cell8, cell4]; decide, Finset.mem_erase.mpr ⟨by simp [cell8, cell3]; decide, Finset.mem_erase.mpr ⟨by simp [cell8, cell2]; decide, Finset.mem_erase.mpr ⟨by simp [cell8, cell1]; decide, Finset.mem_erase.mpr ⟨by simp [cell8, cell0]; decide, (mem_ownCells (g := (cell8 d (cV L) (jV L)))).mpr ⟨rfl, by show (SemLoc.dma cc0_scratch16.sem : SemLoc sig).isScoped .scVector = true; decide⟩⟩⟩⟩⟩⟩⟩⟩⟩),
    SparseCore.bigSep_erase' (Finset.mem_erase.mpr ⟨by simp [cell9, cell8]; decide, Finset.mem_erase.mpr ⟨by simp [cell9, cell7]; decide, Finset.mem_erase.mpr ⟨by simp [cell9, cell6]; decide, Finset.mem_erase.mpr ⟨by simp [cell9, cell5]; decide, Finset.mem_erase.mpr ⟨by simp [cell9, cell4]; decide, Finset.mem_erase.mpr ⟨by simp [cell9, cell3]; decide, Finset.mem_erase.mpr ⟨by simp [cell9, cell2]; decide, Finset.mem_erase.mpr ⟨by simp [cell9, cell1]; decide, Finset.mem_erase.mpr ⟨by simp [cell9, cell0]; decide, (mem_ownCells (g := (cell9 d (cV L) (jV L)))).mpr ⟨rfl, by show (SemLoc.dma cc0_scratch17.sem : SemLoc sig).isScoped .scVector = true; decide⟩⟩⟩⟩⟩⟩⟩⟩⟩⟩),
    SparseCore.bigSep_erase' (Finset.mem_erase.mpr ⟨by simp [cell10, cell9]; decide, Finset.mem_erase.mpr ⟨by simp [cell10, cell8]; decide, Finset.mem_erase.mpr ⟨by simp [cell10, cell7]; decide, Finset.mem_erase.mpr ⟨by simp [cell10, cell6]; decide, Finset.mem_erase.mpr ⟨by simp [cell10, cell5]; decide, Finset.mem_erase.mpr ⟨by simp [cell10, cell4]; decide, Finset.mem_erase.mpr ⟨by simp [cell10, cell3]; decide, Finset.mem_erase.mpr ⟨by simp [cell10, cell2]; decide, Finset.mem_erase.mpr ⟨by simp [cell10, cell1]; decide, Finset.mem_erase.mpr ⟨by simp [cell10, cell0]; decide, (mem_ownCells (g := (cell10 d (cV L) (jV L)))).mpr ⟨rfl, by show (SemLoc.dma cc0_scratch18.sem : SemLoc sig).isScoped .scVector = true; decide⟩⟩⟩⟩⟩⟩⟩⟩⟩⟩⟩),
    SparseCore.bigSep_erase' (Finset.mem_erase.mpr ⟨by simp [cell11, cell10]; decide, Finset.mem_erase.mpr ⟨by simp [cell11, cell9]; decide, Finset.mem_erase.mpr ⟨by simp [cell11, cell8]; decide, Finset.mem_erase.mpr ⟨by simp [cell11, cell7]; decide, Finset.mem_erase.mpr ⟨by simp [cell11, cell6]; decide, Finset.mem_erase.mpr ⟨by simp [cell11, cell5]; decide, Finset.mem_erase.mpr ⟨by simp [cell11, cell4]; decide, Finset.mem_erase.mpr ⟨by simp [cell11, cell3]; decide, Finset.mem_erase.mpr ⟨by simp [cell11, cell2]; decide, Finset.mem_erase.mpr ⟨by simp [cell11, cell1]; decide, Finset.mem_erase.mpr ⟨by simp [cell11, cell0]; decide, (mem_ownCells (g := (cell11 d (cV L) (jV L)))).mpr ⟨rfl, by show (SemLoc.dma cc0_scratch19.sem : SemLoc sig).isScoped .scVector = true; decide⟩⟩⟩⟩⟩⟩⟩⟩⟩⟩⟩⟩)]

omit m ρ in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ bigSep (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := ((Proc.scVector (cV L) (jV L)).devRef cc0_scratch7)) rfl⟩⟩⟩⟩⟩⟩⟩)]

/-- The arrays and the scratch buffers as a vector subcore's memrefs address them are the device's arrays and the
    subcore's own buffers. -/
theorem pts_iV (q : PosShare TreeShare) (f : Buf (Elt F) (iLoc d)) :
    ((iV).view.loc (V d (cV L) (jV L)) ↦{q} f : sProp 𝕄) = iLoc d ↦{q} f := rfl
theorem pts_xV (q : PosShare TreeShare) (f : Buf (Elt F) (xLoc d)) :
    ((xV).view.loc (V d (cV L) (jV L)) ↦{q} f : sProp 𝕄) = xLoc d ↦{q} f := rfl
theorem pts_oV (I : Finset (Idx (oLoc d))) (f : Buf (Elt F) (oLoc d)) :
    ((oV).view.loc (V d (cV L) (jV L)) ↦[I]{fullShare} f : sProp 𝕄) = oLoc d ↦[I]{fullShare} f := rfl
theorem pts_s0V (f : Buf (Elt F) ((V d (cV L) (jV L)).loc cc0_scratch0)) :
    ((s0V).view.loc (V d (cV L) (jV L)) ↦{fullShare} f : sProp 𝕄) = (V d (cV L) (jV L)).loc cc0_scratch0 ↦{fullShare} f := rfl
theorem pts_r0V (f : Buf (Elt F) ((V d (cV L) (jV L)).loc cc0_scratch4)) :
    ((r0V).view.loc (V d (cV L) (jV L)) ↦{fullShare} f : sProp 𝕄) = (V d (cV L) (jV L)).loc cc0_scratch4 ↦{fullShare} f := rfl
theorem pts_s1V (f : Buf (Elt F) ((V d (cV L) (jV L)).loc cc0_scratch1)) :
    ((s1V).view.loc (V d (cV L) (jV L)) ↦{fullShare} f : sProp 𝕄) = (V d (cV L) (jV L)).loc cc0_scratch1 ↦{fullShare} f := rfl
theorem pts_r1V (f : Buf (Elt F) ((V d (cV L) (jV L)).loc cc0_scratch5)) :
    ((r1V).view.loc (V d (cV L) (jV L)) ↦{fullShare} f : sProp 𝕄) = (V d (cV L) (jV L)).loc cc0_scratch5 ↦{fullShare} f := rfl
theorem pts_s2V (f : Buf (Elt F) ((V d (cV L) (jV L)).loc cc0_scratch2)) :
    ((s2V).view.loc (V d (cV L) (jV L)) ↦{fullShare} f : sProp 𝕄) = (V d (cV L) (jV L)).loc cc0_scratch2 ↦{fullShare} f := rfl
theorem pts_r2V (f : Buf (Elt F) ((V d (cV L) (jV L)).loc cc0_scratch6)) :
    ((r2V).view.loc (V d (cV L) (jV L)) ↦{fullShare} f : sProp 𝕄) = (V d (cV L) (jV L)).loc cc0_scratch6 ↦{fullShare} f := rfl
theorem pts_s3V (f : Buf (Elt F) ((V d (cV L) (jV L)).loc cc0_scratch3)) :
    ((s3V).view.loc (V d (cV L) (jV L)) ↦{fullShare} f : sProp 𝕄) = (V d (cV L) (jV L)).loc cc0_scratch3 ↦{fullShare} f := rfl
theorem pts_r3V (f : Buf (Elt F) ((V d (cV L) (jV L)).loc cc0_scratch7)) :
    ((r3V).view.loc (V d (cV L) (jV L)) ↦{fullShare} f : sProp 𝕄) = (V d (cV L) (jV L)).loc cc0_scratch7 ↦{fullShare} f := rfl

/-- One more read token split off what remains of a share. -/
theorem tok_succ {ℓ : Loc nD τ sig} (I : Finset (Idx ℓ)) (f : Buf (Elt F) ℓ) (q : PosShare TreeShare) (k : ℕ) :
    (ℓ ↦[I]{Transfers.shareDrop q k} f : sProp 𝕄) ⊣⊢ iprop((ℓ ↦[I]{Transfers.shareDrop q (k + 1)} f) ∗ ℓ ↦[I]{Transfers.shareTokN q k} f) :=
  pointsTo_share (PosShare.mem_left_op_right _)

/-! ## A worker's chunks -/

theorem bound_zero : grid0.bound 0 = 2 := rfl
theorem bound_one : grid0.bound 1 = 16 := rfl

/-- The worker that runs at grid point `L`. -/
def widL (L : grid0.Coords) : Fin 32 :=
  ⟨2 * (L 1).val + (L 0).val, by have h0 : (L 0).val < 2 := (L 0).isLt; have h1 : (L 1).val < 16 := (L 1).isLt; omega⟩

/-- The worker's first row. -/
def nb (L : grid0.Coords) : ℕ := 12800 * (L 1).val + 6400 * (L 0).val

theorem nb_le (L : grid0.Coords) : nb L + 6400 ≤ 204800 := by
  have h0 : (L 0).val < 2 := (L 0).isLt; have h1 : (L 1).val < 16 := (L 1).isLt; unfold nb; omega

/-- The 128 rows of the output array that trip `t`'s slot 0 .. 3 writes, and the two chunks after the loop, each as the
    program slices it. -/
abbrev oW0 (t : Fin k0_t1_loop.trips) : Finset S204800x128.Idx :=
  ((oV).slice (Rect.unit (s := S204800x128) (k0_off7 L t 0#32) S128x128.size (Facts₀.k0_off7_inb L t 0)) (fun _ => rfl)).view.set
abbrev oW1 (t : Fin k0_t1_loop.trips) : Finset S204800x128.Idx :=
  ((oV).slice (Rect.unit (s := S204800x128) (k0_off7 L t 1#32) S128x128.size (Facts₀.k0_off7_inb L t 1)) (fun _ => rfl)).view.set
abbrev oW2 (t : Fin k0_t1_loop.trips) : Finset S204800x128.Idx :=
  ((oV).slice (Rect.unit (s := S204800x128) (k0_off7 L t 2#32) S128x128.size (Facts₀.k0_off7_inb L t 2)) (fun _ => rfl)).view.set
abbrev oW3 (t : Fin k0_t1_loop.trips) : Finset S204800x128.Idx :=
  ((oV).slice (Rect.unit (s := S204800x128) (k0_off7 L t 3#32) S128x128.size (Facts₀.k0_off7_inb L t 3)) (fun _ => rfl)).view.set
abbrev oT0 : Finset S204800x128.Idx :=
  ((oV).slice (Rect.unit (s := S204800x128) (k0_off12 L 6144#32) S128x128.size (Facts₀.k0_off12_inb L 0)) (fun _ => rfl)).view.set
abbrev oT1 : Finset S204800x128.Idx :=
  ((oV).slice (Rect.unit (s := S204800x128) (k0_off12 L 6272#32) S128x128.size (Facts₀.k0_off12_inb L 1)) (fun _ => rfl)).view.set

/-- 128 consecutive words of the flattened index array from word `n` on. -/
theorem inb1 (n : ℕ) (h : n + 128 ≤ 204800) : ∀ a, (![n] : Fin 1 → ℕ) a + S128.size a ≤ S204800.size a := by
  intro a; match a with | ⟨0, _⟩ => exact h
abbrev iSetN (n : ℕ) (h : n + 128 ≤ 204800) : Finset S204800.Idx :=
  ((iV).slice (Rect.unit (s := S204800) ![n] S128.size (inb1 n h)) (fun _ => rfl)).view.set

/-- A chunk of the index array sliced at offsets that are `![n]` is that chunk. -/
theorem iSet_of_off (off : Fin 1 → ℕ) (n : ℕ) (hoff : off = ![n]) (hinb : ∀ a, off a + S128.size a ≤ S204800.size a) (h : n + 128 ≤ 204800) :
    ((iV).slice (Rect.unit (s := S204800) off S128.size hinb) (fun _ => rfl)).view.set = iSetN n h := by
  subst hoff; rfl

end Tile

/-- What the kernel's body does on one vector subcore, for any contents of the three arrays whose index words all name
    table rows: from a read share of the flattened index array and of the table and its own rows of the output array, its
    scratch buffers and semaphores, it ends with the same and its rows at the gathered rows. -/
def BodyOK [FloatOps F] : Prop :=
  ∀ (d : Dev nD) (L : grid0.Coords) (_ : (K (F := F)).Facts)
    (fi : Buf (Elt F) (iLoc d)) (fx : Buf (Elt F) (xLoc d)) (fo : Buf (Elt F) (oLoc d)) (_ : ∀ j, (fi j).toNat < 100000)
    (O : CellTallies nD τ sig (HIx 1)) (W : Waits sig (HIx 1)) (_ : ∀ g, O g none = 0),
    iprop(levAts (K (F := F)).L (K (F := F)).lev ∗ emp
        ∗ ((iLoc d ↦{wq (widL L)} fi : sProp 𝕄) ∗ (xLoc d ↦{wq (widL L)} fx : sProp 𝕄) ∗ (oLoc d ↦[oRegSet (widL L)]{fullShare} fo : sProp 𝕄))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iV (Memref.isWhole_whole _) xV (Memref.isWhole_whole _) oV (Memref.isWhole_whole _)
            s0V (Memref.isWhole_whole _) s1V (Memref.isWhole_whole _) s2V (Memref.isWhole_whole _) s3V (Memref.isWhole_whole _)
            r0V (Memref.isWhole_whole _) r1V (Memref.isWhole_whole _) r2V (Memref.isWhole_whole _) r3V (Memref.isWhole_whole _)
            cc0_scratch8 cc0_scratch9 cc0_scratch10 cc0_scratch11 cc0_scratch12 cc0_scratch13 cc0_scratch14 cc0_scratch15 cc0_scratch16 cc0_scratch17 cc0_scratch18 cc0_scratch19)
          fun _ => iprop(((iLoc d ↦{wq (widL L)} fi : sProp 𝕄) ∗ (xLoc d ↦{wq (widL L)} fx : sProp 𝕄)
              ∗ (oLoc d ↦[oRegSet (widL L)]{fullShare} (Spec.Gflat fi fx : Buf (Elt F) (oLoc d)) : sProp 𝕄))
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI

end
-- ==== Proof.KILaunch.lean ====
/-
  The launch side of the run: how the call's resources split among the thirty-two workers and gather back, the
  ghost state's launch element, the program's host operations around the call, and what the final memory holds.

  Before the call the index argument is transposed and flattened; the call hands every worker a read share of the
  flattened index array and of the table together with its own 6400 rows of the output array; after the call the
  output array holds the gathered rows, which the last host operation reshapes into the result.
-/
import proofs.«206846_g4063039062876_cont_8to1_b_342_28_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "oV" => (Memref.whole Cert.KernelIdeal.main_v2_scv : Memref Cert.KernelIdeal.sig Kind.scVector Space.hbm Cert.KernelIdeal.S204800x128 EltTy.f32)

variable (m : (ℓ : Loc nD τ sig) → Buf (Elt F) ℓ) (ρ : Dev nD → PrngReg)

/-! ## A SparseCore's resources are its sixteen workers' -/

section Split

variable [FloatOps F]

omit m ρ [FloatOps F] in
/-- A family over a SparseCore's sixteen subcores, indexed by the call's subcore numbers. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What a SparseCore is handed is, as it stands, what its sixteen workers are handed, and what they hand back is
    what it hands back. -/
theorem vecSplit : (K (F := F)).VecSplit' (P m) 0 := by
  intro d c
  show (bigSep Finset.univ fun s : Fin 16 => tileRes m d (wid (Fin.cast nCore_zero c) s) (m (oLoc d))) ⊢ |={Set.univ}=> iprop(
      (bigSep Finset.univ fun i : Fin ((K (F := F)).nSub 0) =>
        tileRes m d (wid (Fin.cast nCore_zero c) (Fin.cast nSub_zero i)) (m (oLoc d)))
      ∗ ((bigSep Finset.univ fun i : Fin ((K (F := F)).nSub 0) =>
          tileRes m d (wid (Fin.cast nCore_zero c) (Fin.cast nSub_zero i)) (Go m d))
          -∗ bigSep Finset.univ fun s : Fin 16 => tileRes m d (wid (Fin.cast nCore_zero c) s) (Go m d)))
  rw [bigSep_tasks (F := F) (fun s => tileRes m d (wid (Fin.cast nCore_zero c) s) (m (oLoc d))),
    bigSep_tasks (F := F) (fun s => tileRes m d (wid (Fin.cast nCore_zero c) s) (Go m d))]
  iintro H; imodintro
  isplitl [H]; · iexact H
  iintro H; iexact H

end Split

/-! ## The launch element of the certificate's ghost state -/

def u₀ : UU := (initOf (K (F := F)).hsCells (K (F := F)).hsToks, 1)

omit m ρ in
theorem bigSep_emp' {I : Type} (s : Finset I) : (bigSep s fun _ => iprop(emp)) = (iprop(emp) : sProp 𝕄) := bigSep_emp_const s

theorem hu₀ [FloatOps F] : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The three arrays are the thirty-two workers' resources -/

/-- Subcore `s` of SparseCore `c` runs worker `2 s + c`: the pairs (c, s) number the workers. -/
def widEquiv : Fin 2 × Fin 16 ≃ Fin 32 where
  toFun p := wid p.1 p.2
  invFun w := (⟨w.val % 2, by omega⟩, ⟨w.val / 2, by omega⟩)
  left_inv := fun ⟨c, s⟩ => Prod.ext (Fin.ext (by show (2 * s.val + c.val) % 2 = c.val; omega))
    (Fin.ext (by show (2 * s.val + c.val) / 2 = s.val; omega))
  right_inv := fun w => Fin.ext (by show 2 * (w.val / 2) + w.val % 2 = w.val; omega)

omit m ρ in
/-- A family over the workers, taken SparseCore by SparseCore and subcore by subcore. -/
theorem bigSep_workers (Φ : Fin 32 → sProp 𝕄) :
    (bigSep Finset.univ fun c : Fin 2 => bigSep Finset.univ fun s : Fin 16 => Φ (wid c s)) = bigSep Finset.univ Φ := by
  rw [bigSep_univ_equiv widEquiv Φ, bigSep_univ_prod]; rfl

omit m ρ in
theorem oRegSet_eq (w : Fin 32) : oRegSet w = (oreg w).set := by
  show ((View.whole (main_v2_scv : Ref sig .scVector)).slice (oreg w)).set = _
  rw [View.set_slice]; exact Finset.map_refl
omit m ρ in
theorem oregs_disjoint : ∀ i ∈ (Finset.univ : Finset (Fin 32)), ∀ j ∈ (Finset.univ : Finset (Fin 32)), i ≠ j → Disjoint (oRegSet i) (oRegSet j) :=
  fun i _ j _ h => by rw [oRegSet_eq, oRegSet_eq]; exact Rect.part_disjoint odiv h
omit m ρ in
theorem oregs_cover : (Finset.univ : Finset (Fin 32)).biUnion oRegSet = Finset.univ :=
  (Finset.biUnion_congr rfl fun i _ => oRegSet_eq i).trans (Rect.biUnion_part odiv)

omit m ρ in
/-- The output array whole is the workers' thirty-two blocks of rows. -/
theorem oPts_regs (d : Dev nD) (f : Buf (Elt F) (oLoc d)) :
    (oLoc d ↦{fullShare} f : sProp 𝕄) = bigSep Finset.univ fun w : Fin 32 => oLoc d ↦[oRegSet w]{fullShare} f := by
  rw [← pointsTo_biUnion Finset.univ (ℓ := oLoc d) oRegSet oregs_disjoint, oregs_cover]; try rfl

omit m ρ in
/-- An array at the full share is the workers' thirty-two read shares of it. -/
theorem pts_shares {ℓ : Loc nD τ sig} (f : Buf (Elt F) ℓ) :
    (ℓ ↦{fullShare} f : sProp 𝕄) = bigSep Finset.univ fun w : Fin 32 => ℓ ↦{wq w} f :=
  pointsTo_leaves Finset.univ f 5 fullShare

/-- The flattened index array and the table at the full share and the output array whole at contents `fo` are
    the resources of the sixteen workers of each of the two SparseCores. -/
theorem deal_eq [FloatOps F] (d : Dev nD) (fo : Buf (Elt F) (oLoc d)) :
    (bigSep Finset.univ fun c : Fin 2 => bigSep Finset.univ fun s : Fin 16 => tileRes m d (wid c s) fo)
      = iprop((iLoc d ↦{fullShare} Vi m d) ∗ (xLoc d ↦{fullShare} m (xLoc d)) ∗ (oLoc d ↦{fullShare} fo)) := by
  rw [bigSep_workers (F := F) (fun w => tileRes m d w fo), bigSep_sep', bigSep_sep',
    ← pts_shares (Vi m d), ← pts_shares (m (xLoc d)), ← oPts_regs]

theorem st0_eq [FloatOps F] (d : Dev nD) :
    (bigSep Finset.univ fun c : Fin ((K (F := F)).nCore 0) => (P m).st 0 d c)
      = iprop((iLoc d ↦{fullShare} Vi m d) ∗ (xLoc d ↦{fullShare} m (xLoc d)) ∗ (oLoc d ↦{fullShare} m (oLoc d))) :=
  deal_eq m d (m (oLoc d))
theorem dn0_eq [FloatOps F] (d : Dev nD) :
    (bigSep Finset.univ fun c : Fin ((K (F := F)).nCore 0) => (P m).dn 0 d c)
      = iprop((iLoc d ↦{fullShare} Vi m d) ∗ (xLoc d ↦{fullShare} m (xLoc d)) ∗ (oLoc d ↦{fullShare} Go m d)) :=
  deal_eq m d (Go m d)

/-! ## @main's host operations and the six arrays -/

section Main

variable [FloatOps F]

abbrev a' : DevRef τ sig := Proc.devRef .tc (main_arg0 : Ref sig .tc)
abbrev x' : DevRef τ sig := Proc.devRef .tc (main_arg1 : Ref sig .tc)
abbrev t' : DevRef τ sig := Proc.devRef .tc (main_v0 : Ref sig .tc)
abbrev i' : DevRef τ sig := Proc.devRef .tc (main_v1 : Ref sig .tc)
abbrev o' : DevRef τ sig := Proc.devRef .tc (main_v2 : Ref sig .tc)
abbrev r' : DevRef τ sig := Proc.devRef .tc (main_v3 : Ref sig .tc)

/-- The transposed index array and the result, as the TensorCore names them. -/
abbrev tLoc (d : Dev nD) : Loc nD τ sig := (SparseCore.T d).loc main_v0
abbrev rLoc (d : Dev nD) : Loc nD τ sig := (SparseCore.T d).loc main_v3

/-- The three host operations: the transpose, the flattening, the final reshape. -/
abbrev opT : HloOp τ sig (Elt F) :=
  StableHlo.unary main_arg0 main_v0 ((transpose S1024x200 [1, 0] · Facts₀.transposes_S200x1024_S1024x200_1_0) : (⟨S200x1024, .i32⟩ : BufTy).Contents (Elt F) → (⟨S1024x200, .i32⟩ : BufTy).Contents (Elt F))
abbrev opF : HloOp τ sig (Elt F) := StableHlo.reshape main_v0 main_v1 rfl Facts₀.shapeCasts_S1024x200_S204800
abbrev opR : HloOp τ sig (Elt F) := StableHlo.reshape main_v2 main_v3 rfl Facts₀.shapeCasts_S204800x128_S1024x200x128

/-- The TensorCore's arrays, all unscoped. -/
abbrev S6 : Finset (DevRef τ sig) := {a', x', t', i', o', r'}

omit m ρ [FloatOps F] in
theorem held_S6 (d : Dev nD) (W : Valuation τ sig (Elt F)) :
    (held (T d) S6 W : sProp 𝕄)
      = iprop((aLoc d ↦{fullShare} W a') ∗ (xLoc d ↦{fullShare} W x') ∗ (tLoc d ↦{fullShare} W t') ∗ (iLoc d ↦{fullShare} W i')
          ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit m ρ [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_arg1) ∗ (tLoc d ↦{fullShare} W main_v0) ∗ (iLoc d ↦{fullShare} W main_v1)
          ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation; the valuation before the call (the transpose's and the flattening's results); after the
    call, the output array at the gathered rows. -/
def V0 (d : Dev nD) : Valuation τ sig (Elt F) := fun b => m (d, b)
def V2 (d : Dev nD) : Valuation τ sig (Elt F) := (opF (F := F)).result ((opT (F := F)).result (V0 m d))
def V3 (d : Dev nD) : Valuation τ sig (Elt F) := Function.update (V2 m d) o' (Go m d)

/-- The result array: the gathered rows reshaped. -/
def Res (d : Dev nD) : Buf (Elt F) (rLoc d) := shapeCast S1024x200x128 (Go m d) Facts₀.shapeCasts_S204800x128_S1024x200x128

theorem unscoped_held (d : Dev nD) : (unscopedBufs d (fun b => m ((SparseCore.T d).loc b)) : sProp 𝕄) = held (T d) S6 (V0 m d) := by
  rw [unscopedBufs_eq, held_S6]; rfl

theorem V2_a (d : Dev nD) : V2 m d a' = m (aLoc d) := by
  unfold V2
  rw [(opF (F := F)).result_of_not_mem _ (show a' ∉ ({i'} : Finset (DevRef τ sig)) by decide),
    (opT (F := F)).result_of_not_mem _ (show a' ∉ ({t'} : Finset (DevRef τ sig)) by decide)]
  rfl
theorem V2_x (d : Dev nD) : V2 m d x' = m (xLoc d) := by
  unfold V2
  rw [(opF (F := F)).result_of_not_mem _ (show x' ∉ ({i'} : Finset (DevRef τ sig)) by decide),
    (opT (F := F)).result_of_not_mem _ (show x' ∉ ({t'} : Finset (DevRef τ sig)) by decide)]
  rfl
theorem V2_o (d : Dev nD) : V2 m d o' = m (oLoc d) := by
  unfold V2
  rw [(opF (F := F)).result_of_not_mem _ (show o' ∉ ({i'} : Finset (DevRef τ sig)) by decide),
    (opT (F := F)).result_of_not_mem _ (show o' ∉ ({t'} : Finset (DevRef τ sig)) by decide)]
  rfl
/-- The flattening of the transpose of the index argument is the flattened index array. -/
theorem V2_i (d : Dev nD) : V2 m d i' = Vi m d := by
  unfold V2 Vi
  rw [StableHlo.reshape_result, StableHlo.unary_result]
  rfl

end Main

section Run

variable [FloatOps F]

theorem held_V2 (d : Dev nD) :
    (held (T d) S6 ((opF (F := F)).result ((opT (F := F)).result (V0 m d))) : sProp 𝕄)
      = iprop((aLoc d ↦{fullShare} m (aLoc d)) ∗ (xLoc d ↦{fullShare} m (xLoc d)) ∗ (tLoc d ↦{fullShare} V2 m d t') ∗ (iLoc d ↦{fullShare} Vi m d)
          ∗ (oLoc d ↦{fullShare} m (oLoc d)) ∗ rLoc d ↦{fullShare} V2 m d r') := by
  show held (SparseCore.T d) S6 (V2 m d) = _
  rw [held_S6, V2_a, V2_x, V2_i, V2_o]

theorem V3_a (d : Dev nD) : V3 m d a' = m (aLoc d) := (Function.update_of_ne (show a' ≠ o' by decide) _ _).trans (V2_a m d)
theorem V3_x (d : Dev nD) : V3 m d x' = m (xLoc d) := (Function.update_of_ne (show x' ≠ o' by decide) _ _).trans (V2_x m d)
theorem V3_t (d : Dev nD) : V3 m d t' = V2 m d t' := Function.update_of_ne (show t' ≠ o' by decide) _ _
theorem V3_i (d : Dev nD) : V3 m d i' = Vi m d := (Function.update_of_ne (show i' ≠ o' by decide) _ _).trans (V2_i m d)
theorem V3_o (d : Dev nD) : V3 m d o' = Go m d := Function.update_self _ _ _
theorem V3_r (d : Dev nD) : V3 m d r' = V2 m d r' := Function.update_of_ne (show r' ≠ o' by decide) _ _

theorem V4_a (d : Dev nD) : (opR (F := F)).result (V3 m d) a' = m (aLoc d) :=
  ((opR (F := F)).result_of_not_mem _ (show a' ∉ ({r'} : Finset (DevRef τ sig)) by decide)).trans (V3_a m d)
theorem V4_x (d : Dev nD) : (opR (F := F)).result (V3 m d) x' = m (xLoc d) :=
  ((opR (F := F)).result_of_not_mem _ (show x' ∉ ({r'} : Finset (DevRef τ sig)) by decide)).trans (V3_x m d)
/-- The final reshape of the gathered rows is the result array. -/
theorem V4_r (d : Dev nD) : (opR (F := F)).result (V3 m d) r' = Res m d := by
  unfold Res
  rw [StableHlo.reshape_result, V3_o]
  rfl

theorem held_V4 (d : Dev nD) :
    (held (T d) S6 ((opR (F := F)).result (V3 m d)) : sProp 𝕄)
      = iprop((aLoc d ↦{fullShare} m (aLoc d)) ∗ (xLoc d ↦{fullShare} m (xLoc d)) ∗ (tLoc d ↦{fullShare} (opR (F := F)).result (V3 m d) t')
          ∗ (iLoc d ↦{fullShare} (opR (F := F)).result (V3 m d) i') ∗ (oLoc d ↦{fullShare} (opR (F := F)).result (V3 m d) o') ∗ rLoc d ↦{fullShare} Res m d) := by
  rw [held_S6, V4_a, V4_x, V4_r]

theorem hT : (opT (F := F)).bufs ⊆ S6 := show ({a', t'} : Finset (DevRef τ sig)) ⊆ S6 by decide
theorem hFl : (opF (F := F)).bufs ⊆ S6 := show ({t', i'} : Finset (DevRef τ sig)) ⊆ S6 by decide
theorem hR : (opR (F := F)).bufs ⊆ S6 := show ({o', r'} : Finset (DevRef τ sig)) ⊆ S6 by decide

/-- What @main leaves the claim: the two arguments at their launch contents, the result array at the gathered rows
    reshaped. -/
abbrev FIN (d : Dev nD) : sProp 𝕄 :=
  iprop((aLoc d ↦{fullShare} m (aLoc d)) ∗ (xLoc d ↦{fullShare} m (xLoc d)) ∗ rLoc d ↦{fullShare} Res m d)

end Run

section MainRun

variable [FloatOps F]

/-- @main on device `d`'s TensorCore: the transpose and the flattening (over the six arrays held whole), the call
    (every worker's resources out, and back with the output array at the gathered rows), the final reshape; the
    two arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transpose, the flattening
  iapply (wp_hlo_within 𝒱 (SparseCore.T d) none Set.univ (op := opT) (S := S6) hT (V := V0 m d)) $$ [Hb Hheld]
  · isplitl [Hb] <;> iassumption
  iintro ⟨Hb, Hheld⟩
  rw [wp_ret]; imodintro
  iapply (wp_hlo_within 𝒱 (SparseCore.T d) none Set.univ (op := opF) (S := S6) hFl (V := (opT (F := F)).result (V0 m d))) $$ [Hb Hheld]
  · isplitl [Hb] <;> iassumption
  iintro ⟨Hb, Hheld⟩
  rw [wp_ret]; imodintro
  -- the call
  ihave Hh := (Entails.of_eq (held_V2 (F := F) m d)) $$ Hheld
  icases Hh with ⟨Ha, Hx, Ht, Hi, Ho, Hr⟩
  iapply ((K (F := F)).wp_run (D (F := F)) 𝒱 (EH := EH) (P := P m) κ d 0) $$ [Hst Hi Hx Ho Hb Ha Ht Hr]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  -- the final reshape, the output array now at the gathered rows
  iapply (wp_hlo_within 𝒱 (SparseCore.T d) none Set.univ (op := opR) (S := S6) hR (V := V3 m d)) $$ [Hb Ha Hx Ht Hi Ho Hr]
  · isplitl [Hb]; · iexact Hb
    rw [held_S6, V3_a, V3_x, V3_t, V3_i, V3_o, V3_r]
    isplitl [Ha]; · iexact Ha
    isplitl [Hx]; · iexact Hx
    isplitl [Ht]; · iexact Ht
    isplitl [Hi]; · iexact Hi
    isplitl [Ho]; · iexact Ho
    iexact Hr
  iintro ⟨Hb, Hheld⟩
  ihave Hh := (Entails.of_eq (held_V4 (F := F) m d)) $$ Hheld
  icases Hh with ⟨Ha, Hx, -, -, -, Hr⟩
  rw [wp_ret]; imodintro; imodintro
  isplitl [Hst]; · iexact Hst
  isplitl [Ha]; · iexact Ha
  isplitl [Hx]; · iexact Hx
  iexact Hr

end MainRun

/-! ## The program's run and the claim -/

section Claim

variable [FloatOps F]

/-- What the final memory holds on device `d`: the result array, the two arguments. -/
def fq (d : Dev nD) (s' : Phys nD τ sig (Elt F)) : Prop :=
  s'.mem.mem (rLoc d) = Res m d ∧ s'.mem.mem (aLoc d) = m (aLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Ha, Hx, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare) (f := Res m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- What the run leaves: the result array at the gathered rows reshaped, the two arguments unchanged. -/
def QC : PUnit × MemSt nD τ sig (Elt F) → Prop := fun r => ∀ c : Dev nD,
    r.2.mem ((SparseCore.T c).loc main_v3) = shapeCast S1024x200x128 (Go m c) Facts₀.shapeCasts_S204800x128_S1024x200x128
    ∧ r.2.mem (aLoc c) = m (aLoc c) ∧ r.2.mem (xLoc c) = m (xLoc c)

/-- The program's run, given each worker's task. -/
theorem run_main [∀ e, Nonempty (Elt F e)] (hobl : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Claim

end Cert.Proof.KI

end
-- ==== Proof.KIObl.lean ====
/-
  One worker's task, from the kernel's body: the call hands vector subcore s of SparseCore c the resources of worker
  2 s + c — a read share of the flattened index array and of the table, and its own rows of the output array — and
  the body, run on them, returns them with the rows at the gathered rows. The flattened index array is the index
  argument transposed and flattened, so each of its words is a word of the argument and names a table row.
-/
import proofs.«206846_g4063039062876_cont_8to1_b_342_28_alg».proof.Proof.KISetup
import proofs.«206846_g4063039062876_cont_8to1_b_342_28_alg».proof.Proof.KILaunch
import proofs.«206846_g4063039062876_cont_8to1_b_342_28_alg».proof.Proof.HostValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1)

variable {F : FTy → Type}

local notation "𝕄" => MT nD τ sig (HIx 1) (Elt F) ℕ UU ℕ

local notation "iV" => (Memref.whole Cert.KernelIdeal.main_v1_scv : Memref Cert.KernelIdeal.sig Kind.scVector Space.hbm Cert.KernelIdeal.S204800 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S204800x128 EltTy.f32)
local notation "s0V" => (Memref.whole Cert.KernelIdeal.cc0_scratch0 : Memref Cert.KernelIdeal.sig Kind.scVector Space.vmem Cert.KernelIdeal.S128 EltTy.i32)
local notation "s1V" => (Memref.whole Cert.KernelIdeal.cc0_scratch1 : Memref Cert.KernelIdeal.sig Kind.scVector Space.vmem Cert.KernelIdeal.S128 EltTy.i32)
local notation "s2V" => (Memref.whole Cert.KernelIdeal.cc0_scratch2 : Memref Cert.KernelIdeal.sig Kind.scVector Space.vmem Cert.KernelIdeal.S128 EltTy.i32)
local notation "s3V" => (Memref.whole Cert.KernelIdeal.cc0_scratch3 : Memref Cert.KernelIdeal.sig Kind.scVector Space.vmem Cert.KernelIdeal.S128 EltTy.i32)
local notation "r0V" => (Memref.whole Cert.KernelIdeal.cc0_scratch4 : Memref Cert.KernelIdeal.sig Kind.scVector Space.vmem Cert.KernelIdeal.S128x128 EltTy.f32)
local notation "r1V" => (Memref.whole Cert.KernelIdeal.cc0_scratch5 : Memref Cert.KernelIdeal.sig Kind.scVector Space.vmem Cert.KernelIdeal.S128x128 EltTy.f32)
local notation "r2V" => (Memref.whole Cert.KernelIdeal.cc0_scratch6 : Memref Cert.KernelIdeal.sig Kind.scVector Space.vmem Cert.KernelIdeal.S128x128 EltTy.f32)
local notation "r3V" => (Memref.whole Cert.KernelIdeal.cc0_scratch7 : Memref Cert.KernelIdeal.sig Kind.scVector Space.vmem Cert.KernelIdeal.S128x128 EltTy.f32)

variable (m : (ℓ : Loc nD τ sig) → Buf (Elt F) ℓ) (ρ : Dev nD → PrngReg)

/-! ## The flattened index array's words are the index argument's -/

/-- Word r of the flattened index array is word (r mod 200, r div 200) of the index argument: under the
    precondition it names a table row. -/
theorem Vi_inRange (hpre : PreOK m) (d : Dev nD) : ∀ j, (Vi m d j).toNat < 100000 := by
  intro j
  obtain ⟨r, rfl⟩ : ∃ r : Fin 204800, j = ix1 r := ⟨j 0, eq_ix1 j⟩
  have hr := r.isLt
  have key := HostValue.flat_apply (m (aLoc d)) Facts₀.transposes_S200x1024_S1024x200_1_0 Facts₀.shapeCasts_S1024x200_S204800
    ⟨r.val / 200, by omega⟩ ⟨r.val % 200, by omega⟩
  have e : (⟨r.val / 200 * 200 + r.val % 200, by omega⟩ : Fin 204800) = r := Fin.ext (by show r.val / 200 * 200 + r.val % 200 = r.val; omega)
  rw [e] at key
  show (Vi m d (ix1 r)).toNat < 100000
  unfold Vi
  rw [key]
  exact hpre d _

/-! ## The obligation -/

section Obl

variable [FloatOps F]

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

omit m ρ in
theorem defs₀_vector (c : Fin τ.nSC) (s : Fin τ.nSub) :
    defs₀ (F := F) (.scVector c s) 0 ()
      = SparseCore.onTile hcore0 hsub0 (fun c s => cc0_gather_kernel (coordsV c s)
          iV (Memref.isWhole_whole _) xV (Memref.isWhole_whole _) oV (Memref.isWhole_whole _)
          s0V (Memref.isWhole_whole _) s1V (Memref.isWhole_whole _) s2V (Memref.isWhole_whole _) s3V (Memref.isWhole_whole _)
          r0V (Memref.isWhole_whole _) r1V (Memref.isWhole_whole _) r2V (Memref.isWhole_whole _) r3V (Memref.isWhole_whole _)
          cc0_scratch8 cc0_scratch9 cc0_scratch10 cc0_scratch11 cc0_scratch12 cc0_scratch13 cc0_scratch14 cc0_scratch15 cc0_scratch16 cc0_scratch17 cc0_scratch18 cc0_scratch19) ⟨⟩ c s := rfl

omit m ρ [FloatOps F] in
/-- A wait the body leaves unanswered is one the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each worker's task: the body at the worker's grid point, on the flattened index array, the table and the output
    array at their contents before the call. -/
theorem tileObl (hpre : PreOK m) (hb : BodyOK (F := F)) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact (hb d (coordsV ⟨_, hci.1⟩ ⟨_, hci.2⟩) facts (Vi m d) (m (xLoc d)) (m (oLoc d)) (Vi_inRange m hpre d) O W hO).trans
    (wp_mono frame _ _ fun _ => obl_post)

/-- The program's run, from the precondition and the body. -/
theorem run [∀ e, Nonempty (Elt F e)] (hpre : PreOK m) (hb : BodyOK (F := F)) :
    θ_run (Cert.KernelIdeal.defs (F := F)) (Cert.KernelIdeal.threads (F := F)) ⟨m, fun _ => 0, ρ⟩ (QC m) :=
  run_main m ρ (tileObl m hpre hb)

end Obl

end Cert.Proof.KI

end
-- ==== Proof.KIGeom.lean ====
/-
  The geometry of one worker's rows of the output array. A worker owns 6400 consecutive rows; the loop's twelve
  trips write four chunks of 128 rows each, and two more chunks of 128 rows follow the loop: fifty chunks, pairwise
  disjoint, whose union is the worker's rows. Every set here is a set of whole rows, so membership is a pair of
  inequalities on the row index, and a points-to on the worker's rows is the separating conjunction of the
  points-tos on the chunks. Last, a big separating conjunction over a final or an initial segment of `Fin N`
  peels its first, respectively last, index.
-/
import proofs.«206846_g4063039062876_cont_8to1_b_342_28_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "oV" => (Memref.whole Cert.KernelIdeal.main_v2_scv : Memref Cert.KernelIdeal.sig Kind.scVector Space.hbm Cert.KernelIdeal.S204800x128 EltTy.f32)

theorem trips_eq : k0_t1_loop.trips = 12 := by decide

/-- The rows `n .. n + k - 1` of the output array, every column. -/
def rows (n k : ℕ) : Finset S204800x128.Idx := Finset.univ.filter fun i => n ≤ (i 0).val ∧ (i 0).val < n + k

theorem mem_rows {n k : ℕ} {i : S204800x128.Idx} : i ∈ rows n k ↔ n ≤ (i 0).val ∧ (i 0).val < n + k := by
  simp [rows]

/-- A unit rectangle of 128 rows from row `n`, every column, is those rows. -/
theorem unit_rows (off : Fin 2 → ℕ) (n : ℕ) (hoff : off = ![n, 0]) (hinb : ∀ a, off a + S128x128.size a ≤ S204800x128.size a) :
    ((oV).slice (Rect.unit (s := S204800x128) off S128x128.size hinb) (fun _ => rfl)).view.set = rows n 128 := by
  subst hoff
  show ((View.whole (main_v2_scv : Ref sig .scVector)).slice (Rect.unit (s := S204800x128) ![n, 0] S128x128.size hinb)).set = _
  rw [View.set_slice_whole]
  ext i
  rw [Rect.mem_set_unit, mem_rows]
  constructor
  · intro h; exact h 0
  · intro h a
    match a with
    | 0 => exact h
    | 1 => exact ⟨Nat.zero_le _, by have h1 : ((i 1 : Fin _) : ℕ) < 128 := (i 1).isLt; simpa using h1⟩

/-- Worker `w`'s part of the output array is its 6400 rows. -/
theorem oRegSet_rows (w : Fin 32) : oRegSet w = rows (6400 * w.val) 6400 := by
  show ((View.whole (main_v2_scv : Ref sig .scVector)).slice (oreg w)).set = _
  rw [View.set_slice_whole]
  ext i
  rw [Rect.mem_set_unit, mem_rows]
  constructor
  · intro h
    have h0 := h 0
    simp only [Shape.partIx, Shape.partSize, ↓reduceIte] at h0
    have e : S204800x128.size 0 / 32 = 6400 := by decide
    rw [e] at h0
    omega
  · intro h a
    match a with
    | 0 =>
      simp only [Shape.partIx, Shape.partSize, ↓reduceIte]
      have e : S204800x128.size 0 / 32 = 6400 := by decide
      rw [e]
      omega
    | 1 =>
      have h1 : ((i 1 : Fin _) : ℕ) < 128 := (i 1).isLt
      simp [Shape.partIx, Shape.partSize]
      simpa using h1

theorem rows_add (n a b : ℕ) : rows n (a + b) = rows n a ∪ rows (n + a) b := by
  ext i; rw [Finset.mem_union, mem_rows, mem_rows, mem_rows]; omega

theorem rows_disjoint {n k n' k' : ℕ} (h : n + k ≤ n' ∨ n' + k' ≤ n) : Disjoint (rows n k) (rows n' k') := by
  rw [Finset.disjoint_left]; intro i hi hi'; rw [mem_rows] at hi hi'; omega

/-- The twelve trips' 512 rows each, from row `n` on, are the 6144 rows from `n` on. -/
theorem rows_trips (n : ℕ) :
    (Finset.univ : Finset (Fin k0_t1_loop.trips)).biUnion (fun t => rows (n + 512 * t.val) 512) = rows n 6144 := by
  ext i
  simp only [Finset.mem_biUnion, Finset.mem_univ, true_and, mem_rows]
  constructor
  · rintro ⟨t, h⟩
    have ht : t.val < 12 := trips_eq ▸ t.isLt
    omega
  · intro h
    refine ⟨⟨((i 0).val - n) / 512, by rw [trips_eq]; omega⟩, ?_⟩
    show n + 512 * (((i 0).val - n) / 512) ≤ (i 0).val ∧ (i 0).val < n + 512 * (((i 0).val - n) / 512) + 512
    omega

theorem rows_trips_disjoint (n : ℕ) :
    ∀ t ∈ (Finset.univ : Finset (Fin k0_t1_loop.trips)), ∀ t' ∈ (Finset.univ : Finset (Fin k0_t1_loop.trips)), t ≠ t' →
      Disjoint (rows (n + 512 * t.val) 512) (rows (n + 512 * t'.val) 512) := by
  intro t _ t' _ h
  have hv : t.val ≠ t'.val := fun e => h (Fin.ext e)
  exact rows_disjoint (by omega)

section Pts

variable (d : Dev nD) (q : PosShare TreeShare) (f : Buf (Elt F) (oLoc d))

/-- A points-to on `c = a + b` consecutive rows is one on the first `a` and one on the next `b`. -/
theorem pts_rows_split (n a b c n' : ℕ) (hc : c = a + b) (hn : n' = n + a) :
    (oLoc d ↦[rows n c]{q} f : sProp 𝕄) = iprop((oLoc d ↦[rows n a]{q} f) ∗ (oLoc d ↦[rows n' b]{q} f)) := by
  subst hc hn
  rw [rows_add]
  have hu : (oLoc d ↦[rows n a ∪ rows (n + a) b]{q} f : sProp 𝕄) ⊣⊢ iprop((oLoc d ↦[rows n a]{q} f) ∗ (oLoc d ↦[rows (n + a) b]{q} f)) :=
    pointsTo_union (rows_disjoint (Or.inl (le_refl _)))
  exact BI.equiv_iff.mp ⟨hu.1, hu.2⟩

/-- 512 consecutive rows as four chunks of 128. -/
theorem pts_rows4 (n : ℕ) :
    (oLoc d ↦[rows n 512]{q} f : sProp 𝕄)
      = iprop((oLoc d ↦[rows n 128]{q} f) ∗ (oLoc d ↦[rows (n + 128) 128]{q} f) ∗ (oLoc d ↦[rows (n + 256) 128]{q} f) ∗ (oLoc d ↦[rows (n + 384) 128]{q} f)) := by
  rw [pts_rows_split d q f n 128 384 512 (n + 128) rfl rfl, pts_rows_split d q f (n + 128) 128 256 384 (n + 256) rfl (by omega),
    pts_rows_split d q f (n + 256) 128 128 256 (n + 384) rfl (by omega)]

end Pts

section Chunks

variable (L : grid0.Coords) (t : Fin k0_t1_loop.trips)

theorem oW0_rows : oW0 L t = rows (nb L + 512 * t.val) 128 := by
  have h : k0_off7 L t 0#32 = ![nb L + 512 * t.val, 0] := (k0_off7_eq L t ⟨0, by decide⟩).trans (by simp [nb])
  exact unit_rows (k0_off7 L t 0#32) (nb L + 512 * t.val) h (Facts₀.k0_off7_inb L t 0)
theorem oW1_rows : oW1 L t = rows (nb L + 512 * t.val + 128) 128 := by
  have h : k0_off7 L t 1#32 = ![nb L + 512 * t.val + 128, 0] := (k0_off7_eq L t ⟨1, by decide⟩).trans (by simp [nb])
  exact unit_rows (k0_off7 L t 1#32) (nb L + 512 * t.val + 128) h (Facts₀.k0_off7_inb L t 1)
theorem oW2_rows : oW2 L t = rows (nb L + 512 * t.val + 256) 128 := by
  have h : k0_off7 L t 2#32 = ![nb L + 512 * t.val + 256, 0] := (k0_off7_eq L t ⟨2, by decide⟩).trans (by simp [nb])
  exact unit_rows (k0_off7 L t 2#32) (nb L + 512 * t.val + 256) h (Facts₀.k0_off7_inb L t 2)
theorem oW3_rows : oW3 L t = rows (nb L + 512 * t.val + 384) 128 := by
  have h : k0_off7 L t 3#32 = ![nb L + 512 * t.val + 384, 0] := (k0_off7_eq L t ⟨3, by decide⟩).trans (by simp [nb])
  exact unit_rows (k0_off7 L t 3#32) (nb L + 512 * t.val + 384) h (Facts₀.k0_off7_inb L t 3)
theorem oT0_rows : oT0 L = rows (nb L + 6144) 128 := by
  have h : k0_off12 L 6144#32 = ![nb L + 6144, 0] := (k0_off12_eq L ⟨0, by decide⟩).trans (by simp [nb])
  exact unit_rows (k0_off12 L 6144#32) (nb L + 6144) h (Facts₀.k0_off12_inb L 0)
theorem oT1_rows : oT1 L = rows (nb L + 6272) 128 := by
  have h : k0_off12 L 6272#32 = ![nb L + 6272, 0] := (k0_off12_eq L ⟨1, by decide⟩).trans (by simp [nb])
  exact unit_rows (k0_off12 L 6272#32) (nb L + 6272) h (Facts₀.k0_off12_inb L 1)

theorem widL_rows : oRegSet (widL L) = rows (nb L) 6400 := by
  rw [oRegSet_rows]
  have e : 6400 * (widL L).val = nb L := by
    show 6400 * (2 * (L 1).val + (L 0).val) = 12800 * (L 1).val + 6400 * (L 0).val
    omega
  rw [e]

end Chunks

/-- What trip `t` leaves written: its four chunks of the output array at contents `f`. -/
def tripOut (d : Dev nD) (L : grid0.Coords) (t : Fin k0_t1_loop.trips) (f : Buf (Elt F) (oLoc d)) : sProp 𝕄 :=
  iprop((oLoc d ↦[oW0 L t]{fullShare} f) ∗ (oLoc d ↦[oW1 L t]{fullShare} f) ∗ (oLoc d ↦[oW2 L t]{fullShare} f) ∗ (oLoc d ↦[oW3 L t]{fullShare} f))

/-- A trip's four chunks are its 512 rows. -/
theorem tripOut_rows (d : Dev nD) (L : grid0.Coords) (t : Fin k0_t1_loop.trips) (f : Buf (Elt F) (oLoc d)) :
    tripOut d L t f = (oLoc d ↦[rows (nb L + 512 * t.val) 512]{fullShare} f : sProp 𝕄) := by
  unfold tripOut
  rw [oW0_rows, oW1_rows, oW2_rows, oW3_rows, pts_rows4]

/-- A worker's 6400 rows are its fifty chunks: the twelve trips' four each and the two after the loop. -/
theorem oReg_split (d : Dev nD) (L : grid0.Coords) (f : Buf (Elt F) (oLoc d)) :
    (oLoc d ↦[oRegSet (widL L)]{fullShare} f : sProp 𝕄)
      = iprop((bigSep Finset.univ fun t : Fin k0_t1_loop.trips => tripOut d L t f) ∗ (oLoc d ↦[oT0 L]{fullShare} f) ∗ (oLoc d ↦[oT1 L]{fullShare} f)) := by
  rw [widL_rows, oT0_rows, oT1_rows, bigSep_congr (fun t _ => tripOut_rows d L t f),
    ← pointsTo_biUnion Finset.univ (ℓ := oLoc d) (fun t : Fin k0_t1_loop.trips => rows (nb L + 512 * t.val) 512) (rows_trips_disjoint (nb L)),
    rows_trips,
    pts_rows_split d fullShare f (nb L) 6144 256 6400 (nb L + 6144) rfl rfl,
    pts_rows_split d fullShare f (nb L + 6144) 128 128 256 (nb L + 6272) rfl (by omega)]

/-! ## Big separating conjunctions over an initial or a final segment of `Fin N` -/

section Filters

variable {M : Type} [URA M] {N : ℕ}

/-- The trips from `k` on are trip `k` and the trips from `k + 1` on. -/
theorem bigSep_from_succ (Φ : Fin N → sProp M) (k : ℕ) (hk : k < N) :
    bigSep (Finset.univ.filter fun t : Fin N => k ≤ t.val) Φ
      = iprop(Φ ⟨k, hk⟩ ∗ bigSep (Finset.univ.filter fun t : Fin N => k + 1 ≤ t.val) Φ) := by
  have e : (Finset.univ.filter fun t : Fin N => k ≤ t.val) = insert ⟨k, hk⟩ (Finset.univ.filter fun t : Fin N => k + 1 ≤ t.val) := by
    ext t; simp only [Finset.mem_filter, Finset.mem_univ, true_and, Finset.mem_insert, Fin.ext_iff]; omega
  rw [e, SparseCore.bigSep_insert' (by simp)]

/-- The trips below `n + 1` are trip `n` and the trips below `n`. -/
theorem bigSep_upto_succ (Φ : Fin N → sProp M) (n : ℕ) (hn : n < N) :
    bigSep (Finset.univ.filter fun t : Fin N => t.val < n + 1) Φ
      = iprop(Φ ⟨n, hn⟩ ∗ bigSep (Finset.univ.filter fun t : Fin N => t.val < n) Φ) := by
  have e : (Finset.univ.filter fun t : Fin N => t.val < n + 1) = insert ⟨n, hn⟩ (Finset.univ.filter fun t : Fin N => t.val < n) := by
    ext t; simp only [Finset.mem_filter, Finset.mem_univ, true_and, Finset.mem_insert, Fin.ext_iff]; omega
  rw [e, SparseCore.bigSep_insert' (by simp)]

/-- From trip 0 on is every trip. -/
theorem bigSep_from_zero (Φ : Fin N → sProp M) :
    bigSep (Finset.univ.filter fun t : Fin N => 0 ≤ t.val) Φ = bigSep Finset.univ Φ := by
  congr 1; ext t; simp
/-- Below a bound `n ≥ N` is every trip. -/
theorem bigSep_upto_top (Φ : Fin N → sProp M) (n : ℕ) (hn : N ≤ n) :
    bigSep (Finset.univ.filter fun t : Fin N => t.val < n) Φ = bigSep Finset.univ Φ := by
  congr 1; ext t; have := t.isLt; simp only [Finset.mem_filter, Finset.mem_univ, true_and, iff_true]; omega
/-- From a bound `n ≥ N` on is no trip. -/
theorem bigSep_from_top (Φ : Fin N → sProp M) (n : ℕ) (hn : N ≤ n) :
    bigSep (Finset.univ.filter fun t : Fin N => n ≤ t.val) Φ = iprop(emp) := by
  have e : (Finset.univ.filter fun t : Fin N => n ≤ t.val) = ∅ := by
    ext t; have := t.isLt; simp only [Finset.mem_filter, Finset.mem_univ, true_and, Finset.notMem_empty, iff_false]; omega
  rw [e]; rfl
/-- Below trip 0 is no trip. -/
theorem bigSep_upto_zero (Φ : Fin N → sProp M) :
    bigSep (Finset.univ.filter fun t : Fin N => t.val < 0) Φ = iprop(emp) := by
  have e : (Finset.univ.filter fun t : Fin N => t.val < 0) = ∅ := by
    ext t; simp
  rw [e]; rfl

end Filters

end Cert.Proof.KI

end
-- ==== Proof.KIValue.lean ====
/-
  The values the lookup kernel's body moves, as pure facts about array contents. For one slot and one chunk of
  128 consecutive rows starting at row n of the flattened arrays, the body does three things: it copies 128 words
  of the flattened index array into a list buffer; it fills a row buffer with, at row a, the table row whose number
  is word a of the list; and it copies the row buffer out to rows n .. n + 127 of the output array. This module reads
  each of the three back:

  * the list buffer after the copy holds, at position x, word n + x of the index array;
  * when every word of the index array names a table row, so does every word of the list (what the row fill asks);
  * the output array after the copy-out agrees, on rows n .. n + 127, with the specification of the gathered rows:
    row r is the table row named by word r of the flattened index array.

  The third fact splits in two. First, for ANY payload p that at (a, k) is entry k of the table row named by word
  n + a, writing p through the window of rows n .. n + 127 gives the specification there: an element (r, k) of the
  window is the window's element (r - n, k), and word n + (r - n) is word r. Second, the payload the body writes
  is such a p: the row buffer, written whole with the row fill's payload, reads back as that payload; the payload
  at (a, k) is the table at the row the list's word a names, column k; the list's word a is word n + a of the index
  array; and a word that names a row is the number of the row it names.

  Everything is stated for any list buffer and any row buffer (the four slots differ only in which buffers they
  use), then restated for each slot at that slot's own buffers.
-/
import proofs.«206846_g4063039062876_cont_8to1_b_342_28_alg».proof.Proof.KISetup
import Idealize.ShloMosaic.Lib.Writes
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix2)

variable {F : FTy → Type}

local notation "iV" => (Memref.whole Cert.KernelIdeal.main_v1_scv : Memref Cert.KernelIdeal.sig Kind.scVector Space.hbm Cert.KernelIdeal.S204800 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S204800x128 EltTy.f32)
local notation "s0V" => (Memref.whole Cert.KernelIdeal.cc0_scratch0 : Memref Cert.KernelIdeal.sig Kind.scVector Space.vmem Cert.KernelIdeal.S128 EltTy.i32)
local notation "s1V" => (Memref.whole Cert.KernelIdeal.cc0_scratch1 : Memref Cert.KernelIdeal.sig Kind.scVector Space.vmem Cert.KernelIdeal.S128 EltTy.i32)
local notation "s2V" => (Memref.whole Cert.KernelIdeal.cc0_scratch2 : Memref Cert.KernelIdeal.sig Kind.scVector Space.vmem Cert.KernelIdeal.S128 EltTy.i32)
local notation "s3V" => (Memref.whole Cert.KernelIdeal.cc0_scratch3 : Memref Cert.KernelIdeal.sig Kind.scVector Space.vmem Cert.KernelIdeal.S128 EltTy.i32)
local notation "r0V" => (Memref.whole Cert.KernelIdeal.cc0_scratch4 : Memref Cert.KernelIdeal.sig Kind.scVector Space.vmem Cert.KernelIdeal.S128x128 EltTy.f32)
local notation "r1V" => (Memref.whole Cert.KernelIdeal.cc0_scratch5 : Memref Cert.KernelIdeal.sig Kind.scVector Space.vmem Cert.KernelIdeal.S128x128 EltTy.f32)
local notation "r2V" => (Memref.whole Cert.KernelIdeal.cc0_scratch6 : Memref Cert.KernelIdeal.sig Kind.scVector Space.vmem Cert.KernelIdeal.S128x128 EltTy.f32)
local notation "r3V" => (Memref.whole Cert.KernelIdeal.cc0_scratch7 : Memref Cert.KernelIdeal.sig Kind.scVector Space.vmem Cert.KernelIdeal.S128x128 EltTy.f32)

/-! ## Positions -/

/-- Position `k` of the chunk that starts at row `n`, as a position of the flattened index array: `n + k`. -/
abbrev chunkIdx (n : ℕ) (hn : n + 128 ≤ 204800) (k : Fin 128) : S204800.Idx := ix1 ⟨n + k.val, by omega⟩

/-- A whole rectangle places every index at itself. -/
theorem emb_whole (s : Shape) (y : (Rect.whole s).shape.Idx) : (Rect.whole s).emb y = y :=
  funext fun a => Fin.ext (by rw [Rect.emb_apply]; show 0 + 1 * (y a).val = (y a).val; omega)

/-- The rectangle of the whole table, from offset zero, places every index at itself. -/
theorem emb_tableAll (inb : ∀ a, (![0, 0] : Fin 2 → ℕ) a + S100000x128.size a ≤ S100000x128.size a) (z : S100000x128.Idx) :
    (Rect.unit (s := S100000x128) ![0, 0] S100000x128.size inb).emb z = z := by
  funext b; refine Fin.ext ?_
  rw [Rect.emb_apply]
  match b with
  | ⟨0, _⟩ => show 0 + 1 * (z 0).val = (z 0).val; omega
  | ⟨1, _⟩ => show 0 + 1 * (z 1).val = (z 1).val; omega

/-- Position `k` in row-major order of a list of 128 words is index `k`. -/
theorem rowMajor_symm_list (k : Fin S128.numel) (hk : k.val < 128) : S128.rowMajor.symm k = ix1 (⟨k.val, hk⟩ : Fin 128) :=
  (Equiv.symm_apply_eq _).mpr (Fin.ext (by
    have h := Shape.rowMajor_val_one (d := ![128]) (ix1 (⟨k.val, hk⟩ : Fin 128))
    exact h.symm))

/-! ## Buffers written whole -/

section Whole
variable {sg : RefSig} {κ : Kind} {sp : Space} {s : Shape} {e : EltTy} {Val : EltTy → Type}

/-- A buffer written once, whole, reads back as what was written. -/
theorem read_writes_whole (v : View sg κ sp s e) (f : v.ty.Contents Val) (w : (Rect.whole s).shape.Idx → Val e)
    (y : (Rect.whole s).shape.Idx) : v.read Val (v.writes Val f [⟨Rect.whole s, w⟩]) y = w y := by
  have h := View.read_writes_cons_emb v f (Rect.whole s) w [] y
  rwa [emb_whole] at h

/-- A buffer written once through the whole of a view is that view written unmasked: the whole rectangle places every
    index of the view at itself, so the two writes reach the same elements with the same values and leave the rest. -/
theorem writes_whole_eq_write (v : View sg κ sp s e) (f : v.ty.Contents Val) (w : (Rect.whole s).shape.Idx → Val e) :
    v.writes Val f [⟨Rect.whole s, w⟩] = v.write Val f w Finset.univ := by
  rw [View.writes_singleton]
  funext i
  by_cases hi : i ∈ v.set
  · obtain ⟨x, -, rfl⟩ := Finset.mem_map.mp hi
    have e1 : v.emb x = (v.slice (Rect.whole s)).emb x := by
      rw [View.emb_slice]
      show v.emb x = v.emb ((Rect.whole s).emb x)
      rw [emb_whole]
    conv_lhs => rw [e1, View.write_emb_of_mem _ _ (Finset.mem_univ _)]
    rw [View.write_emb_of_mem _ _ (Finset.mem_univ _)]
  · rw [View.write_of_not_mem _ _ _ (by rwa [View.setOn_univ, View.set_slice, Rect.set_whole]),
      View.write_of_not_mem _ _ _ (by rwa [View.setOn_univ])]

end Whole

/-! ## The three facts, for any list buffer and any row buffer

Positions are written with literal coordinates: `ix1 a` for position `a` of a list of 128 words, `ix2 a k` for entry
`k` of row `a` of a 128 × 128 row buffer. -/

section Values
variable (d : Dev nD)

/-- THE LIST AFTER THE COPY: position `a` holds word `n + a` of the flattened index array. -/
theorem listValue (sv : View sig Kind.scVector Space.vmem S128 EltTy.i32) (g : sv.ty.Contents (Elt F)) (fi : Buf (Elt F) (iLoc d))
    (n : ℕ) (hn : n + 128 ≤ 204800) (off : Fin 1 → ℕ) (hoff : off = ![n])
    (hinb : ∀ a, off a + S128.size a ≤ S204800.size a) (hs : ∀ a, (Rect.unit (s := S204800) off S128.size hinb).stride a = 1)
    (a : Fin 128) :
    View.read (Elt F) sv
        (View.write (Elt F) sv g
          (ReadAs.same.apply (View.read (Elt F) ((iV).slice (Rect.unit (s := S204800) off S128.size hinb) hs).view fi)) Finset.univ)
        (ix1 a)
      = fi (chunkIdx n hn a) := by
  subst hoff
  rw [View.read_write_univ]
  refine ((View.read_apply _ _).trans (cast_eq _ _)).trans (congrArg fi ?_)
  funext b; refine Fin.ext ?_
  match b with
  | ⟨0, _⟩ => show n + 1 * a.val = n + a.val; omega

/-- WHAT THE ROW FILL ASKS OF THE LIST: when every word of the index array names a table row, so does every word of a
    list that holds a chunk of it. -/
theorem hin_of_value (sv : View sig Kind.scVector Space.vmem S128 EltTy.i32) (g' : sv.ty.Contents (Elt F)) (fi : Buf (Elt F) (iLoc d))
    (n : ℕ) (hn : n + 128 ≤ 204800)
    (hval : ∀ a : Fin 128, View.read (Elt F) sv g' (ix1 a) = fi (chunkIdx n hn a))
    (hpre : ∀ j, (fi j).toNat < 100000) :
    ∀ x, BitVec.toNat (View.read (Elt F) sv g' x) < S100000x128.size gathers_S100000x128_S128x128.axis := fun x => by
  obtain ⟨a, rfl⟩ : ∃ a : Fin 128, x = ix1 a := ⟨x 0, ValueIdx.eq_ix1 x⟩
  exact (congrArg BitVec.toNat (hval a)).trans_lt (hpre _)

/-- THE ROW FILL'S PAYLOAD at `(a, k)`: entry `k` of the table row named by word `n + a` of the index array. -/
theorem gatherPayload_apply (sv : View sig Kind.scVector Space.vmem S128 EltTy.i32) (g' : sv.ty.Contents (Elt F))
    (fi : Buf (Elt F) (iLoc d)) (fx : Buf (Elt F) (xLoc d)) (n : ℕ) (hn : n + 128 ≤ 204800)
    (hs' : ∀ a, (Rect.unit (s := S100000x128) ![0, 0] S100000x128.size inb_S100000x128_S100000x128_0_0).stride a = 1)
    (hnn : S128.numel = S128x128.size gathers_S100000x128_S128x128.axis')
    (hin : ∀ x, BitVec.toNat (View.read (Elt F) sv g' x) < S100000x128.size gathers_S100000x128_S128x128.axis)
    (hval : ∀ a : Fin 128, View.read (Elt F) sv g' (ix1 a) = fi (chunkIdx n hn a))
    (hpre : ∀ j, (fi j).toNat < 100000) (a k : Fin 128) :
    SparseCore.gatherPayload gathers_S100000x128_S128x128
        (View.read (Elt F) ((xV).slice (Rect.unit ![0, 0] S100000x128.size inb_S100000x128_S100000x128_0_0) hs').view fx)
        (SparseCore.rows (View.read (Elt F) sv g') hnn hin) (ix2 a k)
      = fx (ix2 (Spec.rowOf (fi (chunkIdx n hn a))) k) := by
  unfold SparseCore.gatherPayload
  refine ((View.read_apply _ _).trans (cast_eq _ _)).trans (congrArg fx ?_)
  show (Rect.unit (s := S100000x128) ![0, 0] S100000x128.size inb_S100000x128_S100000x128_0_0).emb _ = _
  rw [emb_tableAll]
  funext b; refine Fin.ext ?_
  match b with
  | ⟨0, _⟩ =>
    have h1 : (gathers_S100000x128_S128x128.idx (SparseCore.rows (View.read (Elt F) sv g') hnn hin) (ix2 a k)
          gathers_S100000x128_S128x128.axis).val = (fi (chunkIdx n hn a)).toNat := by
      rw [Shape.Gathers.idx_axis]
      have e : S128.rowMajor.symm (Fin.cast hnn.symm ((ix2 a k : S128x128.Idx) gathers_S100000x128_S128x128.axis')) = ix1 a :=
        rowMajor_symm_list _ a.isLt
      exact (congrArg (fun z => (View.read (Elt F) sv g' z).toNat) e).trans (congrArg BitVec.toNat (hval a))
    exact h1.trans (Spec.rowOf_val_of_lt (hpre _)).symm
  | ⟨1, _⟩ =>
    exact Shape.Gathers.idx_of_ne gathers_S100000x128_S128x128 _ (ix2 a k) ⟨1, by decide⟩ (by decide)

/-- THE COPY-OUT'S PAYLOAD: the row buffer, written whole with the row fill's payload, read back. -/
theorem rowsPayload_apply (sv : View sig Kind.scVector Space.vmem S128 EltTy.i32) (rv : View sig Kind.scVector Space.vmem S128x128 EltTy.f32)
    (g' : sv.ty.Contents (Elt F)) (fr : rv.ty.Contents (Elt F))
    (fi : Buf (Elt F) (iLoc d)) (fx : Buf (Elt F) (xLoc d)) (n : ℕ) (hn : n + 128 ≤ 204800)
    (hs' : ∀ a, (Rect.unit (s := S100000x128) ![0, 0] S100000x128.size inb_S100000x128_S100000x128_0_0).stride a = 1)
    (hnn : S128.numel = S128x128.size gathers_S100000x128_S128x128.axis')
    (hin : ∀ x, BitVec.toNat (View.read (Elt F) sv g' x) < S100000x128.size gathers_S100000x128_S128x128.axis)
    (hval : ∀ a : Fin 128, View.read (Elt F) sv g' (ix1 a) = fi (chunkIdx n hn a))
    (hpre : ∀ j, (fi j).toNat < 100000) (a k : Fin 128) :
    ReadAs.same.apply (View.read (Elt F) rv (rv.writes (Elt F) fr
        [⟨Rect.whole S128x128, SparseCore.gatherPayload gathers_S100000x128_S128x128
            (View.read (Elt F) ((xV).slice (Rect.unit ![0, 0] S100000x128.size inb_S100000x128_S100000x128_0_0) hs').view fx)
            (SparseCore.rows (View.read (Elt F) sv g') hnn hin)⟩])) (ix2 a k)
      = fx (ix2 (Spec.rowOf (fi (chunkIdx n hn a))) k) :=
  (read_writes_whole rv fr _ (ix2 a k)).trans (gatherPayload_apply d sv g' fi fx n hn hs' hnn hin hval hpre a k)

/-- THE WINDOW AFTER THE COPY-OUT, for any payload that at `(a, k)` is entry `k` of the table row named by word `n + a`:
    on rows `n .. n + 127` the output array is the specification of the gathered rows. -/
theorem window_core (fi : Buf (Elt F) (iLoc d)) (fx : Buf (Elt F) (xLoc d)) (fo : Buf (Elt F) (oLoc d))
    (n : ℕ) (hn : n + 128 ≤ 204800) (off' : Fin 2 → ℕ) (hoff' : off' = ![n, 0])
    (hinb' : ∀ a, off' a + S128x128.size a ≤ S204800x128.size a)
    (hs'' : ∀ a, (Rect.unit (s := S204800x128) off' S128x128.size hinb').stride a = 1)
    (p : S128x128.Idx → Elt F EltTy.f32)
    (hp : ∀ a k : Fin 128, p (ix2 a k) = fx (ix2 (Spec.rowOf (fi (chunkIdx n hn a))) k)) :
    ∀ i ∈ ((oV).slice (Rect.unit (s := S204800x128) off' S128x128.size hinb') hs'').view.set,
      View.write (Elt F) ((oV).slice (Rect.unit (s := S204800x128) off' S128x128.size hinb') hs'').view fo p Finset.univ i
        = Spec.Gflat fi fx i := by
  subst hoff'
  intro i hi
  obtain ⟨r, c, rfl⟩ : ∃ (r : Fin 204800) (c : Fin 128), i = ix2 r c := ⟨i 0, i 1, eq_ix2 i⟩
  rw [show ((oV).slice (Rect.unit (s := S204800x128) ![n, 0] S128x128.size hinb') hs'').view.set
      = (Rect.unit (s := S204800x128) ![n, 0] S128x128.size hinb').set from View.set_slice_whole _ _, Rect.mem_set_unit] at hi
  have h0' := hi (0 : Fin 2)
  have h0 : n ≤ r.val ∧ r.val < n + 128 := h0'
  have hy : ((oV).slice (Rect.unit (s := S204800x128) ![n, 0] S128x128.size hinb') hs'').view.emb
      (ix2 (⟨r.val - n, by omega⟩ : Fin 128) c) = ix2 r c := by
    funext b; refine Fin.ext ?_
    match b with
    | ⟨0, _⟩ => show n + 1 * (r.val - n) = r.val; omega
    | ⟨1, _⟩ => show 0 + 1 * c.val = c.val; omega
  rw [← hy]
  refine (View.write_emb_of_mem _ _ (Finset.mem_univ _)).trans ((cast_eq _ _).trans ?_)
  rw [hp, hy, Spec.Gflat_apply]
  refine congrArg (fun q => fx (ix2 (Spec.rowOf (fi q)) c)) ?_
  funext b; refine Fin.ext ?_
  match b with
  | ⟨0, _⟩ => show n + (r.val - n) = r.val; omega

end Values

/-! ## The window after the copy-out, with the body's own payload -/

section Window
variable (d : Dev nD)

/-- THE WINDOW AFTER THE COPY-OUT: with the row buffer filled from a list that holds words `n .. n + 127` of an index
    array all of whose words name table rows, rows `n .. n + 127` of the output array are the specification's. -/
theorem windowValue (sv : View sig Kind.scVector Space.vmem S128 EltTy.i32) (rv : View sig Kind.scVector Space.vmem S128x128 EltTy.f32)
    (g' : sv.ty.Contents (Elt F)) (fr : rv.ty.Contents (Elt F))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : S128.numel = S128x128.size gathers_S100000x128_S128x128.axis')
    (hin : ∀ x, BitVec.toNat (View.read (Elt F) sv g' x) < S100000x128.size gathers_S100000x128_S128x128.axis)
    (hval : ∀ a : Fin 128, View.read (Elt F) sv g' (ix1 a) = fi (chunkIdx n hn a))
    (hpre : ∀ j, (fi j).toNat < 100000) :
    ∀ i ∈ ((oV).slice (Rect.unit (s := S204800x128) off' S128x128.size hinb') hs'').view.set,
      View.write (Elt F) ((oV).slice (Rect.unit (s := S204800x128) off' S128x128.size hinb') hs'').view fo
          (ReadAs.same.apply (View.read (Elt F) rv (rv.writes (Elt F) fr
            [⟨Rect.whole S128x128, SparseCore.gatherPayload gathers_S100000x128_S128x128
                (View.read (Elt F) ((xV).slice (Rect.unit ![0, 0] S100000x128.size inb_S100000x128_S100000x128_0_0) hs').view fx)
                (SparseCore.rows (View.read (Elt F) sv g') hnn hin)⟩]))) Finset.univ i
        = Spec.Gflat fi fx i :=
  window_core d fi fx fo n hn off' hoff' hinb' hs'' _ (rowsPayload_apply d sv rv g' fr fi fx n hn hs' hnn hin hval hpre)

/-- The same core fact with the window's contents stated as one whole-rectangle piece written through the window. -/
theorem window_coreW (fi : Buf (Elt F) (iLoc d)) (fx : Buf (Elt F) (xLoc d)) (fo : Buf (Elt F) (oLoc d))
    (n : ℕ) (hn : n + 128 ≤ 204800) (off' : Fin 2 → ℕ) (hoff' : off' = ![n, 0])
    (hinb' : ∀ a, off' a + S128x128.size a ≤ S204800x128.size a)
    (hs'' : ∀ a, (Rect.unit (s := S204800x128) off' S128x128.size hinb').stride a = 1)
    (p : S128x128.Idx → Elt F EltTy.f32)
    (hp : ∀ a k : Fin 128, p (ix2 a k) = fx (ix2 (Spec.rowOf (fi (chunkIdx n hn a))) k)) :
    ∀ i ∈ ((oV).slice (Rect.unit (s := S204800x128) off' S128x128.size hinb') hs'').view.set,
      ((oV).slice (Rect.unit (s := S204800x128) off' S128x128.size hinb') hs'').view.writes (Elt F) fo
          [⟨Rect.whole S128x128, p⟩] i
        = Spec.Gflat fi fx i := fun i hi =>
  (congrFun (writes_whole_eq_write ((oV).slice (Rect.unit (s := S204800x128) off' S128x128.size hinb') hs'').view fo p) i).trans
    (window_core d fi fx fo n hn off' hoff' hinb' hs'' p hp i hi)

/-- The window after the copy-out, its contents stated as one whole-rectangle piece, with the body's own payload. -/
theorem windowValueW (sv : View sig Kind.scVector Space.vmem S128 EltTy.i32) (rv : View sig Kind.scVector Space.vmem S128x128 EltTy.f32)
    (g' : sv.ty.Contents (Elt F)) (fr : rv.ty.Contents (Elt F))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : S128.numel = S128x128.size gathers_S100000x128_S128x128.axis')
    (hin : ∀ x, BitVec.toNat (View.read (Elt F) sv g' x) < S100000x128.size gathers_S100000x128_S128x128.axis)
    (hval : ∀ a : Fin 128, View.read (Elt F) sv g' (ix1 a) = fi (chunkIdx n hn a))
    (hpre : ∀ j, (fi j).toNat < 100000) :
    ∀ i ∈ ((oV).slice (Rect.unit (s := S204800x128) off' S128x128.size hinb') hs'').view.set,
      ((oV).slice (Rect.unit (s := S204800x128) off' S128x128.size hinb') hs'').view.writes (Elt F) fo
          [⟨Rect.whole S128x128, ReadAs.same.apply (View.read (Elt F) rv (rv.writes (Elt F) fr
            [⟨Rect.whole S128x128, SparseCore.gatherPayload gathers_S100000x128_S128x128
                (View.read (Elt F) ((xV).slice (Rect.unit ![0, 0] S100000x128.size inb_S100000x128_S100000x128_0_0) hs').view fx)
                (SparseCore.rows (View.read (Elt F) sv g') hnn hin)⟩]))⟩] i
        = Spec.Gflat fi fx i :=
  window_coreW d fi fx fo n hn off' hoff' hinb' hs'' _ (rowsPayload_apply d sv rv g' fr fi fx n hn hs' hnn hin hval hpre)

end Window

/-! ## The same, slot by slot

Slot `j` uses list buffer `j` and row buffer `j`; the statements are the ones above at those buffers. -/

section Slots
variable (d : Dev nD) (L : grid0.Coords)

/-- Slot 0: the list after the copy. -/
theorem listValue_0 (g : Buf (Elt F) ((V d (cV L) (jV L)).loc cc0_scratch0)) (fi : Buf (Elt F) (iLoc d))
    (n : ℕ) (hn : n + 128 ≤ 204800) (off : Fin 1 → ℕ) (hoff : off = ![n])
    (hinb : ∀ a, off a + S128.size a ≤ S204800.size a) (hs : ∀ a, (Rect.unit (s := S204800) off S128.size hinb).stride a = 1)
    (a : Fin 128) :
    View.read (Elt F) (s0V).view
        (View.write (Elt F) (s0V).view g
          (ReadAs.same.apply (View.read (Elt F) ((iV).slice (Rect.unit (s := S204800) off S128.size hinb) hs).view fi)) Finset.univ)
        (ix1 a)
      = fi (chunkIdx n hn a) :=
  listValue d (s0V).view g fi n hn off hoff hinb hs a

/-- Slot 0: what the row fill asks of the list. -/
theorem hin_of_value_0 (g' : Buf (Elt F) ((V d (cV L) (jV L)).loc cc0_scratch0)) (fi : Buf (Elt F) (iLoc d))
    (n : ℕ) (hn : n + 128 ≤ 204800)
    (hval : ∀ a : Fin 128, View.read (Elt F) (s0V).view g' (ix1 a) = fi (chunkIdx n hn a))
    (hpre : ∀ j, (fi j).toNat < 100000) :
    ∀ x, BitVec.toNat (View.read (Elt F) (s0V).view g' x) < S100000x128.size gathers_S100000x128_S128x128.axis :=
  hin_of_value d (s0V).view g' fi n hn hval hpre

/-- Slot 0: the window after the copy-out. -/
theorem windowValue_0 (g' : Buf (Elt F) ((V d (cV L) (jV L)).loc cc0_scratch0)) (fr : Buf (Elt F) ((V d (cV L) (jV L)).loc cc0_scratch4))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : cc0_scratch0.ty.shape.numel = S128x128.size gathers_S100000x128_S128x128.axis')
    (hin : ∀ x, BitVec.toNat (View.read (Elt F) (s0V).view g' x) < S100000x128.size gathers_S100000x128_S128x128.axis)
    (hval : ∀ a : Fin 128, View.read (Elt F) (s0V).view g' (ix1 a) = fi (chunkIdx n hn a))
    (hpre : ∀ j, (fi j).toNat < 100000) :
    ∀ i ∈ ((oV).slice (Rect.unit (s := S204800x128) off' S128x128.size hinb') hs'').view.set,
      View.write (Elt F) ((oV).slice (Rect.unit (s := S204800x128) off' S128x128.size hinb') hs'').view fo
          (ReadAs.same.apply (View.read (Elt F) (r0V).view ((r0V).view.writes (Elt F) fr
            [⟨Rect.whole cc0_scratch4.ty.shape, SparseCore.gatherPayload gathers_S100000x128_S128x128
                (View.read (Elt F) ((xV).slice (Rect.unit ![0, 0] S100000x128.size inb_S100000x128_S100000x128_0_0) hs').view fx)
                (SparseCore.rows (View.read (Elt F) (s0V).view g') hnn hin)⟩]))) Finset.univ i
        = Spec.Gflat fi fx i :=
  windowValue d (s0V).view (r0V).view g' fr fi fx fo n hn off' hoff' hinb' hs'' hs' hnn hin hval hpre

/-- Slot 1: the list after the copy. -/
theorem listValue_1 (g : Buf (Elt F) ((V d (cV L) (jV L)).loc cc0_scratch1)) (fi : Buf (Elt F) (iLoc d))
    (n : ℕ) (hn : n + 128 ≤ 204800) (off : Fin 1 → ℕ) (hoff : off = ![n])
    (hinb : ∀ a, off a + S128.size a ≤ S204800.size a) (hs : ∀ a, (Rect.unit (s := S204800) off S128.size hinb).stride a = 1)
    (a : Fin 128) :
    View.read (Elt F) (s1V).view
        (View.write (Elt F) (s1V).view g
          (ReadAs.same.apply (View.read (Elt F) ((iV).slice (Rect.unit (s := S204800) off S128.size hinb) hs).view fi)) Finset.univ)
        (ix1 a)
      = fi (chunkIdx n hn a) :=
  listValue d (s1V).view g fi n hn off hoff hinb hs a

/-- Slot 1: what the row fill asks of the list. -/
theorem hin_of_value_1 (g' : Buf (Elt F) ((V d (cV L) (jV L)).loc cc0_scratch1)) (fi : Buf (Elt F) (iLoc d))
    (n : ℕ) (hn : n + 128 ≤ 204800)
    (hval : ∀ a : Fin 128, View.read (Elt F) (s1V).view g' (ix1 a) = fi (chunkIdx n hn a))
    (hpre : ∀ j, (fi j).toNat < 100000) :
    ∀ x, BitVec.toNat (View.read (Elt F) (s1V).view g' x) < S100000x128.size gathers_S100000x128_S128x128.axis :=
  hin_of_value d (s1V).view g' fi n hn hval hpre

/-- Slot 1: the window after the copy-out. -/
theorem windowValue_1 (g' : Buf (Elt F) ((V d (cV L) (jV L)).loc cc0_scratch1)) (fr : Buf (Elt F) ((V d (cV L) (jV L)).loc cc0_scratch5))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : cc0_scratch1.ty.shape.numel = S128x128.size gathers_S100000x128_S128x128.axis')
    (hin : ∀ x, BitVec.toNat (View.read (Elt F) (s1V).view g' x) < S100000x128.size gathers_S100000x128_S128x128.axis)
    (hval : ∀ a : Fin 128, View.read (Elt F) (s1V).view g' (ix1 a) = fi (chunkIdx n hn a))
    (hpre : ∀ j, (fi j).toNat < 100000) :
    ∀ i ∈ ((oV).slice (Rect.unit (s := S204800x128) off' S128x128.size hinb') hs'').view.set,
      View.write (Elt F) ((oV).slice (Rect.unit (s := S204800x128) off' S128x128.size hinb') hs'').view fo
          (ReadAs.same.apply (View.read (Elt F) (r1V).view ((r1V).view.writes (Elt F) fr
            [⟨Rect.whole cc0_scratch5.ty.shape, SparseCore.gatherPayload gathers_S100000x128_S128x128
                (View.read (Elt F) ((xV).slice (Rect.unit ![0, 0] S100000x128.size inb_S100000x128_S100000x128_0_0) hs').view fx)
                (SparseCore.rows (View.read (Elt F) (s1V).view g') hnn hin)⟩]))) Finset.univ i
        = Spec.Gflat fi fx i :=
  windowValue d (s1V).view (r1V).view g' fr fi fx fo n hn off' hoff' hinb' hs'' hs' hnn hin hval hpre

/-- Slot 2: the list after the copy. -/
theorem listValue_2 (g : Buf (Elt F) ((V d (cV L) (jV L)).loc cc0_scratch2)) (fi : Buf (Elt F) (iLoc d))
    (n : ℕ) (hn : n + 128 ≤ 204800) (off : Fin 1 → ℕ) (hoff : off = ![n])
    (hinb : ∀ a, off a + S128.size a ≤ S204800.size a) (hs : ∀ a, (Rect.unit (s := S204800) off S128.size hinb).stride a = 1)
    (a : Fin 128) :
    View.read (Elt F) (s2V).view
        (View.write (Elt F) (s2V).view g
          (ReadAs.same.apply (View.read (Elt F) ((iV).slice (Rect.unit (s := S204800) off S128.size hinb) hs).view fi)) Finset.univ)
        (ix1 a)
      = fi (chunkIdx n hn a) :=
  listValue d (s2V).view g fi n hn off hoff hinb hs a

/-- Slot 2: what the row fill asks of the list. -/
theorem hin_of_value_2 (g' : Buf (Elt F) ((V d (cV L) (jV L)).loc cc0_scratch2)) (fi : Buf (Elt F) (iLoc d))
    (n : ℕ) (hn : n + 128 ≤ 204800)
    (hval : ∀ a : Fin 128, View.read (Elt F) (s2V).view g' (ix1 a) = fi (chunkIdx n hn a))
    (hpre : ∀ j, (fi j).toNat < 100000) :
    ∀ x, BitVec.toNat (View.read (Elt F) (s2V).view g' x) < S100000x128.size gathers_S100000x128_S128x128.axis :=
  hin_of_value d (s2V).view g' fi n hn hval hpre

/-- Slot 2: the window after the copy-out. -/
theorem windowValue_2 (g' : Buf (Elt F) ((V d (cV L) (jV L)).loc cc0_scratch2)) (fr : Buf (Elt F) ((V d (cV L) (jV L)).loc cc0_scratch6))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : cc0_scratch2.ty.shape.numel = S128x128.size gathers_S100000x128_S128x128.axis')
    (hin : ∀ x, BitVec.toNat (View.read (Elt F) (s2V).view g' x) < S100000x128.size gathers_S100000x128_S128x128.axis)
    (hval : ∀ a : Fin 128, View.read (Elt F) (s2V).view g' (ix1 a) = fi (chunkIdx n hn a))
    (hpre : ∀ j, (fi j).toNat < 100000) :
    ∀ i ∈ ((oV).slice (Rect.unit (s := S204800x128) off' S128x128.size hinb') hs'').view.set,
      View.write (Elt F) ((oV).slice (Rect.unit (s := S204800x128) off' S128x128.size hinb') hs'').view fo
          (ReadAs.same.apply (View.read (Elt F) (r2V).view ((r2V).view.writes (Elt F) fr
            [⟨Rect.whole cc0_scratch6.ty.shape, SparseCore.gatherPayload gathers_S100000x128_S128x128
                (View.read (Elt F) ((xV).slice (Rect.unit ![0, 0] S100000x128.size inb_S100000x128_S100000x128_0_0) hs').view fx)
                (SparseCore.rows (View.read (Elt F) (s2V).view g') hnn hin)⟩]))) Finset.univ i
        = Spec.Gflat fi fx i :=
  windowValue d (s2V).view (r2V).view g' fr fi fx fo n hn off' hoff' hinb' hs'' hs' hnn hin hval hpre

/-- Slot 3: the list after the copy. -/
theorem listValue_3 (g : Buf (Elt F) ((V d (cV L) (jV L)).loc cc0_scratch3)) (fi : Buf (Elt F) (iLoc d))
    (n : ℕ) (hn : n + 128 ≤ 204800) (off : Fin 1 → ℕ) (hoff : off = ![n])
    (hinb : ∀ a, off a + S128.size a ≤ S204800.size a) (hs : ∀ a, (Rect.unit (s := S204800) off S128.size hinb).stride a = 1)
    (a : Fin 128) :
    View.read (Elt F) (s3V).view
        (View.write (Elt F) (s3V).view g
          (ReadAs.same.apply (View.read (Elt F) ((iV).slice (Rect.unit (s := S204800) off S128.size hinb) hs).view fi)) Finset.univ)
        (ix1 a)
      = fi (chunkIdx n hn a) :=
  listValue d (s3V).view g fi n hn off hoff hinb hs a

/-- Slot 3: what the row fill asks of the list. -/
theorem hin_of_value_3 (g' : Buf (Elt F) ((V d (cV L) (jV L)).loc cc0_scratch3)) (fi : Buf (Elt F) (iLoc d))
    (n : ℕ) (hn : n + 128 ≤ 204800)
    (hval : ∀ a : Fin 128, View.read (Elt F) (s3V).view g' (ix1 a) = fi (chunkIdx n hn a))
    (hpre : ∀ j, (fi j).toNat < 100000) :
    ∀ x, BitVec.toNat (View.read (Elt F) (s3V).view g' x) < S100000x128.size gathers_S100000x128_S128x128.axis :=
  hin_of_value d (s3V).view g' fi n hn hval hpre

/-- Slot 3: the window after the copy-out. -/
theorem windowValue_3 (g' : Buf (Elt F) ((V d (cV L) (jV L)).loc cc0_scratch3)) (fr : Buf (Elt F) ((V d (cV L) (jV L)).loc cc0_scratch7))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : cc0_scratch3.ty.shape.numel = S128x128.size gathers_S100000x128_S128x128.axis')
    (hin : ∀ x, BitVec.toNat (View.read (Elt F) (s3V).view g' x) < S100000x128.size gathers_S100000x128_S128x128.axis)
    (hval : ∀ a : Fin 128, View.read (Elt F) (s3V).view g' (ix1 a) = fi (chunkIdx n hn a))
    (hpre : ∀ j, (fi j).toNat < 100000) :
    ∀ i ∈ ((oV).slice (Rect.unit (s := S204800x128) off' S128x128.size hinb') hs'').view.set,
      View.write (Elt F) ((oV).slice (Rect.unit (s := S204800x128) off' S128x128.size hinb') hs'').view fo
          (ReadAs.same.apply (View.read (Elt F) (r3V).view ((r3V).view.writes (Elt F) fr
            [⟨Rect.whole cc0_scratch7.ty.shape, SparseCore.gatherPayload gathers_S100000x128_S128x128
                (View.read (Elt F) ((xV).slice (Rect.unit ![0, 0] S100000x128.size inb_S100000x128_S100000x128_0_0) hs').view fx)
                (SparseCore.rows (View.read (Elt F) (s3V).view g') hnn hin)⟩]))) Finset.univ i
        = Spec.Gflat fi fx i :=
  windowValue d (s3V).view (r3V).view g' fr fi fx fo n hn off' hoff' hinb' hs'' hs' hnn hin hval hpre

/-- Slot 0: the window after the copy-out, its contents stated as one whole-rectangle piece. -/
theorem windowValueW_0 (g' : Buf (Elt F) ((V d (cV L) (jV L)).loc cc0_scratch0)) (fr : Buf (Elt F) ((V d (cV L) (jV L)).loc cc0_scratch4))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : cc0_scratch0.ty.shape.numel = S128x128.size gathers_S100000x128_S128x128.axis')
    (hin : ∀ x, BitVec.toNat (View.read (Elt F) (s0V).view g' x) < S100000x128.size gathers_S100000x128_S128x128.axis)
    (hval : ∀ a : Fin 128, View.read (Elt F) (s0V).view g' (ix1 a) = fi (chunkIdx n hn a))
    (hpre : ∀ j, (fi j).toNat < 100000) :
    ∀ i ∈ ((oV).slice (Rect.unit (s := S204800x128) off' S128x128.size hinb') hs'').view.set,
      ((oV).slice (Rect.unit (s := S204800x128) off' S128x128.size hinb') hs'').view.writes (Elt F) fo
          [⟨Rect.whole S128x128, ReadAs.same.apply (View.read (Elt F) (r0V).view ((r0V).view.writes (Elt F) fr
            [⟨Rect.whole cc0_scratch4.ty.shape, SparseCore.gatherPayload gathers_S100000x128_S128x128
                (View.read (Elt F) ((xV).slice (Rect.unit ![0, 0] S100000x128.size inb_S100000x128_S100000x128_0_0) hs').view fx)
                (SparseCore.rows (View.read (Elt F) (s0V).view g') hnn hin)⟩]))⟩] i
        = Spec.Gflat fi fx i :=
  windowValueW d (s0V).view (r0V).view g' fr fi fx fo n hn off' hoff' hinb' hs'' hs' hnn hin hval hpre

/-- Slot 1: the window after the copy-out, its contents stated as one whole-rectangle piece. -/
theorem windowValueW_1 (g' : Buf (Elt F) ((V d (cV L) (jV L)).loc cc0_scratch1)) (fr : Buf (Elt F) ((V d (cV L) (jV L)).loc cc0_scratch5))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : cc0_scratch1.ty.shape.numel = S128x128.size gathers_S100000x128_S128x128.axis')
    (hin : ∀ x, BitVec.toNat (View.read (Elt F) (s1V).view g' x) < S100000x128.size gathers_S100000x128_S128x128.axis)
    (hval : ∀ a : Fin 128, View.read (Elt F) (s1V).view g' (ix1 a) = fi (chunkIdx n hn a))
    (hpre : ∀ j, (fi j).toNat < 100000) :
    ∀ i ∈ ((oV).slice (Rect.unit (s := S204800x128) off' S128x128.size hinb') hs'').view.set,
      ((oV).slice (Rect.unit (s := S204800x128) off' S128x128.size hinb') hs'').view.writes (Elt F) fo
          [⟨Rect.whole S128x128, ReadAs.same.apply (View.read (Elt F) (r1V).view ((r1V).view.writes (Elt F) fr
            [⟨Rect.whole cc0_scratch5.ty.shape, SparseCore.gatherPayload gathers_S100000x128_S128x128
                (View.read (Elt F) ((xV).slice (Rect.unit ![0, 0] S100000x128.size inb_S100000x128_S100000x128_0_0) hs').view fx)
                (SparseCore.rows (View.read (Elt F) (s1V).view g') hnn hin)⟩]))⟩] i
        = Spec.Gflat fi fx i :=
  windowValueW d (s1V).view (r1V).view g' fr fi fx fo n hn off' hoff' hinb' hs'' hs' hnn hin hval hpre

/-- Slot 2: the window after the copy-out, its contents stated as one whole-rectangle piece. -/
theorem windowValueW_2 (g' : Buf (Elt F) ((V d (cV L) (jV L)).loc cc0_scratch2)) (fr : Buf (Elt F) ((V d (cV L) (jV L)).loc cc0_scratch6))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : cc0_scratch2.ty.shape.numel = S128x128.size gathers_S100000x128_S128x128.axis')
    (hin : ∀ x, BitVec.toNat (View.read (Elt F) (s2V).view g' x) < S100000x128.size gathers_S100000x128_S128x128.axis)
    (hval : ∀ a : Fin 128, View.read (Elt F) (s2V).view g' (ix1 a) = fi (chunkIdx n hn a))
    (hpre : ∀ j, (fi j).toNat < 100000) :
    ∀ i ∈ ((oV).slice (Rect.unit (s := S204800x128) off' S128x128.size hinb') hs'').view.set,
      ((oV).slice (Rect.unit (s := S204800x128) off' S128x128.size hinb') hs'').view.writes (Elt F) fo
          [⟨Rect.whole S128x128, ReadAs.same.apply (View.read (Elt F) (r2V).view ((r2V).view.writes (Elt F) fr
            [⟨Rect.whole cc0_scratch6.ty.shape, SparseCore.gatherPayload gathers_S100000x128_S128x128
                (View.read (Elt F) ((xV).slice (Rect.unit ![0, 0] S100000x128.size inb_S100000x128_S100000x128_0_0) hs').view fx)
                (SparseCore.rows (View.read (Elt F) (s2V).view g') hnn hin)⟩]))⟩] i
        = Spec.Gflat fi fx i :=
  windowValueW d (s2V).view (r2V).view g' fr fi fx fo n hn off' hoff' hinb' hs'' hs' hnn hin hval hpre

/-- Slot 3: the window after the copy-out, its contents stated as one whole-rectangle piece. -/
theorem windowValueW_3 (g' : Buf (Elt F) ((V d (cV L) (jV L)).loc cc0_scratch3)) (fr : Buf (Elt F) ((V d (cV L) (jV L)).loc cc0_scratch7))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : cc0_scratch3.ty.shape.numel = S128x128.size gathers_S100000x128_S128x128.axis')
    (hin : ∀ x, BitVec.toNat (View.read (Elt F) (s3V).view g' x) < S100000x128.size gathers_S100000x128_S128x128.axis)
    (hval : ∀ a : Fin 128, View.read (Elt F) (s3V).view g' (ix1 a) = fi (chunkIdx n hn a))
    (hpre : ∀ j, (fi j).toNat < 100000) :
    ∀ i ∈ ((oV).slice (Rect.unit (s := S204800x128) off' S128x128.size hinb') hs'').view.set,
      ((oV).slice (Rect.unit (s := S204800x128) off' S128x128.size hinb') hs'').view.writes (Elt F) fo
          [⟨Rect.whole S128x128, ReadAs.same.apply (View.read (Elt F) (r3V).view ((r3V).view.writes (Elt F) fr
            [⟨Rect.whole cc0_scratch7.ty.shape, SparseCore.gatherPayload gathers_S100000x128_S128x128
                (View.read (Elt F) ((xV).slice (Rect.unit ![0, 0] S100000x128.size inb_S100000x128_S100000x128_0_0) hs').view fx)
                (SparseCore.rows (View.read (Elt F) (s3V).view g') hnn hin)⟩]))⟩] i
        = Spec.Gflat fi fx i :=
  windowValueW d (s3V).view (r3V).view g' fr fi fx fo n hn off' hoff' hinb' hs'' hs' hnn hin hval hpre

end Slots

end Cert.Proof.KI

end
-- ==== Proof.KIBody.lean ====
/-
  The lookup kernel's body on one vector subcore, for any contents of the three arrays whose index words all name
  table rows.

  The worker owns 6400 consecutive words of the flattened index array and the same 6400 rows of the output array, in
  50 chunks of 128. It works through four slots; slot j has an index list (128 words), a row buffer (128 rows) and three
  copy semaphores of its own: one for the fetch of a chunk's words into the list, one for the gather of the table rows
  the list names into the row buffer, one for the write-out of the row buffer over the chunk's rows of the output array.
  No semaphore ever has two copies outstanding, and no buffer is read or written between the start of a copy that
  touches it and the wait for that copy: the list is refilled only after its gather has been awaited, the row buffer
  is refilled only after its write-out has been awaited.

  Before the loop the first four fetches are started. Trip t of the twelve handles chunks 4t .. 4t+3: per slot it
  awaits the previous trip's write-out (none in the first trip) and the fetch, starts the gather; then per slot awaits
  the gather, starts the write-out, and starts the fetch of chunk 4(t+1)+j while such a chunk exists (in the last trip
  only for slots 0 and 1: chunks 48 and 49). After the loop chunks 48 and 49 go the same way on slots 0 and 1, and the
  four write-outs still in flight are awaited.

  The loop's invariant, before trip k, says per slot which copy is in flight and what it will land: the fetch of chunk
  4k+j lands the chunk's words in the list; the write-out of trip k-1's chunk lands, on that chunk, the gathered rows
  (the table row named by each word). The chunks of earlier trips hold the gathered rows, those of later trips their
  launch contents. A landed list names rows in range because every index word does; the gathered rows are then the
  specification's function of the index array and the table, chunk by chunk, and the chunks cover the worker's rows.
-/
import proofs.«206846_g4063039062876_cont_8to1_b_342_28_alg».proof.Proof.KISetup
import proofs.«206846_g4063039062876_cont_8to1_b_342_28_alg».proof.Proof.KIGeom
import proofs.«206846_g4063039062876_cont_8to1_b_342_28_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
local notation "iV" => (Memref.whole Cert.KernelIdeal.main_v1_scv : Memref Cert.KernelIdeal.sig Kind.scVector Space.hbm Cert.KernelIdeal.S204800 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S204800x128 EltTy.f32)
local notation "s0V" => (Memref.whole Cert.KernelIdeal.cc0_scratch0 : Memref Cert.KernelIdeal.sig Kind.scVector Space.vmem Cert.KernelIdeal.S128 EltTy.i32)
local notation "s1V" => (Memref.whole Cert.KernelIdeal.cc0_scratch1 : Memref Cert.KernelIdeal.sig Kind.scVector Space.vmem Cert.KernelIdeal.S128 EltTy.i32)
local notation "s2V" => (Memref.whole Cert.KernelIdeal.cc0_scratch2 : Memref Cert.KernelIdeal.sig Kind.scVector Space.vmem Cert.KernelIdeal.S128 EltTy.i32)
local notation "s3V" => (Memref.whole Cert.KernelIdeal.cc0_scratch3 : Memref Cert.KernelIdeal.sig Kind.scVector Space.vmem Cert.KernelIdeal.S128 EltTy.i32)
local notation "r0V" => (Memref.whole Cert.KernelIdeal.cc0_scratch4 : Memref Cert.KernelIdeal.sig Kind.scVector Space.vmem Cert.KernelIdeal.S128x128 EltTy.f32)
local notation "r1V" => (Memref.whole Cert.KernelIdeal.cc0_scratch5 : Memref Cert.KernelIdeal.sig Kind.scVector Space.vmem Cert.KernelIdeal.S128x128 EltTy.f32)
local notation "r2V" => (Memref.whole Cert.KernelIdeal.cc0_scratch6 : Memref Cert.KernelIdeal.sig Kind.scVector Space.vmem Cert.KernelIdeal.S128x128 EltTy.f32)
local notation "r3V" => (Memref.whole Cert.KernelIdeal.cc0_scratch7 : Memref Cert.KernelIdeal.sig Kind.scVector Space.vmem Cert.KernelIdeal.S128x128 EltTy.f32)

open Idealize.ShloMosaic.ValueIdx

/-! ## The trip's conditions and the chunks' offsets, decided once -/

/-- In the first trip no write-out is awaited; every trip but the last refills all four index lists, the last only the
    first two (chunks 48 and 49). -/
theorem conds_first : ∀ t : Fin k0_t1_loop.trips, t.val = 0 →
    (¬ k0_cond1 t = 1#1) ∧ (¬ k0_cond2 t = 1#1) ∧ (¬ k0_cond3 t = 1#1) ∧ (¬ k0_cond4 t = 1#1)
    ∧ k0_cond5 t = 1#1 ∧ k0_cond6 t = 1#1 ∧ k0_cond7 t = 1#1 ∧ k0_cond8 t = 1#1 := by decide
theorem conds_mid : ∀ t : Fin k0_t1_loop.trips, 0 < t.val → t.val < 11 →
    k0_cond1 t = 1#1 ∧ k0_cond2 t = 1#1 ∧ k0_cond3 t = 1#1 ∧ k0_cond4 t = 1#1
    ∧ k0_cond5 t = 1#1 ∧ k0_cond6 t = 1#1 ∧ k0_cond7 t = 1#1 ∧ k0_cond8 t = 1#1 := by decide
theorem conds_last : ∀ t : Fin k0_t1_loop.trips, t.val = 11 →
    k0_cond1 t = 1#1 ∧ k0_cond2 t = 1#1 ∧ k0_cond3 t = 1#1 ∧ k0_cond4 t = 1#1
    ∧ k0_cond5 t = 1#1 ∧ k0_cond6 t = 1#1 ∧ (¬ k0_cond7 t = 1#1) ∧ (¬ k0_cond8 t = 1#1) := by decide

/-- The offsets of the six index chunks fetched outside the loop (chunks 0..3 before it, 48 and 49 awaited after). -/
theorem k0_off1_eq : ∀ (L : grid0.Coords) (r : Fin 6), k0_off1 L (k0_off1_at r) = ![nb L + 128 * (if r.val < 4 then r.val else 44 + r.val)] := by
  unfold nb; decide +kernel

theorem chunk_le (L : grid0.Coords) (c : ℕ) (hc : c < 50) : nb L + 128 * c + 128 ≤ 204800 := by
  have := nb_le L; omega

/-! ## The chunks' offsets in terms of the worker's first row -/

theorem off8_eq (L : grid0.Coords) (k : Fin k0_t1_loop.trips) : k0_off8 L k = ![nb L + 128 * (4 * (k.val + 1) + 0)] :=
  (k0_off8_eq L k).trans (congrArg (fun n : ℕ => (![n] : Fin 1 → ℕ)) (by unfold nb; omega))
theorem off9_eq (L : grid0.Coords) (k : Fin k0_t1_loop.trips) : k0_off9 L k = ![nb L + 128 * (4 * (k.val + 1) + 1)] :=
  (k0_off9_eq L k).trans (congrArg (fun n : ℕ => (![n] : Fin 1 → ℕ)) (by unfold nb; omega))
theorem off10_eq (L : grid0.Coords) (k : Fin k0_t1_loop.trips) : k0_off10 L k = ![nb L + 128 * (4 * (k.val + 1) + 2)] :=
  (k0_off10_eq L k).trans (congrArg (fun n : ℕ => (![n] : Fin 1 → ℕ)) (by unfold nb; omega))
theorem off11_eq (L : grid0.Coords) (k : Fin k0_t1_loop.trips) : k0_off11 L k = ![nb L + 128 * (4 * (k.val + 1) + 3)] :=
  (k0_off11_eq L k).trans (congrArg (fun n : ℕ => (![n] : Fin 1 → ℕ)) (by unfold nb; omega))
theorem off7_eq0 (L : grid0.Coords) (k : Fin k0_t1_loop.trips) : k0_off7 L k 0#32 = ![nb L + 128 * (4 * k.val + 0), 0] :=
  (k0_off7_eq L k 0).trans (congrArg (fun n : ℕ => (![n, 0] : Fin 2 → ℕ)) (by unfold nb; simp only [Fin.isValue]; omega))
theorem off7_eq1 (L : grid0.Coords) (k : Fin k0_t1_loop.trips) : k0_off7 L k 1#32 = ![nb L + 128 * (4 * k.val + 1), 0] :=
  (k0_off7_eq L k 1).trans (congrArg (fun n : ℕ => (![n, 0] : Fin 2 → ℕ)) (by unfold nb; simp only [Fin.isValue]; omega))
theorem off7_eq2 (L : grid0.Coords) (k : Fin k0_t1_loop.trips) : k0_off7 L k 2#32 = ![nb L + 128 * (4 * k.val + 2), 0] :=
  (k0_off7_eq L k 2).trans (congrArg (fun n : ℕ => (![n, 0] : Fin 2 → ℕ)) (by unfold nb; simp only [Fin.isValue]; omega))
theorem off7_eq3 (L : grid0.Coords) (k : Fin k0_t1_loop.trips) : k0_off7 L k 3#32 = ![nb L + 128 * (4 * k.val + 3), 0] :=
  (k0_off7_eq L k 3).trans (congrArg (fun n : ℕ => (![n, 0] : Fin 2 → ℕ)) (by unfold nb; simp only [Fin.isValue]; omega))
theorem off12_eq0 (L : grid0.Coords) : k0_off12 L 6144#32 = ![nb L + 128 * 48, 0] :=
  (k0_off12_eq L 0).trans (congrArg (fun n : ℕ => (![n, 0] : Fin 2 → ℕ)) (by unfold nb; simp only [Fin.isValue]; omega))
theorem off12_eq1 (L : grid0.Coords) : k0_off12 L 6272#32 = ![nb L + 128 * 49, 0] :=
  (k0_off12_eq L 1).trans (congrArg (fun n : ℕ => (![n, 0] : Fin 2 → ℕ)) (by unfold nb; simp only [Fin.isValue]; omega))
theorem off1_eq0 : ∀ L : grid0.Coords, k0_off1 L 0#32 = ![nb L + 128 * 0] := by unfold nb; decide +kernel
theorem off1_eq1 : ∀ L : grid0.Coords, k0_off1 L 128#32 = ![nb L + 128 * 1] := by unfold nb; decide +kernel
theorem off1_eq2 : ∀ L : grid0.Coords, k0_off1 L 256#32 = ![nb L + 128 * 2] := by unfold nb; decide +kernel
theorem off1_eq3 : ∀ L : grid0.Coords, k0_off1 L 384#32 = ![nb L + 128 * 3] := by unfold nb; decide +kernel
theorem off1_eq48 : ∀ L : grid0.Coords, k0_off1 L 6144#32 = ![nb L + 128 * 48] := by unfold nb; decide +kernel
theorem off1_eq49 : ∀ L : grid0.Coords, k0_off1 L 6272#32 = ![nb L + 128 * 49] := by unfold nb; decide +kernel

/-- The chunks of trips `t` on: trip `t`'s and those of the trips after it. -/
theorem bigSep_from_fin (Φ : Fin k0_t1_loop.trips → sProp 𝕄) (t : Fin k0_t1_loop.trips) :
    bigSep (Finset.univ.filter fun s : Fin k0_t1_loop.trips => t.val ≤ s.val) Φ
      = iprop(Φ t ∗ bigSep (Finset.univ.filter fun s : Fin k0_t1_loop.trips => t.val + 1 ≤ s.val) Φ) :=
  bigSep_from_succ Φ t.val t.isLt
/-- The chunks of the trips before `t + 1`: trip `t`'s and those of the trips before it. -/
theorem bigSep_upto_fin (Φ : Fin k0_t1_loop.trips → sProp 𝕄) (t : Fin k0_t1_loop.trips) :
    bigSep (Finset.univ.filter fun s : Fin k0_t1_loop.trips => s.val < t.val + 1) Φ
      = iprop(Φ t ∗ bigSep (Finset.univ.filter fun s : Fin k0_t1_loop.trips => s.val < t.val) Φ) :=
  bigSep_upto_succ Φ t.val t.isLt

/-! ## The output chunks as the memrefs the program slices -/

section Windows

variable (d : Dev nD) (L : grid0.Coords)

abbrev oM0 (t : Fin k0_t1_loop.trips) : Memref sig .scVector .hbm S128x128 .f32 :=
  (oV).slice (Rect.unit (s := S204800x128) (k0_off7 L t 0#32) S128x128.size (Facts₀.k0_off7_inb L t 0)) (fun _ => rfl)
abbrev oM1 (t : Fin k0_t1_loop.trips) : Memref sig .scVector .hbm S128x128 .f32 :=
  (oV).slice (Rect.unit (s := S204800x128) (k0_off7 L t 1#32) S128x128.size (Facts₀.k0_off7_inb L t 1)) (fun _ => rfl)
abbrev oM2 (t : Fin k0_t1_loop.trips) : Memref sig .scVector .hbm S128x128 .f32 :=
  (oV).slice (Rect.unit (s := S204800x128) (k0_off7 L t 2#32) S128x128.size (Facts₀.k0_off7_inb L t 2)) (fun _ => rfl)
abbrev oM3 (t : Fin k0_t1_loop.trips) : Memref sig .scVector .hbm S128x128 .f32 :=
  (oV).slice (Rect.unit (s := S204800x128) (k0_off7 L t 3#32) S128x128.size (Facts₀.k0_off7_inb L t 3)) (fun _ => rfl)
abbrev oMT0 : Memref sig .scVector .hbm S128x128 .f32 :=
  (oV).slice (Rect.unit (s := S204800x128) (k0_off12 L 6144#32) S128x128.size (Facts₀.k0_off12_inb L 0)) (fun _ => rfl)
abbrev oMT1 : Memref sig .scVector .hbm S128x128 .f32 :=
  (oV).slice (Rect.unit (s := S204800x128) (k0_off12 L 6272#32) S128x128.size (Facts₀.k0_off12_inb L 1)) (fun _ => rfl)

theorem pts_oM0 (t : Fin k0_t1_loop.trips) (f : Buf (Elt F) (oLoc d)) :
    ((oM0 L t).view.loc (V d (cV L) (jV L)) ↦[(oM0 L t).view.set]{fullShare} f : sProp 𝕄) = oLoc d ↦[oW0 L t]{fullShare} f := rfl
theorem pts_oM1 (t : Fin k0_t1_loop.trips) (f : Buf (Elt F) (oLoc d)) :
    ((oM1 L t).view.loc (V d (cV L) (jV L)) ↦[(oM1 L t).view.set]{fullShare} f : sProp 𝕄) = oLoc d ↦[oW1 L t]{fullShare} f := rfl
theorem pts_oM2 (t : Fin k0_t1_loop.trips) (f : Buf (Elt F) (oLoc d)) :
    ((oM2 L t).view.loc (V d (cV L) (jV L)) ↦[(oM2 L t).view.set]{fullShare} f : sProp 𝕄) = oLoc d ↦[oW2 L t]{fullShare} f := rfl
theorem pts_oM3 (t : Fin k0_t1_loop.trips) (f : Buf (Elt F) (oLoc d)) :
    ((oM3 L t).view.loc (V d (cV L) (jV L)) ↦[(oM3 L t).view.set]{fullShare} f : sProp 𝕄) = oLoc d ↦[oW3 L t]{fullShare} f := rfl
theorem pts_oMT0 (f : Buf (Elt F) (oLoc d)) :
    ((oMT0 L).view.loc (V d (cV L) (jV L)) ↦[(oMT0 L).view.set]{fullShare} f : sProp 𝕄) = oLoc d ↦[oT0 L]{fullShare} f := rfl
theorem pts_oMT1 (f : Buf (Elt F) (oLoc d)) :
    ((oMT1 L).view.loc (V d (cV L) (jV L)) ↦[(oMT1 L).view.set]{fullShare} f : sProp 𝕄) = oLoc d ↦[oT1 L]{fullShare} f := rfl

end Windows

/-! ## The loop's invariant -/

section Inv

variable [FloatOps F]
variable (d : Dev nD) (L : grid0.Coords)
variable (O : CellTallies nD τ sig (HIx 1)) (W : Waits sig (HIx 1)) (w : Fin 32)
variable (fi : Buf (Elt F) (iLoc d)) (fx : Buf (Elt F) (xLoc d)) (fo : Buf (Elt F) (oLoc d))

/-- Slot 0's index list before trip `k`: while chunk `4 k + 0` exists its fetch is in flight, landing the chunk's words
    in the list; after the last chunk the list, its semaphore and the slot's read share are idle. -/
def idxSlot0 (k : ℕ) : sProp 𝕄 :=
  if h : 4 * k + 0 < 50 then
    iprop(∃ g : Buf (Elt F) ((V d (cV L) (jV L)).loc cc0_scratch0),
      ⌜∀ a : Fin 128, View.read (Elt F) (s0V).view g (ix1 a) = fi (chunkIdx (nb L + 128 * (4 * k + 0)) (chunk_le L _ h) a)⌝
      ∗ Transfers.Flight (countersEmb (U := UU)) (V d (cV L) (jV L)) (SemLoc.dma cc0_scratch8.sem) (default : HIx 1) 4096
          iprop(((s0V).view.loc (V d (cV L) (jV L)) ↦{fullShare} g)
            ∗ ((iV).view.loc (V d (cV L) (jV L)) ↦[iSetN (nb L + 128 * (4 * k + 0)) (chunk_le L _ h)]{Transfers.shareTokN (wq w) 0} fi))
      ∗ ((iV).view.loc (V d (cV L) (jV L)) ↦[Finset.univ \ iSetN (nb L + 128 * (4 * k + 0)) (chunk_le L _ h)]{Transfers.shareTokN (wq w) 0} fi))
  else
    iprop((∃ g : Buf (Elt F) ((V d (cV L) (jV L)).loc cc0_scratch0), (s0V).view.loc (V d (cV L) (jV L)) ↦{fullShare} g)
      ∗ semVal (cell0 d (cV L) (jV L)) 0 ∗ ((iV).view.loc (V d (cV L) (jV L)) ↦{Transfers.shareTokN (wq w) 0} fi))

/-- Slot 1's index list before trip `k`: while chunk `4 k + 1` exists its fetch is in flight, landing the chunk's words
    in the list; after the last chunk the list, its semaphore and the slot's read share are idle. -/
def idxSlot1 (k : ℕ) : sProp 𝕄 :=
  if h : 4 * k + 1 < 50 then
    iprop(∃ g : Buf (Elt F) ((V d (cV L) (jV L)).loc cc0_scratch1),
      ⌜∀ a : Fin 128, View.read (Elt F) (s1V).view g (ix1 a) = fi (chunkIdx (nb L + 128 * (4 * k + 1)) (chunk_le L _ h) a)⌝
      ∗ Transfers.Flight (countersEmb (U := UU)) (V d (cV L) (jV L)) (SemLoc.dma cc0_scratch9.sem) (default : HIx 1) 4096
          iprop(((s1V).view.loc (V d (cV L) (jV L)) ↦{fullShare} g)
            ∗ ((iV).view.loc (V d (cV L) (jV L)) ↦[iSetN (nb L + 128 * (4 * k + 1)) (chunk_le L _ h)]{Transfers.shareTokN (wq w) 1} fi))
      ∗ ((iV).view.loc (V d (cV L) (jV L)) ↦[Finset.univ \ iSetN (nb L + 128 * (4 * k + 1)) (chunk_le L _ h)]{Transfers.shareTokN (wq w) 1} fi))
  else
    iprop((∃ g : Buf (Elt F) ((V d (cV L) (jV L)).loc cc0_scratch1), (s1V).view.loc (V d (cV L) (jV L)) ↦{fullShare} g)
      ∗ semVal (cell1 d (cV L) (jV L)) 0 ∗ ((iV).view.loc (V d (cV L) (jV L)) ↦{Transfers.shareTokN (wq w) 1} fi))

/-- Slot 2's index list before trip `k`: while chunk `4 k + 2` exists its fetch is in flight, landing the chunk's words
    in the list; after the last chunk the list, its semaphore and the slot's read share are idle. -/
def idxSlot2 (k : ℕ) : sProp 𝕄 :=
  if h : 4 * k + 2 < 50 then
    iprop(∃ g : Buf (Elt F) ((V d (cV L) (jV L)).loc cc0_scratch2),
      ⌜∀ a : Fin 128, View.read (Elt F) (s2V).view g (ix1 a) = fi (chunkIdx (nb L + 128 * (4 * k + 2)) (chunk_le L _ h) a)⌝
      ∗ Transfers.Flight (countersEmb (U := UU)) (V d (cV L) (jV L)) (SemLoc.dma cc0_scratch10.sem) (default : HIx 1) 4096
          iprop(((s2V).view.loc (V d (cV L) (jV L)) ↦{fullShare} g)
            ∗ ((iV).view.loc (V d (cV L) (jV L)) ↦[iSetN (nb L + 128 * (4 * k + 2)) (chunk_le L _ h)]{Transfers.shareTokN (wq w) 2} fi))
      ∗ ((iV).view.loc (V d (cV L) (jV L)) ↦[Finset.univ \ iSetN (nb L + 128 * (4 * k + 2)) (chunk_le L _ h)]{Transfers.shareTokN (wq w) 2} fi))
  else
    iprop((∃ g : Buf (Elt F) ((V d (cV L) (jV L)).loc cc0_scratch2), (s2V).view.loc (V d (cV L) (jV L)) ↦{fullShare} g)
      ∗ semVal (cell2 d (cV L) (jV L)) 0 ∗ ((iV).view.loc (V d (cV L) (jV L)) ↦{Transfers.shareTokN (wq w) 2} fi))

/-- Slot 3's index list before trip `k`: while chunk `4 k + 3` exists its fetch is in flight, landing the chunk's words
    in the list; after the last chunk the list, its semaphore and the slot's read share are idle. -/
def idxSlot3 (k : ℕ) : sProp 𝕄 :=
  if h : 4 * k + 3 < 50 then
    iprop(∃ g : Buf (Elt F) ((V d (cV L) (jV L)).loc cc0_scratch3),
      ⌜∀ a : Fin 128, View.read (Elt F) (s3V).view g (ix1 a) = fi (chunkIdx (nb L + 128 * (4 * k + 3)) (chunk_le L _ h) a)⌝
      ∗ Transfers.Flight (countersEmb (U := UU)) (V d (cV L) (jV L)) (SemLoc.dma cc0_scratch11.sem) (default : HIx 1) 4096
          iprop(((s3V).view.loc (V d (cV L) (jV L)) ↦{fullShare} g)
            ∗ ((iV).view.loc (V d (cV L) (jV L)) ↦[iSetN (nb L + 128 * (4 * k + 3)) (chunk_le L _ h)]{Transfers.shareTokN (wq w) 3} fi))
      ∗ ((iV).view.loc (V d (cV L) (jV L)) ↦[Finset.univ \ iSetN (nb L + 128 * (4 * k + 3)) (chunk_le L _ h)]{Transfers.shareTokN (wq w) 3} fi))
  else
    iprop((∃ g : Buf (Elt F) ((V d (cV L) (jV L)).loc cc0_scratch3), (s3V).view.loc (V d (cV L) (jV L)) ↦{fullShare} g)
      ∗ semVal (cell3 d (cV L) (jV L)) 0 ∗ ((iV).view.loc (V d (cV L) (jV L)) ↦{Transfers.shareTokN (wq w) 3} fi))

/-- Slot 0's row buffer before trip `k`: idle before the first trip; afterwards its write-out of the previous trip's
    chunk is in flight, landing the gathered rows in that chunk of the output array. -/
def rowSlot0 (k : ℕ) : sProp 𝕄 :=
  if h : 0 < k ∧ k ≤ 12 then
    iprop(∃ fr : Buf (Elt F) ((V d (cV L) (jV L)).loc cc0_scratch4),
      Transfers.Flight (countersEmb (U := UU)) (V d (cV L) (jV L)) (SemLoc.dma cc0_scratch16.sem) (default : HIx 1) 524288
          iprop(((oV).view.loc (V d (cV L) (jV L)) ↦[oW0 L ⟨k - 1, by rw [trips_eq]; omega⟩]{fullShare} (Spec.Gflat fi fx : Buf (Elt F) (oLoc d)))
            ∗ ((r0V).view.loc (V d (cV L) (jV L)) ↦[(r0V).view.set]{fullShare} fr))
      ∗ ((r0V).view.loc (V d (cV L) (jV L)) ↦[Finset.univ \ (r0V).view.set]{fullShare} fr))
  else
    iprop((∃ fr : Buf (Elt F) ((V d (cV L) (jV L)).loc cc0_scratch4), (r0V).view.loc (V d (cV L) (jV L)) ↦{fullShare} fr)
      ∗ semVal (cell8 d (cV L) (jV L)) 0)

/-- Slot 1's row buffer before trip `k`: idle before the first trip; afterwards its write-out of the previous trip's
    chunk is in flight, landing the gathered rows in that chunk of the output array. -/
def rowSlot1 (k : ℕ) : sProp 𝕄 :=
  if h : 0 < k ∧ k ≤ 12 then
    iprop(∃ fr : Buf (Elt F) ((V d (cV L) (jV L)).loc cc0_scratch5),
      Transfers.Flight (countersEmb (U := UU)) (V d (cV L) (jV L)) (SemLoc.dma cc0_scratch17.sem) (default : HIx 1) 524288
          iprop(((oV).view.loc (V d (cV L) (jV L)) ↦[oW1 L ⟨k - 1, by rw [trips_eq]; omega⟩]{fullShare} (Spec.Gflat fi fx : Buf (Elt F) (oLoc d)))
            ∗ ((r1V).view.loc (V d (cV L) (jV L)) ↦[(r1V).view.set]{fullShare} fr))
      ∗ ((r1V).view.loc (V d (cV L) (jV L)) ↦[Finset.univ \ (r1V).view.set]{fullShare} fr))
  else
    iprop((∃ fr : Buf (Elt F) ((V d (cV L) (jV L)).loc cc0_scratch5), (r1V).view.loc (V d (cV L) (jV L)) ↦{fullShare} fr)
      ∗ semVal (cell9 d (cV L) (jV L)) 0)

/-- Slot 2's row buffer before trip `k`: idle before the first trip; afterwards its write-out of the previous trip's
    chunk is in flight, landing the gathered rows in that chunk of the output array. -/
def rowSlot2 (k : ℕ) : sProp 𝕄 :=
  if h : 0 < k ∧ k ≤ 12 then
    iprop(∃ fr : Buf (Elt F) ((V d (cV L) (jV L)).loc cc0_scratch6),
      Transfers.Flight (countersEmb (U := UU)) (V d (cV L) (jV L)) (SemLoc.dma cc0_scratch18.sem) (default : HIx 1) 524288
          iprop(((oV).view.loc (V d (cV L) (jV L)) ↦[oW2 L ⟨k - 1, by rw [trips_eq]; omega⟩]{fullShare} (Spec.Gflat fi fx : Buf (Elt F) (oLoc d)))
            ∗ ((r2V).view.loc (V d (cV L) (jV L)) ↦[(r2V).view.set]{fullShare} fr))
      ∗ ((r2V).view.loc (V d (cV L) (jV L)) ↦[Finset.univ \ (r2V).view.set]{fullShare} fr))
  else
    iprop((∃ fr : Buf (Elt F) ((V d (cV L) (jV L)).loc cc0_scratch6), (r2V).view.loc (V d (cV L) (jV L)) ↦{fullShare} fr)
      ∗ semVal (cell10 d (cV L) (jV L)) 0)

/-- Slot 3's row buffer before trip `k`: idle before the first trip; afterwards its write-out of the previous trip's
    chunk is in flight, landing the gathered rows in that chunk of the output array. -/
def rowSlot3 (k : ℕ) : sProp 𝕄 :=
  if h : 0 < k ∧ k ≤ 12 then
    iprop(∃ fr : Buf (Elt F) ((V d (cV L) (jV L)).loc cc0_scratch7),
      Transfers.Flight (countersEmb (U := UU)) (V d (cV L) (jV L)) (SemLoc.dma cc0_scratch19.sem) (default : HIx 1) 524288
          iprop(((oV).view.loc (V d (cV L) (jV L)) ↦[oW3 L ⟨k - 1, by rw [trips_eq]; omega⟩]{fullShare} (Spec.Gflat fi fx : Buf (Elt F) (oLoc d)))
            ∗ ((r3V).view.loc (V d (cV L) (jV L)) ↦[(r3V).view.set]{fullShare} fr))
      ∗ ((r3V).view.loc (V d (cV L) (jV L)) ↦[Finset.univ \ (r3V).view.set]{fullShare} fr))
  else
    iprop((∃ fr : Buf (Elt F) ((V d (cV L) (jV L)).loc cc0_scratch7), (r3V).view.loc (V d (cV L) (jV L)) ↦{fullShare} fr)
      ∗ semVal (cell11 d (cV L) (jV L)) 0)

/-- Slot 0's gather is never in flight between trips: its read share of the table and its semaphore are idle. -/
abbrev gatherSlot0 : sProp 𝕄 :=
  iprop(((xV).view.loc (V d (cV L) (jV L)) ↦{Transfers.shareTokN (wq w) 4} fx) ∗ semVal (cell4 d (cV L) (jV L)) 0)

/-- Slot 1's gather is never in flight between trips: its read share of the table and its semaphore are idle. -/
abbrev gatherSlot1 : sProp 𝕄 :=
  iprop(((xV).view.loc (V d (cV L) (jV L)) ↦{Transfers.shareTokN (wq w) 5} fx) ∗ semVal (cell5 d (cV L) (jV L)) 0)

/-- Slot 2's gather is never in flight between trips: its read share of the table and its semaphore are idle. -/
abbrev gatherSlot2 : sProp 𝕄 :=
  iprop(((xV).view.loc (V d (cV L) (jV L)) ↦{Transfers.shareTokN (wq w) 6} fx) ∗ semVal (cell6 d (cV L) (jV L)) 0)

/-- Slot 3's gather is never in flight between trips: its read share of the table and its semaphore are idle. -/
abbrev gatherSlot3 : sProp 𝕄 :=
  iprop(((xV).view.loc (V d (cV L) (jV L)) ↦{Transfers.shareTokN (wq w) 7} fx) ∗ semVal (cell7 d (cV L) (jV L)) 0)

/-- The worker's rows of the output array before trip `k`: the chunks of trips `k` on at their launch contents, the chunks of
    the trips before `k - 1` at the gathered rows (trip `k - 1`'s are in flight), the two last chunks at their launch contents. -/
def outPart (k : ℕ) : sProp 𝕄 :=
  iprop((bigSep (Finset.univ.filter fun t : Fin k0_t1_loop.trips => k ≤ t.val) fun t => tripOut d L t fo)
    ∗ (bigSep (Finset.univ.filter fun t : Fin k0_t1_loop.trips => t.val < k - 1) fun t => tripOut d L t (Spec.Gflat fi fx : Buf (Elt F) (oLoc d)))
    ∗ (oLoc d ↦[oT0 L]{fullShare} fo) ∗ (oLoc d ↦[oT1 L]{fullShare} fo))

/-- Before trip `k`. -/
def inv (k : ℕ) (_ : PUnit) : sProp 𝕄 :=
  iprop(Transfers.MayWaits (V d (cV L) (jV L)) (default : HIx 1) O
    ∗ idxSlot0 d L w fi k ∗ idxSlot1 d L w fi k ∗ idxSlot2 d L w fi k ∗ idxSlot3 d L w fi k
    ∗ rowSlot0 d L fi fx k ∗ rowSlot1 d L fi fx k ∗ rowSlot2 d L fi fx k ∗ rowSlot3 d L fi fx k
    ∗ gatherSlot0 d L w fx ∗ gatherSlot1 d L w fx ∗ gatherSlot2 d L w fx ∗ gatherSlot3 d L w fx
    ∗ outPart d L fi fx fo k
    ∗ ∃ W', ⌜∀ p ∈ W', p ∈ W ∨ p.2 = none⌝ ∗ owes (V d (cV L) (jV L)) O W')

end Inv

section Intro

variable [FloatOps F]
variable (d : Dev nD) (L : grid0.Coords) (w : Fin 32)
variable (fi : Buf (Elt F) (iLoc d)) (fx : Buf (Elt F) (xLoc d))

/-- Slot 0's fetch of chunk `4 k + 0`, as the program slices it, is the slot's part of the invariant. -/
theorem idxSlot0_intro (k : ℕ) (h : 4 * k + 0 < 50) (g : Buf (Elt F) ((V d (cV L) (jV L)).loc cc0_scratch0))
    (off : Fin 1 → ℕ) (hoff : off = ![nb L + 128 * (4 * k + 0)]) (hinb : ∀ a, off a + S128.size a ≤ S204800.size a)
    (hv : ∀ a : Fin 128, View.read (Elt F) (s0V).view g (ix1 a) = fi (chunkIdx (nb L + 128 * (4 * k + 0)) (chunk_le L _ h) a)) :
    iprop(Transfers.Flight (countersEmb (U := UU)) (V d (cV L) (jV L)) (SemLoc.dma cc0_scratch8.sem) (default : HIx 1) 4096
          iprop(((s0V).view.loc (V d (cV L) (jV L)) ↦{fullShare} g)
            ∗ ((iV).view.loc (V d (cV L) (jV L)) ↦[((iV).slice (Rect.unit (s := S204800) off S128.size hinb) (fun _ => rfl)).view.set]{Transfers.shareTokN (wq w) 0} fi))
        ∗ ((iV).view.loc (V d (cV L) (jV L)) ↦[Finset.univ \ ((iV).slice (Rect.unit (s := S204800) off S128.size hinb) (fun _ => rfl)).view.set]{Transfers.shareTokN (wq w) 0} fi) : sProp 𝕄)
      ⊢ idxSlot0 d L w fi k := by
  subst hoff
  unfold idxSlot0; rw [dif_pos h]
  iintro ⟨Hf, Hr⟩
  iexists g; isplitr
  · ipureintro; exact hv
  isplitl [Hf]; · iexact Hf
  iexact Hr

/-- Slot 1's fetch of chunk `4 k + 1`, as the program slices it, is the slot's part of the invariant. -/
theorem idxSlot1_intro (k : ℕ) (h : 4 * k + 1 < 50) (g : Buf (Elt F) ((V d (cV L) (jV L)).loc cc0_scratch1))
    (off : Fin 1 → ℕ) (hoff : off = ![nb L + 128 * (4 * k + 1)]) (hinb : ∀ a, off a + S128.size a ≤ S204800.size a)
    (hv : ∀ a : Fin 128, View.read (Elt F) (s1V).view g (ix1 a) = fi (chunkIdx (nb L + 128 * (4 * k + 1)) (chunk_le L _ h) a)) :
    iprop(Transfers.Flight (countersEmb (U := UU)) (V d (cV L) (jV L)) (SemLoc.dma cc0_scratch9.sem) (default : HIx 1) 4096
          iprop(((s1V).view.loc (V d (cV L) (jV L)) ↦{fullShare} g)
            ∗ ((iV).view.loc (V d (cV L) (jV L)) ↦[((iV).slice (Rect.unit (s := S204800) off S128.size hinb) (fun _ => rfl)).view.set]{Transfers.shareTokN (wq w) 1} fi))
        ∗ ((iV).view.loc (V d (cV L) (jV L)) ↦[Finset.univ \ ((iV).slice (Rect.unit (s := S204800) off S128.size hinb) (fun _ => rfl)).view.set]{Transfers.shareTokN (wq w) 1} fi) : sProp 𝕄)
      ⊢ idxSlot1 d L w fi k := by
  subst hoff
  unfold idxSlot1; rw [dif_pos h]
  iintro ⟨Hf, Hr⟩
  iexists g; isplitr
  · ipureintro; exact hv
  isplitl [Hf]; · iexact Hf
  iexact Hr

/-- Slot 2's fetch of chunk `4 k + 2`, as the program slices it, is the slot's part of the invariant. -/
theorem idxSlot2_intro (k : ℕ) (h : 4 * k + 2 < 50) (g : Buf (Elt F) ((V d (cV L) (jV L)).loc cc0_scratch2))
    (off : Fin 1 → ℕ) (hoff : off = ![nb L + 128 * (4 * k + 2)]) (hinb : ∀ a, off a + S128.size a ≤ S204800.size a)
    (hv : ∀ a : Fin 128, View.read (Elt F) (s2V).view g (ix1 a) = fi (chunkIdx (nb L + 128 * (4 * k + 2)) (chunk_le L _ h) a)) :
    iprop(Transfers.Flight (countersEmb (U := UU)) (V d (cV L) (jV L)) (SemLoc.dma cc0_scratch10.sem) (default : HIx 1) 4096
          iprop(((s2V).view.loc (V d (cV L) (jV L)) ↦{fullShare} g)
            ∗ ((iV).view.loc (V d (cV L) (jV L)) ↦[((iV).slice (Rect.unit (s := S204800) off S128.size hinb) (fun _ => rfl)).view.set]{Transfers.shareTokN (wq w) 2} fi))
        ∗ ((iV).view.loc (V d (cV L) (jV L)) ↦[Finset.univ \ ((iV).slice (Rect.unit (s := S204800) off S128.size hinb) (fun _ => rfl)).view.set]{Transfers.shareTokN (wq w) 2} fi) : sProp 𝕄)
      ⊢ idxSlot2 d L w fi k := by
  subst hoff
  unfold idxSlot2; rw [dif_pos h]
  iintro ⟨Hf, Hr⟩
  iexists g; isplitr
  · ipureintro; exact hv
  isplitl [Hf]; · iexact Hf
  iexact Hr

/-- Slot 3's fetch of chunk `4 k + 3`, as the program slices it, is the slot's part of the invariant. -/
theorem idxSlot3_intro (k : ℕ) (h : 4 * k + 3 < 50) (g : Buf (Elt F) ((V d (cV L) (jV L)).loc cc0_scratch3))
    (off : Fin 1 → ℕ) (hoff : off = ![nb L + 128 * (4 * k + 3)]) (hinb : ∀ a, off a + S128.size a ≤ S204800.size a)
    (hv : ∀ a : Fin 128, View.read (Elt F) (s3V).view g (ix1 a) = fi (chunkIdx (nb L + 128 * (4 * k + 3)) (chunk_le L _ h) a)) :
    iprop(Transfers.Flight (countersEmb (U := UU)) (V d (cV L) (jV L)) (SemLoc.dma cc0_scratch11.sem) (default : HIx 1) 4096
          iprop(((s3V).view.loc (V d (cV L) (jV L)) ↦{fullShare} g)
            ∗ ((iV).view.loc (V d (cV L) (jV L)) ↦[((iV).slice (Rect.unit (s := S204800) off S128.size hinb) (fun _ => rfl)).view.set]{Transfers.shareTokN (wq w) 3} fi))
        ∗ ((iV).view.loc (V d (cV L) (jV L)) ↦[Finset.univ \ ((iV).slice (Rect.unit (s := S204800) off S128.size hinb) (fun _ => rfl)).view.set]{Transfers.shareTokN (wq w) 3} fi) : sProp 𝕄)
      ⊢ idxSlot3 d L w fi k := by
  subst hoff
  unfold idxSlot3; rw [dif_pos h]
  iintro ⟨Hf, Hr⟩
  iexists g; isplitr
  · ipureintro; exact hv
  isplitl [Hf]; · iexact Hf
  iexact Hr

/-- Slot 0's write-out of trip `t`'s chunk, as the run leaves it (the row buffer filled by the gather off a list that holds
    the chunk's index words, copied out over the chunk), is the slot's part of the invariant before trip `t + 1`: on the
    chunk the landed contents are the gathered rows. -/
theorem rowSlot0_intro (k : ℕ) (t : Fin k0_t1_loop.trips) (hk : k = t.val + 1)
    (g' : Buf (Elt F) ((V d (cV L) (jV L)).loc cc0_scratch0)) (fr : Buf (Elt F) ((V d (cV L) (jV L)).loc cc0_scratch4)) (fo : Buf (Elt F) (oLoc d))
    (n : ℕ) (hn : n + 128 ≤ 204800) (hoff : k0_off7 L t 0#32 = ![n, 0])
    (hin : ∀ x, BitVec.toNat (View.read (Elt F) (s0V).view g' x) < S100000x128.size gathers_S100000x128_S128x128.axis)
    (hv : ∀ a : Fin 128, View.read (Elt F) (s0V).view g' (ix1 a) = fi (chunkIdx n hn a)) (hpre : ∀ j, (fi j).toNat < 100000) :
    iprop(Transfers.Flight (countersEmb (U := UU)) (V d (cV L) (jV L)) (SemLoc.dma cc0_scratch16.sem) (default : HIx 1) 524288
          iprop(((oM0 L t).view.loc (V d (cV L) (jV L)) ↦[(oM0 L t).view.set]{fullShare} (oM0 L t).view.writes (Elt F) fo [⟨Rect.whole S128x128, ReadAs.same.apply (View.read (Elt F) (r0V).view ((r0V).view.writes (Elt F) fr [⟨Rect.whole cc0_scratch4.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s0V).view g') rfl hin)⟩]))⟩])
            ∗ ((r0V).view.loc (V d (cV L) (jV L)) ↦[(r0V).view.set]{fullShare} (r0V).view.writes (Elt F) fr [⟨Rect.whole cc0_scratch4.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s0V).view g') rfl hin)⟩]))
        ∗ ((r0V).view.loc (V d (cV L) (jV L)) ↦[Finset.univ \ (r0V).view.set]{fullShare} (r0V).view.writes (Elt F) fr [⟨Rect.whole cc0_scratch4.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s0V).view g') rfl hin)⟩]) : sProp 𝕄)
      ⊢ rowSlot0 d L fi fx k := by
  subst hk
  have ht : t.val < 12 := trips_eq ▸ t.isLt
  unfold rowSlot0; rw [dif_pos (show 0 < t.val + 1 ∧ t.val + 1 ≤ 12 from ⟨Nat.succ_pos _, by omega⟩)]
  iintro ⟨Hf, Hr⟩
  iexists _
  isplitl [Hf]
  · iapply (Transfers.Flight_mono (countersEmb (U := UU)) (V d (cV L) (jV L)) (Entails.of_eq (by
      rw [pointsTo_congr (windowValueW_0 (F := F) d L g' fr fi fx fo n hn (k0_off7 L t 0#32) hoff _ _ _ _ hin hv hpre)]; rfl))) $$ Hf
  · iexact Hr

/-- Slot 1's write-out of trip `t`'s chunk, as the run leaves it (the row buffer filled by the gather off a list that holds
    the chunk's index words, copied out over the chunk), is the slot's part of the invariant before trip `t + 1`: on the
    chunk the landed contents are the gathered rows. -/
theorem rowSlot1_intro (k : ℕ) (t : Fin k0_t1_loop.trips) (hk : k = t.val + 1)
    (g' : Buf (Elt F) ((V d (cV L) (jV L)).loc cc0_scratch1)) (fr : Buf (Elt F) ((V d (cV L) (jV L)).loc cc0_scratch5)) (fo : Buf (Elt F) (oLoc d))
    (n : ℕ) (hn : n + 128 ≤ 204800) (hoff : k0_off7 L t 1#32 = ![n, 0])
    (hin : ∀ x, BitVec.toNat (View.read (Elt F) (s1V).view g' x) < S100000x128.size gathers_S100000x128_S128x128.axis)
    (hv : ∀ a : Fin 128, View.read (Elt F) (s1V).view g' (ix1 a) = fi (chunkIdx n hn a)) (hpre : ∀ j, (fi j).toNat < 100000) :
    iprop(Transfers.Flight (countersEmb (U := UU)) (V d (cV L) (jV L)) (SemLoc.dma cc0_scratch17.sem) (default : HIx 1) 524288
          iprop(((oM1 L t).view.loc (V d (cV L) (jV L)) ↦[(oM1 L t).view.set]{fullShare} (oM1 L t).view.writes (Elt F) fo [⟨Rect.whole S128x128, ReadAs.same.apply (View.read (Elt F) (r1V).view ((r1V).view.writes (Elt F) fr [⟨Rect.whole cc0_scratch5.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s1V).view g') rfl hin)⟩]))⟩])
            ∗ ((r1V).view.loc (V d (cV L) (jV L)) ↦[(r1V).view.set]{fullShare} (r1V).view.writes (Elt F) fr [⟨Rect.whole cc0_scratch5.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s1V).view g') rfl hin)⟩]))
        ∗ ((r1V).view.loc (V d (cV L) (jV L)) ↦[Finset.univ \ (r1V).view.set]{fullShare} (r1V).view.writes (Elt F) fr [⟨Rect.whole cc0_scratch5.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s1V).view g') rfl hin)⟩]) : sProp 𝕄)
      ⊢ rowSlot1 d L fi fx k := by
  subst hk
  have ht : t.val < 12 := trips_eq ▸ t.isLt
  unfold rowSlot1; rw [dif_pos (show 0 < t.val + 1 ∧ t.val + 1 ≤ 12 from ⟨Nat.succ_pos _, by omega⟩)]
  iintro ⟨Hf, Hr⟩
  iexists _
  isplitl [Hf]
  · iapply (Transfers.Flight_mono (countersEmb (U := UU)) (V d (cV L) (jV L)) (Entails.of_eq (by
      rw [pointsTo_congr (windowValueW_1 (F := F) d L g' fr fi fx fo n hn (k0_off7 L t 1#32) hoff _ _ _ _ hin hv hpre)]; rfl))) $$ Hf
  · iexact Hr

/-- Slot 2's write-out of trip `t`'s chunk, as the run leaves it (the row buffer filled by the gather off a list that holds
    the chunk's index words, copied out over the chunk), is the slot's part of the invariant before trip `t + 1`: on the
    chunk the landed contents are the gathered rows. -/
theorem rowSlot2_intro (k : ℕ) (t : Fin k0_t1_loop.trips) (hk : k = t.val + 1)
    (g' : Buf (Elt F) ((V d (cV L) (jV L)).loc cc0_scratch2)) (fr : Buf (Elt F) ((V d (cV L) (jV L)).loc cc0_scratch6)) (fo : Buf (Elt F) (oLoc d))
    (n : ℕ) (hn : n + 128 ≤ 204800) (hoff : k0_off7 L t 2#32 = ![n, 0])
    (hin : ∀ x, BitVec.toNat (View.read (Elt F) (s2V).view g' x) < S100000x128.size gathers_S100000x128_S128x128.axis)
    (hv : ∀ a : Fin 128, View.read (Elt F) (s2V).view g' (ix1 a) = fi (chunkIdx n hn a)) (hpre : ∀ j, (fi j).toNat < 100000) :
    iprop(Transfers.Flight (countersEmb (U := UU)) (V d (cV L) (jV L)) (SemLoc.dma cc0_scratch18.sem) (default : HIx 1) 524288
          iprop(((oM2 L t).view.loc (V d (cV L) (jV L)) ↦[(oM2 L t).view.set]{fullShare} (oM2 L t).view.writes (Elt F) fo [⟨Rect.whole S128x128, ReadAs.same.apply (View.read (Elt F) (r2V).view ((r2V).view.writes (Elt F) fr [⟨Rect.whole cc0_scratch6.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s2V).view g') rfl hin)⟩]))⟩])
            ∗ ((r2V).view.loc (V d (cV L) (jV L)) ↦[(r2V).view.set]{fullShare} (r2V).view.writes (Elt F) fr [⟨Rect.whole cc0_scratch6.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s2V).view g') rfl hin)⟩]))
        ∗ ((r2V).view.loc (V d (cV L) (jV L)) ↦[Finset.univ \ (r2V).view.set]{fullShare} (r2V).view.writes (Elt F) fr [⟨Rect.whole cc0_scratch6.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s2V).view g') rfl hin)⟩]) : sProp 𝕄)
      ⊢ rowSlot2 d L fi fx k := by
  subst hk
  have ht : t.val < 12 := trips_eq ▸ t.isLt
  unfold rowSlot2; rw [dif_pos (show 0 < t.val + 1 ∧ t.val + 1 ≤ 12 from ⟨Nat.succ_pos _, by omega⟩)]
  iintro ⟨Hf, Hr⟩
  iexists _
  isplitl [Hf]
  · iapply (Transfers.Flight_mono (countersEmb (U := UU)) (V d (cV L) (jV L)) (Entails.of_eq (by
      rw [pointsTo_congr (windowValueW_2 (F := F) d L g' fr fi fx fo n hn (k0_off7 L t 2#32) hoff _ _ _ _ hin hv hpre)]; rfl))) $$ Hf
  · iexact Hr

/-- Slot 3's write-out of trip `t`'s chunk, as the run leaves it (the row buffer filled by the gather off a list that holds
    the chunk's index words, copied out over the chunk), is the slot's part of the invariant before trip `t + 1`: on the
    chunk the landed contents are the gathered rows. -/
theorem rowSlot3_intro (k : ℕ) (t : Fin k0_t1_loop.trips) (hk : k = t.val + 1)
    (g' : Buf (Elt F) ((V d (cV L) (jV L)).loc cc0_scratch3)) (fr : Buf (Elt F) ((V d (cV L) (jV L)).loc cc0_scratch7)) (fo : Buf (Elt F) (oLoc d))
    (n : ℕ) (hn : n + 128 ≤ 204800) (hoff : k0_off7 L t 3#32 = ![n, 0])
    (hin : ∀ x, BitVec.toNat (View.read (Elt F) (s3V).view g' x) < S100000x128.size gathers_S100000x128_S128x128.axis)
    (hv : ∀ a : Fin 128, View.read (Elt F) (s3V).view g' (ix1 a) = fi (chunkIdx n hn a)) (hpre : ∀ j, (fi j).toNat < 100000) :
    iprop(Transfers.Flight (countersEmb (U := UU)) (V d (cV L) (jV L)) (SemLoc.dma cc0_scratch19.sem) (default : HIx 1) 524288
          iprop(((oM3 L t).view.loc (V d (cV L) (jV L)) ↦[(oM3 L t).view.set]{fullShare} (oM3 L t).view.writes (Elt F) fo [⟨Rect.whole S128x128, ReadAs.same.apply (View.read (Elt F) (r3V).view ((r3V).view.writes (Elt F) fr [⟨Rect.whole cc0_scratch7.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s3V).view g') rfl hin)⟩]))⟩])
            ∗ ((r3V).view.loc (V d (cV L) (jV L)) ↦[(r3V).view.set]{fullShare} (r3V).view.writes (Elt F) fr [⟨Rect.whole cc0_scratch7.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s3V).view g') rfl hin)⟩]))
        ∗ ((r3V).view.loc (V d (cV L) (jV L)) ↦[Finset.univ \ (r3V).view.set]{fullShare} (r3V).view.writes (Elt F) fr [⟨Rect.whole cc0_scratch7.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s3V).view g') rfl hin)⟩]) : sProp 𝕄)
      ⊢ rowSlot3 d L fi fx k := by
  subst hk
  have ht : t.val < 12 := trips_eq ▸ t.isLt
  unfold rowSlot3; rw [dif_pos (show 0 < t.val + 1 ∧ t.val + 1 ≤ 12 from ⟨Nat.succ_pos _, by omega⟩)]
  iintro ⟨Hf, Hr⟩
  iexists _
  isplitl [Hf]
  · iapply (Transfers.Flight_mono (countersEmb (U := UU)) (V d (cV L) (jV L)) (Entails.of_eq (by
      rw [pointsTo_congr (windowValueW_3 (F := F) d L g' fr fi fx fo n hn (k0_off7 L t 3#32) hoff _ _ _ _ hin hv hpre)]; rfl))) $$ Hf
  · iexact Hr

end Intro

section Trip

variable [FloatOps F]
variable (d : Dev nD) (L : grid0.Coords)
variable (O : CellTallies nD τ sig (HIx 1)) (W : Waits sig (HIx 1)) (w : Fin 32)
variable (fi : Buf (Elt F) (iLoc d)) (fx : Buf (Elt F) (xLoc d)) (fo : Buf (Elt F) (oLoc d))

theorem tripOut_eq (t : Fin k0_t1_loop.trips) (f : Buf (Elt F) (oLoc d)) :
    tripOut d L t f = iprop((oLoc d ↦[oW0 L t]{fullShare} f) ∗ (oLoc d ↦[oW1 L t]{fullShare} f) ∗ (oLoc d ↦[oW2 L t]{fullShare} f) ∗ (oLoc d ↦[oW3 L t]{fullShare} f)) := rfl

set_option maxHeartbeats 4000000 in
theorem trip_first (hpre : ∀ j, (fi j).toNat < 100000) (k : Fin k0_t1_loop.trips) (h0 : k.val = 0) (v2 : BitVec 32) :
    inv d L O W w fi fx fo k.val ()
      ⊢ wp frame (wpE (defs₀ (F := F)) 𝒱₀ (V d (cV L) (jV L)) none) Set.univ
          (k0_t1_body L iV (Memref.isWhole_whole _) xV (Memref.isWhole_whole _) oV (Memref.isWhole_whole _)
            s0V (Memref.isWhole_whole _) s1V (Memref.isWhole_whole _) s2V (Memref.isWhole_whole _) s3V (Memref.isWhole_whole _)
            r0V (Memref.isWhole_whole _) r1V (Memref.isWhole_whole _) r2V (Memref.isWhole_whole _) r3V (Memref.isWhole_whole _)
            cc0_scratch8 cc0_scratch9 cc0_scratch10 cc0_scratch11 cc0_scratch12 cc0_scratch13 cc0_scratch14 cc0_scratch15 cc0_scratch16 cc0_scratch17 cc0_scratch18 cc0_scratch19 v2 k ())
          fun acc => inv d L O W w fi fx fo (k.val + 1) acc := by
  obtain ⟨k0_h1, k0_h2, k0_h3, k0_h4, k0_h5, k0_h6, k0_h7, k0_h8⟩ := conds_first k h0
  have hk12 : k.val < 12 := trips_eq ▸ k.isLt
  generalize hQ : (fun acc => inv d L O W w fi fx fo (k.val + 1) acc) = Q
  unfold k0_t1_body
  rw [k0_part1_eq_skeleton, k0_part2_eq_skeleton]; unfold k0_part1_skel k0_part2_skel
  unfold inv idxSlot0 idxSlot1 idxSlot2 idxSlot3 rowSlot0 rowSlot1 rowSlot2 rowSlot3 outPart
  rw [dif_pos (show 4 * k.val + 0 < 50 by omega), dif_pos (show 4 * k.val + 1 < 50 by omega), dif_pos (show 4 * k.val + 2 < 50 by omega), dif_pos (show 4 * k.val + 3 < 50 by omega),
    dif_neg (show ¬ (0 < k.val ∧ k.val ≤ 12) by omega), dif_neg (show ¬ (0 < k.val ∧ k.val ≤ 12) by omega), dif_neg (show ¬ (0 < k.val ∧ k.val ≤ 12) by omega), dif_neg (show ¬ (0 < k.val ∧ k.val ≤ 12) by omega)]
  rw [bigSep_from_fin (F := F) (fun t => tripOut d L t fo) k, tripOut_eq (F := F) d L k fo]
  iintro ⟨Hmw, ⟨%g0, %hv0, Hf0, Hit0⟩, ⟨%g1, %hv1, Hf1, Hit1⟩, ⟨%g2, %hv2, Hf2, Hit2⟩, ⟨%g3, %hv3, Hf3, Hit3⟩,
    ⟨⟨%fr0, Hr0⟩, Hc8⟩, ⟨⟨%fr1, Hr1⟩, Hc9⟩, ⟨⟨%fr2, Hr2⟩, Hc10⟩, ⟨⟨%fr3, Hr3⟩, Hc11⟩,
    ⟨Hxt4, Hc4⟩, ⟨Hxt5, Hc5⟩, ⟨Hxt6, Hc6⟩, ⟨Hxt7, Hc7⟩, ⟨⟨⟨Hw0, Hw1, Hw2, Hw3⟩, Htodo⟩, -, HT0, HT1⟩, %W', %hW', HO⟩
  have hin0 := hin_of_value_0 (F := F) d L g0 fi _ _ hv0 hpre
  have hin1 := hin_of_value_1 (F := F) d L g1 fi _ _ hv1 hpre
  have hin2 := hin_of_value_2 (F := F) d L g2 fi _ _ hv2 hpre
  have hin3 := hin_of_value_3 (F := F) d L g3 fi _ _ hv3 hpre
  ihave Hw0 := (Entails.of_eq (pts_oM0 (F := F) d L k fo).symm) $$ Hw0
  ihave Hw1 := (Entails.of_eq (pts_oM1 (F := F) d L k fo).symm) $$ Hw1
  ihave Hw2 := (Entails.of_eq (pts_oM2 (F := F) d L k fo).symm) $$ Hw2
  ihave Hw3 := (Entails.of_eq (pts_oM3 (F := F) d L k fo).symm) $$ Hw3
  sl_exec
  sl_step
  subst hQ
  beta_reduce
  unfold inv
  isplitl [Hmw]; · iexact Hmw
  isplitl [Hf0 Hit0]
  · iapply (idxSlot0_intro (F := F) d L w fi (k.val + 1) (by omega) _ (k0_off8 L k) (off8_eq L k) _
      (fun a => listValue_0 (F := F) d L g0 fi _ _ (k0_off8 L k) (off8_eq L k) _ _ a)) $$ [Hf0 Hit0]
    isplitl [Hf0]; · iexact Hf0
    iexact Hit0
  isplitl [Hf1 Hit1]
  · iapply (idxSlot1_intro (F := F) d L w fi (k.val + 1) (by omega) _ (k0_off9 L k) (off9_eq L k) _
      (fun a => listValue_1 (F := F) d L g1 fi _ _ (k0_off9 L k) (off9_eq L k) _ _ a)) $$ [Hf1 Hit1]
    isplitl [Hf1]; · iexact Hf1
    iexact Hit1
  isplitl [Hf2 Hit2]
  · iapply (idxSlot2_intro (F := F) d L w fi (k.val + 1) (by omega) _ (k0_off10 L k) (off10_eq L k) _
      (fun a => listValue_2 (F := F) d L g2 fi _ _ (k0_off10 L k) (off10_eq L k) _ _ a)) $$ [Hf2 Hit2]
    isplitl [Hf2]; · iexact Hf2
    iexact Hit2
  isplitl [Hf3 Hit3]
  · iapply (idxSlot3_intro (F := F) d L w fi (k.val + 1) (by omega) _ (k0_off11 L k) (off11_eq L k) _
      (fun a => listValue_3 (F := F) d L g3 fi _ _ (k0_off11 L k) (off11_eq L k) _ _ a)) $$ [Hf3 Hit3]
    isplitl [Hf3]; · iexact Hf3
    iexact Hit3
  isplitl [Hc8 Hr0]
  · iapply (rowSlot0_intro (F := F) d L fi fx (k.val + 1) k rfl g0 fr0 fo (nb L + 128 * (4 * k.val + 0)) (chunk_le L _ (by omega)) (off7_eq0 L k) hin0 hv0 hpre) $$ [Hc8 Hr0]
    isplitl [Hc8]; · iexact Hc8
    iexact Hr0
  isplitl [Hc9 Hr1]
  · iapply (rowSlot1_intro (F := F) d L fi fx (k.val + 1) k rfl g1 fr1 fo (nb L + 128 * (4 * k.val + 1)) (chunk_le L _ (by omega)) (off7_eq1 L k) hin1 hv1 hpre) $$ [Hc9 Hr1]
    isplitl [Hc9]; · iexact Hc9
    iexact Hr1
  isplitl [Hc10 Hr2]
  · iapply (rowSlot2_intro (F := F) d L fi fx (k.val + 1) k rfl g2 fr2 fo (nb L + 128 * (4 * k.val + 2)) (chunk_le L _ (by omega)) (off7_eq2 L k) hin2 hv2 hpre) $$ [Hc10 Hr2]
    isplitl [Hc10]; · iexact Hc10
    iexact Hr2
  isplitl [Hc11 Hr3]
  · iapply (rowSlot3_intro (F := F) d L fi fx (k.val + 1) k rfl g3 fr3 fo (nb L + 128 * (4 * k.val + 3)) (chunk_le L _ (by omega)) (off7_eq3 L k) hin3 hv3 hpre) $$ [Hc11 Hr3]
    isplitl [Hc11]; · iexact Hc11
    iexact Hr3
  isplitl [Hxt4 Hc4]
  · isplitl [Hxt4]; · iexact Hxt4
    iexact Hc4
  isplitl [Hxt5 Hc5]
  · isplitl [Hxt5]; · iexact Hxt5
    iexact Hc5
  isplitl [Hxt6 Hc6]
  · isplitl [Hxt6]; · iexact Hxt6
    iexact Hc6
  isplitl [Hxt7 Hc7]
  · isplitl [Hxt7]; · iexact Hxt7
    iexact Hc7
  isplitl [Htodo HT0 HT1]
  · unfold outPart
    isplitl [Htodo]; · iexact Htodo
    isplitr
    · rw [show k.val + 1 - 1 = 0 by omega, bigSep_upto_zero]; iempintro
    isplitl [HT0]; · iexact HT0
    iexact HT1
  iexists _; isplitr
  swap; · iexact HO
  ipureintro; intro p hp
  repeat (rcases Finset.mem_insert.mp hp with hp | hp; · exact .inr (hp ▸ rfl))
  exact hW' p hp

set_option maxHeartbeats 4000000 in
theorem trip_mid (hpre : ∀ j, (fi j).toNat < 100000) (k : Fin k0_t1_loop.trips) (h0 : 0 < k.val) (h11 : k.val < 11) (v2 : BitVec 32) :
    inv d L O W w fi fx fo k.val ()
      ⊢ wp frame (wpE (defs₀ (F := F)) 𝒱₀ (V d (cV L) (jV L)) none) Set.univ
          (k0_t1_body L iV (Memref.isWhole_whole _) xV (Memref.isWhole_whole _) oV (Memref.isWhole_whole _)
            s0V (Memref.isWhole_whole _) s1V (Memref.isWhole_whole _) s2V (Memref.isWhole_whole _) s3V (Memref.isWhole_whole _)
            r0V (Memref.isWhole_whole _) r1V (Memref.isWhole_whole _) r2V (Memref.isWhole_whole _) r3V (Memref.isWhole_whole _)
            cc0_scratch8 cc0_scratch9 cc0_scratch10 cc0_scratch11 cc0_scratch12 cc0_scratch13 cc0_scratch14 cc0_scratch15 cc0_scratch16 cc0_scratch17 cc0_scratch18 cc0_scratch19 v2 k ())
          fun acc => inv d L O W w fi fx fo (k.val + 1) acc := by
  obtain ⟨k0_h1, k0_h2, k0_h3, k0_h4, k0_h5, k0_h6, k0_h7, k0_h8⟩ := conds_mid k h0 h11
  have hk12 : k.val < 12 := trips_eq ▸ k.isLt
  generalize hQ : (fun acc => inv d L O W w fi fx fo (k.val + 1) acc) = Q
  unfold k0_t1_body
  rw [k0_part1_eq_skeleton, k0_part2_eq_skeleton]; unfold k0_part1_skel k0_part2_skel
  unfold inv idxSlot0 idxSlot1 idxSlot2 idxSlot3 rowSlot0 rowSlot1 rowSlot2 rowSlot3 outPart
  rw [dif_pos (show 4 * k.val + 0 < 50 by omega), dif_pos (show 4 * k.val + 1 < 50 by omega), dif_pos (show 4 * k.val + 2 < 50 by omega), dif_pos (show 4 * k.val + 3 < 50 by omega),
    dif_pos (show 0 < k.val ∧ k.val ≤ 12 from ⟨h0, by omega⟩), dif_pos (show 0 < k.val ∧ k.val ≤ 12 from ⟨h0, by omega⟩),
    dif_pos (show 0 < k.val ∧ k.val ≤ 12 from ⟨h0, by omega⟩), dif_pos (show 0 < k.val ∧ k.val ≤ 12 from ⟨h0, by omega⟩)]
  rw [bigSep_from_fin (F := F) (fun t => tripOut d L t fo) k, tripOut_eq (F := F) d L k fo]
  iintro ⟨Hmw, ⟨%g0, %hv0, Hf0, Hit0⟩, ⟨%g1, %hv1, Hf1, Hit1⟩, ⟨%g2, %hv2, Hf2, Hit2⟩, ⟨%g3, %hv3, Hf3, Hit3⟩,
    ⟨%fr0, Hc8, Hr0⟩, ⟨%fr1, Hc9, Hr1⟩, ⟨%fr2, Hc10, Hr2⟩, ⟨%fr3, Hc11, Hr3⟩,
    ⟨Hxt4, Hc4⟩, ⟨Hxt5, Hc5⟩, ⟨Hxt6, Hc6⟩, ⟨Hxt7, Hc7⟩, ⟨⟨⟨Hw0, Hw1, Hw2, Hw3⟩, Htodo⟩, Hdone, HT0, HT1⟩, %W', %hW', HO⟩
  have hin0 := hin_of_value_0 (F := F) d L g0 fi _ _ hv0 hpre
  have hin1 := hin_of_value_1 (F := F) d L g1 fi _ _ hv1 hpre
  have hin2 := hin_of_value_2 (F := F) d L g2 fi _ _ hv2 hpre
  have hin3 := hin_of_value_3 (F := F) d L g3 fi _ _ hv3 hpre
  ihave Hw0 := (Entails.of_eq (pts_oM0 (F := F) d L k fo).symm) $$ Hw0
  ihave Hw1 := (Entails.of_eq (pts_oM1 (F := F) d L k fo).symm) $$ Hw1
  ihave Hw2 := (Entails.of_eq (pts_oM2 (F := F) d L k fo).symm) $$ Hw2
  ihave Hw3 := (Entails.of_eq (pts_oM3 (F := F) d L k fo).symm) $$ Hw3
  sl_exec
  sl_step
  subst hQ
  beta_reduce
  unfold inv
  isplitl [Hmw]; · iexact Hmw
  isplitl [Hf0 Hit0]
  · iapply (idxSlot0_intro (F := F) d L w fi (k.val + 1) (by omega) _ (k0_off8 L k) (off8_eq L k) _
      (fun a => listValue_0 (F := F) d L g0 fi _ _ (k0_off8 L k) (off8_eq L k) _ _ a)) $$ [Hf0 Hit0]
    isplitl [Hf0]; · iexact Hf0
    iexact Hit0
  isplitl [Hf1 Hit1]
  · iapply (idxSlot1_intro (F := F) d L w fi (k.val + 1) (by omega) _ (k0_off9 L k) (off9_eq L k) _
      (fun a => listValue_1 (F := F) d L g1 fi _ _ (k0_off9 L k) (off9_eq L k) _ _ a)) $$ [Hf1 Hit1]
    isplitl [Hf1]; · iexact Hf1
    iexact Hit1
  isplitl [Hf2 Hit2]
  · iapply (idxSlot2_intro (F := F) d L w fi (k.val + 1) (by omega) _ (k0_off10 L k) (off10_eq L k) _
      (fun a => listValue_2 (F := F) d L g2 fi _ _ (k0_off10 L k) (off10_eq L k) _ _ a)) $$ [Hf2 Hit2]
    isplitl [Hf2]; · iexact Hf2
    iexact Hit2
  isplitl [Hf3 Hit3]
  · iapply (idxSlot3_intro (F := F) d L w fi (k.val + 1) (by omega) _ (k0_off11 L k) (off11_eq L k) _
      (fun a => listValue_3 (F := F) d L g3 fi _ _ (k0_off11 L k) (off11_eq L k) _ _ a)) $$ [Hf3 Hit3]
    isplitl [Hf3]; · iexact Hf3
    iexact Hit3
  isplitl [Hc8 Hr0]
  · iapply (rowSlot0_intro (F := F) d L fi fx (k.val + 1) k rfl g0 fr0 fo (nb L + 128 * (4 * k.val + 0)) (chunk_le L _ (by omega)) (off7_eq0 L k) hin0 hv0 hpre) $$ [Hc8 Hr0]
    isplitl [Hc8]; · iexact Hc8
    iexact Hr0
  isplitl [Hc9 Hr1]
  · iapply (rowSlot1_intro (F := F) d L fi fx (k.val + 1) k rfl g1 fr1 fo (nb L + 128 * (4 * k.val + 1)) (chunk_le L _ (by omega)) (off7_eq1 L k) hin1 hv1 hpre) $$ [Hc9 Hr1]
    isplitl [Hc9]; · iexact Hc9
    iexact Hr1
  isplitl [Hc10 Hr2]
  · iapply (rowSlot2_intro (F := F) d L fi fx (k.val + 1) k rfl g2 fr2 fo (nb L + 128 * (4 * k.val + 2)) (chunk_le L _ (by omega)) (off7_eq2 L k) hin2 hv2 hpre) $$ [Hc10 Hr2]
    isplitl [Hc10]; · iexact Hc10
    iexact Hr2
  isplitl [Hc11 Hr3]
  · iapply (rowSlot3_intro (F := F) d L fi fx (k.val + 1) k rfl g3 fr3 fo (nb L + 128 * (4 * k.val + 3)) (chunk_le L _ (by omega)) (off7_eq3 L k) hin3 hv3 hpre) $$ [Hc11 Hr3]
    isplitl [Hc11]; · iexact Hc11
    iexact Hr3
  isplitl [Hxt4 Hc4]
  · isplitl [Hxt4]; · iexact Hxt4
    iexact Hc4
  isplitl [Hxt5 Hc5]
  · isplitl [Hxt5]; · iexact Hxt5
    iexact Hc5
  isplitl [Hxt6 Hc6]
  · isplitl [Hxt6]; · iexact Hxt6
    iexact Hc6
  isplitl [Hxt7 Hc7]
  · isplitl [Hxt7]; · iexact Hxt7
    iexact Hc7
  isplitl [Htodo Hdone HT0 HT1 Hc8_dst Hc9_dst Hc10_dst Hc11_dst]
  · unfold outPart
    isplitl [Htodo]; · iexact Htodo
    isplitl [Hdone Hc8_dst Hc9_dst Hc10_dst Hc11_dst]
    · rw [show k.val + 1 - 1 = (k.val - 1) + 1 by omega,
        bigSep_upto_succ (fun t => tripOut d L t (Spec.Gflat fi fx : Buf (Elt F) (oLoc d))) (k.val - 1) (lt_of_le_of_lt (Nat.sub_le _ _) k.isLt), tripOut_eq]
      isplitl [Hc8_dst Hc9_dst Hc10_dst Hc11_dst]
      · isplitl [Hc8_dst]; · iexact Hc8_dst
        isplitl [Hc9_dst]; · iexact Hc9_dst
        isplitl [Hc10_dst]; · iexact Hc10_dst
        iexact Hc11_dst
      · iexact Hdone
    isplitl [HT0]; · iexact HT0
    iexact HT1
  iexists _; isplitr
  swap; · iexact HO
  ipureintro; intro p hp
  repeat (rcases Finset.mem_insert.mp hp with hp | hp; · exact .inr (hp ▸ rfl))
  exact hW' p hp

set_option maxHeartbeats 4000000 in
theorem trip_last (hpre : ∀ j, (fi j).toNat < 100000) (k : Fin k0_t1_loop.trips) (h11 : k.val = 11) (v2 : BitVec 32) :
    inv d L O W w fi fx fo k.val ()
      ⊢ wp frame (wpE (defs₀ (F := F)) 𝒱₀ (V d (cV L) (jV L)) none) Set.univ
          (k0_t1_body L iV (Memref.isWhole_whole _) xV (Memref.isWhole_whole _) oV (Memref.isWhole_whole _)
            s0V (Memref.isWhole_whole _) s1V (Memref.isWhole_whole _) s2V (Memref.isWhole_whole _) s3V (Memref.isWhole_whole _)
            r0V (Memref.isWhole_whole _) r1V (Memref.isWhole_whole _) r2V (Memref.isWhole_whole _) r3V (Memref.isWhole_whole _)
            cc0_scratch8 cc0_scratch9 cc0_scratch10 cc0_scratch11 cc0_scratch12 cc0_scratch13 cc0_scratch14 cc0_scratch15 cc0_scratch16 cc0_scratch17 cc0_scratch18 cc0_scratch19 v2 k ())
          fun acc => inv d L O W w fi fx fo (k.val + 1) acc := by
  obtain ⟨k0_h1, k0_h2, k0_h3, k0_h4, k0_h5, k0_h6, k0_h7, k0_h8⟩ := conds_last k h11
  have hk12 : k.val < 12 := trips_eq ▸ k.isLt
  generalize hQ : (fun acc => inv d L O W w fi fx fo (k.val + 1) acc) = Q
  unfold k0_t1_body
  rw [k0_part1_eq_skeleton, k0_part2_eq_skeleton]; unfold k0_part1_skel k0_part2_skel
  unfold inv idxSlot0 idxSlot1 idxSlot2 idxSlot3 rowSlot0 rowSlot1 rowSlot2 rowSlot3 outPart
  rw [dif_pos (show 4 * k.val + 0 < 50 by omega), dif_pos (show 4 * k.val + 1 < 50 by omega), dif_pos (show 4 * k.val + 2 < 50 by omega), dif_pos (show 4 * k.val + 3 < 50 by omega),
    dif_pos (show 0 < k.val ∧ k.val ≤ 12 by omega), dif_pos (show 0 < k.val ∧ k.val ≤ 12 by omega), dif_pos (show 0 < k.val ∧ k.val ≤ 12 by omega), dif_pos (show 0 < k.val ∧ k.val ≤ 12 by omega)]
  rw [bigSep_from_fin (F := F) (fun t => tripOut d L t fo) k, tripOut_eq (F := F) d L k fo]
  iintro ⟨Hmw, ⟨%g0, %hv0, Hf0, Hit0⟩, ⟨%g1, %hv1, Hf1, Hit1⟩, ⟨%g2, %hv2, Hf2, Hit2⟩, ⟨%g3, %hv3, Hf3, Hit3⟩,
    ⟨%fr0, Hc8, Hr0⟩, ⟨%fr1, Hc9, Hr1⟩, ⟨%fr2, Hc10, Hr2⟩, ⟨%fr3, Hc11, Hr3⟩,
    ⟨Hxt4, Hc4⟩, ⟨Hxt5, Hc5⟩, ⟨Hxt6, Hc6⟩, ⟨Hxt7, Hc7⟩, ⟨⟨⟨Hw0, Hw1, Hw2, Hw3⟩, Htodo⟩, Hdone, HT0, HT1⟩, %W', %hW', HO⟩
  have hin0 := hin_of_value_0 (F := F) d L g0 fi _ _ hv0 hpre
  have hin1 := hin_of_value_1 (F := F) d L g1 fi _ _ hv1 hpre
  have hin2 := hin_of_value_2 (F := F) d L g2 fi _ _ hv2 hpre
  have hin3 := hin_of_value_3 (F := F) d L g3 fi _ _ hv3 hpre
  ihave Hw0 := (Entails.of_eq (pts_oM0 (F := F) d L k fo).symm) $$ Hw0
  ihave Hw1 := (Entails.of_eq (pts_oM1 (F := F) d L k fo).symm) $$ Hw1
  ihave Hw2 := (Entails.of_eq (pts_oM2 (F := F) d L k fo).symm) $$ Hw2
  ihave Hw3 := (Entails.of_eq (pts_oM3 (F := F) d L k fo).symm) $$ Hw3
  sl_exec
  sl_step
  subst hQ
  beta_reduce
  unfold inv
  isplitl [Hmw]; · iexact Hmw
  isplitl [Hf0 Hit0]
  · iapply (idxSlot0_intro (F := F) d L w fi (k.val + 1) (by omega) _ (k0_off8 L k) (off8_eq L k) _
      (fun a => listValue_0 (F := F) d L g0 fi _ _ (k0_off8 L k) (off8_eq L k) _ _ a)) $$ [Hf0 Hit0]
    isplitl [Hf0]; · iexact Hf0
    iexact Hit0
  isplitl [Hf1 Hit1]
  · iapply (idxSlot1_intro (F := F) d L w fi (k.val + 1) (by omega) _ (k0_off9 L k) (off9_eq L k) _
      (fun a => listValue_1 (F := F) d L g1 fi _ _ (k0_off9 L k) (off9_eq L k) _ _ a)) $$ [Hf1 Hit1]
    isplitl [Hf1]; · iexact Hf1
    iexact Hit1
  isplitl [Hf2 Hit2 Hf2_dst]
  · unfold idxSlot2; rw [dif_neg (show ¬ 4 * (k.val + 1) + 2 < 50 by omega)]
    isplitl [Hf2_dst]; · iexists _; iexact Hf2_dst
    isplitl [Hf2]; · iexact Hf2
    iexact Hit2
  isplitl [Hf3 Hit3 Hf3_dst]
  · unfold idxSlot3; rw [dif_neg (show ¬ 4 * (k.val + 1) + 3 < 50 by omega)]
    isplitl [Hf3_dst]; · iexists _; iexact Hf3_dst
    isplitl [Hf3]; · iexact Hf3
    iexact Hit3
  isplitl [Hc8 Hr0]
  · iapply (rowSlot0_intro (F := F) d L fi fx (k.val + 1) k rfl g0 fr0 fo (nb L + 128 * (4 * k.val + 0)) (chunk_le L _ (by omega)) (off7_eq0 L k) hin0 hv0 hpre) $$ [Hc8 Hr0]
    isplitl [Hc8]; · iexact Hc8
    iexact Hr0
  isplitl [Hc9 Hr1]
  · iapply (rowSlot1_intro (F := F) d L fi fx (k.val + 1) k rfl g1 fr1 fo (nb L + 128 * (4 * k.val + 1)) (chunk_le L _ (by omega)) (off7_eq1 L k) hin1 hv1 hpre) $$ [Hc9 Hr1]
    isplitl [Hc9]; · iexact Hc9
    iexact Hr1
  isplitl [Hc10 Hr2]
  · iapply (rowSlot2_intro (F := F) d L fi fx (k.val + 1) k rfl g2 fr2 fo (nb L + 128 * (4 * k.val + 2)) (chunk_le L _ (by omega)) (off7_eq2 L k) hin2 hv2 hpre) $$ [Hc10 Hr2]
    isplitl [Hc10]; · iexact Hc10
    iexact Hr2
  isplitl [Hc11 Hr3]
  · iapply (rowSlot3_intro (F := F) d L fi fx (k.val + 1) k rfl g3 fr3 fo (nb L + 128 * (4 * k.val + 3)) (chunk_le L _ (by omega)) (off7_eq3 L k) hin3 hv3 hpre) $$ [Hc11 Hr3]
    isplitl [Hc11]; · iexact Hc11
    iexact Hr3
  isplitl [Hxt4 Hc4]
  · isplitl [Hxt4]; · iexact Hxt4
    iexact Hc4
  isplitl [Hxt5 Hc5]
  · isplitl [Hxt5]; · iexact Hxt5
    iexact Hc5
  isplitl [Hxt6 Hc6]
  · isplitl [Hxt6]; · iexact Hxt6
    iexact Hc6
  isplitl [Hxt7 Hc7]
  · isplitl [Hxt7]; · iexact Hxt7
    iexact Hc7
  isplitl [Htodo Hdone HT0 HT1 Hc8_dst Hc9_dst Hc10_dst Hc11_dst]
  · unfold outPart
    isplitl [Htodo]; · iexact Htodo
    isplitl [Hdone Hc8_dst Hc9_dst Hc10_dst Hc11_dst]
    · rw [show k.val + 1 - 1 = (k.val - 1) + 1 by omega,
        bigSep_upto_succ (fun t => tripOut d L t (Spec.Gflat fi fx : Buf (Elt F) (oLoc d))) (k.val - 1) (lt_of_le_of_lt (Nat.sub_le _ _) k.isLt), tripOut_eq]
      isplitl [Hc8_dst Hc9_dst Hc10_dst Hc11_dst]
      · isplitl [Hc8_dst]; · iexact Hc8_dst
        isplitl [Hc9_dst]; · iexact Hc9_dst
        isplitl [Hc10_dst]; · iexact Hc10_dst
        iexact Hc11_dst
      · iexact Hdone
    isplitl [HT0]; · iexact HT0
    iexact HT1
  iexists _; isplitr
  swap; · iexact HO
  ipureintro; intro p hp
  repeat (rcases Finset.mem_insert.mp hp with hp | hp; · exact .inr (hp ▸ rfl))
  exact hW' p hp

set_option maxHeartbeats 8000000 in
/-- The kernel on one vector subcore: the four index fetches before the loop, the loop by its invariant, the two last
    chunks and the closing waits. -/
theorem tile_body (hF : (K (F := F)).Facts) (hpre : ∀ j, (fi j).toNat < 100000) (hO : ∀ g, O g none = 0) :
    iprop(levAts (K (F := F)).L (K (F := F)).lev ∗ emp
        ∗ ((iLoc d ↦{wq (widL L)} fi : sProp 𝕄) ∗ (xLoc d ↦{wq (widL L)} fx : sProp 𝕄) ∗ (oLoc d ↦[oRegSet (widL L)]{fullShare} fo : sProp 𝕄))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iV (Memref.isWhole_whole _) xV (Memref.isWhole_whole _) oV (Memref.isWhole_whole _)
            s0V (Memref.isWhole_whole _) s1V (Memref.isWhole_whole _) s2V (Memref.isWhole_whole _) s3V (Memref.isWhole_whole _)
            r0V (Memref.isWhole_whole _) r1V (Memref.isWhole_whole _) r2V (Memref.isWhole_whole _) r3V (Memref.isWhole_whole _)
            cc0_scratch8 cc0_scratch9 cc0_scratch10 cc0_scratch11 cc0_scratch12 cc0_scratch13 cc0_scratch14 cc0_scratch15 cc0_scratch16 cc0_scratch17 cc0_scratch18 cc0_scratch19)
          fun _ => iprop(((iLoc d ↦{wq (widL L)} fi : sProp 𝕄) ∗ (xLoc d ↦{wq (widL L)} fx : sProp 𝕄)
              ∗ (oLoc d ↦[oRegSet (widL L)]{fullShare} (Spec.Gflat fi fx : Buf (Elt F) (oLoc d)) : sProp 𝕄))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  rw [oReg_split (F := F) d L fo, oReg_split (F := F) d L (Spec.Gflat fi fx : Buf (Elt F) (oLoc d))]
  iintro ⟨#Hlv, -, ⟨Hi, Hx, ⟨Hall, HT0, HT1⟩⟩, ⟨⟨%fs0, Hs0⟩, ⟨%fs1, Hs1⟩, ⟨%fs2, Hs2⟩, ⟨%fs3, Hs3⟩, ⟨%fr0, Hr0⟩, ⟨%fr1, Hr1⟩, ⟨%fr2, Hr2⟩, ⟨%fr3, Hr3⟩, Hbufs⟩, ⟨Hc0, Hc1, Hc2, Hc3, Hc4, Hc5, Hc6, Hc7, Hc8, Hc9, Hc10, Hc11, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hi := (Entails.of_eq (pts_iV (F := F) d L _ _).symm) $$ Hi
  ihave Hx := (Entails.of_eq (pts_xV (F := F) d L _ _).symm) $$ Hx
  ihave Hs0 := (Entails.of_eq (pts_s0V (F := F) d L _).symm) $$ Hs0
  ihave Hr0 := (Entails.of_eq (pts_r0V (F := F) d L _).symm) $$ Hr0
  ihave Hs1 := (Entails.of_eq (pts_s1V (F := F) d L _).symm) $$ Hs1
  ihave Hr1 := (Entails.of_eq (pts_r1V (F := F) d L _).symm) $$ Hr1
  ihave Hs2 := (Entails.of_eq (pts_s2V (F := F) d L _).symm) $$ Hs2
  ihave Hr2 := (Entails.of_eq (pts_r2V (F := F) d L _).symm) $$ Hr2
  ihave Hs3 := (Entails.of_eq (pts_s3V (F := F) d L _).symm) $$ Hs3
  ihave Hr3 := (Entails.of_eq (pts_r3V (F := F) d L _).symm) $$ Hr3
  ihave Hi := (Entails.of_eq (show ((iV).view.loc (V d (cV L) (jV L)) ↦{wq (widL L)} fi : sProp 𝕄) = ((iV).view.loc (V d (cV L) (jV L)) ↦{Transfers.shareDrop (wq (widL L)) 0} fi) from rfl)) $$ Hi
  ihave Hsp := (tok_succ (F := F) Finset.univ _ (wq (widL L)) 0).1 $$ Hi
  icases Hsp with ⟨Hi, Hit0⟩
  ihave Hsp := (tok_succ (F := F) Finset.univ _ (wq (widL L)) 1).1 $$ Hi
  icases Hsp with ⟨Hi, Hit1⟩
  ihave Hsp := (tok_succ (F := F) Finset.univ _ (wq (widL L)) 2).1 $$ Hi
  icases Hsp with ⟨Hi, Hit2⟩
  ihave Hsp := (tok_succ (F := F) Finset.univ _ (wq (widL L)) 3).1 $$ Hi
  icases Hsp with ⟨Hi, Hit3⟩
  ihave Hx := (Entails.of_eq (show ((xV).view.loc (V d (cV L) (jV L)) ↦{wq (widL L)} fx : sProp 𝕄) = ((xV).view.loc (V d (cV L) (jV L)) ↦{Transfers.shareDrop (wq (widL L)) 0} fx) from rfl)) $$ Hx
  ihave Hsp := (tok_succ (F := F) Finset.univ _ (wq (widL L)) 0).1 $$ Hx
  icases Hsp with ⟨Hx, Hxt0⟩
  ihave Hsp := (tok_succ (F := F) Finset.univ _ (wq (widL L)) 1).1 $$ Hx
  icases Hsp with ⟨Hx, Hxt1⟩
  ihave Hsp := (tok_succ (F := F) Finset.univ _ (wq (widL L)) 2).1 $$ Hx
  icases Hsp with ⟨Hx, Hxt2⟩
  ihave Hsp := (tok_succ (F := F) Finset.univ _ (wq (widL L)) 3).1 $$ Hx
  icases Hsp with ⟨Hx, Hxt3⟩
  ihave Hsp := (tok_succ (F := F) Finset.univ _ (wq (widL L)) 4).1 $$ Hx
  icases Hsp with ⟨Hx, Hxt4⟩
  ihave Hsp := (tok_succ (F := F) Finset.univ _ (wq (widL L)) 5).1 $$ Hx
  icases Hsp with ⟨Hx, Hxt5⟩
  ihave Hsp := (tok_succ (F := F) Finset.univ _ (wq (widL L)) 6).1 $$ Hx
  icases Hsp with ⟨Hx, Hxt6⟩
  ihave Hsp := (tok_succ (F := F) Finset.univ _ (wq (widL L)) 7).1 $$ Hx
  icases Hsp with ⟨Hx, Hxt7⟩
  sl_exec
  sl_for (inv d L O W (widL L) fi fx fo) $$ [Hmw Hc0 Hit0 Hc1 Hit1 Hc2 Hit2 Hc3 Hit3 Hr0 Hr1 Hr2 Hr3 Hc8 Hc9 Hc10 Hc11 Hxt4 Hxt5 Hxt6 Hxt7 Hc4 Hc5 Hc6 Hc7 Hall HT0 HT1 HO]
  case region =>
    intro k _
    have hk12 : k.val < 12 := trips_eq ▸ k.isLt
    by_cases h0 : k.val = 0
    · exact trip_first d L O W (widL L) fi fx fo hpre k h0 _
    by_cases h11 : k.val = 11
    · exact trip_last d L O W (widL L) fi fx fo hpre k h11 _
    · exact trip_mid d L O W (widL L) fi fx fo hpre k (by omega) (by omega) _
  · unfold inv
    isplitl [Hmw]; · iexact Hmw
    isplitl [Hc0 Hit0]
    · iapply (idxSlot0_intro (F := F) d L (widL L) fi 0 (by omega) _ (k0_off1 L 0#32) (off1_eq0 L) _
        (fun a => listValue_0 (F := F) d L fs0 fi _ _ (k0_off1 L 0#32) (off1_eq0 L) _ _ a)) $$ [Hc0 Hit0]
      isplitl [Hc0]; · iexact Hc0
      iexact Hit0
    isplitl [Hc1 Hit1]
    · iapply (idxSlot1_intro (F := F) d L (widL L) fi 0 (by omega) _ (k0_off1 L 128#32) (off1_eq1 L) _
        (fun a => listValue_1 (F := F) d L fs1 fi _ _ (k0_off1 L 128#32) (off1_eq1 L) _ _ a)) $$ [Hc1 Hit1]
      isplitl [Hc1]; · iexact Hc1
      iexact Hit1
    isplitl [Hc2 Hit2]
    · iapply (idxSlot2_intro (F := F) d L (widL L) fi 0 (by omega) _ (k0_off1 L 256#32) (off1_eq2 L) _
        (fun a => listValue_2 (F := F) d L fs2 fi _ _ (k0_off1 L 256#32) (off1_eq2 L) _ _ a)) $$ [Hc2 Hit2]
      isplitl [Hc2]; · iexact Hc2
      iexact Hit2
    isplitl [Hc3 Hit3]
    · iapply (idxSlot3_intro (F := F) d L (widL L) fi 0 (by omega) _ (k0_off1 L 384#32) (off1_eq3 L) _
        (fun a => listValue_3 (F := F) d L fs3 fi _ _ (k0_off1 L 384#32) (off1_eq3 L) _ _ a)) $$ [Hc3 Hit3]
      isplitl [Hc3]; · iexact Hc3
      iexact Hit3
    isplitl [Hr0 Hc8]
    · unfold rowSlot0; rw [dif_neg (show ¬ (0 < 0 ∧ 0 ≤ 12) by omega)]
      isplitl [Hr0]; · iexists _; iexact Hr0
      iexact Hc8
    isplitl [Hr1 Hc9]
    · unfold rowSlot1; rw [dif_neg (show ¬ (0 < 0 ∧ 0 ≤ 12) by omega)]
      isplitl [Hr1]; · iexists _; iexact Hr1
      iexact Hc9
    isplitl [Hr2 Hc10]
    · unfold rowSlot2; rw [dif_neg (show ¬ (0 < 0 ∧ 0 ≤ 12) by omega)]
      isplitl [Hr2]; · iexists _; iexact Hr2
      iexact Hc10
    isplitl [Hr3 Hc11]
    · unfold rowSlot3; rw [dif_neg (show ¬ (0 < 0 ∧ 0 ≤ 12) by omega)]
      isplitl [Hr3]; · iexists _; iexact Hr3
      iexact Hc11
    isplitl [Hxt4 Hc4]
    · isplitl [Hxt4]; · iexact Hxt4
      iexact Hc4
    isplitl [Hxt5 Hc5]
    · isplitl [Hxt5]; · iexact Hxt5
      iexact Hc5
    isplitl [Hxt6 Hc6]
    · isplitl [Hxt6]; · iexact Hxt6
      iexact Hc6
    isplitl [Hxt7 Hc7]
    · isplitl [Hxt7]; · iexact Hxt7
      iexact Hc7
    isplitl [Hall HT0 HT1]
    · unfold outPart
      isplitl [Hall]; · rw [bigSep_from_zero]; iexact Hall
      isplitr; · rw [show (0 : ℕ) - 1 = 0 from rfl, bigSep_upto_zero]; iempintro
      isplitl [HT0]; · iexact HT0
      iexact HT1
    iexists W; isplitr
    · ipureintro; exact fun p hp => .inl hp
    · iexact HO
  unfold inv idxSlot0 idxSlot1 idxSlot2 idxSlot3 rowSlot0 rowSlot1 rowSlot2 rowSlot3 outPart
  rw [show Scf.trips k0_t1_loop.lb k0_t1_loop.ub k0_t1_loop.st = 12 from trips_eq]
  rw [dif_pos (show 4 * 12 + 0 < 50 by omega), dif_pos (show 4 * 12 + 1 < 50 by omega), dif_neg (show ¬ 4 * 12 + 2 < 50 by omega), dif_neg (show ¬ 4 * 12 + 3 < 50 by omega),
    dif_pos (show 0 < 12 ∧ 12 ≤ 12 by omega), dif_pos (show 0 < 12 ∧ 12 ≤ 12 by omega), dif_pos (show 0 < 12 ∧ 12 ≤ 12 by omega), dif_pos (show 0 < 12 ∧ 12 ≤ 12 by omega)]
  iintro %_ ⟨-, ⟨%g0, %hv0, Hf0, Hit0⟩, ⟨%g1, %hv1, Hf1, Hit1⟩, ⟨⟨%g2, Hs2⟩, Hc2, Hit2⟩, ⟨⟨%g3, Hs3⟩, Hc3, Hit3⟩,
    ⟨%fr0, Hc8, Hr0⟩, ⟨%fr1, Hc9, Hr1⟩, ⟨%fr2, Hc10, Hr2⟩, ⟨%fr3, Hc11, Hr3⟩,
    ⟨Hxt4, Hc4⟩, ⟨Hxt5, Hc5⟩, ⟨Hxt6, Hc6⟩, ⟨Hxt7, Hc7⟩, ⟨-, Hdone, HT0, HT1⟩, %W', %hW', HO⟩
  have hin0 := hin_of_value_0 (F := F) d L g0 fi _ _ hv0 hpre
  have hin1 := hin_of_value_1 (F := F) d L g1 fi _ _ hv1 hpre
  ihave HT0 := (Entails.of_eq (pts_oMT0 (F := F) d L fo).symm) $$ HT0
  ihave HT1 := (Entails.of_eq (pts_oMT1 (F := F) d L fo).symm) $$ HT1
  sl_exec
  sl_step
  isplitl [Hi Hit0 Hit1 Hit2 Hit3 Hx Hxt0 Hxt1 Hxt2 Hxt3 Hxt4 Hxt5 Hxt6 Hxt7 Hdone Hc8_dst Hc9_dst Hc10_dst Hc11_dst HT0 HT1]
  · isplitl [Hi Hit0 Hit1 Hit2 Hit3]
    · ihave Hi := (tok_succ (F := F) Finset.univ _ (wq (widL L)) 3).2 $$ [Hi Hit3]
      · isplitl [Hi]; · iexact Hi
        iexact Hit3
      ihave Hi := (tok_succ (F := F) Finset.univ _ (wq (widL L)) 2).2 $$ [Hi Hit2]
      · isplitl [Hi]; · iexact Hi
        iexact Hit2
      ihave Hi := (tok_succ (F := F) Finset.univ _ (wq (widL L)) 1).2 $$ [Hi Hit1]
      · isplitl [Hi]; · iexact Hi
        iexact Hit1
      ihave Hi := (tok_succ (F := F) Finset.univ _ (wq (widL L)) 0).2 $$ [Hi Hit0]
      · isplitl [Hi]; · iexact Hi
        iexact Hit0
      iexact Hi
    isplitl [Hx Hxt0 Hxt1 Hxt2 Hxt3 Hxt4 Hxt5 Hxt6 Hxt7]
    · ihave Hx := (tok_succ (F := F) Finset.univ _ (wq (widL L)) 7).2 $$ [Hx Hxt7]
      · isplitl [Hx]; · iexact Hx
        iexact Hxt7
      ihave Hx := (tok_succ (F := F) Finset.univ _ (wq (widL L)) 6).2 $$ [Hx Hxt6]
      · isplitl [Hx]; · iexact Hx
        iexact Hxt6
      ihave Hx := (tok_succ (F := F) Finset.univ _ (wq (widL L)) 5).2 $$ [Hx Hxt5]
      · isplitl [Hx]; · iexact Hx
        iexact Hxt5
      ihave Hx := (tok_succ (F := F) Finset.univ _ (wq (widL L)) 4).2 $$ [Hx Hxt4]
      · isplitl [Hx]; · iexact Hx
        iexact Hxt4
      ihave Hx := (tok_succ (F := F) Finset.univ _ (wq (widL L)) 3).2 $$ [Hx Hxt3]
      · isplitl [Hx]; · iexact Hx
        iexact Hxt3
      ihave Hx := (tok_succ (F := F) Finset.univ _ (wq (widL L)) 2).2 $$ [Hx Hxt2]
      · isplitl [Hx]; · iexact Hx
        iexact Hxt2
      ihave Hx := (tok_succ (F := F) Finset.univ _ (wq (widL L)) 1).2 $$ [Hx Hxt1]
      · isplitl [Hx]; · iexact Hx
        iexact Hxt1
      ihave Hx := (tok_succ (F := F) Finset.univ _ (wq (widL L)) 0).2 $$ [Hx Hxt0]
      · isplitl [Hx]; · iexact Hx
        iexact Hxt0
      iexact Hx
    isplitl [Hdone Hc8_dst Hc9_dst Hc10_dst Hc11_dst]
    · rw [← bigSep_upto_top (fun t => tripOut d L t (Spec.Gflat fi fx : Buf (Elt F) (oLoc d))) (11 + 1) (le_of_eq trips_eq),
        bigSep_upto_succ (fun t => tripOut d L t (Spec.Gflat fi fx : Buf (Elt F) (oLoc d))) 11 (by rw [trips_eq]; omega), tripOut_eq]
      isplitl [Hc8_dst Hc9_dst Hc10_dst Hc11_dst]
      · isplitl [Hc8_dst]; · iexact Hc8_dst
        isplitl [Hc9_dst]; · iexact Hc9_dst
        isplitl [Hc10_dst]; · iexact Hc10_dst
        iexact Hc11_dst
      · iexact Hdone
    isplitl [HT0]
    · ihave HT0 := (Entails.of_eq (pointsTo_congr (windowValueW_0 (F := F) d L g0 fr0 fi fx fo (nb L + 128 * (4 * 12 + 0)) (chunk_le L _ (by omega)) (k0_off12 L 6144#32) (off12_eq0 L) _ _ _ _ hin0 hv0 hpre))) $$ HT0
      iexact HT0
    · ihave HT1 := (Entails.of_eq (pointsTo_congr (windowValueW_1 (F := F) d L g1 fr1 fi fx fo (nb L + 128 * (4 * 12 + 1)) (chunk_le L _ (by omega)) (k0_off12 L 6272#32) (off12_eq1 L) _ _ _ _ hin1 hv1 hpre))) $$ HT1
      iexact HT1
  isplitl [Hf0_dst Hf1_dst Hs2 Hs3 Hr0 Hr1 Hr2 Hr3 Hbufs]
  · isplitl [Hf0_dst]; · iexists _; iexact Hf0_dst
    isplitl [Hf1_dst]; · iexists _; iexact Hf1_dst
    isplitl [Hs2]; · iexists _; iexact Hs2
    isplitl [Hs3]; · iexists _; iexact Hs3
    isplitl [Hr0]; · iexists _; iexact Hr0
    isplitl [Hr1]; · iexists _; iexact Hr1
    isplitl [Hr2]; · iexists _; iexact Hr2
    isplitl [Hr3]; · iexists _; iexact Hr3
    iexact Hbufs
  isplitl [Hf0 Hf1 Hc2 Hc3 Hc4 Hc5 Hc6 Hc7 Hc8 Hc9 Hc10 Hc11 Hsems]
  · isplitl [Hf0]; · iexact Hf0
    isplitl [Hf1]; · iexact Hf1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    iexact Hsems
  iexists _; isplitr
  swap; · iexact HO
  ipureintro; intro p hp
  repeat (rcases Finset.mem_insert.mp hp with hp | hp; · exact .inr (hp ▸ rfl))
  exact hW' p hp

end Trip

/-- The kernel's body on every vector subcore. -/
theorem body_ok [FloatOps F] : BodyOK (F := F) :=
  fun d L hF fi fx fo hpre O W hO => tile_body d L O W fi fx fo hF hpre hO

end Cert.Proof.KI

end
-- ==== Proof.KBSetup.lean ====
/-
  The lookup kernel's program as the launch theorem sees it, the ghost state, and what each vector subcore
  is handed: a read share of the flattened index array and of the table, and its own 6400 consecutive rows of
  the output array (worker w = 2 * subcore + core owns rows 6400 w .. 6400 w + 6399).
-/
import proofs.«206846_g4063039062876_cont_8to1_b_342_28_alg».proof.Defs
import proofs.«206846_g4063039062876_cont_8to1_b_342_28_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206846_g4063039062876_cont_8to1_b_342_28_alg».proof.Proof.Gen.Kernel
import proofs.«206846_g4063039062876_cont_8to1_b_342_28_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The flattened index array, the table and the kernel's output array, as the TensorCore names them. -/
abbrev iLoc (d : Dev nD) : Loc nD τ sig := (SparseCore.T d).loc main_v1
abbrev xLoc (d : Dev nD) : Loc nD τ sig := (SparseCore.T d).loc main_arg1
abbrev oLoc (d : Dev nD) : Loc nD τ sig := (SparseCore.T d).loc main_v2

local notation "iV" => (Memref.whole Cert.Kernel.main_v1_scv : Memref Cert.Kernel.sig Kind.scVector Space.hbm Cert.Kernel.S204800 EltTy.i32)
local notation "xV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S204800x128 EltTy.f32)
local notation "s0V" => (Memref.whole Cert.Kernel.cc0_scratch0 : Memref Cert.Kernel.sig Kind.scVector Space.vmem Cert.Kernel.S128 EltTy.i32)
local notation "s1V" => (Memref.whole Cert.Kernel.cc0_scratch1 : Memref Cert.Kernel.sig Kind.scVector Space.vmem Cert.Kernel.S128 EltTy.i32)
local notation "s2V" => (Memref.whole Cert.Kernel.cc0_scratch2 : Memref Cert.Kernel.sig Kind.scVector Space.vmem Cert.Kernel.S128 EltTy.i32)
local notation "s3V" => (Memref.whole Cert.Kernel.cc0_scratch3 : Memref Cert.Kernel.sig Kind.scVector Space.vmem Cert.Kernel.S128 EltTy.i32)
local notation "r0V" => (Memref.whole Cert.Kernel.cc0_scratch4 : Memref Cert.Kernel.sig Kind.scVector Space.vmem Cert.Kernel.S128x128 EltTy.f32)
local notation "r1V" => (Memref.whole Cert.Kernel.cc0_scratch5 : Memref Cert.Kernel.sig Kind.scVector Space.vmem Cert.Kernel.S128x128 EltTy.f32)
local notation "r2V" => (Memref.whole Cert.Kernel.cc0_scratch6 : Memref Cert.Kernel.sig Kind.scVector Space.vmem Cert.Kernel.S128x128 EltTy.f32)
local notation "r3V" => (Memref.whole Cert.Kernel.cc0_scratch7 : Memref Cert.Kernel.sig Kind.scVector Space.vmem Cert.Kernel.S128x128 EltTy.f32)

/-! ## Read shares: the full share halved five times, one leaf per worker -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

omit m ρ in
theorem sumEquiv_inl (n : ℕ) (i : Fin (2 ^ n)) : (sumEquiv n (Sum.inl i)).val = i.val := by simp [sumEquiv]
omit m ρ in
theorem sumEquiv_inr (n : ℕ) (i : Fin (2 ^ n)) : (sumEquiv n (Sum.inr i)).val = 2 ^ n + i.val := by simp [sumEquiv]; omega

omit m ρ in
theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
omit m ρ in
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

omit m ρ in
/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Worker `w`'s read share. -/
abbrev wq (w : Fin 32) : PosShare TreeShare := leaf 5 fullShare w

/-! ## What the handshakes carry -/

section Pay

variable [FloatOps F]

/-- The index array as the TensorCore names it. -/
abbrev aLoc (d : Dev nD) : Loc nD τ sig := (SparseCore.T d).loc main_arg0

/-- The flattened index array after @main's transpose and reshape, as a function of the index argument. -/
def Vi (d : Dev nD) : Buf (Elt F) (iLoc d) :=
  shapeCast S204800 (transpose S1024x200 [1, 0] (m (aLoc d)) Facts₀.transposes_S200x1024_S1024x200_1_0) Facts₀.shapeCasts_S1024x200_S204800

/-- The gathered rows, the kernel's output array after the call: row r is the table row named by word r of the
    flattened index array. -/
def Go (d : Dev nD) : Buf (Elt F) (oLoc d) := Spec.Gflat (Vi m d) (m (xLoc d))

theorem odiv : 32 ∣ S204800x128.size 0 := ⟨6400, rfl⟩
/-- Worker `w`'s rows of the output array: 6400 w .. 6400 w + 6399. -/
abbrev oreg (w : Fin 32) : Rect S204800x128 := Rect.part (s := S204800x128) (a₀ := 0) odiv w
abbrev oRegSet (w : Fin 32) : Finset S204800x128.Idx := ((oV).view.slice (oreg w)).set

/-- The worker that runs on vector subcore `s` of SparseCore `c`. -/
def wid (c : Fin 2) (s : Fin 16) : Fin 32 := ⟨2 * s.val + c.val, by omega⟩

/-- What one worker holds: a read share of the flattened index array and of the table, and its rows of the output
    array at contents `fo`. -/
abbrev tileRes (d : Dev nD) (w : Fin 32) (fo : Buf (Elt F) (oLoc d)) : sProp 𝕄 :=
  iprop((iLoc d ↦{wq w} Vi m d) ∗ (xLoc d ↦{wq w} m (xLoc d)) ∗ (oLoc d ↦[oRegSet w]{fullShare} fo))

/-- The one call hands each SparseCore its sixteen workers' resources, the output rows at their launch contents, and
    takes them back with the output rows at the gathered rows; each worker takes and returns its own. -/
def P : (K (F := F)).Pay (nD := nD) (Val := Elt F) (Name := ℕ) (U := UU) where
  st := fun q d c => match q with
    | 0 => bigSep Finset.univ fun s : Fin 16 => tileRes m d (wid (Fin.cast nCore_zero c) s) (m (oLoc d))
  dn := fun q d c => match q with
    | 0 => bigSep Finset.univ fun s : Fin 16 => tileRes m d (wid (Fin.cast nCore_zero c) s) (Go m d)
  go := fun q d c i => match q with
    | 0 => tileRes m d (wid (Fin.cast nCore_zero c) (Fin.cast nSub_zero i)) (m (oLoc d))
  td := fun q d c i => match q with
    | 0 => tileRes m d (wid (Fin.cast nCore_zero c) (Fin.cast nSub_zero i)) (Go m d)
  x := fun _ _ => iprop(emp)

instance P_storable : (P (F := F) m).IsStorable where
  st q d c := match q with
    | 0 => (inferInstance : BI.Storable (upEmb : UEmb _ 𝕄) (bigSep Finset.univ fun s : Fin 16 => tileRes m d (wid (Fin.cast nCore_zero c) s) (m (oLoc d))))
  dn q d c := match q with
    | 0 => (inferInstance : BI.Storable (upEmb : UEmb _ 𝕄) (bigSep Finset.univ fun s : Fin 16 => tileRes m d (wid (Fin.cast nCore_zero c) s) (Go m d)))
  go q d c i := match q with
    | 0 => (inferInstance : BI.Storable (upEmb : UEmb _ 𝕄) (tileRes m d (wid (Fin.cast nCore_zero c) (Fin.cast nSub_zero i)) (m (oLoc d))))
  td q d c i := match q with
    | 0 => (inferInstance : BI.Storable (upEmb : UEmb _ 𝕄) (tileRes m d (wid (Fin.cast nCore_zero c) (Fin.cast nSub_zero i)) (Go m d)))

/-- What the proof asks of the launch memory: every word of the index argument names a table row. -/
def PreOK : Prop := ∀ (d : Dev nD) (j : S200x1024.Idx), (m (aLoc d) j).toNat < 100000

end Pay

/-! ## A vector subcore's own semaphores and scratch buffers -/

section Tile

variable (d : Dev nD) (L : grid0.Coords)

abbrev cV (L : grid0.Coords) : Fin τ.nSC := (L 0).castLE hcore0
abbrev jV (L : grid0.Coords) : Fin τ.nSub := (L 1).castLE hsub0

abbrev cell0 (d : Dev nD) (c : Fin τ.nSC) (i : Fin τ.nSub) : GSem nD τ sig := (V d c i, .dma cc0_scratch8.sem)
abbrev cell1 (d : Dev nD) (c : Fin τ.nSC) (i : Fin τ.nSub) : GSem nD τ sig := (V d c i, .dma cc0_scratch9.sem)
abbrev cell2 (d : Dev nD) (c : Fin τ.nSC) (i : Fin τ.nSub) : GSem nD τ sig := (V d c i, .dma cc0_scratch10.sem)
abbrev cell3 (d : Dev nD) (c : Fin τ.nSC) (i : Fin τ.nSub) : GSem nD τ sig := (V d c i, .dma cc0_scratch11.sem)
abbrev cell4 (d : Dev nD) (c : Fin τ.nSC) (i : Fin τ.nSub) : GSem nD τ sig := (V d c i, .dma cc0_scratch12.sem)
abbrev cell5 (d : Dev nD) (c : Fin τ.nSC) (i : Fin τ.nSub) : GSem nD τ sig := (V d c i, .dma cc0_scratch13.sem)
abbrev cell6 (d : Dev nD) (c : Fin τ.nSC) (i : Fin τ.nSub) : GSem nD τ sig := (V d c i, .dma cc0_scratch14.sem)
abbrev cell7 (d : Dev nD) (c : Fin τ.nSC) (i : Fin τ.nSub) : GSem nD τ sig := (V d c i, .dma cc0_scratch15.sem)
abbrev cell8 (d : Dev nD) (c : Fin τ.nSC) (i : Fin τ.nSub) : GSem nD τ sig := (V d c i, .dma cc0_scratch16.sem)
abbrev cell9 (d : Dev nD) (c : Fin τ.nSC) (i : Fin τ.nSub) : GSem nD τ sig := (V d c i, .dma cc0_scratch17.sem)
abbrev cell10 (d : Dev nD) (c : Fin τ.nSC) (i : Fin τ.nSub) : GSem nD τ sig := (V d c i, .dma cc0_scratch18.sem)
abbrev cell11 (d : Dev nD) (c : Fin τ.nSC) (i : Fin τ.nSub) : GSem nD τ sig := (V d c i, .dma cc0_scratch19.sem)

omit m ρ in
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0 ∗ semVal (cell6 d (cV L) (jV L)) 0 ∗ semVal (cell7 d (cV L) (jV L)) 0 ∗ semVal (cell8 d (cV L) (jV L)) 0 ∗ semVal (cell9 d (cV L) (jV L)) 0 ∗ semVal (cell10 d (cV L) (jV L)) 0 ∗ semVal (cell11 d (cV L) (jV L)) 0 ∗ bigSep (((((((((((((ownCells (V d (cV L) (jV L))).erase (cell0 d (cV L) (jV L))).erase (cell1 d (cV L) (jV L))).erase (cell2 d (cV L) (jV L))).erase (cell3 d (cV L) (jV L))).erase (cell4 d (cV L) (jV L))).erase (cell5 d (cV L) (jV L))).erase (cell6 d (cV L) (jV L))).erase (cell7 d (cV L) (jV L))).erase (cell8 d (cV L) (jV L))).erase (cell9 d (cV L) (jV L))).erase (cell10 d (cV L) (jV L))).erase (cell11 d (cV L) (jV L))) fun g => semVal g 0) := by
  unfold SparseCore.Cfg.ownSems0
  rw [SparseCore.bigSep_erase' ((mem_ownCells (g := (cell0 d (cV L) (jV L)))).mpr ⟨rfl, by show (SemLoc.dma cc0_scratch8.sem : SemLoc sig).isScoped .scVector = true; decide⟩),
    SparseCore.bigSep_erase' (Finset.mem_erase.mpr ⟨by simp [cell1, cell0]; decide, (mem_ownCells (g := (cell1 d (cV L) (jV L)))).mpr ⟨rfl, by show (SemLoc.dma cc0_scratch9.sem : SemLoc sig).isScoped .scVector = true; decide⟩⟩),
    SparseCore.bigSep_erase' (Finset.mem_erase.mpr ⟨by simp [cell2, cell1]; decide, Finset.mem_erase.mpr ⟨by simp [cell2, cell0]; decide, (mem_ownCells (g := (cell2 d (cV L) (jV L)))).mpr ⟨rfl, by show (SemLoc.dma cc0_scratch10.sem : SemLoc sig).isScoped .scVector = true; decide⟩⟩⟩),
    SparseCore.bigSep_erase' (Finset.mem_erase.mpr ⟨by simp [cell3, cell2]; decide, Finset.mem_erase.mpr ⟨by simp [cell3, cell1]; decide, Finset.mem_erase.mpr ⟨by simp [cell3, cell0]; decide, (mem_ownCells (g := (cell3 d (cV L) (jV L)))).mpr ⟨rfl, by show (SemLoc.dma cc0_scratch11.sem : SemLoc sig).isScoped .scVector = true; decide⟩⟩⟩⟩),
    SparseCore.bigSep_erase' (Finset.mem_erase.mpr ⟨by simp [cell4, cell3]; decide, Finset.mem_erase.mpr ⟨by simp [cell4, cell2]; decide, Finset.mem_erase.mpr ⟨by simp [cell4, cell1]; decide, Finset.mem_erase.mpr ⟨by simp [cell4, cell0]; decide, (mem_ownCells (g := (cell4 d (cV L) (jV L)))).mpr ⟨rfl, by show (SemLoc.dma cc0_scratch12.sem : SemLoc sig).isScoped .scVector = true; decide⟩⟩⟩⟩⟩),
    SparseCore.bigSep_erase' (Finset.mem_erase.mpr ⟨by simp [cell5, cell4]; decide, Finset.mem_erase.mpr ⟨by simp [cell5, cell3]; decide, Finset.mem_erase.mpr ⟨by simp [cell5, cell2]; decide, Finset.mem_erase.mpr ⟨by simp [cell5, cell1]; decide, Finset.mem_erase.mpr ⟨by simp [cell5, cell0]; decide, (mem_ownCells (g := (cell5 d (cV L) (jV L)))).mpr ⟨rfl, by show (SemLoc.dma cc0_scratch13.sem : SemLoc sig).isScoped .scVector = true; decide⟩⟩⟩⟩⟩⟩),
    SparseCore.bigSep_erase' (Finset.mem_erase.mpr ⟨by simp [cell6, cell5]; decide, Finset.mem_erase.mpr ⟨by simp [cell6, cell4]; decide, Finset.mem_erase.mpr ⟨by simp [cell6, cell3]; decide, Finset.mem_erase.mpr ⟨by simp [cell6, cell2]; decide, Finset.mem_erase.mpr ⟨by simp [cell6, cell1]; decide, Finset.mem_erase.mpr ⟨by simp [cell6, cell0]; decide, (mem_ownCells (g := (cell6 d (cV L) (jV L)))).mpr ⟨rfl, by show (SemLoc.dma cc0_scratch14.sem : SemLoc sig).isScoped .scVector = true; decide⟩⟩⟩⟩⟩⟩⟩),
    SparseCore.bigSep_erase' (Finset.mem_erase.mpr ⟨by simp [cell7, cell6]; decide, Finset.mem_erase.mpr ⟨by simp [cell7, cell5]; decide, Finset.mem_erase.mpr ⟨by simp [cell7, cell4]; decide, Finset.mem_erase.mpr ⟨by simp [cell7, cell3]; decide, Finset.mem_erase.mpr ⟨by simp [cell7, cell2]; decide, Finset.mem_erase.mpr ⟨by simp [cell7, cell1]; decide, Finset.mem_erase.mpr ⟨by simp [cell7, cell0]; decide, (mem_ownCells (g := (cell7 d (cV L) (jV L)))).mpr ⟨rfl, by show (SemLoc.dma cc0_scratch15.sem : SemLoc sig).isScoped .scVector = true; decide⟩⟩⟩⟩⟩⟩⟩⟩),
    SparseCore.bigSep_erase' (Finset.mem_erase.mpr ⟨by simp [cell8, cell7]; decide, Finset.mem_erase.mpr ⟨by simp [cell8, cell6]; decide, Finset.mem_erase.mpr ⟨by simp [cell8, cell5]; decide, Finset.mem_erase.mpr ⟨by simp [cell8, cell4]; decide, Finset.mem_erase.mpr ⟨by simp [cell8, cell3]; decide, Finset.mem_erase.mpr ⟨by simp [cell8, cell2]; decide, Finset.mem_erase.mpr ⟨by simp [cell8, cell1]; decide, Finset.mem_erase.mpr ⟨by simp [cell8, cell0]; decide, (mem_ownCells (g := (cell8 d (cV L) (jV L)))).mpr ⟨rfl, by show (SemLoc.dma cc0_scratch16.sem : SemLoc sig).isScoped .scVector = true; decide⟩⟩⟩⟩⟩⟩⟩⟩⟩),
    SparseCore.bigSep_erase' (Finset.mem_erase.mpr ⟨by simp [cell9, cell8]; decide, Finset.mem_erase.mpr ⟨by simp [cell9, cell7]; decide, Finset.mem_erase.mpr ⟨by simp [cell9, cell6]; decide, Finset.mem_erase.mpr ⟨by simp [cell9, cell5]; decide, Finset.mem_erase.mpr ⟨by simp [cell9, cell4]; decide, Finset.mem_erase.mpr ⟨by simp [cell9, cell3]; decide, Finset.mem_erase.mpr ⟨by simp [cell9, cell2]; decide, Finset.mem_erase.mpr ⟨by simp [cell9, cell1]; decide, Finset.mem_erase.mpr ⟨by simp [cell9, cell0]; decide, (mem_ownCells (g := (cell9 d (cV L) (jV L)))).mpr ⟨rfl, by show (SemLoc.dma cc0_scratch17.sem : SemLoc sig).isScoped .scVector = true; decide⟩⟩⟩⟩⟩⟩⟩⟩⟩⟩),
    SparseCore.bigSep_erase' (Finset.mem_erase.mpr ⟨by simp [cell10, cell9]; decide, Finset.mem_erase.mpr ⟨by simp [cell10, cell8]; decide, Finset.mem_erase.mpr ⟨by simp [cell10, cell7]; decide, Finset.mem_erase.mpr ⟨by simp [cell10, cell6]; decide, Finset.mem_erase.mpr ⟨by simp [cell10, cell5]; decide, Finset.mem_erase.mpr ⟨by simp [cell10, cell4]; decide, Finset.mem_erase.mpr ⟨by simp [cell10, cell3]; decide, Finset.mem_erase.mpr ⟨by simp [cell10, cell2]; decide, Finset.mem_erase.mpr ⟨by simp [cell10, cell1]; decide, Finset.mem_erase.mpr ⟨by simp [cell10, cell0]; decide, (mem_ownCells (g := (cell10 d (cV L) (jV L)))).mpr ⟨rfl, by show (SemLoc.dma cc0_scratch18.sem : SemLoc sig).isScoped .scVector = true; decide⟩⟩⟩⟩⟩⟩⟩⟩⟩⟩⟩),
    SparseCore.bigSep_erase' (Finset.mem_erase.mpr ⟨by simp [cell11, cell10]; decide, Finset.mem_erase.mpr ⟨by simp [cell11, cell9]; decide, Finset.mem_erase.mpr ⟨by simp [cell11, cell8]; decide, Finset.mem_erase.mpr ⟨by simp [cell11, cell7]; decide, Finset.mem_erase.mpr ⟨by simp [cell11, cell6]; decide, Finset.mem_erase.mpr ⟨by simp [cell11, cell5]; decide, Finset.mem_erase.mpr ⟨by simp [cell11, cell4]; decide, Finset.mem_erase.mpr ⟨by simp [cell11, cell3]; decide, Finset.mem_erase.mpr ⟨by simp [cell11, cell2]; decide, Finset.mem_erase.mpr ⟨by simp [cell11, cell1]; decide, Finset.mem_erase.mpr ⟨by simp [cell11, cell0]; decide, (mem_ownCells (g := (cell11 d (cV L) (jV L)))).mpr ⟨rfl, by show (SemLoc.dma cc0_scratch19.sem : SemLoc sig).isScoped .scVector = true; decide⟩⟩⟩⟩⟩⟩⟩⟩⟩⟩⟩⟩)]

omit m ρ in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ bigSep (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := ((Proc.scVector (cV L) (jV L)).devRef cc0_scratch7)) rfl⟩⟩⟩⟩⟩⟩⟩)]

/-- The arrays and the scratch buffers as a vector subcore's memrefs address them are the device's arrays and the
    subcore's own buffers. -/
theorem pts_iV (q : PosShare TreeShare) (f : Buf (Elt F) (iLoc d)) :
    ((iV).view.loc (V d (cV L) (jV L)) ↦{q} f : sProp 𝕄) = iLoc d ↦{q} f := rfl
theorem pts_xV (q : PosShare TreeShare) (f : Buf (Elt F) (xLoc d)) :
    ((xV).view.loc (V d (cV L) (jV L)) ↦{q} f : sProp 𝕄) = xLoc d ↦{q} f := rfl
theorem pts_oV (I : Finset (Idx (oLoc d))) (f : Buf (Elt F) (oLoc d)) :
    ((oV).view.loc (V d (cV L) (jV L)) ↦[I]{fullShare} f : sProp 𝕄) = oLoc d ↦[I]{fullShare} f := rfl
theorem pts_s0V (f : Buf (Elt F) ((V d (cV L) (jV L)).loc cc0_scratch0)) :
    ((s0V).view.loc (V d (cV L) (jV L)) ↦{fullShare} f : sProp 𝕄) = (V d (cV L) (jV L)).loc cc0_scratch0 ↦{fullShare} f := rfl
theorem pts_r0V (f : Buf (Elt F) ((V d (cV L) (jV L)).loc cc0_scratch4)) :
    ((r0V).view.loc (V d (cV L) (jV L)) ↦{fullShare} f : sProp 𝕄) = (V d (cV L) (jV L)).loc cc0_scratch4 ↦{fullShare} f := rfl
theorem pts_s1V (f : Buf (Elt F) ((V d (cV L) (jV L)).loc cc0_scratch1)) :
    ((s1V).view.loc (V d (cV L) (jV L)) ↦{fullShare} f : sProp 𝕄) = (V d (cV L) (jV L)).loc cc0_scratch1 ↦{fullShare} f := rfl
theorem pts_r1V (f : Buf (Elt F) ((V d (cV L) (jV L)).loc cc0_scratch5)) :
    ((r1V).view.loc (V d (cV L) (jV L)) ↦{fullShare} f : sProp 𝕄) = (V d (cV L) (jV L)).loc cc0_scratch5 ↦{fullShare} f := rfl
theorem pts_s2V (f : Buf (Elt F) ((V d (cV L) (jV L)).loc cc0_scratch2)) :
    ((s2V).view.loc (V d (cV L) (jV L)) ↦{fullShare} f : sProp 𝕄) = (V d (cV L) (jV L)).loc cc0_scratch2 ↦{fullShare} f := rfl
theorem pts_r2V (f : Buf (Elt F) ((V d (cV L) (jV L)).loc cc0_scratch6)) :
    ((r2V).view.loc (V d (cV L) (jV L)) ↦{fullShare} f : sProp 𝕄) = (V d (cV L) (jV L)).loc cc0_scratch6 ↦{fullShare} f := rfl
theorem pts_s3V (f : Buf (Elt F) ((V d (cV L) (jV L)).loc cc0_scratch3)) :
    ((s3V).view.loc (V d (cV L) (jV L)) ↦{fullShare} f : sProp 𝕄) = (V d (cV L) (jV L)).loc cc0_scratch3 ↦{fullShare} f := rfl
theorem pts_r3V (f : Buf (Elt F) ((V d (cV L) (jV L)).loc cc0_scratch7)) :
    ((r3V).view.loc (V d (cV L) (jV L)) ↦{fullShare} f : sProp 𝕄) = (V d (cV L) (jV L)).loc cc0_scratch7 ↦{fullShare} f := rfl

/-- One more read token split off what remains of a share. -/
theorem tok_succ {ℓ : Loc nD τ sig} (I : Finset (Idx ℓ)) (f : Buf (Elt F) ℓ) (q : PosShare TreeShare) (k : ℕ) :
    (ℓ ↦[I]{Transfers.shareDrop q k} f : sProp 𝕄) ⊣⊢ iprop((ℓ ↦[I]{Transfers.shareDrop q (k + 1)} f) ∗ ℓ ↦[I]{Transfers.shareTokN q k} f) :=
  pointsTo_share (PosShare.mem_left_op_right _)

/-! ## A worker's chunks -/

theorem bound_zero : grid0.bound 0 = 2 := rfl
theorem bound_one : grid0.bound 1 = 16 := rfl

/-- The worker that runs at grid point `L`. -/
def widL (L : grid0.Coords) : Fin 32 :=
  ⟨2 * (L 1).val + (L 0).val, by have h0 : (L 0).val < 2 := (L 0).isLt; have h1 : (L 1).val < 16 := (L 1).isLt; omega⟩

/-- The worker's first row. -/
def nb (L : grid0.Coords) : ℕ := 12800 * (L 1).val + 6400 * (L 0).val

theorem nb_le (L : grid0.Coords) : nb L + 6400 ≤ 204800 := by
  have h0 : (L 0).val < 2 := (L 0).isLt; have h1 : (L 1).val < 16 := (L 1).isLt; unfold nb; omega

/-- The 128 rows of the output array that trip `t`'s slot 0 .. 3 writes, and the two chunks after the loop, each as the
    program slices it. -/
abbrev oW0 (t : Fin k0_t1_loop.trips) : Finset S204800x128.Idx :=
  ((oV).slice (Rect.unit (s := S204800x128) (k0_off7 L t 0#32) S128x128.size (Facts₀.k0_off7_inb L t 0)) (fun _ => rfl)).view.set
abbrev oW1 (t : Fin k0_t1_loop.trips) : Finset S204800x128.Idx :=
  ((oV).slice (Rect.unit (s := S204800x128) (k0_off7 L t 1#32) S128x128.size (Facts₀.k0_off7_inb L t 1)) (fun _ => rfl)).view.set
abbrev oW2 (t : Fin k0_t1_loop.trips) : Finset S204800x128.Idx :=
  ((oV).slice (Rect.unit (s := S204800x128) (k0_off7 L t 2#32) S128x128.size (Facts₀.k0_off7_inb L t 2)) (fun _ => rfl)).view.set
abbrev oW3 (t : Fin k0_t1_loop.trips) : Finset S204800x128.Idx :=
  ((oV).slice (Rect.unit (s := S204800x128) (k0_off7 L t 3#32) S128x128.size (Facts₀.k0_off7_inb L t 3)) (fun _ => rfl)).view.set
abbrev oT0 : Finset S204800x128.Idx :=
  ((oV).slice (Rect.unit (s := S204800x128) (k0_off12 L 6144#32) S128x128.size (Facts₀.k0_off12_inb L 0)) (fun _ => rfl)).view.set
abbrev oT1 : Finset S204800x128.Idx :=
  ((oV).slice (Rect.unit (s := S204800x128) (k0_off12 L 6272#32) S128x128.size (Facts₀.k0_off12_inb L 1)) (fun _ => rfl)).view.set

/-- 128 consecutive words of the flattened index array from word `n` on. -/
theorem inb1 (n : ℕ) (h : n + 128 ≤ 204800) : ∀ a, (![n] : Fin 1 → ℕ) a + S128.size a ≤ S204800.size a := by
  intro a; match a with | ⟨0, _⟩ => exact h
abbrev iSetN (n : ℕ) (h : n + 128 ≤ 204800) : Finset S204800.Idx :=
  ((iV).slice (Rect.unit (s := S204800) ![n] S128.size (inb1 n h)) (fun _ => rfl)).view.set

/-- A chunk of the index array sliced at offsets that are `![n]` is that chunk. -/
theorem iSet_of_off (off : Fin 1 → ℕ) (n : ℕ) (hoff : off = ![n]) (hinb : ∀ a, off a + S128.size a ≤ S204800.size a) (h : n + 128 ≤ 204800) :
    ((iV).slice (Rect.unit (s := S204800) off S128.size hinb) (fun _ => rfl)).view.set = iSetN n h := by
  subst hoff; rfl

end Tile

/-- What the kernel's body does on one vector subcore, for any contents of the three arrays whose index words all name
    table rows: from a read share of the flattened index array and of the table and its own rows of the output array, its
    scratch buffers and semaphores, it ends with the same and its rows at the gathered rows. -/
def BodyOK [FloatOps F] : Prop :=
  ∀ (d : Dev nD) (L : grid0.Coords) (_ : (K (F := F)).Facts)
    (fi : Buf (Elt F) (iLoc d)) (fx : Buf (Elt F) (xLoc d)) (fo : Buf (Elt F) (oLoc d)) (_ : ∀ j, (fi j).toNat < 100000)
    (O : CellTallies nD τ sig (HIx 1)) (W : Waits sig (HIx 1)) (_ : ∀ g, O g none = 0),
    iprop(levAts (K (F := F)).L (K (F := F)).lev ∗ emp
        ∗ ((iLoc d ↦{wq (widL L)} fi : sProp 𝕄) ∗ (xLoc d ↦{wq (widL L)} fx : sProp 𝕄) ∗ (oLoc d ↦[oRegSet (widL L)]{fullShare} fo : sProp 𝕄))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iV (Memref.isWhole_whole _) xV (Memref.isWhole_whole _) oV (Memref.isWhole_whole _)
            s0V (Memref.isWhole_whole _) s1V (Memref.isWhole_whole _) s2V (Memref.isWhole_whole _) s3V (Memref.isWhole_whole _)
            r0V (Memref.isWhole_whole _) r1V (Memref.isWhole_whole _) r2V (Memref.isWhole_whole _) r3V (Memref.isWhole_whole _)
            cc0_scratch8 cc0_scratch9 cc0_scratch10 cc0_scratch11 cc0_scratch12 cc0_scratch13 cc0_scratch14 cc0_scratch15 cc0_scratch16 cc0_scratch17 cc0_scratch18 cc0_scratch19)
          fun _ => iprop(((iLoc d ↦{wq (widL L)} fi : sProp 𝕄) ∗ (xLoc d ↦{wq (widL L)} fx : sProp 𝕄)
              ∗ (oLoc d ↦[oRegSet (widL L)]{fullShare} (Spec.Gflat fi fx : Buf (Elt F) (oLoc d)) : sProp 𝕄))
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB

end
-- ==== Proof.KBLaunch.lean ====
/-
  The launch side of the run: how the call's resources split among the thirty-two workers and gather back, the
  ghost state's launch element, the program's host operations around the call, and what the final memory holds.

  Before the call the index argument is transposed and flattened; the call hands every worker a read share of the
  flattened index array and of the table together with its own 6400 rows of the output array; after the call the
  output array holds the gathered rows, which the last host operation reshapes into the result.
-/
import proofs.«206846_g4063039062876_cont_8to1_b_342_28_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "oV" => (Memref.whole Cert.Kernel.main_v2_scv : Memref Cert.Kernel.sig Kind.scVector Space.hbm Cert.Kernel.S204800x128 EltTy.f32)

variable (m : (ℓ : Loc nD τ sig) → Buf (Elt F) ℓ) (ρ : Dev nD → PrngReg)

/-! ## A SparseCore's resources are its sixteen workers' -/

section Split

variable [FloatOps F]

omit m ρ [FloatOps F] in
/-- A family over a SparseCore's sixteen subcores, indexed by the call's subcore numbers. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What a SparseCore is handed is, as it stands, what its sixteen workers are handed, and what they hand back is
    what it hands back. -/
theorem vecSplit : (K (F := F)).VecSplit' (P m) 0 := by
  intro d c
  show (bigSep Finset.univ fun s : Fin 16 => tileRes m d (wid (Fin.cast nCore_zero c) s) (m (oLoc d))) ⊢ |={Set.univ}=> iprop(
      (bigSep Finset.univ fun i : Fin ((K (F := F)).nSub 0) =>
        tileRes m d (wid (Fin.cast nCore_zero c) (Fin.cast nSub_zero i)) (m (oLoc d)))
      ∗ ((bigSep Finset.univ fun i : Fin ((K (F := F)).nSub 0) =>
          tileRes m d (wid (Fin.cast nCore_zero c) (Fin.cast nSub_zero i)) (Go m d))
          -∗ bigSep Finset.univ fun s : Fin 16 => tileRes m d (wid (Fin.cast nCore_zero c) s) (Go m d)))
  rw [bigSep_tasks (F := F) (fun s => tileRes m d (wid (Fin.cast nCore_zero c) s) (m (oLoc d))),
    bigSep_tasks (F := F) (fun s => tileRes m d (wid (Fin.cast nCore_zero c) s) (Go m d))]
  iintro H; imodintro
  isplitl [H]; · iexact H
  iintro H; iexact H

end Split

/-! ## The launch element of the certificate's ghost state -/

def u₀ : UU := (initOf (K (F := F)).hsCells (K (F := F)).hsToks, 1)

omit m ρ in
theorem bigSep_emp' {I : Type} (s : Finset I) : (bigSep s fun _ => iprop(emp)) = (iprop(emp) : sProp 𝕄) := bigSep_emp_const s

theorem hu₀ [FloatOps F] : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The three arrays are the thirty-two workers' resources -/

/-- Subcore `s` of SparseCore `c` runs worker `2 s + c`: the pairs (c, s) number the workers. -/
def widEquiv : Fin 2 × Fin 16 ≃ Fin 32 where
  toFun p := wid p.1 p.2
  invFun w := (⟨w.val % 2, by omega⟩, ⟨w.val / 2, by omega⟩)
  left_inv := fun ⟨c, s⟩ => Prod.ext (Fin.ext (by show (2 * s.val + c.val) % 2 = c.val; omega))
    (Fin.ext (by show (2 * s.val + c.val) / 2 = s.val; omega))
  right_inv := fun w => Fin.ext (by show 2 * (w.val / 2) + w.val % 2 = w.val; omega)

omit m ρ in
/-- A family over the workers, taken SparseCore by SparseCore and subcore by subcore. -/
theorem bigSep_workers (Φ : Fin 32 → sProp 𝕄) :
    (bigSep Finset.univ fun c : Fin 2 => bigSep Finset.univ fun s : Fin 16 => Φ (wid c s)) = bigSep Finset.univ Φ := by
  rw [bigSep_univ_equiv widEquiv Φ, bigSep_univ_prod]; rfl

omit m ρ in
theorem oRegSet_eq (w : Fin 32) : oRegSet w = (oreg w).set := by
  show ((View.whole (main_v2_scv : Ref sig .scVector)).slice (oreg w)).set = _
  rw [View.set_slice]; exact Finset.map_refl
omit m ρ in
theorem oregs_disjoint : ∀ i ∈ (Finset.univ : Finset (Fin 32)), ∀ j ∈ (Finset.univ : Finset (Fin 32)), i ≠ j → Disjoint (oRegSet i) (oRegSet j) :=
  fun i _ j _ h => by rw [oRegSet_eq, oRegSet_eq]; exact Rect.part_disjoint odiv h
omit m ρ in
theorem oregs_cover : (Finset.univ : Finset (Fin 32)).biUnion oRegSet = Finset.univ :=
  (Finset.biUnion_congr rfl fun i _ => oRegSet_eq i).trans (Rect.biUnion_part odiv)

omit m ρ in
/-- The output array whole is the workers' thirty-two blocks of rows. -/
theorem oPts_regs (d : Dev nD) (f : Buf (Elt F) (oLoc d)) :
    (oLoc d ↦{fullShare} f : sProp 𝕄) = bigSep Finset.univ fun w : Fin 32 => oLoc d ↦[oRegSet w]{fullShare} f := by
  rw [← pointsTo_biUnion Finset.univ (ℓ := oLoc d) oRegSet oregs_disjoint, oregs_cover]; try rfl

omit m ρ in
/-- An array at the full share is the workers' thirty-two read shares of it. -/
theorem pts_shares {ℓ : Loc nD τ sig} (f : Buf (Elt F) ℓ) :
    (ℓ ↦{fullShare} f : sProp 𝕄) = bigSep Finset.univ fun w : Fin 32 => ℓ ↦{wq w} f :=
  pointsTo_leaves Finset.univ f 5 fullShare

/-- The flattened index array and the table at the full share and the output array whole at contents `fo` are
    the resources of the sixteen workers of each of the two SparseCores. -/
theorem deal_eq [FloatOps F] (d : Dev nD) (fo : Buf (Elt F) (oLoc d)) :
    (bigSep Finset.univ fun c : Fin 2 => bigSep Finset.univ fun s : Fin 16 => tileRes m d (wid c s) fo)
      = iprop((iLoc d ↦{fullShare} Vi m d) ∗ (xLoc d ↦{fullShare} m (xLoc d)) ∗ (oLoc d ↦{fullShare} fo)) := by
  rw [bigSep_workers (F := F) (fun w => tileRes m d w fo), bigSep_sep', bigSep_sep',
    ← pts_shares (Vi m d), ← pts_shares (m (xLoc d)), ← oPts_regs]

theorem st0_eq [FloatOps F] (d : Dev nD) :
    (bigSep Finset.univ fun c : Fin ((K (F := F)).nCore 0) => (P m).st 0 d c)
      = iprop((iLoc d ↦{fullShare} Vi m d) ∗ (xLoc d ↦{fullShare} m (xLoc d)) ∗ (oLoc d ↦{fullShare} m (oLoc d))) :=
  deal_eq m d (m (oLoc d))
theorem dn0_eq [FloatOps F] (d : Dev nD) :
    (bigSep Finset.univ fun c : Fin ((K (F := F)).nCore 0) => (P m).dn 0 d c)
      = iprop((iLoc d ↦{fullShare} Vi m d) ∗ (xLoc d ↦{fullShare} m (xLoc d)) ∗ (oLoc d ↦{fullShare} Go m d)) :=
  deal_eq m d (Go m d)

/-! ## @main's host operations and the six arrays -/

section Main

variable [FloatOps F]

abbrev a' : DevRef τ sig := Proc.devRef .tc (main_arg0 : Ref sig .tc)
abbrev x' : DevRef τ sig := Proc.devRef .tc (main_arg1 : Ref sig .tc)
abbrev t' : DevRef τ sig := Proc.devRef .tc (main_v0 : Ref sig .tc)
abbrev i' : DevRef τ sig := Proc.devRef .tc (main_v1 : Ref sig .tc)
abbrev o' : DevRef τ sig := Proc.devRef .tc (main_v2 : Ref sig .tc)
abbrev r' : DevRef τ sig := Proc.devRef .tc (main_v3 : Ref sig .tc)

/-- The transposed index array and the result, as the TensorCore names them. -/
abbrev tLoc (d : Dev nD) : Loc nD τ sig := (SparseCore.T d).loc main_v0
abbrev rLoc (d : Dev nD) : Loc nD τ sig := (SparseCore.T d).loc main_v3

/-- The three host operations: the transpose, the flattening, the final reshape. -/
abbrev opT : HloOp τ sig (Elt F) :=
  StableHlo.unary main_arg0 main_v0 ((transpose S1024x200 [1, 0] · Facts₀.transposes_S200x1024_S1024x200_1_0) : (⟨S200x1024, .i32⟩ : BufTy).Contents (Elt F) → (⟨S1024x200, .i32⟩ : BufTy).Contents (Elt F))
abbrev opF : HloOp τ sig (Elt F) := StableHlo.reshape main_v0 main_v1 rfl Facts₀.shapeCasts_S1024x200_S204800
abbrev opR : HloOp τ sig (Elt F) := StableHlo.reshape main_v2 main_v3 rfl Facts₀.shapeCasts_S204800x128_S1024x200x128

/-- The TensorCore's arrays, all unscoped. -/
abbrev S6 : Finset (DevRef τ sig) := {a', x', t', i', o', r'}

omit m ρ [FloatOps F] in
theorem held_S6 (d : Dev nD) (W : Valuation τ sig (Elt F)) :
    (held (T d) S6 W : sProp 𝕄)
      = iprop((aLoc d ↦{fullShare} W a') ∗ (xLoc d ↦{fullShare} W x') ∗ (tLoc d ↦{fullShare} W t') ∗ (iLoc d ↦{fullShare} W i')
          ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit m ρ [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_arg1) ∗ (tLoc d ↦{fullShare} W main_v0) ∗ (iLoc d ↦{fullShare} W main_v1)
          ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation; the valuation before the call (the transpose's and the flattening's results); after the
    call, the output array at the gathered rows. -/
def V0 (d : Dev nD) : Valuation τ sig (Elt F) := fun b => m (d, b)
def V2 (d : Dev nD) : Valuation τ sig (Elt F) := (opF (F := F)).result ((opT (F := F)).result (V0 m d))
def V3 (d : Dev nD) : Valuation τ sig (Elt F) := Function.update (V2 m d) o' (Go m d)

/-- The result array: the gathered rows reshaped. -/
def Res (d : Dev nD) : Buf (Elt F) (rLoc d) := shapeCast S1024x200x128 (Go m d) Facts₀.shapeCasts_S204800x128_S1024x200x128

theorem unscoped_held (d : Dev nD) : (unscopedBufs d (fun b => m ((SparseCore.T d).loc b)) : sProp 𝕄) = held (T d) S6 (V0 m d) := by
  rw [unscopedBufs_eq, held_S6]; rfl

theorem V2_a (d : Dev nD) : V2 m d a' = m (aLoc d) := by
  unfold V2
  rw [(opF (F := F)).result_of_not_mem _ (show a' ∉ ({i'} : Finset (DevRef τ sig)) by decide),
    (opT (F := F)).result_of_not_mem _ (show a' ∉ ({t'} : Finset (DevRef τ sig)) by decide)]
  rfl
theorem V2_x (d : Dev nD) : V2 m d x' = m (xLoc d) := by
  unfold V2
  rw [(opF (F := F)).result_of_not_mem _ (show x' ∉ ({i'} : Finset (DevRef τ sig)) by decide),
    (opT (F := F)).result_of_not_mem _ (show x' ∉ ({t'} : Finset (DevRef τ sig)) by decide)]
  rfl
theorem V2_o (d : Dev nD) : V2 m d o' = m (oLoc d) := by
  unfold V2
  rw [(opF (F := F)).result_of_not_mem _ (show o' ∉ ({i'} : Finset (DevRef τ sig)) by decide),
    (opT (F := F)).result_of_not_mem _ (show o' ∉ ({t'} : Finset (DevRef τ sig)) by decide)]
  rfl
/-- The flattening of the transpose of the index argument is the flattened index array. -/
theorem V2_i (d : Dev nD) : V2 m d i' = Vi m d := by
  unfold V2 Vi
  rw [StableHlo.reshape_result, StableHlo.unary_result]
  rfl

end Main

section Run

variable [FloatOps F]

theorem held_V2 (d : Dev nD) :
    (held (T d) S6 ((opF (F := F)).result ((opT (F := F)).result (V0 m d))) : sProp 𝕄)
      = iprop((aLoc d ↦{fullShare} m (aLoc d)) ∗ (xLoc d ↦{fullShare} m (xLoc d)) ∗ (tLoc d ↦{fullShare} V2 m d t') ∗ (iLoc d ↦{fullShare} Vi m d)
          ∗ (oLoc d ↦{fullShare} m (oLoc d)) ∗ rLoc d ↦{fullShare} V2 m d r') := by
  show held (SparseCore.T d) S6 (V2 m d) = _
  rw [held_S6, V2_a, V2_x, V2_i, V2_o]

theorem V3_a (d : Dev nD) : V3 m d a' = m (aLoc d) := (Function.update_of_ne (show a' ≠ o' by decide) _ _).trans (V2_a m d)
theorem V3_x (d : Dev nD) : V3 m d x' = m (xLoc d) := (Function.update_of_ne (show x' ≠ o' by decide) _ _).trans (V2_x m d)
theorem V3_t (d : Dev nD) : V3 m d t' = V2 m d t' := Function.update_of_ne (show t' ≠ o' by decide) _ _
theorem V3_i (d : Dev nD) : V3 m d i' = Vi m d := (Function.update_of_ne (show i' ≠ o' by decide) _ _).trans (V2_i m d)
theorem V3_o (d : Dev nD) : V3 m d o' = Go m d := Function.update_self _ _ _
theorem V3_r (d : Dev nD) : V3 m d r' = V2 m d r' := Function.update_of_ne (show r' ≠ o' by decide) _ _

theorem V4_a (d : Dev nD) : (opR (F := F)).result (V3 m d) a' = m (aLoc d) :=
  ((opR (F := F)).result_of_not_mem _ (show a' ∉ ({r'} : Finset (DevRef τ sig)) by decide)).trans (V3_a m d)
theorem V4_x (d : Dev nD) : (opR (F := F)).result (V3 m d) x' = m (xLoc d) :=
  ((opR (F := F)).result_of_not_mem _ (show x' ∉ ({r'} : Finset (DevRef τ sig)) by decide)).trans (V3_x m d)
/-- The final reshape of the gathered rows is the result array. -/
theorem V4_r (d : Dev nD) : (opR (F := F)).result (V3 m d) r' = Res m d := by
  unfold Res
  rw [StableHlo.reshape_result, V3_o]
  rfl

theorem held_V4 (d : Dev nD) :
    (held (T d) S6 ((opR (F := F)).result (V3 m d)) : sProp 𝕄)
      = iprop((aLoc d ↦{fullShare} m (aLoc d)) ∗ (xLoc d ↦{fullShare} m (xLoc d)) ∗ (tLoc d ↦{fullShare} (opR (F := F)).result (V3 m d) t')
          ∗ (iLoc d ↦{fullShare} (opR (F := F)).result (V3 m d) i') ∗ (oLoc d ↦{fullShare} (opR (F := F)).result (V3 m d) o') ∗ rLoc d ↦{fullShare} Res m d) := by
  rw [held_S6, V4_a, V4_x, V4_r]

theorem hT : (opT (F := F)).bufs ⊆ S6 := show ({a', t'} : Finset (DevRef τ sig)) ⊆ S6 by decide
theorem hFl : (opF (F := F)).bufs ⊆ S6 := show ({t', i'} : Finset (DevRef τ sig)) ⊆ S6 by decide
theorem hR : (opR (F := F)).bufs ⊆ S6 := show ({o', r'} : Finset (DevRef τ sig)) ⊆ S6 by decide

/-- What @main leaves the claim: the two arguments at their launch contents, the result array at the gathered rows
    reshaped. -/
abbrev FIN (d : Dev nD) : sProp 𝕄 :=
  iprop((aLoc d ↦{fullShare} m (aLoc d)) ∗ (xLoc d ↦{fullShare} m (xLoc d)) ∗ rLoc d ↦{fullShare} Res m d)

end Run

section MainRun

variable [FloatOps F]

/-- @main on device `d`'s TensorCore: the transpose and the flattening (over the six arrays held whole), the call
    (every worker's resources out, and back with the output array at the gathered rows), the final reshape; the
    two arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transpose, the flattening
  iapply (wp_hlo_within 𝒱 (SparseCore.T d) none Set.univ (op := opT) (S := S6) hT (V := V0 m d)) $$ [Hb Hheld]
  · isplitl [Hb] <;> iassumption
  iintro ⟨Hb, Hheld⟩
  rw [wp_ret]; imodintro
  iapply (wp_hlo_within 𝒱 (SparseCore.T d) none Set.univ (op := opF) (S := S6) hFl (V := (opT (F := F)).result (V0 m d))) $$ [Hb Hheld]
  · isplitl [Hb] <;> iassumption
  iintro ⟨Hb, Hheld⟩
  rw [wp_ret]; imodintro
  -- the call
  ihave Hh := (Entails.of_eq (held_V2 (F := F) m d)) $$ Hheld
  icases Hh with ⟨Ha, Hx, Ht, Hi, Ho, Hr⟩
  iapply ((K (F := F)).wp_run (D (F := F)) 𝒱 (EH := EH) (P := P m) κ d 0) $$ [Hst Hi Hx Ho Hb Ha Ht Hr]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  -- the final reshape, the output array now at the gathered rows
  iapply (wp_hlo_within 𝒱 (SparseCore.T d) none Set.univ (op := opR) (S := S6) hR (V := V3 m d)) $$ [Hb Ha Hx Ht Hi Ho Hr]
  · isplitl [Hb]; · iexact Hb
    rw [held_S6, V3_a, V3_x, V3_t, V3_i, V3_o, V3_r]
    isplitl [Ha]; · iexact Ha
    isplitl [Hx]; · iexact Hx
    isplitl [Ht]; · iexact Ht
    isplitl [Hi]; · iexact Hi
    isplitl [Ho]; · iexact Ho
    iexact Hr
  iintro ⟨Hb, Hheld⟩
  ihave Hh := (Entails.of_eq (held_V4 (F := F) m d)) $$ Hheld
  icases Hh with ⟨Ha, Hx, -, -, -, Hr⟩
  rw [wp_ret]; imodintro; imodintro
  isplitl [Hst]; · iexact Hst
  isplitl [Ha]; · iexact Ha
  isplitl [Hx]; · iexact Hx
  iexact Hr

end MainRun

/-! ## The program's run and the claim -/

section Claim

variable [FloatOps F]

/-- What the final memory holds on device `d`: the result array, the two arguments. -/
def fq (d : Dev nD) (s' : Phys nD τ sig (Elt F)) : Prop :=
  s'.mem.mem (rLoc d) = Res m d ∧ s'.mem.mem (aLoc d) = m (aLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Ha, Hx, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare) (f := Res m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- What the run leaves: the result array at the gathered rows reshaped, the two arguments unchanged. -/
def QC : PUnit × MemSt nD τ sig (Elt F) → Prop := fun r => ∀ c : Dev nD,
    r.2.mem ((SparseCore.T c).loc main_v3) = shapeCast S1024x200x128 (Go m c) Facts₀.shapeCasts_S204800x128_S1024x200x128
    ∧ r.2.mem (aLoc c) = m (aLoc c) ∧ r.2.mem (xLoc c) = m (xLoc c)

/-- The program's run, given each worker's task. -/
theorem run_main [∀ e, Nonempty (Elt F e)] (hobl : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Claim

end Cert.Proof.KB

end
-- ==== Proof.KBObl.lean ====
/-
  One worker's task, from the kernel's body: the call hands vector subcore s of SparseCore c the resources of worker
  2 s + c — a read share of the flattened index array and of the table, and its own rows of the output array — and
  the body, run on them, returns them with the rows at the gathered rows. The flattened index array is the index
  argument transposed and flattened, so each of its words is a word of the argument and names a table row.
-/
import proofs.«206846_g4063039062876_cont_8to1_b_342_28_alg».proof.Proof.KBSetup
import proofs.«206846_g4063039062876_cont_8to1_b_342_28_alg».proof.Proof.KBLaunch
import proofs.«206846_g4063039062876_cont_8to1_b_342_28_alg».proof.Proof.HostValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1)

variable {F : FTy → Type}

local notation "𝕄" => MT nD τ sig (HIx 1) (Elt F) ℕ UU ℕ

local notation "iV" => (Memref.whole Cert.Kernel.main_v1_scv : Memref Cert.Kernel.sig Kind.scVector Space.hbm Cert.Kernel.S204800 EltTy.i32)
local notation "xV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S204800x128 EltTy.f32)
local notation "s0V" => (Memref.whole Cert.Kernel.cc0_scratch0 : Memref Cert.Kernel.sig Kind.scVector Space.vmem Cert.Kernel.S128 EltTy.i32)
local notation "s1V" => (Memref.whole Cert.Kernel.cc0_scratch1 : Memref Cert.Kernel.sig Kind.scVector Space.vmem Cert.Kernel.S128 EltTy.i32)
local notation "s2V" => (Memref.whole Cert.Kernel.cc0_scratch2 : Memref Cert.Kernel.sig Kind.scVector Space.vmem Cert.Kernel.S128 EltTy.i32)
local notation "s3V" => (Memref.whole Cert.Kernel.cc0_scratch3 : Memref Cert.Kernel.sig Kind.scVector Space.vmem Cert.Kernel.S128 EltTy.i32)
local notation "r0V" => (Memref.whole Cert.Kernel.cc0_scratch4 : Memref Cert.Kernel.sig Kind.scVector Space.vmem Cert.Kernel.S128x128 EltTy.f32)
local notation "r1V" => (Memref.whole Cert.Kernel.cc0_scratch5 : Memref Cert.Kernel.sig Kind.scVector Space.vmem Cert.Kernel.S128x128 EltTy.f32)
local notation "r2V" => (Memref.whole Cert.Kernel.cc0_scratch6 : Memref Cert.Kernel.sig Kind.scVector Space.vmem Cert.Kernel.S128x128 EltTy.f32)
local notation "r3V" => (Memref.whole Cert.Kernel.cc0_scratch7 : Memref Cert.Kernel.sig Kind.scVector Space.vmem Cert.Kernel.S128x128 EltTy.f32)

variable (m : (ℓ : Loc nD τ sig) → Buf (Elt F) ℓ) (ρ : Dev nD → PrngReg)

/-! ## The flattened index array's words are the index argument's -/

/-- Word r of the flattened index array is word (r mod 200, r div 200) of the index argument: under the
    precondition it names a table row. -/
theorem Vi_inRange (hpre : PreOK m) (d : Dev nD) : ∀ j, (Vi m d j).toNat < 100000 := by
  intro j
  obtain ⟨r, rfl⟩ : ∃ r : Fin 204800, j = ix1 r := ⟨j 0, eq_ix1 j⟩
  have hr := r.isLt
  have key := HostValue.flat_apply (m (aLoc d)) Facts₀.transposes_S200x1024_S1024x200_1_0 Facts₀.shapeCasts_S1024x200_S204800
    ⟨r.val / 200, by omega⟩ ⟨r.val % 200, by omega⟩
  have e : (⟨r.val / 200 * 200 + r.val % 200, by omega⟩ : Fin 204800) = r := Fin.ext (by show r.val / 200 * 200 + r.val % 200 = r.val; omega)
  rw [e] at key
  show (Vi m d (ix1 r)).toNat < 100000
  unfold Vi
  rw [key]
  exact hpre d _

/-! ## The obligation -/

section Obl

variable [FloatOps F]

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

omit m ρ in
theorem defs₀_vector (c : Fin τ.nSC) (s : Fin τ.nSub) :
    defs₀ (F := F) (.scVector c s) 0 ()
      = SparseCore.onTile hcore0 hsub0 (fun c s => cc0_gather_kernel (coordsV c s)
          iV (Memref.isWhole_whole _) xV (Memref.isWhole_whole _) oV (Memref.isWhole_whole _)
          s0V (Memref.isWhole_whole _) s1V (Memref.isWhole_whole _) s2V (Memref.isWhole_whole _) s3V (Memref.isWhole_whole _)
          r0V (Memref.isWhole_whole _) r1V (Memref.isWhole_whole _) r2V (Memref.isWhole_whole _) r3V (Memref.isWhole_whole _)
          cc0_scratch8 cc0_scratch9 cc0_scratch10 cc0_scratch11 cc0_scratch12 cc0_scratch13 cc0_scratch14 cc0_scratch15 cc0_scratch16 cc0_scratch17 cc0_scratch18 cc0_scratch19) ⟨⟩ c s := rfl

omit m ρ [FloatOps F] in
/-- A wait the body leaves unanswered is one the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each worker's task: the body at the worker's grid point, on the flattened index array, the table and the output
    array at their contents before the call. -/
theorem tileObl (hpre : PreOK m) (hb : BodyOK (F := F)) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact (hb d (coordsV ⟨_, hci.1⟩ ⟨_, hci.2⟩) facts (Vi m d) (m (xLoc d)) (m (oLoc d)) (Vi_inRange m hpre d) O W hO).trans
    (wp_mono frame _ _ fun _ => obl_post)

/-- The program's run, from the precondition and the body. -/
theorem run [∀ e, Nonempty (Elt F e)] (hpre : PreOK m) (hb : BodyOK (F := F)) :
    θ_run (Cert.Kernel.defs (F := F)) (Cert.Kernel.threads (F := F)) ⟨m, fun _ => 0, ρ⟩ (QC m) :=
  run_main m ρ (tileObl m hpre hb)

end Obl

end Cert.Proof.KB

end
-- ==== Proof.KBGeom.lean ====
/-
  The geometry of one worker's rows of the output array. A worker owns 6400 consecutive rows; the loop's twelve
  trips write four chunks of 128 rows each, and two more chunks of 128 rows follow the loop: fifty chunks, pairwise
  disjoint, whose union is the worker's rows. Every set here is a set of whole rows, so membership is a pair of
  inequalities on the row index, and a points-to on the worker's rows is the separating conjunction of the
  points-tos on the chunks. Last, a big separating conjunction over a final or an initial segment of `Fin N`
  peels its first, respectively last, index.
-/
import proofs.«206846_g4063039062876_cont_8to1_b_342_28_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "oV" => (Memref.whole Cert.Kernel.main_v2_scv : Memref Cert.Kernel.sig Kind.scVector Space.hbm Cert.Kernel.S204800x128 EltTy.f32)

theorem trips_eq : k0_t1_loop.trips = 12 := by decide

/-- The rows `n .. n + k - 1` of the output array, every column. -/
def rows (n k : ℕ) : Finset S204800x128.Idx := Finset.univ.filter fun i => n ≤ (i 0).val ∧ (i 0).val < n + k

theorem mem_rows {n k : ℕ} {i : S204800x128.Idx} : i ∈ rows n k ↔ n ≤ (i 0).val ∧ (i 0).val < n + k := by
  simp [rows]

/-- A unit rectangle of 128 rows from row `n`, every column, is those rows. -/
theorem unit_rows (off : Fin 2 → ℕ) (n : ℕ) (hoff : off = ![n, 0]) (hinb : ∀ a, off a + S128x128.size a ≤ S204800x128.size a) :
    ((oV).slice (Rect.unit (s := S204800x128) off S128x128.size hinb) (fun _ => rfl)).view.set = rows n 128 := by
  subst hoff
  show ((View.whole (main_v2_scv : Ref sig .scVector)).slice (Rect.unit (s := S204800x128) ![n, 0] S128x128.size hinb)).set = _
  rw [View.set_slice_whole]
  ext i
  rw [Rect.mem_set_unit, mem_rows]
  constructor
  · intro h; exact h 0
  · intro h a
    match a with
    | 0 => exact h
    | 1 => exact ⟨Nat.zero_le _, by have h1 : ((i 1 : Fin _) : ℕ) < 128 := (i 1).isLt; simpa using h1⟩

/-- Worker `w`'s part of the output array is its 6400 rows. -/
theorem oRegSet_rows (w : Fin 32) : oRegSet w = rows (6400 * w.val) 6400 := by
  show ((View.whole (main_v2_scv : Ref sig .scVector)).slice (oreg w)).set = _
  rw [View.set_slice_whole]
  ext i
  rw [Rect.mem_set_unit, mem_rows]
  constructor
  · intro h
    have h0 := h 0
    simp only [Shape.partIx, Shape.partSize, ↓reduceIte] at h0
    have e : S204800x128.size 0 / 32 = 6400 := by decide
    rw [e] at h0
    omega
  · intro h a
    match a with
    | 0 =>
      simp only [Shape.partIx, Shape.partSize, ↓reduceIte]
      have e : S204800x128.size 0 / 32 = 6400 := by decide
      rw [e]
      omega
    | 1 =>
      have h1 : ((i 1 : Fin _) : ℕ) < 128 := (i 1).isLt
      simp [Shape.partIx, Shape.partSize]
      simpa using h1

theorem rows_add (n a b : ℕ) : rows n (a + b) = rows n a ∪ rows (n + a) b := by
  ext i; rw [Finset.mem_union, mem_rows, mem_rows, mem_rows]; omega

theorem rows_disjoint {n k n' k' : ℕ} (h : n + k ≤ n' ∨ n' + k' ≤ n) : Disjoint (rows n k) (rows n' k') := by
  rw [Finset.disjoint_left]; intro i hi hi'; rw [mem_rows] at hi hi'; omega

/-- The twelve trips' 512 rows each, from row `n` on, are the 6144 rows from `n` on. -/
theorem rows_trips (n : ℕ) :
    (Finset.univ : Finset (Fin k0_t1_loop.trips)).biUnion (fun t => rows (n + 512 * t.val) 512) = rows n 6144 := by
  ext i
  simp only [Finset.mem_biUnion, Finset.mem_univ, true_and, mem_rows]
  constructor
  · rintro ⟨t, h⟩
    have ht : t.val < 12 := trips_eq ▸ t.isLt
    omega
  · intro h
    refine ⟨⟨((i 0).val - n) / 512, by rw [trips_eq]; omega⟩, ?_⟩
    show n + 512 * (((i 0).val - n) / 512) ≤ (i 0).val ∧ (i 0).val < n + 512 * (((i 0).val - n) / 512) + 512
    omega

theorem rows_trips_disjoint (n : ℕ) :
    ∀ t ∈ (Finset.univ : Finset (Fin k0_t1_loop.trips)), ∀ t' ∈ (Finset.univ : Finset (Fin k0_t1_loop.trips)), t ≠ t' →
      Disjoint (rows (n + 512 * t.val) 512) (rows (n + 512 * t'.val) 512) := by
  intro t _ t' _ h
  have hv : t.val ≠ t'.val := fun e => h (Fin.ext e)
  exact rows_disjoint (by omega)

section Pts

variable (d : Dev nD) (q : PosShare TreeShare) (f : Buf (Elt F) (oLoc d))

/-- A points-to on `c = a + b` consecutive rows is one on the first `a` and one on the next `b`. -/
theorem pts_rows_split (n a b c n' : ℕ) (hc : c = a + b) (hn : n' = n + a) :
    (oLoc d ↦[rows n c]{q} f : sProp 𝕄) = iprop((oLoc d ↦[rows n a]{q} f) ∗ (oLoc d ↦[rows n' b]{q} f)) := by
  subst hc hn
  rw [rows_add]
  have hu : (oLoc d ↦[rows n a ∪ rows (n + a) b]{q} f : sProp 𝕄) ⊣⊢ iprop((oLoc d ↦[rows n a]{q} f) ∗ (oLoc d ↦[rows (n + a) b]{q} f)) :=
    pointsTo_union (rows_disjoint (Or.inl (le_refl _)))
  exact BI.equiv_iff.mp ⟨hu.1, hu.2⟩

/-- 512 consecutive rows as four chunks of 128. -/
theorem pts_rows4 (n : ℕ) :
    (oLoc d ↦[rows n 512]{q} f : sProp 𝕄)
      = iprop((oLoc d ↦[rows n 128]{q} f) ∗ (oLoc d ↦[rows (n + 128) 128]{q} f) ∗ (oLoc d ↦[rows (n + 256) 128]{q} f) ∗ (oLoc d ↦[rows (n + 384) 128]{q} f)) := by
  rw [pts_rows_split d q f n 128 384 512 (n + 128) rfl rfl, pts_rows_split d q f (n + 128) 128 256 384 (n + 256) rfl (by omega),
    pts_rows_split d q f (n + 256) 128 128 256 (n + 384) rfl (by omega)]

end Pts

section Chunks

variable (L : grid0.Coords) (t : Fin k0_t1_loop.trips)

theorem oW0_rows : oW0 L t = rows (nb L + 512 * t.val) 128 := by
  have h : k0_off7 L t 0#32 = ![nb L + 512 * t.val, 0] := (k0_off7_eq L t ⟨0, by decide⟩).trans (by simp [nb])
  exact unit_rows (k0_off7 L t 0#32) (nb L + 512 * t.val) h (Facts₀.k0_off7_inb L t 0)
theorem oW1_rows : oW1 L t = rows (nb L + 512 * t.val + 128) 128 := by
  have h : k0_off7 L t 1#32 = ![nb L + 512 * t.val + 128, 0] := (k0_off7_eq L t ⟨1, by decide⟩).trans (by simp [nb])
  exact unit_rows (k0_off7 L t 1#32) (nb L + 512 * t.val + 128) h (Facts₀.k0_off7_inb L t 1)
theorem oW2_rows : oW2 L t = rows (nb L + 512 * t.val + 256) 128 := by
  have h : k0_off7 L t 2#32 = ![nb L + 512 * t.val + 256, 0] := (k0_off7_eq L t ⟨2, by decide⟩).trans (by simp [nb])
  exact unit_rows (k0_off7 L t 2#32) (nb L + 512 * t.val + 256) h (Facts₀.k0_off7_inb L t 2)
theorem oW3_rows : oW3 L t = rows (nb L + 512 * t.val + 384) 128 := by
  have h : k0_off7 L t 3#32 = ![nb L + 512 * t.val + 384, 0] := (k0_off7_eq L t ⟨3, by decide⟩).trans (by simp [nb])
  exact unit_rows (k0_off7 L t 3#32) (nb L + 512 * t.val + 384) h (Facts₀.k0_off7_inb L t 3)
theorem oT0_rows : oT0 L = rows (nb L + 6144) 128 := by
  have h : k0_off12 L 6144#32 = ![nb L + 6144, 0] := (k0_off12_eq L ⟨0, by decide⟩).trans (by simp [nb])
  exact unit_rows (k0_off12 L 6144#32) (nb L + 6144) h (Facts₀.k0_off12_inb L 0)
theorem oT1_rows : oT1 L = rows (nb L + 6272) 128 := by
  have h : k0_off12 L 6272#32 = ![nb L + 6272, 0] := (k0_off12_eq L ⟨1, by decide⟩).trans (by simp [nb])
  exact unit_rows (k0_off12 L 6272#32) (nb L + 6272) h (Facts₀.k0_off12_inb L 1)

theorem widL_rows : oRegSet (widL L) = rows (nb L) 6400 := by
  rw [oRegSet_rows]
  have e : 6400 * (widL L).val = nb L := by
    show 6400 * (2 * (L 1).val + (L 0).val) = 12800 * (L 1).val + 6400 * (L 0).val
    omega
  rw [e]

end Chunks

/-- What trip `t` leaves written: its four chunks of the output array at contents `f`. -/
def tripOut (d : Dev nD) (L : grid0.Coords) (t : Fin k0_t1_loop.trips) (f : Buf (Elt F) (oLoc d)) : sProp 𝕄 :=
  iprop((oLoc d ↦[oW0 L t]{fullShare} f) ∗ (oLoc d ↦[oW1 L t]{fullShare} f) ∗ (oLoc d ↦[oW2 L t]{fullShare} f) ∗ (oLoc d ↦[oW3 L t]{fullShare} f))

/-- A trip's four chunks are its 512 rows. -/
theorem tripOut_rows (d : Dev nD) (L : grid0.Coords) (t : Fin k0_t1_loop.trips) (f : Buf (Elt F) (oLoc d)) :
    tripOut d L t f = (oLoc d ↦[rows (nb L + 512 * t.val) 512]{fullShare} f : sProp 𝕄) := by
  unfold tripOut
  rw [oW0_rows, oW1_rows, oW2_rows, oW3_rows, pts_rows4]

/-- A worker's 6400 rows are its fifty chunks: the twelve trips' four each and the two after the loop. -/
theorem oReg_split (d : Dev nD) (L : grid0.Coords) (f : Buf (Elt F) (oLoc d)) :
    (oLoc d ↦[oRegSet (widL L)]{fullShare} f : sProp 𝕄)
      = iprop((bigSep Finset.univ fun t : Fin k0_t1_loop.trips => tripOut d L t f) ∗ (oLoc d ↦[oT0 L]{fullShare} f) ∗ (oLoc d ↦[oT1 L]{fullShare} f)) := by
  rw [widL_rows, oT0_rows, oT1_rows, bigSep_congr (fun t _ => tripOut_rows d L t f),
    ← pointsTo_biUnion Finset.univ (ℓ := oLoc d) (fun t : Fin k0_t1_loop.trips => rows (nb L + 512 * t.val) 512) (rows_trips_disjoint (nb L)),
    rows_trips,
    pts_rows_split d fullShare f (nb L) 6144 256 6400 (nb L + 6144) rfl rfl,
    pts_rows_split d fullShare f (nb L + 6144) 128 128 256 (nb L + 6272) rfl (by omega)]

/-! ## Big separating conjunctions over an initial or a final segment of `Fin N` -/

section Filters

variable {M : Type} [URA M] {N : ℕ}

/-- The trips from `k` on are trip `k` and the trips from `k + 1` on. -/
theorem bigSep_from_succ (Φ : Fin N → sProp M) (k : ℕ) (hk : k < N) :
    bigSep (Finset.univ.filter fun t : Fin N => k ≤ t.val) Φ
      = iprop(Φ ⟨k, hk⟩ ∗ bigSep (Finset.univ.filter fun t : Fin N => k + 1 ≤ t.val) Φ) := by
  have e : (Finset.univ.filter fun t : Fin N => k ≤ t.val) = insert ⟨k, hk⟩ (Finset.univ.filter fun t : Fin N => k + 1 ≤ t.val) := by
    ext t; simp only [Finset.mem_filter, Finset.mem_univ, true_and, Finset.mem_insert, Fin.ext_iff]; omega
  rw [e, SparseCore.bigSep_insert' (by simp)]

/-- The trips below `n + 1` are trip `n` and the trips below `n`. -/
theorem bigSep_upto_succ (Φ : Fin N → sProp M) (n : ℕ) (hn : n < N) :
    bigSep (Finset.univ.filter fun t : Fin N => t.val < n + 1) Φ
      = iprop(Φ ⟨n, hn⟩ ∗ bigSep (Finset.univ.filter fun t : Fin N => t.val < n) Φ) := by
  have e : (Finset.univ.filter fun t : Fin N => t.val < n + 1) = insert ⟨n, hn⟩ (Finset.univ.filter fun t : Fin N => t.val < n) := by
    ext t; simp only [Finset.mem_filter, Finset.mem_univ, true_and, Finset.mem_insert, Fin.ext_iff]; omega
  rw [e, SparseCore.bigSep_insert' (by simp)]

/-- From trip 0 on is every trip. -/
theorem bigSep_from_zero (Φ : Fin N → sProp M) :
    bigSep (Finset.univ.filter fun t : Fin N => 0 ≤ t.val) Φ = bigSep Finset.univ Φ := by
  congr 1; ext t; simp
/-- Below a bound `n ≥ N` is every trip. -/
theorem bigSep_upto_top (Φ : Fin N → sProp M) (n : ℕ) (hn : N ≤ n) :
    bigSep (Finset.univ.filter fun t : Fin N => t.val < n) Φ = bigSep Finset.univ Φ := by
  congr 1; ext t; have := t.isLt; simp only [Finset.mem_filter, Finset.mem_univ, true_and, iff_true]; omega
/-- From a bound `n ≥ N` on is no trip. -/
theorem bigSep_from_top (Φ : Fin N → sProp M) (n : ℕ) (hn : N ≤ n) :
    bigSep (Finset.univ.filter fun t : Fin N => n ≤ t.val) Φ = iprop(emp) := by
  have e : (Finset.univ.filter fun t : Fin N => n ≤ t.val) = ∅ := by
    ext t; have := t.isLt; simp only [Finset.mem_filter, Finset.mem_univ, true_and, Finset.notMem_empty, iff_false]; omega
  rw [e]; rfl
/-- Below trip 0 is no trip. -/
theorem bigSep_upto_zero (Φ : Fin N → sProp M) :
    bigSep (Finset.univ.filter fun t : Fin N => t.val < 0) Φ = iprop(emp) := by
  have e : (Finset.univ.filter fun t : Fin N => t.val < 0) = ∅ := by
    ext t; simp
  rw [e]; rfl

end Filters

end Cert.Proof.KB

end
-- ==== Proof.KBValue.lean ====
/-
  The values the lookup kernel's body moves, as pure facts about array contents. For one slot and one chunk of
  128 consecutive rows starting at row n of the flattened arrays, the body does three things: it copies 128 words
  of the flattened index array into a list buffer; it fills a row buffer with, at row a, the table row whose number
  is word a of the list; and it copies the row buffer out to rows n .. n + 127 of the output array. This module reads
  each of the three back:

  * the list buffer after the copy holds, at position x, word n + x of the index array;
  * when every word of the index array names a table row, so does every word of the list (what the row fill asks);
  * the output array after the copy-out agrees, on rows n .. n + 127, with the specification of the gathered rows:
    row r is the table row named by word r of the flattened index array.

  The third fact splits in two. First, for ANY payload p that at (a, k) is entry k of the table row named by word
  n + a, writing p through the window of rows n .. n + 127 gives the specification there: an element (r, k) of the
  window is the window's element (r - n, k), and word n + (r - n) is word r. Second, the payload the body writes
  is such a p: the row buffer, written whole with the row fill's payload, reads back as that payload; the payload
  at (a, k) is the table at the row the list's word a names, column k; the list's word a is word n + a of the index
  array; and a word that names a row is the number of the row it names.

  Everything is stated for any list buffer and any row buffer (the four slots differ only in which buffers they
  use), then restated for each slot at that slot's own buffers.
-/
import proofs.«206846_g4063039062876_cont_8to1_b_342_28_alg».proof.Proof.KBSetup
import Idealize.ShloMosaic.Lib.Writes
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix2)

variable {F : FTy → Type}

local notation "iV" => (Memref.whole Cert.Kernel.main_v1_scv : Memref Cert.Kernel.sig Kind.scVector Space.hbm Cert.Kernel.S204800 EltTy.i32)
local notation "xV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S204800x128 EltTy.f32)
local notation "s0V" => (Memref.whole Cert.Kernel.cc0_scratch0 : Memref Cert.Kernel.sig Kind.scVector Space.vmem Cert.Kernel.S128 EltTy.i32)
local notation "s1V" => (Memref.whole Cert.Kernel.cc0_scratch1 : Memref Cert.Kernel.sig Kind.scVector Space.vmem Cert.Kernel.S128 EltTy.i32)
local notation "s2V" => (Memref.whole Cert.Kernel.cc0_scratch2 : Memref Cert.Kernel.sig Kind.scVector Space.vmem Cert.Kernel.S128 EltTy.i32)
local notation "s3V" => (Memref.whole Cert.Kernel.cc0_scratch3 : Memref Cert.Kernel.sig Kind.scVector Space.vmem Cert.Kernel.S128 EltTy.i32)
local notation "r0V" => (Memref.whole Cert.Kernel.cc0_scratch4 : Memref Cert.Kernel.sig Kind.scVector Space.vmem Cert.Kernel.S128x128 EltTy.f32)
local notation "r1V" => (Memref.whole Cert.Kernel.cc0_scratch5 : Memref Cert.Kernel.sig Kind.scVector Space.vmem Cert.Kernel.S128x128 EltTy.f32)
local notation "r2V" => (Memref.whole Cert.Kernel.cc0_scratch6 : Memref Cert.Kernel.sig Kind.scVector Space.vmem Cert.Kernel.S128x128 EltTy.f32)
local notation "r3V" => (Memref.whole Cert.Kernel.cc0_scratch7 : Memref Cert.Kernel.sig Kind.scVector Space.vmem Cert.Kernel.S128x128 EltTy.f32)

/-! ## Positions -/

/-- Position `k` of the chunk that starts at row `n`, as a position of the flattened index array: `n + k`. -/
abbrev chunkIdx (n : ℕ) (hn : n + 128 ≤ 204800) (k : Fin 128) : S204800.Idx := ix1 ⟨n + k.val, by omega⟩

/-- A whole rectangle places every index at itself. -/
theorem emb_whole (s : Shape) (y : (Rect.whole s).shape.Idx) : (Rect.whole s).emb y = y :=
  funext fun a => Fin.ext (by rw [Rect.emb_apply]; show 0 + 1 * (y a).val = (y a).val; omega)

/-- The rectangle of the whole table, from offset zero, places every index at itself. -/
theorem emb_tableAll (inb : ∀ a, (![0, 0] : Fin 2 → ℕ) a + S100000x128.size a ≤ S100000x128.size a) (z : S100000x128.Idx) :
    (Rect.unit (s := S100000x128) ![0, 0] S100000x128.size inb).emb z = z := by
  funext b; refine Fin.ext ?_
  rw [Rect.emb_apply]
  match b with
  | ⟨0, _⟩ => show 0 + 1 * (z 0).val = (z 0).val; omega
  | ⟨1, _⟩ => show 0 + 1 * (z 1).val = (z 1).val; omega

/-- Position `k` in row-major order of a list of 128 words is index `k`. -/
theorem rowMajor_symm_list (k : Fin S128.numel) (hk : k.val < 128) : S128.rowMajor.symm k = ix1 (⟨k.val, hk⟩ : Fin 128) :=
  (Equiv.symm_apply_eq _).mpr (Fin.ext (by
    have h := Shape.rowMajor_val_one (d := ![128]) (ix1 (⟨k.val, hk⟩ : Fin 128))
    exact h.symm))

/-! ## Buffers written whole -/

section Whole
variable {sg : RefSig} {κ : Kind} {sp : Space} {s : Shape} {e : EltTy} {Val : EltTy → Type}

/-- A buffer written once, whole, reads back as what was written. -/
theorem read_writes_whole (v : View sg κ sp s e) (f : v.ty.Contents Val) (w : (Rect.whole s).shape.Idx → Val e)
    (y : (Rect.whole s).shape.Idx) : v.read Val (v.writes Val f [⟨Rect.whole s, w⟩]) y = w y := by
  have h := View.read_writes_cons_emb v f (Rect.whole s) w [] y
  rwa [emb_whole] at h

/-- A buffer written once through the whole of a view is that view written unmasked: the whole rectangle places every
    index of the view at itself, so the two writes reach the same elements with the same values and leave the rest. -/
theorem writes_whole_eq_write (v : View sg κ sp s e) (f : v.ty.Contents Val) (w : (Rect.whole s).shape.Idx → Val e) :
    v.writes Val f [⟨Rect.whole s, w⟩] = v.write Val f w Finset.univ := by
  rw [View.writes_singleton]
  funext i
  by_cases hi : i ∈ v.set
  · obtain ⟨x, -, rfl⟩ := Finset.mem_map.mp hi
    have e1 : v.emb x = (v.slice (Rect.whole s)).emb x := by
      rw [View.emb_slice]
      show v.emb x = v.emb ((Rect.whole s).emb x)
      rw [emb_whole]
    conv_lhs => rw [e1, View.write_emb_of_mem _ _ (Finset.mem_univ _)]
    rw [View.write_emb_of_mem _ _ (Finset.mem_univ _)]
  · rw [View.write_of_not_mem _ _ _ (by rwa [View.setOn_univ, View.set_slice, Rect.set_whole]),
      View.write_of_not_mem _ _ _ (by rwa [View.setOn_univ])]

end Whole

/-! ## The three facts, for any list buffer and any row buffer

Positions are written with literal coordinates: `ix1 a` for position `a` of a list of 128 words, `ix2 a k` for entry
`k` of row `a` of a 128 × 128 row buffer. -/

section Values
variable (d : Dev nD)

/-- THE LIST AFTER THE COPY: position `a` holds word `n + a` of the flattened index array. -/
theorem listValue (sv : View sig Kind.scVector Space.vmem S128 EltTy.i32) (g : sv.ty.Contents (Elt F)) (fi : Buf (Elt F) (iLoc d))
    (n : ℕ) (hn : n + 128 ≤ 204800) (off : Fin 1 → ℕ) (hoff : off = ![n])
    (hinb : ∀ a, off a + S128.size a ≤ S204800.size a) (hs : ∀ a, (Rect.unit (s := S204800) off S128.size hinb).stride a = 1)
    (a : Fin 128) :
    View.read (Elt F) sv
        (View.write (Elt F) sv g
          (ReadAs.same.apply (View.read (Elt F) ((iV).slice (Rect.unit (s := S204800) off S128.size hinb) hs).view fi)) Finset.univ)
        (ix1 a)
      = fi (chunkIdx n hn a) := by
  subst hoff
  rw [View.read_write_univ]
  refine ((View.read_apply _ _).trans (cast_eq _ _)).trans (congrArg fi ?_)
  funext b; refine Fin.ext ?_
  match b with
  | ⟨0, _⟩ => show n + 1 * a.val = n + a.val; omega

/-- WHAT THE ROW FILL ASKS OF THE LIST: when every word of the index array names a table row, so does every word of a
    list that holds a chunk of it. -/
theorem hin_of_value (sv : View sig Kind.scVector Space.vmem S128 EltTy.i32) (g' : sv.ty.Contents (Elt F)) (fi : Buf (Elt F) (iLoc d))
    (n : ℕ) (hn : n + 128 ≤ 204800)
    (hval : ∀ a : Fin 128, View.read (Elt F) sv g' (ix1 a) = fi (chunkIdx n hn a))
    (hpre : ∀ j, (fi j).toNat < 100000) :
    ∀ x, BitVec.toNat (View.read (Elt F) sv g' x) < S100000x128.size gathers_S100000x128_S128x128.axis := fun x => by
  obtain ⟨a, rfl⟩ : ∃ a : Fin 128, x = ix1 a := ⟨x 0, ValueIdx.eq_ix1 x⟩
  exact (congrArg BitVec.toNat (hval a)).trans_lt (hpre _)

/-- THE ROW FILL'S PAYLOAD at `(a, k)`: entry `k` of the table row named by word `n + a` of the index array. -/
theorem gatherPayload_apply (sv : View sig Kind.scVector Space.vmem S128 EltTy.i32) (g' : sv.ty.Contents (Elt F))
    (fi : Buf (Elt F) (iLoc d)) (fx : Buf (Elt F) (xLoc d)) (n : ℕ) (hn : n + 128 ≤ 204800)
    (hs' : ∀ a, (Rect.unit (s := S100000x128) ![0, 0] S100000x128.size inb_S100000x128_S100000x128_0_0).stride a = 1)
    (hnn : S128.numel = S128x128.size gathers_S100000x128_S128x128.axis')
    (hin : ∀ x, BitVec.toNat (View.read (Elt F) sv g' x) < S100000x128.size gathers_S100000x128_S128x128.axis)
    (hval : ∀ a : Fin 128, View.read (Elt F) sv g' (ix1 a) = fi (chunkIdx n hn a))
    (hpre : ∀ j, (fi j).toNat < 100000) (a k : Fin 128) :
    SparseCore.gatherPayload gathers_S100000x128_S128x128
        (View.read (Elt F) ((xV).slice (Rect.unit ![0, 0] S100000x128.size inb_S100000x128_S100000x128_0_0) hs').view fx)
        (SparseCore.rows (View.read (Elt F) sv g') hnn hin) (ix2 a k)
      = fx (ix2 (Spec.rowOf (fi (chunkIdx n hn a))) k) := by
  unfold SparseCore.gatherPayload
  refine ((View.read_apply _ _).trans (cast_eq _ _)).trans (congrArg fx ?_)
  show (Rect.unit (s := S100000x128) ![0, 0] S100000x128.size inb_S100000x128_S100000x128_0_0).emb _ = _
  rw [emb_tableAll]
  funext b; refine Fin.ext ?_
  match b with
  | ⟨0, _⟩ =>
    have h1 : (gathers_S100000x128_S128x128.idx (SparseCore.rows (View.read (Elt F) sv g') hnn hin) (ix2 a k)
          gathers_S100000x128_S128x128.axis).val = (fi (chunkIdx n hn a)).toNat := by
      rw [Shape.Gathers.idx_axis]
      have e : S128.rowMajor.symm (Fin.cast hnn.symm ((ix2 a k : S128x128.Idx) gathers_S100000x128_S128x128.axis')) = ix1 a :=
        rowMajor_symm_list _ a.isLt
      exact (congrArg (fun z => (View.read (Elt F) sv g' z).toNat) e).trans (congrArg BitVec.toNat (hval a))
    exact h1.trans (Spec.rowOf_val_of_lt (hpre _)).symm
  | ⟨1, _⟩ =>
    exact Shape.Gathers.idx_of_ne gathers_S100000x128_S128x128 _ (ix2 a k) ⟨1, by decide⟩ (by decide)

/-- THE COPY-OUT'S PAYLOAD: the row buffer, written whole with the row fill's payload, read back. -/
theorem rowsPayload_apply (sv : View sig Kind.scVector Space.vmem S128 EltTy.i32) (rv : View sig Kind.scVector Space.vmem S128x128 EltTy.f32)
    (g' : sv.ty.Contents (Elt F)) (fr : rv.ty.Contents (Elt F))
    (fi : Buf (Elt F) (iLoc d)) (fx : Buf (Elt F) (xLoc d)) (n : ℕ) (hn : n + 128 ≤ 204800)
    (hs' : ∀ a, (Rect.unit (s := S100000x128) ![0, 0] S100000x128.size inb_S100000x128_S100000x128_0_0).stride a = 1)
    (hnn : S128.numel = S128x128.size gathers_S100000x128_S128x128.axis')
    (hin : ∀ x, BitVec.toNat (View.read (Elt F) sv g' x) < S100000x128.size gathers_S100000x128_S128x128.axis)
    (hval : ∀ a : Fin 128, View.read (Elt F) sv g' (ix1 a) = fi (chunkIdx n hn a))
    (hpre : ∀ j, (fi j).toNat < 100000) (a k : Fin 128) :
    ReadAs.same.apply (View.read (Elt F) rv (rv.writes (Elt F) fr
        [⟨Rect.whole S128x128, SparseCore.gatherPayload gathers_S100000x128_S128x128
            (View.read (Elt F) ((xV).slice (Rect.unit ![0, 0] S100000x128.size inb_S100000x128_S100000x128_0_0) hs').view fx)
            (SparseCore.rows (View.read (Elt F) sv g') hnn hin)⟩])) (ix2 a k)
      = fx (ix2 (Spec.rowOf (fi (chunkIdx n hn a))) k) :=
  (read_writes_whole rv fr _ (ix2 a k)).trans (gatherPayload_apply d sv g' fi fx n hn hs' hnn hin hval hpre a k)

/-- THE WINDOW AFTER THE COPY-OUT, for any payload that at `(a, k)` is entry `k` of the table row named by word `n + a`:
    on rows `n .. n + 127` the output array is the specification of the gathered rows. -/
theorem window_core (fi : Buf (Elt F) (iLoc d)) (fx : Buf (Elt F) (xLoc d)) (fo : Buf (Elt F) (oLoc d))
    (n : ℕ) (hn : n + 128 ≤ 204800) (off' : Fin 2 → ℕ) (hoff' : off' = ![n, 0])
    (hinb' : ∀ a, off' a + S128x128.size a ≤ S204800x128.size a)
    (hs'' : ∀ a, (Rect.unit (s := S204800x128) off' S128x128.size hinb').stride a = 1)
    (p : S128x128.Idx → Elt F EltTy.f32)
    (hp : ∀ a k : Fin 128, p (ix2 a k) = fx (ix2 (Spec.rowOf (fi (chunkIdx n hn a))) k)) :
    ∀ i ∈ ((oV).slice (Rect.unit (s := S204800x128) off' S128x128.size hinb') hs'').view.set,
      View.write (Elt F) ((oV).slice (Rect.unit (s := S204800x128) off' S128x128.size hinb') hs'').view fo p Finset.univ i
        = Spec.Gflat fi fx i := by
  subst hoff'
  intro i hi
  obtain ⟨r, c, rfl⟩ : ∃ (r : Fin 204800) (c : Fin 128), i = ix2 r c := ⟨i 0, i 1, eq_ix2 i⟩
  rw [show ((oV).slice (Rect.unit (s := S204800x128) ![n, 0] S128x128.size hinb') hs'').view.set
      = (Rect.unit (s := S204800x128) ![n, 0] S128x128.size hinb').set from View.set_slice_whole _ _, Rect.mem_set_unit] at hi
  have h0' := hi (0 : Fin 2)
  have h0 : n ≤ r.val ∧ r.val < n + 128 := h0'
  have hy : ((oV).slice (Rect.unit (s := S204800x128) ![n, 0] S128x128.size hinb') hs'').view.emb
      (ix2 (⟨r.val - n, by omega⟩ : Fin 128) c) = ix2 r c := by
    funext b; refine Fin.ext ?_
    match b with
    | ⟨0, _⟩ => show n + 1 * (r.val - n) = r.val; omega
    | ⟨1, _⟩ => show 0 + 1 * c.val = c.val; omega
  rw [← hy]
  refine (View.write_emb_of_mem _ _ (Finset.mem_univ _)).trans ((cast_eq _ _).trans ?_)
  rw [hp, hy, Spec.Gflat_apply]
  refine congrArg (fun q => fx (ix2 (Spec.rowOf (fi q)) c)) ?_
  funext b; refine Fin.ext ?_
  match b with
  | ⟨0, _⟩ => show n + (r.val - n) = r.val; omega

end Values

/-! ## The window after the copy-out, with the body's own payload -/

section Window
variable (d : Dev nD)

/-- THE WINDOW AFTER THE COPY-OUT: with the row buffer filled from a list that holds words `n .. n + 127` of an index
    array all of whose words name table rows, rows `n .. n + 127` of the output array are the specification's. -/
theorem windowValue (sv : View sig Kind.scVector Space.vmem S128 EltTy.i32) (rv : View sig Kind.scVector Space.vmem S128x128 EltTy.f32)
    (g' : sv.ty.Contents (Elt F)) (fr : rv.ty.Contents (Elt F))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : S128.numel = S128x128.size gathers_S100000x128_S128x128.axis')
    (hin : ∀ x, BitVec.toNat (View.read (Elt F) sv g' x) < S100000x128.size gathers_S100000x128_S128x128.axis)
    (hval : ∀ a : Fin 128, View.read (Elt F) sv g' (ix1 a) = fi (chunkIdx n hn a))
    (hpre : ∀ j, (fi j).toNat < 100000) :
    ∀ i ∈ ((oV).slice (Rect.unit (s := S204800x128) off' S128x128.size hinb') hs'').view.set,
      View.write (Elt F) ((oV).slice (Rect.unit (s := S204800x128) off' S128x128.size hinb') hs'').view fo
          (ReadAs.same.apply (View.read (Elt F) rv (rv.writes (Elt F) fr
            [⟨Rect.whole S128x128, SparseCore.gatherPayload gathers_S100000x128_S128x128
                (View.read (Elt F) ((xV).slice (Rect.unit ![0, 0] S100000x128.size inb_S100000x128_S100000x128_0_0) hs').view fx)
                (SparseCore.rows (View.read (Elt F) sv g') hnn hin)⟩]))) Finset.univ i
        = Spec.Gflat fi fx i :=
  window_core d fi fx fo n hn off' hoff' hinb' hs'' _ (rowsPayload_apply d sv rv g' fr fi fx n hn hs' hnn hin hval hpre)

/-- The same core fact with the window's contents stated as one whole-rectangle piece written through the window. -/
theorem window_coreW (fi : Buf (Elt F) (iLoc d)) (fx : Buf (Elt F) (xLoc d)) (fo : Buf (Elt F) (oLoc d))
    (n : ℕ) (hn : n + 128 ≤ 204800) (off' : Fin 2 → ℕ) (hoff' : off' = ![n, 0])
    (hinb' : ∀ a, off' a + S128x128.size a ≤ S204800x128.size a)
    (hs'' : ∀ a, (Rect.unit (s := S204800x128) off' S128x128.size hinb').stride a = 1)
    (p : S128x128.Idx → Elt F EltTy.f32)
    (hp : ∀ a k : Fin 128, p (ix2 a k) = fx (ix2 (Spec.rowOf (fi (chunkIdx n hn a))) k)) :
    ∀ i ∈ ((oV).slice (Rect.unit (s := S204800x128) off' S128x128.size hinb') hs'').view.set,
      ((oV).slice (Rect.unit (s := S204800x128) off' S128x128.size hinb') hs'').view.writes (Elt F) fo
          [⟨Rect.whole S128x128, p⟩] i
        = Spec.Gflat fi fx i := fun i hi =>
  (congrFun (writes_whole_eq_write ((oV).slice (Rect.unit (s := S204800x128) off' S128x128.size hinb') hs'').view fo p) i).trans
    (window_core d fi fx fo n hn off' hoff' hinb' hs'' p hp i hi)

/-- The window after the copy-out, its contents stated as one whole-rectangle piece, with the body's own payload. -/
theorem windowValueW (sv : View sig Kind.scVector Space.vmem S128 EltTy.i32) (rv : View sig Kind.scVector Space.vmem S128x128 EltTy.f32)
    (g' : sv.ty.Contents (Elt F)) (fr : rv.ty.Contents (Elt F))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : S128.numel = S128x128.size gathers_S100000x128_S128x128.axis')
    (hin : ∀ x, BitVec.toNat (View.read (Elt F) sv g' x) < S100000x128.size gathers_S100000x128_S128x128.axis)
    (hval : ∀ a : Fin 128, View.read (Elt F) sv g' (ix1 a) = fi (chunkIdx n hn a))
    (hpre : ∀ j, (fi j).toNat < 100000) :
    ∀ i ∈ ((oV).slice (Rect.unit (s := S204800x128) off' S128x128.size hinb') hs'').view.set,
      ((oV).slice (Rect.unit (s := S204800x128) off' S128x128.size hinb') hs'').view.writes (Elt F) fo
          [⟨Rect.whole S128x128, ReadAs.same.apply (View.read (Elt F) rv (rv.writes (Elt F) fr
            [⟨Rect.whole S128x128, SparseCore.gatherPayload gathers_S100000x128_S128x128
                (View.read (Elt F) ((xV).slice (Rect.unit ![0, 0] S100000x128.size inb_S100000x128_S100000x128_0_0) hs').view fx)
                (SparseCore.rows (View.read (Elt F) sv g') hnn hin)⟩]))⟩] i
        = Spec.Gflat fi fx i :=
  window_coreW d fi fx fo n hn off' hoff' hinb' hs'' _ (rowsPayload_apply d sv rv g' fr fi fx n hn hs' hnn hin hval hpre)

end Window

/-! ## The same, slot by slot

Slot `j` uses list buffer `j` and row buffer `j`; the statements are the ones above at those buffers. -/

section Slots
variable (d : Dev nD) (L : grid0.Coords)

/-- Slot 0: the list after the copy. -/
theorem listValue_0 (g : Buf (Elt F) ((V d (cV L) (jV L)).loc cc0_scratch0)) (fi : Buf (Elt F) (iLoc d))
    (n : ℕ) (hn : n + 128 ≤ 204800) (off : Fin 1 → ℕ) (hoff : off = ![n])
    (hinb : ∀ a, off a + S128.size a ≤ S204800.size a) (hs : ∀ a, (Rect.unit (s := S204800) off S128.size hinb).stride a = 1)
    (a : Fin 128) :
    View.read (Elt F) (s0V).view
        (View.write (Elt F) (s0V).view g
          (ReadAs.same.apply (View.read (Elt F) ((iV).slice (Rect.unit (s := S204800) off S128.size hinb) hs).view fi)) Finset.univ)
        (ix1 a)
      = fi (chunkIdx n hn a) :=
  listValue d (s0V).view g fi n hn off hoff hinb hs a

/-- Slot 0: what the row fill asks of the list. -/
theorem hin_of_value_0 (g' : Buf (Elt F) ((V d (cV L) (jV L)).loc cc0_scratch0)) (fi : Buf (Elt F) (iLoc d))
    (n : ℕ) (hn : n + 128 ≤ 204800)
    (hval : ∀ a : Fin 128, View.read (Elt F) (s0V).view g' (ix1 a) = fi (chunkIdx n hn a))
    (hpre : ∀ j, (fi j).toNat < 100000) :
    ∀ x, BitVec.toNat (View.read (Elt F) (s0V).view g' x) < S100000x128.size gathers_S100000x128_S128x128.axis :=
  hin_of_value d (s0V).view g' fi n hn hval hpre

/-- Slot 0: the window after the copy-out. -/
theorem windowValue_0 (g' : Buf (Elt F) ((V d (cV L) (jV L)).loc cc0_scratch0)) (fr : Buf (Elt F) ((V d (cV L) (jV L)).loc cc0_scratch4))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : cc0_scratch0.ty.shape.numel = S128x128.size gathers_S100000x128_S128x128.axis')
    (hin : ∀ x, BitVec.toNat (View.read (Elt F) (s0V).view g' x) < S100000x128.size gathers_S100000x128_S128x128.axis)
    (hval : ∀ a : Fin 128, View.read (Elt F) (s0V).view g' (ix1 a) = fi (chunkIdx n hn a))
    (hpre : ∀ j, (fi j).toNat < 100000) :
    ∀ i ∈ ((oV).slice (Rect.unit (s := S204800x128) off' S128x128.size hinb') hs'').view.set,
      View.write (Elt F) ((oV).slice (Rect.unit (s := S204800x128) off' S128x128.size hinb') hs'').view fo
          (ReadAs.same.apply (View.read (Elt F) (r0V).view ((r0V).view.writes (Elt F) fr
            [⟨Rect.whole cc0_scratch4.ty.shape, SparseCore.gatherPayload gathers_S100000x128_S128x128
                (View.read (Elt F) ((xV).slice (Rect.unit ![0, 0] S100000x128.size inb_S100000x128_S100000x128_0_0) hs').view fx)
                (SparseCore.rows (View.read (Elt F) (s0V).view g') hnn hin)⟩]))) Finset.univ i
        = Spec.Gflat fi fx i :=
  windowValue d (s0V).view (r0V).view g' fr fi fx fo n hn off' hoff' hinb' hs'' hs' hnn hin hval hpre

/-- Slot 1: the list after the copy. -/
theorem listValue_1 (g : Buf (Elt F) ((V d (cV L) (jV L)).loc cc0_scratch1)) (fi : Buf (Elt F) (iLoc d))
    (n : ℕ) (hn : n + 128 ≤ 204800) (off : Fin 1 → ℕ) (hoff : off = ![n])
    (hinb : ∀ a, off a + S128.size a ≤ S204800.size a) (hs : ∀ a, (Rect.unit (s := S204800) off S128.size hinb).stride a = 1)
    (a : Fin 128) :
    View.read (Elt F) (s1V).view
        (View.write (Elt F) (s1V).view g
          (ReadAs.same.apply (View.read (Elt F) ((iV).slice (Rect.unit (s := S204800) off S128.size hinb) hs).view fi)) Finset.univ)
        (ix1 a)
      = fi (chunkIdx n hn a) :=
  listValue d (s1V).view g fi n hn off hoff hinb hs a

/-- Slot 1: what the row fill asks of the list. -/
theorem hin_of_value_1 (g' : Buf (Elt F) ((V d (cV L) (jV L)).loc cc0_scratch1)) (fi : Buf (Elt F) (iLoc d))
    (n : ℕ) (hn : n + 128 ≤ 204800)
    (hval : ∀ a : Fin 128, View.read (Elt F) (s1V).view g' (ix1 a) = fi (chunkIdx n hn a))
    (hpre : ∀ j, (fi j).toNat < 100000) :
    ∀ x, BitVec.toNat (View.read (Elt F) (s1V).view g' x) < S100000x128.size gathers_S100000x128_S128x128.axis :=
  hin_of_value d (s1V).view g' fi n hn hval hpre

/-- Slot 1: the window after the copy-out. -/
theorem windowValue_1 (g' : Buf (Elt F) ((V d (cV L) (jV L)).loc cc0_scratch1)) (fr : Buf (Elt F) ((V d (cV L) (jV L)).loc cc0_scratch5))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : cc0_scratch1.ty.shape.numel = S128x128.size gathers_S100000x128_S128x128.axis')
    (hin : ∀ x, BitVec.toNat (View.read (Elt F) (s1V).view g' x) < S100000x128.size gathers_S100000x128_S128x128.axis)
    (hval : ∀ a : Fin 128, View.read (Elt F) (s1V).view g' (ix1 a) = fi (chunkIdx n hn a))
    (hpre : ∀ j, (fi j).toNat < 100000) :
    ∀ i ∈ ((oV).slice (Rect.unit (s := S204800x128) off' S128x128.size hinb') hs'').view.set,
      View.write (Elt F) ((oV).slice (Rect.unit (s := S204800x128) off' S128x128.size hinb') hs'').view fo
          (ReadAs.same.apply (View.read (Elt F) (r1V).view ((r1V).view.writes (Elt F) fr
            [⟨Rect.whole cc0_scratch5.ty.shape, SparseCore.gatherPayload gathers_S100000x128_S128x128
                (View.read (Elt F) ((xV).slice (Rect.unit ![0, 0] S100000x128.size inb_S100000x128_S100000x128_0_0) hs').view fx)
                (SparseCore.rows (View.read (Elt F) (s1V).view g') hnn hin)⟩]))) Finset.univ i
        = Spec.Gflat fi fx i :=
  windowValue d (s1V).view (r1V).view g' fr fi fx fo n hn off' hoff' hinb' hs'' hs' hnn hin hval hpre

/-- Slot 2: the list after the copy. -/
theorem listValue_2 (g : Buf (Elt F) ((V d (cV L) (jV L)).loc cc0_scratch2)) (fi : Buf (Elt F) (iLoc d))
    (n : ℕ) (hn : n + 128 ≤ 204800) (off : Fin 1 → ℕ) (hoff : off = ![n])
    (hinb : ∀ a, off a + S128.size a ≤ S204800.size a) (hs : ∀ a, (Rect.unit (s := S204800) off S128.size hinb).stride a = 1)
    (a : Fin 128) :
    View.read (Elt F) (s2V).view
        (View.write (Elt F) (s2V).view g
          (ReadAs.same.apply (View.read (Elt F) ((iV).slice (Rect.unit (s := S204800) off S128.size hinb) hs).view fi)) Finset.univ)
        (ix1 a)
      = fi (chunkIdx n hn a) :=
  listValue d (s2V).view g fi n hn off hoff hinb hs a

/-- Slot 2: what the row fill asks of the list. -/
theorem hin_of_value_2 (g' : Buf (Elt F) ((V d (cV L) (jV L)).loc cc0_scratch2)) (fi : Buf (Elt F) (iLoc d))
    (n : ℕ) (hn : n + 128 ≤ 204800)
    (hval : ∀ a : Fin 128, View.read (Elt F) (s2V).view g' (ix1 a) = fi (chunkIdx n hn a))
    (hpre : ∀ j, (fi j).toNat < 100000) :
    ∀ x, BitVec.toNat (View.read (Elt F) (s2V).view g' x) < S100000x128.size gathers_S100000x128_S128x128.axis :=
  hin_of_value d (s2V).view g' fi n hn hval hpre

/-- Slot 2: the window after the copy-out. -/
theorem windowValue_2 (g' : Buf (Elt F) ((V d (cV L) (jV L)).loc cc0_scratch2)) (fr : Buf (Elt F) ((V d (cV L) (jV L)).loc cc0_scratch6))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : cc0_scratch2.ty.shape.numel = S128x128.size gathers_S100000x128_S128x128.axis')
    (hin : ∀ x, BitVec.toNat (View.read (Elt F) (s2V).view g' x) < S100000x128.size gathers_S100000x128_S128x128.axis)
    (hval : ∀ a : Fin 128, View.read (Elt F) (s2V).view g' (ix1 a) = fi (chunkIdx n hn a))
    (hpre : ∀ j, (fi j).toNat < 100000) :
    ∀ i ∈ ((oV).slice (Rect.unit (s := S204800x128) off' S128x128.size hinb') hs'').view.set,
      View.write (Elt F) ((oV).slice (Rect.unit (s := S204800x128) off' S128x128.size hinb') hs'').view fo
          (ReadAs.same.apply (View.read (Elt F) (r2V).view ((r2V).view.writes (Elt F) fr
            [⟨Rect.whole cc0_scratch6.ty.shape, SparseCore.gatherPayload gathers_S100000x128_S128x128
                (View.read (Elt F) ((xV).slice (Rect.unit ![0, 0] S100000x128.size inb_S100000x128_S100000x128_0_0) hs').view fx)
                (SparseCore.rows (View.read (Elt F) (s2V).view g') hnn hin)⟩]))) Finset.univ i
        = Spec.Gflat fi fx i :=
  windowValue d (s2V).view (r2V).view g' fr fi fx fo n hn off' hoff' hinb' hs'' hs' hnn hin hval hpre

/-- Slot 3: the list after the copy. -/
theorem listValue_3 (g : Buf (Elt F) ((V d (cV L) (jV L)).loc cc0_scratch3)) (fi : Buf (Elt F) (iLoc d))
    (n : ℕ) (hn : n + 128 ≤ 204800) (off : Fin 1 → ℕ) (hoff : off = ![n])
    (hinb : ∀ a, off a + S128.size a ≤ S204800.size a) (hs : ∀ a, (Rect.unit (s := S204800) off S128.size hinb).stride a = 1)
    (a : Fin 128) :
    View.read (Elt F) (s3V).view
        (View.write (Elt F) (s3V).view g
          (ReadAs.same.apply (View.read (Elt F) ((iV).slice (Rect.unit (s := S204800) off S128.size hinb) hs).view fi)) Finset.univ)
        (ix1 a)
      = fi (chunkIdx n hn a) :=
  listValue d (s3V).view g fi n hn off hoff hinb hs a

/-- Slot 3: what the row fill asks of the list. -/
theorem hin_of_value_3 (g' : Buf (Elt F) ((V d (cV L) (jV L)).loc cc0_scratch3)) (fi : Buf (Elt F) (iLoc d))
    (n : ℕ) (hn : n + 128 ≤ 204800)
    (hval : ∀ a : Fin 128, View.read (Elt F) (s3V).view g' (ix1 a) = fi (chunkIdx n hn a))
    (hpre : ∀ j, (fi j).toNat < 100000) :
    ∀ x, BitVec.toNat (View.read (Elt F) (s3V).view g' x) < S100000x128.size gathers_S100000x128_S128x128.axis :=
  hin_of_value d (s3V).view g' fi n hn hval hpre

/-- Slot 3: the window after the copy-out. -/
theorem windowValue_3 (g' : Buf (Elt F) ((V d (cV L) (jV L)).loc cc0_scratch3)) (fr : Buf (Elt F) ((V d (cV L) (jV L)).loc cc0_scratch7))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : cc0_scratch3.ty.shape.numel = S128x128.size gathers_S100000x128_S128x128.axis')
    (hin : ∀ x, BitVec.toNat (View.read (Elt F) (s3V).view g' x) < S100000x128.size gathers_S100000x128_S128x128.axis)
    (hval : ∀ a : Fin 128, View.read (Elt F) (s3V).view g' (ix1 a) = fi (chunkIdx n hn a))
    (hpre : ∀ j, (fi j).toNat < 100000) :
    ∀ i ∈ ((oV).slice (Rect.unit (s := S204800x128) off' S128x128.size hinb') hs'').view.set,
      View.write (Elt F) ((oV).slice (Rect.unit (s := S204800x128) off' S128x128.size hinb') hs'').view fo
          (ReadAs.same.apply (View.read (Elt F) (r3V).view ((r3V).view.writes (Elt F) fr
            [⟨Rect.whole cc0_scratch7.ty.shape, SparseCore.gatherPayload gathers_S100000x128_S128x128
                (View.read (Elt F) ((xV).slice (Rect.unit ![0, 0] S100000x128.size inb_S100000x128_S100000x128_0_0) hs').view fx)
                (SparseCore.rows (View.read (Elt F) (s3V).view g') hnn hin)⟩]))) Finset.univ i
        = Spec.Gflat fi fx i :=
  windowValue d (s3V).view (r3V).view g' fr fi fx fo n hn off' hoff' hinb' hs'' hs' hnn hin hval hpre

/-- Slot 0: the window after the copy-out, its contents stated as one whole-rectangle piece. -/
theorem windowValueW_0 (g' : Buf (Elt F) ((V d (cV L) (jV L)).loc cc0_scratch0)) (fr : Buf (Elt F) ((V d (cV L) (jV L)).loc cc0_scratch4))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : cc0_scratch0.ty.shape.numel = S128x128.size gathers_S100000x128_S128x128.axis')
    (hin : ∀ x, BitVec.toNat (View.read (Elt F) (s0V).view g' x) < S100000x128.size gathers_S100000x128_S128x128.axis)
    (hval : ∀ a : Fin 128, View.read (Elt F) (s0V).view g' (ix1 a) = fi (chunkIdx n hn a))
    (hpre : ∀ j, (fi j).toNat < 100000) :
    ∀ i ∈ ((oV).slice (Rect.unit (s := S204800x128) off' S128x128.size hinb') hs'').view.set,
      ((oV).slice (Rect.unit (s := S204800x128) off' S128x128.size hinb') hs'').view.writes (Elt F) fo
          [⟨Rect.whole S128x128, ReadAs.same.apply (View.read (Elt F) (r0V).view ((r0V).view.writes (Elt F) fr
            [⟨Rect.whole cc0_scratch4.ty.shape, SparseCore.gatherPayload gathers_S100000x128_S128x128
                (View.read (Elt F) ((xV).slice (Rect.unit ![0, 0] S100000x128.size inb_S100000x128_S100000x128_0_0) hs').view fx)
                (SparseCore.rows (View.read (Elt F) (s0V).view g') hnn hin)⟩]))⟩] i
        = Spec.Gflat fi fx i :=
  windowValueW d (s0V).view (r0V).view g' fr fi fx fo n hn off' hoff' hinb' hs'' hs' hnn hin hval hpre

/-- Slot 1: the window after the copy-out, its contents stated as one whole-rectangle piece. -/
theorem windowValueW_1 (g' : Buf (Elt F) ((V d (cV L) (jV L)).loc cc0_scratch1)) (fr : Buf (Elt F) ((V d (cV L) (jV L)).loc cc0_scratch5))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : cc0_scratch1.ty.shape.numel = S128x128.size gathers_S100000x128_S128x128.axis')
    (hin : ∀ x, BitVec.toNat (View.read (Elt F) (s1V).view g' x) < S100000x128.size gathers_S100000x128_S128x128.axis)
    (hval : ∀ a : Fin 128, View.read (Elt F) (s1V).view g' (ix1 a) = fi (chunkIdx n hn a))
    (hpre : ∀ j, (fi j).toNat < 100000) :
    ∀ i ∈ ((oV).slice (Rect.unit (s := S204800x128) off' S128x128.size hinb') hs'').view.set,
      ((oV).slice (Rect.unit (s := S204800x128) off' S128x128.size hinb') hs'').view.writes (Elt F) fo
          [⟨Rect.whole S128x128, ReadAs.same.apply (View.read (Elt F) (r1V).view ((r1V).view.writes (Elt F) fr
            [⟨Rect.whole cc0_scratch5.ty.shape, SparseCore.gatherPayload gathers_S100000x128_S128x128
                (View.read (Elt F) ((xV).slice (Rect.unit ![0, 0] S100000x128.size inb_S100000x128_S100000x128_0_0) hs').view fx)
                (SparseCore.rows (View.read (Elt F) (s1V).view g') hnn hin)⟩]))⟩] i
        = Spec.Gflat fi fx i :=
  windowValueW d (s1V).view (r1V).view g' fr fi fx fo n hn off' hoff' hinb' hs'' hs' hnn hin hval hpre

/-- Slot 2: the window after the copy-out, its contents stated as one whole-rectangle piece. -/
theorem windowValueW_2 (g' : Buf (Elt F) ((V d (cV L) (jV L)).loc cc0_scratch2)) (fr : Buf (Elt F) ((V d (cV L) (jV L)).loc cc0_scratch6))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : cc0_scratch2.ty.shape.numel = S128x128.size gathers_S100000x128_S128x128.axis')
    (hin : ∀ x, BitVec.toNat (View.read (Elt F) (s2V).view g' x) < S100000x128.size gathers_S100000x128_S128x128.axis)
    (hval : ∀ a : Fin 128, View.read (Elt F) (s2V).view g' (ix1 a) = fi (chunkIdx n hn a))
    (hpre : ∀ j, (fi j).toNat < 100000) :
    ∀ i ∈ ((oV).slice (Rect.unit (s := S204800x128) off' S128x128.size hinb') hs'').view.set,
      ((oV).slice (Rect.unit (s := S204800x128) off' S128x128.size hinb') hs'').view.writes (Elt F) fo
          [⟨Rect.whole S128x128, ReadAs.same.apply (View.read (Elt F) (r2V).view ((r2V).view.writes (Elt F) fr
            [⟨Rect.whole cc0_scratch6.ty.shape, SparseCore.gatherPayload gathers_S100000x128_S128x128
                (View.read (Elt F) ((xV).slice (Rect.unit ![0, 0] S100000x128.size inb_S100000x128_S100000x128_0_0) hs').view fx)
                (SparseCore.rows (View.read (Elt F) (s2V).view g') hnn hin)⟩]))⟩] i
        = Spec.Gflat fi fx i :=
  windowValueW d (s2V).view (r2V).view g' fr fi fx fo n hn off' hoff' hinb' hs'' hs' hnn hin hval hpre

/-- Slot 3: the window after the copy-out, its contents stated as one whole-rectangle piece. -/
theorem windowValueW_3 (g' : Buf (Elt F) ((V d (cV L) (jV L)).loc cc0_scratch3)) (fr : Buf (Elt F) ((V d (cV L) (jV L)).loc cc0_scratch7))
    (fi : Buf (Elt F) (iLoc d)) (fx : Buf (Elt F) (xLoc d)) (fo : Buf (Elt F) (oLoc d)) (n : ℕ) (hn : n + 128 ≤ 204800)
    (off' : Fin 2 → ℕ) (hoff' : off' = ![n, 0])
    (hinb' : ∀ a, off' a + S128x128.size a ≤ S204800x128.size a)
    (hs'' : ∀ a, (Rect.unit (s := S204800x128) off' S128x128.size hinb').stride a = 1)
    (hs' : ∀ a, (Rect.unit (s := S100000x128) ![0, 0] S100000x128.size inb_S100000x128_S100000x128_0_0).stride a = 1)
    (hnn : cc0_scratch3.ty.shape.numel = S128x128.size gathers_S100000x128_S128x128.axis')
    (hin : ∀ x, BitVec.toNat (View.read (Elt F) (s3V).view g' x) < S100000x128.size gathers_S100000x128_S128x128.axis)
    (hval : ∀ a : Fin 128, View.read (Elt F) (s3V).view g' (ix1 a) = fi (chunkIdx n hn a))
    (hpre : ∀ j, (fi j).toNat < 100000) :
    ∀ i ∈ ((oV).slice (Rect.unit (s := S204800x128) off' S128x128.size hinb') hs'').view.set,
      ((oV).slice (Rect.unit (s := S204800x128) off' S128x128.size hinb') hs'').view.writes (Elt F) fo
          [⟨Rect.whole S128x128, ReadAs.same.apply (View.read (Elt F) (r3V).view ((r3V).view.writes (Elt F) fr
            [⟨Rect.whole cc0_scratch7.ty.shape, SparseCore.gatherPayload gathers_S100000x128_S128x128
                (View.read (Elt F) ((xV).slice (Rect.unit ![0, 0] S100000x128.size inb_S100000x128_S100000x128_0_0) hs').view fx)
                (SparseCore.rows (View.read (Elt F) (s3V).view g') hnn hin)⟩]))⟩] i
        = Spec.Gflat fi fx i :=
  windowValueW d (s3V).view (r3V).view g' fr fi fx fo n hn off' hoff' hinb' hs'' hs' hnn hin hval hpre

end Slots

end Cert.Proof.KB

end
-- ==== Proof.KBBody.lean ====
/-
  The lookup kernel's body on one vector subcore, for any contents of the three arrays whose index words all name
  table rows.

  The worker owns 6400 consecutive words of the flattened index array and the same 6400 rows of the output array, in
  50 chunks of 128. It works through four slots; slot j has an index list (128 words), a row buffer (128 rows) and three
  copy semaphores of its own: one for the fetch of a chunk's words into the list, one for the gather of the table rows
  the list names into the row buffer, one for the write-out of the row buffer over the chunk's rows of the output array.
  No semaphore ever has two copies outstanding, and no buffer is read or written between the start of a copy that
  touches it and the wait for that copy: the list is refilled only after its gather has been awaited, the row buffer
  is refilled only after its write-out has been awaited.

  Before the loop the first four fetches are started. Trip t of the twelve handles chunks 4t .. 4t+3: per slot it
  awaits the previous trip's write-out (none in the first trip) and the fetch, starts the gather; then per slot awaits
  the gather, starts the write-out, and starts the fetch of chunk 4(t+1)+j while such a chunk exists (in the last trip
  only for slots 0 and 1: chunks 48 and 49). After the loop chunks 48 and 49 go the same way on slots 0 and 1, and the
  four write-outs still in flight are awaited.

  The loop's invariant, before trip k, says per slot which copy is in flight and what it will land: the fetch of chunk
  4k+j lands the chunk's words in the list; the write-out of trip k-1's chunk lands, on that chunk, the gathered rows
  (the table row named by each word). The chunks of earlier trips hold the gathered rows, those of later trips their
  launch contents. A landed list names rows in range because every index word does; the gathered rows are then the
  specification's function of the index array and the table, chunk by chunk, and the chunks cover the worker's rows.
-/
import proofs.«206846_g4063039062876_cont_8to1_b_342_28_alg».proof.Proof.KBSetup
import proofs.«206846_g4063039062876_cont_8to1_b_342_28_alg».proof.Proof.KBGeom
import proofs.«206846_g4063039062876_cont_8to1_b_342_28_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
local notation "iV" => (Memref.whole Cert.Kernel.main_v1_scv : Memref Cert.Kernel.sig Kind.scVector Space.hbm Cert.Kernel.S204800 EltTy.i32)
local notation "xV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S204800x128 EltTy.f32)
local notation "s0V" => (Memref.whole Cert.Kernel.cc0_scratch0 : Memref Cert.Kernel.sig Kind.scVector Space.vmem Cert.Kernel.S128 EltTy.i32)
local notation "s1V" => (Memref.whole Cert.Kernel.cc0_scratch1 : Memref Cert.Kernel.sig Kind.scVector Space.vmem Cert.Kernel.S128 EltTy.i32)
local notation "s2V" => (Memref.whole Cert.Kernel.cc0_scratch2 : Memref Cert.Kernel.sig Kind.scVector Space.vmem Cert.Kernel.S128 EltTy.i32)
local notation "s3V" => (Memref.whole Cert.Kernel.cc0_scratch3 : Memref Cert.Kernel.sig Kind.scVector Space.vmem Cert.Kernel.S128 EltTy.i32)
local notation "r0V" => (Memref.whole Cert.Kernel.cc0_scratch4 : Memref Cert.Kernel.sig Kind.scVector Space.vmem Cert.Kernel.S128x128 EltTy.f32)
local notation "r1V" => (Memref.whole Cert.Kernel.cc0_scratch5 : Memref Cert.Kernel.sig Kind.scVector Space.vmem Cert.Kernel.S128x128 EltTy.f32)
local notation "r2V" => (Memref.whole Cert.Kernel.cc0_scratch6 : Memref Cert.Kernel.sig Kind.scVector Space.vmem Cert.Kernel.S128x128 EltTy.f32)
local notation "r3V" => (Memref.whole Cert.Kernel.cc0_scratch7 : Memref Cert.Kernel.sig Kind.scVector Space.vmem Cert.Kernel.S128x128 EltTy.f32)

open Idealize.ShloMosaic.ValueIdx

/-! ## The trip's conditions and the chunks' offsets, decided once -/

/-- In the first trip no write-out is awaited; every trip but the last refills all four index lists, the last only the
    first two (chunks 48 and 49). -/
theorem conds_first : ∀ t : Fin k0_t1_loop.trips, t.val = 0 →
    (¬ k0_cond1 t = 1#1) ∧ (¬ k0_cond2 t = 1#1) ∧ (¬ k0_cond3 t = 1#1) ∧ (¬ k0_cond4 t = 1#1)
    ∧ k0_cond5 t = 1#1 ∧ k0_cond6 t = 1#1 ∧ k0_cond7 t = 1#1 ∧ k0_cond8 t = 1#1 := by decide
theorem conds_mid : ∀ t : Fin k0_t1_loop.trips, 0 < t.val → t.val < 11 →
    k0_cond1 t = 1#1 ∧ k0_cond2 t = 1#1 ∧ k0_cond3 t = 1#1 ∧ k0_cond4 t = 1#1
    ∧ k0_cond5 t = 1#1 ∧ k0_cond6 t = 1#1 ∧ k0_cond7 t = 1#1 ∧ k0_cond8 t = 1#1 := by decide
theorem conds_last : ∀ t : Fin k0_t1_loop.trips, t.val = 11 →
    k0_cond1 t = 1#1 ∧ k0_cond2 t = 1#1 ∧ k0_cond3 t = 1#1 ∧ k0_cond4 t = 1#1
    ∧ k0_cond5 t = 1#1 ∧ k0_cond6 t = 1#1 ∧ (¬ k0_cond7 t = 1#1) ∧ (¬ k0_cond8 t = 1#1) := by decide

/-- The offsets of the six index chunks fetched outside the loop (chunks 0..3 before it, 48 and 49 awaited after). -/
theorem k0_off1_eq : ∀ (L : grid0.Coords) (r : Fin 6), k0_off1 L (k0_off1_at r) = ![nb L + 128 * (if r.val < 4 then r.val else 44 + r.val)] := by
  unfold nb; decide +kernel

theorem chunk_le (L : grid0.Coords) (c : ℕ) (hc : c < 50) : nb L + 128 * c + 128 ≤ 204800 := by
  have := nb_le L; omega

/-! ## The chunks' offsets in terms of the worker's first row -/

theorem off8_eq (L : grid0.Coords) (k : Fin k0_t1_loop.trips) : k0_off8 L k = ![nb L + 128 * (4 * (k.val + 1) + 0)] :=
  (k0_off8_eq L k).trans (congrArg (fun n : ℕ => (![n] : Fin 1 → ℕ)) (by unfold nb; omega))
theorem off9_eq (L : grid0.Coords) (k : Fin k0_t1_loop.trips) : k0_off9 L k = ![nb L + 128 * (4 * (k.val + 1) + 1)] :=
  (k0_off9_eq L k).trans (congrArg (fun n : ℕ => (![n] : Fin 1 → ℕ)) (by unfold nb; omega))
theorem off10_eq (L : grid0.Coords) (k : Fin k0_t1_loop.trips) : k0_off10 L k = ![nb L + 128 * (4 * (k.val + 1) + 2)] :=
  (k0_off10_eq L k).trans (congrArg (fun n : ℕ => (![n] : Fin 1 → ℕ)) (by unfold nb; omega))
theorem off11_eq (L : grid0.Coords) (k : Fin k0_t1_loop.trips) : k0_off11 L k = ![nb L + 128 * (4 * (k.val + 1) + 3)] :=
  (k0_off11_eq L k).trans (congrArg (fun n : ℕ => (![n] : Fin 1 → ℕ)) (by unfold nb; omega))
theorem off7_eq0 (L : grid0.Coords) (k : Fin k0_t1_loop.trips) : k0_off7 L k 0#32 = ![nb L + 128 * (4 * k.val + 0), 0] :=
  (k0_off7_eq L k 0).trans (congrArg (fun n : ℕ => (![n, 0] : Fin 2 → ℕ)) (by unfold nb; simp only [Fin.isValue]; omega))
theorem off7_eq1 (L : grid0.Coords) (k : Fin k0_t1_loop.trips) : k0_off7 L k 1#32 = ![nb L + 128 * (4 * k.val + 1), 0] :=
  (k0_off7_eq L k 1).trans (congrArg (fun n : ℕ => (![n, 0] : Fin 2 → ℕ)) (by unfold nb; simp only [Fin.isValue]; omega))
theorem off7_eq2 (L : grid0.Coords) (k : Fin k0_t1_loop.trips) : k0_off7 L k 2#32 = ![nb L + 128 * (4 * k.val + 2), 0] :=
  (k0_off7_eq L k 2).trans (congrArg (fun n : ℕ => (![n, 0] : Fin 2 → ℕ)) (by unfold nb; simp only [Fin.isValue]; omega))
theorem off7_eq3 (L : grid0.Coords) (k : Fin k0_t1_loop.trips) : k0_off7 L k 3#32 = ![nb L + 128 * (4 * k.val + 3), 0] :=
  (k0_off7_eq L k 3).trans (congrArg (fun n : ℕ => (![n, 0] : Fin 2 → ℕ)) (by unfold nb; simp only [Fin.isValue]; omega))
theorem off12_eq0 (L : grid0.Coords) : k0_off12 L 6144#32 = ![nb L + 128 * 48, 0] :=
  (k0_off12_eq L 0).trans (congrArg (fun n : ℕ => (![n, 0] : Fin 2 → ℕ)) (by unfold nb; simp only [Fin.isValue]; omega))
theorem off12_eq1 (L : grid0.Coords) : k0_off12 L 6272#32 = ![nb L + 128 * 49, 0] :=
  (k0_off12_eq L 1).trans (congrArg (fun n : ℕ => (![n, 0] : Fin 2 → ℕ)) (by unfold nb; simp only [Fin.isValue]; omega))
theorem off1_eq0 : ∀ L : grid0.Coords, k0_off1 L 0#32 = ![nb L + 128 * 0] := by unfold nb; decide +kernel
theorem off1_eq1 : ∀ L : grid0.Coords, k0_off1 L 128#32 = ![nb L + 128 * 1] := by unfold nb; decide +kernel
theorem off1_eq2 : ∀ L : grid0.Coords, k0_off1 L 256#32 = ![nb L + 128 * 2] := by unfold nb; decide +kernel
theorem off1_eq3 : ∀ L : grid0.Coords, k0_off1 L 384#32 = ![nb L + 128 * 3] := by unfold nb; decide +kernel
theorem off1_eq48 : ∀ L : grid0.Coords, k0_off1 L 6144#32 = ![nb L + 128 * 48] := by unfold nb; decide +kernel
theorem off1_eq49 : ∀ L : grid0.Coords, k0_off1 L 6272#32 = ![nb L + 128 * 49] := by unfold nb; decide +kernel

/-- The chunks of trips `t` on: trip `t`'s and those of the trips after it. -/
theorem bigSep_from_fin (Φ : Fin k0_t1_loop.trips → sProp 𝕄) (t : Fin k0_t1_loop.trips) :
    bigSep (Finset.univ.filter fun s : Fin k0_t1_loop.trips => t.val ≤ s.val) Φ
      = iprop(Φ t ∗ bigSep (Finset.univ.filter fun s : Fin k0_t1_loop.trips => t.val + 1 ≤ s.val) Φ) :=
  bigSep_from_succ Φ t.val t.isLt
/-- The chunks of the trips before `t + 1`: trip `t`'s and those of the trips before it. -/
theorem bigSep_upto_fin (Φ : Fin k0_t1_loop.trips → sProp 𝕄) (t : Fin k0_t1_loop.trips) :
    bigSep (Finset.univ.filter fun s : Fin k0_t1_loop.trips => s.val < t.val + 1) Φ
      = iprop(Φ t ∗ bigSep (Finset.univ.filter fun s : Fin k0_t1_loop.trips => s.val < t.val) Φ) :=
  bigSep_upto_succ Φ t.val t.isLt

/-! ## The output chunks as the memrefs the program slices -/

section Windows

variable (d : Dev nD) (L : grid0.Coords)

abbrev oM0 (t : Fin k0_t1_loop.trips) : Memref sig .scVector .hbm S128x128 .f32 :=
  (oV).slice (Rect.unit (s := S204800x128) (k0_off7 L t 0#32) S128x128.size (Facts₀.k0_off7_inb L t 0)) (fun _ => rfl)
abbrev oM1 (t : Fin k0_t1_loop.trips) : Memref sig .scVector .hbm S128x128 .f32 :=
  (oV).slice (Rect.unit (s := S204800x128) (k0_off7 L t 1#32) S128x128.size (Facts₀.k0_off7_inb L t 1)) (fun _ => rfl)
abbrev oM2 (t : Fin k0_t1_loop.trips) : Memref sig .scVector .hbm S128x128 .f32 :=
  (oV).slice (Rect.unit (s := S204800x128) (k0_off7 L t 2#32) S128x128.size (Facts₀.k0_off7_inb L t 2)) (fun _ => rfl)
abbrev oM3 (t : Fin k0_t1_loop.trips) : Memref sig .scVector .hbm S128x128 .f32 :=
  (oV).slice (Rect.unit (s := S204800x128) (k0_off7 L t 3#32) S128x128.size (Facts₀.k0_off7_inb L t 3)) (fun _ => rfl)
abbrev oMT0 : Memref sig .scVector .hbm S128x128 .f32 :=
  (oV).slice (Rect.unit (s := S204800x128) (k0_off12 L 6144#32) S128x128.size (Facts₀.k0_off12_inb L 0)) (fun _ => rfl)
abbrev oMT1 : Memref sig .scVector .hbm S128x128 .f32 :=
  (oV).slice (Rect.unit (s := S204800x128) (k0_off12 L 6272#32) S128x128.size (Facts₀.k0_off12_inb L 1)) (fun _ => rfl)

theorem pts_oM0 (t : Fin k0_t1_loop.trips) (f : Buf (Elt F) (oLoc d)) :
    ((oM0 L t).view.loc (V d (cV L) (jV L)) ↦[(oM0 L t).view.set]{fullShare} f : sProp 𝕄) = oLoc d ↦[oW0 L t]{fullShare} f := rfl
theorem pts_oM1 (t : Fin k0_t1_loop.trips) (f : Buf (Elt F) (oLoc d)) :
    ((oM1 L t).view.loc (V d (cV L) (jV L)) ↦[(oM1 L t).view.set]{fullShare} f : sProp 𝕄) = oLoc d ↦[oW1 L t]{fullShare} f := rfl
theorem pts_oM2 (t : Fin k0_t1_loop.trips) (f : Buf (Elt F) (oLoc d)) :
    ((oM2 L t).view.loc (V d (cV L) (jV L)) ↦[(oM2 L t).view.set]{fullShare} f : sProp 𝕄) = oLoc d ↦[oW2 L t]{fullShare} f := rfl
theorem pts_oM3 (t : Fin k0_t1_loop.trips) (f : Buf (Elt F) (oLoc d)) :
    ((oM3 L t).view.loc (V d (cV L) (jV L)) ↦[(oM3 L t).view.set]{fullShare} f : sProp 𝕄) = oLoc d ↦[oW3 L t]{fullShare} f := rfl
theorem pts_oMT0 (f : Buf (Elt F) (oLoc d)) :
    ((oMT0 L).view.loc (V d (cV L) (jV L)) ↦[(oMT0 L).view.set]{fullShare} f : sProp 𝕄) = oLoc d ↦[oT0 L]{fullShare} f := rfl
theorem pts_oMT1 (f : Buf (Elt F) (oLoc d)) :
    ((oMT1 L).view.loc (V d (cV L) (jV L)) ↦[(oMT1 L).view.set]{fullShare} f : sProp 𝕄) = oLoc d ↦[oT1 L]{fullShare} f := rfl

end Windows

/-! ## The loop's invariant -/

section Inv

variable [FloatOps F]
variable (d : Dev nD) (L : grid0.Coords)
variable (O : CellTallies nD τ sig (HIx 1)) (W : Waits sig (HIx 1)) (w : Fin 32)
variable (fi : Buf (Elt F) (iLoc d)) (fx : Buf (Elt F) (xLoc d)) (fo : Buf (Elt F) (oLoc d))

/-- Slot 0's index list before trip `k`: while chunk `4 k + 0` exists its fetch is in flight, landing the chunk's words
    in the list; after the last chunk the list, its semaphore and the slot's read share are idle. -/
def idxSlot0 (k : ℕ) : sProp 𝕄 :=
  if h : 4 * k + 0 < 50 then
    iprop(∃ g : Buf (Elt F) ((V d (cV L) (jV L)).loc cc0_scratch0),
      ⌜∀ a : Fin 128, View.read (Elt F) (s0V).view g (ix1 a) = fi (chunkIdx (nb L + 128 * (4 * k + 0)) (chunk_le L _ h) a)⌝
      ∗ Transfers.Flight (countersEmb (U := UU)) (V d (cV L) (jV L)) (SemLoc.dma cc0_scratch8.sem) (default : HIx 1) 4096
          iprop(((s0V).view.loc (V d (cV L) (jV L)) ↦{fullShare} g)
            ∗ ((iV).view.loc (V d (cV L) (jV L)) ↦[iSetN (nb L + 128 * (4 * k + 0)) (chunk_le L _ h)]{Transfers.shareTokN (wq w) 0} fi))
      ∗ ((iV).view.loc (V d (cV L) (jV L)) ↦[Finset.univ \ iSetN (nb L + 128 * (4 * k + 0)) (chunk_le L _ h)]{Transfers.shareTokN (wq w) 0} fi))
  else
    iprop((∃ g : Buf (Elt F) ((V d (cV L) (jV L)).loc cc0_scratch0), (s0V).view.loc (V d (cV L) (jV L)) ↦{fullShare} g)
      ∗ semVal (cell0 d (cV L) (jV L)) 0 ∗ ((iV).view.loc (V d (cV L) (jV L)) ↦{Transfers.shareTokN (wq w) 0} fi))

/-- Slot 1's index list before trip `k`: while chunk `4 k + 1` exists its fetch is in flight, landing the chunk's words
    in the list; after the last chunk the list, its semaphore and the slot's read share are idle. -/
def idxSlot1 (k : ℕ) : sProp 𝕄 :=
  if h : 4 * k + 1 < 50 then
    iprop(∃ g : Buf (Elt F) ((V d (cV L) (jV L)).loc cc0_scratch1),
      ⌜∀ a : Fin 128, View.read (Elt F) (s1V).view g (ix1 a) = fi (chunkIdx (nb L + 128 * (4 * k + 1)) (chunk_le L _ h) a)⌝
      ∗ Transfers.Flight (countersEmb (U := UU)) (V d (cV L) (jV L)) (SemLoc.dma cc0_scratch9.sem) (default : HIx 1) 4096
          iprop(((s1V).view.loc (V d (cV L) (jV L)) ↦{fullShare} g)
            ∗ ((iV).view.loc (V d (cV L) (jV L)) ↦[iSetN (nb L + 128 * (4 * k + 1)) (chunk_le L _ h)]{Transfers.shareTokN (wq w) 1} fi))
      ∗ ((iV).view.loc (V d (cV L) (jV L)) ↦[Finset.univ \ iSetN (nb L + 128 * (4 * k + 1)) (chunk_le L _ h)]{Transfers.shareTokN (wq w) 1} fi))
  else
    iprop((∃ g : Buf (Elt F) ((V d (cV L) (jV L)).loc cc0_scratch1), (s1V).view.loc (V d (cV L) (jV L)) ↦{fullShare} g)
      ∗ semVal (cell1 d (cV L) (jV L)) 0 ∗ ((iV).view.loc (V d (cV L) (jV L)) ↦{Transfers.shareTokN (wq w) 1} fi))

/-- Slot 2's index list before trip `k`: while chunk `4 k + 2` exists its fetch is in flight, landing the chunk's words
    in the list; after the last chunk the list, its semaphore and the slot's read share are idle. -/
def idxSlot2 (k : ℕ) : sProp 𝕄 :=
  if h : 4 * k + 2 < 50 then
    iprop(∃ g : Buf (Elt F) ((V d (cV L) (jV L)).loc cc0_scratch2),
      ⌜∀ a : Fin 128, View.read (Elt F) (s2V).view g (ix1 a) = fi (chunkIdx (nb L + 128 * (4 * k + 2)) (chunk_le L _ h) a)⌝
      ∗ Transfers.Flight (countersEmb (U := UU)) (V d (cV L) (jV L)) (SemLoc.dma cc0_scratch10.sem) (default : HIx 1) 4096
          iprop(((s2V).view.loc (V d (cV L) (jV L)) ↦{fullShare} g)
            ∗ ((iV).view.loc (V d (cV L) (jV L)) ↦[iSetN (nb L + 128 * (4 * k + 2)) (chunk_le L _ h)]{Transfers.shareTokN (wq w) 2} fi))
      ∗ ((iV).view.loc (V d (cV L) (jV L)) ↦[Finset.univ \ iSetN (nb L + 128 * (4 * k + 2)) (chunk_le L _ h)]{Transfers.shareTokN (wq w) 2} fi))
  else
    iprop((∃ g : Buf (Elt F) ((V d (cV L) (jV L)).loc cc0_scratch2), (s2V).view.loc (V d (cV L) (jV L)) ↦{fullShare} g)
      ∗ semVal (cell2 d (cV L) (jV L)) 0 ∗ ((iV).view.loc (V d (cV L) (jV L)) ↦{Transfers.shareTokN (wq w) 2} fi))

/-- Slot 3's index list before trip `k`: while chunk `4 k + 3` exists its fetch is in flight, landing the chunk's words
    in the list; after the last chunk the list, its semaphore and the slot's read share are idle. -/
def idxSlot3 (k : ℕ) : sProp 𝕄 :=
  if h : 4 * k + 3 < 50 then
    iprop(∃ g : Buf (Elt F) ((V d (cV L) (jV L)).loc cc0_scratch3),
      ⌜∀ a : Fin 128, View.read (Elt F) (s3V).view g (ix1 a) = fi (chunkIdx (nb L + 128 * (4 * k + 3)) (chunk_le L _ h) a)⌝
      ∗ Transfers.Flight (countersEmb (U := UU)) (V d (cV L) (jV L)) (SemLoc.dma cc0_scratch11.sem) (default : HIx 1) 4096
          iprop(((s3V).view.loc (V d (cV L) (jV L)) ↦{fullShare} g)
            ∗ ((iV).view.loc (V d (cV L) (jV L)) ↦[iSetN (nb L + 128 * (4 * k + 3)) (chunk_le L _ h)]{Transfers.shareTokN (wq w) 3} fi))
      ∗ ((iV).view.loc (V d (cV L) (jV L)) ↦[Finset.univ \ iSetN (nb L + 128 * (4 * k + 3)) (chunk_le L _ h)]{Transfers.shareTokN (wq w) 3} fi))
  else
    iprop((∃ g : Buf (Elt F) ((V d (cV L) (jV L)).loc cc0_scratch3), (s3V).view.loc (V d (cV L) (jV L)) ↦{fullShare} g)
      ∗ semVal (cell3 d (cV L) (jV L)) 0 ∗ ((iV).view.loc (V d (cV L) (jV L)) ↦{Transfers.shareTokN (wq w) 3} fi))

/-- Slot 0's row buffer before trip `k`: idle before the first trip; afterwards its write-out of the previous trip's
    chunk is in flight, landing the gathered rows in that chunk of the output array. -/
def rowSlot0 (k : ℕ) : sProp 𝕄 :=
  if h : 0 < k ∧ k ≤ 12 then
    iprop(∃ fr : Buf (Elt F) ((V d (cV L) (jV L)).loc cc0_scratch4),
      Transfers.Flight (countersEmb (U := UU)) (V d (cV L) (jV L)) (SemLoc.dma cc0_scratch16.sem) (default : HIx 1) 524288
          iprop(((oV).view.loc (V d (cV L) (jV L)) ↦[oW0 L ⟨k - 1, by rw [trips_eq]; omega⟩]{fullShare} (Spec.Gflat fi fx : Buf (Elt F) (oLoc d)))
            ∗ ((r0V).view.loc (V d (cV L) (jV L)) ↦[(r0V).view.set]{fullShare} fr))
      ∗ ((r0V).view.loc (V d (cV L) (jV L)) ↦[Finset.univ \ (r0V).view.set]{fullShare} fr))
  else
    iprop((∃ fr : Buf (Elt F) ((V d (cV L) (jV L)).loc cc0_scratch4), (r0V).view.loc (V d (cV L) (jV L)) ↦{fullShare} fr)
      ∗ semVal (cell8 d (cV L) (jV L)) 0)

/-- Slot 1's row buffer before trip `k`: idle before the first trip; afterwards its write-out of the previous trip's
    chunk is in flight, landing the gathered rows in that chunk of the output array. -/
def rowSlot1 (k : ℕ) : sProp 𝕄 :=
  if h : 0 < k ∧ k ≤ 12 then
    iprop(∃ fr : Buf (Elt F) ((V d (cV L) (jV L)).loc cc0_scratch5),
      Transfers.Flight (countersEmb (U := UU)) (V d (cV L) (jV L)) (SemLoc.dma cc0_scratch17.sem) (default : HIx 1) 524288
          iprop(((oV).view.loc (V d (cV L) (jV L)) ↦[oW1 L ⟨k - 1, by rw [trips_eq]; omega⟩]{fullShare} (Spec.Gflat fi fx : Buf (Elt F) (oLoc d)))
            ∗ ((r1V).view.loc (V d (cV L) (jV L)) ↦[(r1V).view.set]{fullShare} fr))
      ∗ ((r1V).view.loc (V d (cV L) (jV L)) ↦[Finset.univ \ (r1V).view.set]{fullShare} fr))
  else
    iprop((∃ fr : Buf (Elt F) ((V d (cV L) (jV L)).loc cc0_scratch5), (r1V).view.loc (V d (cV L) (jV L)) ↦{fullShare} fr)
      ∗ semVal (cell9 d (cV L) (jV L)) 0)

/-- Slot 2's row buffer before trip `k`: idle before the first trip; afterwards its write-out of the previous trip's
    chunk is in flight, landing the gathered rows in that chunk of the output array. -/
def rowSlot2 (k : ℕ) : sProp 𝕄 :=
  if h : 0 < k ∧ k ≤ 12 then
    iprop(∃ fr : Buf (Elt F) ((V d (cV L) (jV L)).loc cc0_scratch6),
      Transfers.Flight (countersEmb (U := UU)) (V d (cV L) (jV L)) (SemLoc.dma cc0_scratch18.sem) (default : HIx 1) 524288
          iprop(((oV).view.loc (V d (cV L) (jV L)) ↦[oW2 L ⟨k - 1, by rw [trips_eq]; omega⟩]{fullShare} (Spec.Gflat fi fx : Buf (Elt F) (oLoc d)))
            ∗ ((r2V).view.loc (V d (cV L) (jV L)) ↦[(r2V).view.set]{fullShare} fr))
      ∗ ((r2V).view.loc (V d (cV L) (jV L)) ↦[Finset.univ \ (r2V).view.set]{fullShare} fr))
  else
    iprop((∃ fr : Buf (Elt F) ((V d (cV L) (jV L)).loc cc0_scratch6), (r2V).view.loc (V d (cV L) (jV L)) ↦{fullShare} fr)
      ∗ semVal (cell10 d (cV L) (jV L)) 0)

/-- Slot 3's row buffer before trip `k`: idle before the first trip; afterwards its write-out of the previous trip's
    chunk is in flight, landing the gathered rows in that chunk of the output array. -/
def rowSlot3 (k : ℕ) : sProp 𝕄 :=
  if h : 0 < k ∧ k ≤ 12 then
    iprop(∃ fr : Buf (Elt F) ((V d (cV L) (jV L)).loc cc0_scratch7),
      Transfers.Flight (countersEmb (U := UU)) (V d (cV L) (jV L)) (SemLoc.dma cc0_scratch19.sem) (default : HIx 1) 524288
          iprop(((oV).view.loc (V d (cV L) (jV L)) ↦[oW3 L ⟨k - 1, by rw [trips_eq]; omega⟩]{fullShare} (Spec.Gflat fi fx : Buf (Elt F) (oLoc d)))
            ∗ ((r3V).view.loc (V d (cV L) (jV L)) ↦[(r3V).view.set]{fullShare} fr))
      ∗ ((r3V).view.loc (V d (cV L) (jV L)) ↦[Finset.univ \ (r3V).view.set]{fullShare} fr))
  else
    iprop((∃ fr : Buf (Elt F) ((V d (cV L) (jV L)).loc cc0_scratch7), (r3V).view.loc (V d (cV L) (jV L)) ↦{fullShare} fr)
      ∗ semVal (cell11 d (cV L) (jV L)) 0)

/-- Slot 0's gather is never in flight between trips: its read share of the table and its semaphore are idle. -/
abbrev gatherSlot0 : sProp 𝕄 :=
  iprop(((xV).view.loc (V d (cV L) (jV L)) ↦{Transfers.shareTokN (wq w) 4} fx) ∗ semVal (cell4 d (cV L) (jV L)) 0)

/-- Slot 1's gather is never in flight between trips: its read share of the table and its semaphore are idle. -/
abbrev gatherSlot1 : sProp 𝕄 :=
  iprop(((xV).view.loc (V d (cV L) (jV L)) ↦{Transfers.shareTokN (wq w) 5} fx) ∗ semVal (cell5 d (cV L) (jV L)) 0)

/-- Slot 2's gather is never in flight between trips: its read share of the table and its semaphore are idle. -/
abbrev gatherSlot2 : sProp 𝕄 :=
  iprop(((xV).view.loc (V d (cV L) (jV L)) ↦{Transfers.shareTokN (wq w) 6} fx) ∗ semVal (cell6 d (cV L) (jV L)) 0)

/-- Slot 3's gather is never in flight between trips: its read share of the table and its semaphore are idle. -/
abbrev gatherSlot3 : sProp 𝕄 :=
  iprop(((xV).view.loc (V d (cV L) (jV L)) ↦{Transfers.shareTokN (wq w) 7} fx) ∗ semVal (cell7 d (cV L) (jV L)) 0)

/-- The worker's rows of the output array before trip `k`: the chunks of trips `k` on at their launch contents, the chunks of
    the trips before `k - 1` at the gathered rows (trip `k - 1`'s are in flight), the two last chunks at their launch contents. -/
def outPart (k : ℕ) : sProp 𝕄 :=
  iprop((bigSep (Finset.univ.filter fun t : Fin k0_t1_loop.trips => k ≤ t.val) fun t => tripOut d L t fo)
    ∗ (bigSep (Finset.univ.filter fun t : Fin k0_t1_loop.trips => t.val < k - 1) fun t => tripOut d L t (Spec.Gflat fi fx : Buf (Elt F) (oLoc d)))
    ∗ (oLoc d ↦[oT0 L]{fullShare} fo) ∗ (oLoc d ↦[oT1 L]{fullShare} fo))

/-- Before trip `k`. -/
def inv (k : ℕ) (_ : PUnit) : sProp 𝕄 :=
  iprop(Transfers.MayWaits (V d (cV L) (jV L)) (default : HIx 1) O
    ∗ idxSlot0 d L w fi k ∗ idxSlot1 d L w fi k ∗ idxSlot2 d L w fi k ∗ idxSlot3 d L w fi k
    ∗ rowSlot0 d L fi fx k ∗ rowSlot1 d L fi fx k ∗ rowSlot2 d L fi fx k ∗ rowSlot3 d L fi fx k
    ∗ gatherSlot0 d L w fx ∗ gatherSlot1 d L w fx ∗ gatherSlot2 d L w fx ∗ gatherSlot3 d L w fx
    ∗ outPart d L fi fx fo k
    ∗ ∃ W', ⌜∀ p ∈ W', p ∈ W ∨ p.2 = none⌝ ∗ owes (V d (cV L) (jV L)) O W')

end Inv

section Intro

variable [FloatOps F]
variable (d : Dev nD) (L : grid0.Coords) (w : Fin 32)
variable (fi : Buf (Elt F) (iLoc d)) (fx : Buf (Elt F) (xLoc d))

/-- Slot 0's fetch of chunk `4 k + 0`, as the program slices it, is the slot's part of the invariant. -/
theorem idxSlot0_intro (k : ℕ) (h : 4 * k + 0 < 50) (g : Buf (Elt F) ((V d (cV L) (jV L)).loc cc0_scratch0))
    (off : Fin 1 → ℕ) (hoff : off = ![nb L + 128 * (4 * k + 0)]) (hinb : ∀ a, off a + S128.size a ≤ S204800.size a)
    (hv : ∀ a : Fin 128, View.read (Elt F) (s0V).view g (ix1 a) = fi (chunkIdx (nb L + 128 * (4 * k + 0)) (chunk_le L _ h) a)) :
    iprop(Transfers.Flight (countersEmb (U := UU)) (V d (cV L) (jV L)) (SemLoc.dma cc0_scratch8.sem) (default : HIx 1) 4096
          iprop(((s0V).view.loc (V d (cV L) (jV L)) ↦{fullShare} g)
            ∗ ((iV).view.loc (V d (cV L) (jV L)) ↦[((iV).slice (Rect.unit (s := S204800) off S128.size hinb) (fun _ => rfl)).view.set]{Transfers.shareTokN (wq w) 0} fi))
        ∗ ((iV).view.loc (V d (cV L) (jV L)) ↦[Finset.univ \ ((iV).slice (Rect.unit (s := S204800) off S128.size hinb) (fun _ => rfl)).view.set]{Transfers.shareTokN (wq w) 0} fi) : sProp 𝕄)
      ⊢ idxSlot0 d L w fi k := by
  subst hoff
  unfold idxSlot0; rw [dif_pos h]
  iintro ⟨Hf, Hr⟩
  iexists g; isplitr
  · ipureintro; exact hv
  isplitl [Hf]; · iexact Hf
  iexact Hr

/-- Slot 1's fetch of chunk `4 k + 1`, as the program slices it, is the slot's part of the invariant. -/
theorem idxSlot1_intro (k : ℕ) (h : 4 * k + 1 < 50) (g : Buf (Elt F) ((V d (cV L) (jV L)).loc cc0_scratch1))
    (off : Fin 1 → ℕ) (hoff : off = ![nb L + 128 * (4 * k + 1)]) (hinb : ∀ a, off a + S128.size a ≤ S204800.size a)
    (hv : ∀ a : Fin 128, View.read (Elt F) (s1V).view g (ix1 a) = fi (chunkIdx (nb L + 128 * (4 * k + 1)) (chunk_le L _ h) a)) :
    iprop(Transfers.Flight (countersEmb (U := UU)) (V d (cV L) (jV L)) (SemLoc.dma cc0_scratch9.sem) (default : HIx 1) 4096
          iprop(((s1V).view.loc (V d (cV L) (jV L)) ↦{fullShare} g)
            ∗ ((iV).view.loc (V d (cV L) (jV L)) ↦[((iV).slice (Rect.unit (s := S204800) off S128.size hinb) (fun _ => rfl)).view.set]{Transfers.shareTokN (wq w) 1} fi))
        ∗ ((iV).view.loc (V d (cV L) (jV L)) ↦[Finset.univ \ ((iV).slice (Rect.unit (s := S204800) off S128.size hinb) (fun _ => rfl)).view.set]{Transfers.shareTokN (wq w) 1} fi) : sProp 𝕄)
      ⊢ idxSlot1 d L w fi k := by
  subst hoff
  unfold idxSlot1; rw [dif_pos h]
  iintro ⟨Hf, Hr⟩
  iexists g; isplitr
  · ipureintro; exact hv
  isplitl [Hf]; · iexact Hf
  iexact Hr

/-- Slot 2's fetch of chunk `4 k + 2`, as the program slices it, is the slot's part of the invariant. -/
theorem idxSlot2_intro (k : ℕ) (h : 4 * k + 2 < 50) (g : Buf (Elt F) ((V d (cV L) (jV L)).loc cc0_scratch2))
    (off : Fin 1 → ℕ) (hoff : off = ![nb L + 128 * (4 * k + 2)]) (hinb : ∀ a, off a + S128.size a ≤ S204800.size a)
    (hv : ∀ a : Fin 128, View.read (Elt F) (s2V).view g (ix1 a) = fi (chunkIdx (nb L + 128 * (4 * k + 2)) (chunk_le L _ h) a)) :
    iprop(Transfers.Flight (countersEmb (U := UU)) (V d (cV L) (jV L)) (SemLoc.dma cc0_scratch10.sem) (default : HIx 1) 4096
          iprop(((s2V).view.loc (V d (cV L) (jV L)) ↦{fullShare} g)
            ∗ ((iV).view.loc (V d (cV L) (jV L)) ↦[((iV).slice (Rect.unit (s := S204800) off S128.size hinb) (fun _ => rfl)).view.set]{Transfers.shareTokN (wq w) 2} fi))
        ∗ ((iV).view.loc (V d (cV L) (jV L)) ↦[Finset.univ \ ((iV).slice (Rect.unit (s := S204800) off S128.size hinb) (fun _ => rfl)).view.set]{Transfers.shareTokN (wq w) 2} fi) : sProp 𝕄)
      ⊢ idxSlot2 d L w fi k := by
  subst hoff
  unfold idxSlot2; rw [dif_pos h]
  iintro ⟨Hf, Hr⟩
  iexists g; isplitr
  · ipureintro; exact hv
  isplitl [Hf]; · iexact Hf
  iexact Hr

/-- Slot 3's fetch of chunk `4 k + 3`, as the program slices it, is the slot's part of the invariant. -/
theorem idxSlot3_intro (k : ℕ) (h : 4 * k + 3 < 50) (g : Buf (Elt F) ((V d (cV L) (jV L)).loc cc0_scratch3))
    (off : Fin 1 → ℕ) (hoff : off = ![nb L + 128 * (4 * k + 3)]) (hinb : ∀ a, off a + S128.size a ≤ S204800.size a)
    (hv : ∀ a : Fin 128, View.read (Elt F) (s3V).view g (ix1 a) = fi (chunkIdx (nb L + 128 * (4 * k + 3)) (chunk_le L _ h) a)) :
    iprop(Transfers.Flight (countersEmb (U := UU)) (V d (cV L) (jV L)) (SemLoc.dma cc0_scratch11.sem) (default : HIx 1) 4096
          iprop(((s3V).view.loc (V d (cV L) (jV L)) ↦{fullShare} g)
            ∗ ((iV).view.loc (V d (cV L) (jV L)) ↦[((iV).slice (Rect.unit (s := S204800) off S128.size hinb) (fun _ => rfl)).view.set]{Transfers.shareTokN (wq w) 3} fi))
        ∗ ((iV).view.loc (V d (cV L) (jV L)) ↦[Finset.univ \ ((iV).slice (Rect.unit (s := S204800) off S128.size hinb) (fun _ => rfl)).view.set]{Transfers.shareTokN (wq w) 3} fi) : sProp 𝕄)
      ⊢ idxSlot3 d L w fi k := by
  subst hoff
  unfold idxSlot3; rw [dif_pos h]
  iintro ⟨Hf, Hr⟩
  iexists g; isplitr
  · ipureintro; exact hv
  isplitl [Hf]; · iexact Hf
  iexact Hr

/-- Slot 0's write-out of trip `t`'s chunk, as the run leaves it (the row buffer filled by the gather off a list that holds
    the chunk's index words, copied out over the chunk), is the slot's part of the invariant before trip `t + 1`: on the
    chunk the landed contents are the gathered rows. -/
theorem rowSlot0_intro (k : ℕ) (t : Fin k0_t1_loop.trips) (hk : k = t.val + 1)
    (g' : Buf (Elt F) ((V d (cV L) (jV L)).loc cc0_scratch0)) (fr : Buf (Elt F) ((V d (cV L) (jV L)).loc cc0_scratch4)) (fo : Buf (Elt F) (oLoc d))
    (n : ℕ) (hn : n + 128 ≤ 204800) (hoff : k0_off7 L t 0#32 = ![n, 0])
    (hin : ∀ x, BitVec.toNat (View.read (Elt F) (s0V).view g' x) < S100000x128.size gathers_S100000x128_S128x128.axis)
    (hv : ∀ a : Fin 128, View.read (Elt F) (s0V).view g' (ix1 a) = fi (chunkIdx n hn a)) (hpre : ∀ j, (fi j).toNat < 100000) :
    iprop(Transfers.Flight (countersEmb (U := UU)) (V d (cV L) (jV L)) (SemLoc.dma cc0_scratch16.sem) (default : HIx 1) 524288
          iprop(((oM0 L t).view.loc (V d (cV L) (jV L)) ↦[(oM0 L t).view.set]{fullShare} (oM0 L t).view.writes (Elt F) fo [⟨Rect.whole S128x128, ReadAs.same.apply (View.read (Elt F) (r0V).view ((r0V).view.writes (Elt F) fr [⟨Rect.whole cc0_scratch4.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s0V).view g') rfl hin)⟩]))⟩])
            ∗ ((r0V).view.loc (V d (cV L) (jV L)) ↦[(r0V).view.set]{fullShare} (r0V).view.writes (Elt F) fr [⟨Rect.whole cc0_scratch4.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s0V).view g') rfl hin)⟩]))
        ∗ ((r0V).view.loc (V d (cV L) (jV L)) ↦[Finset.univ \ (r0V).view.set]{fullShare} (r0V).view.writes (Elt F) fr [⟨Rect.whole cc0_scratch4.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s0V).view g') rfl hin)⟩]) : sProp 𝕄)
      ⊢ rowSlot0 d L fi fx k := by
  subst hk
  have ht : t.val < 12 := trips_eq ▸ t.isLt
  unfold rowSlot0; rw [dif_pos (show 0 < t.val + 1 ∧ t.val + 1 ≤ 12 from ⟨Nat.succ_pos _, by omega⟩)]
  iintro ⟨Hf, Hr⟩
  iexists _
  isplitl [Hf]
  · iapply (Transfers.Flight_mono (countersEmb (U := UU)) (V d (cV L) (jV L)) (Entails.of_eq (by
      rw [pointsTo_congr (windowValueW_0 (F := F) d L g' fr fi fx fo n hn (k0_off7 L t 0#32) hoff _ _ _ _ hin hv hpre)]; rfl))) $$ Hf
  · iexact Hr

/-- Slot 1's write-out of trip `t`'s chunk, as the run leaves it (the row buffer filled by the gather off a list that holds
    the chunk's index words, copied out over the chunk), is the slot's part of the invariant before trip `t + 1`: on the
    chunk the landed contents are the gathered rows. -/
theorem rowSlot1_intro (k : ℕ) (t : Fin k0_t1_loop.trips) (hk : k = t.val + 1)
    (g' : Buf (Elt F) ((V d (cV L) (jV L)).loc cc0_scratch1)) (fr : Buf (Elt F) ((V d (cV L) (jV L)).loc cc0_scratch5)) (fo : Buf (Elt F) (oLoc d))
    (n : ℕ) (hn : n + 128 ≤ 204800) (hoff : k0_off7 L t 1#32 = ![n, 0])
    (hin : ∀ x, BitVec.toNat (View.read (Elt F) (s1V).view g' x) < S100000x128.size gathers_S100000x128_S128x128.axis)
    (hv : ∀ a : Fin 128, View.read (Elt F) (s1V).view g' (ix1 a) = fi (chunkIdx n hn a)) (hpre : ∀ j, (fi j).toNat < 100000) :
    iprop(Transfers.Flight (countersEmb (U := UU)) (V d (cV L) (jV L)) (SemLoc.dma cc0_scratch17.sem) (default : HIx 1) 524288
          iprop(((oM1 L t).view.loc (V d (cV L) (jV L)) ↦[(oM1 L t).view.set]{fullShare} (oM1 L t).view.writes (Elt F) fo [⟨Rect.whole S128x128, ReadAs.same.apply (View.read (Elt F) (r1V).view ((r1V).view.writes (Elt F) fr [⟨Rect.whole cc0_scratch5.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s1V).view g') rfl hin)⟩]))⟩])
            ∗ ((r1V).view.loc (V d (cV L) (jV L)) ↦[(r1V).view.set]{fullShare} (r1V).view.writes (Elt F) fr [⟨Rect.whole cc0_scratch5.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s1V).view g') rfl hin)⟩]))
        ∗ ((r1V).view.loc (V d (cV L) (jV L)) ↦[Finset.univ \ (r1V).view.set]{fullShare} (r1V).view.writes (Elt F) fr [⟨Rect.whole cc0_scratch5.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s1V).view g') rfl hin)⟩]) : sProp 𝕄)
      ⊢ rowSlot1 d L fi fx k := by
  subst hk
  have ht : t.val < 12 := trips_eq ▸ t.isLt
  unfold rowSlot1; rw [dif_pos (show 0 < t.val + 1 ∧ t.val + 1 ≤ 12 from ⟨Nat.succ_pos _, by omega⟩)]
  iintro ⟨Hf, Hr⟩
  iexists _
  isplitl [Hf]
  · iapply (Transfers.Flight_mono (countersEmb (U := UU)) (V d (cV L) (jV L)) (Entails.of_eq (by
      rw [pointsTo_congr (windowValueW_1 (F := F) d L g' fr fi fx fo n hn (k0_off7 L t 1#32) hoff _ _ _ _ hin hv hpre)]; rfl))) $$ Hf
  · iexact Hr

/-- Slot 2's write-out of trip `t`'s chunk, as the run leaves it (the row buffer filled by the gather off a list that holds
    the chunk's index words, copied out over the chunk), is the slot's part of the invariant before trip `t + 1`: on the
    chunk the landed contents are the gathered rows. -/
theorem rowSlot2_intro (k : ℕ) (t : Fin k0_t1_loop.trips) (hk : k = t.val + 1)
    (g' : Buf (Elt F) ((V d (cV L) (jV L)).loc cc0_scratch2)) (fr : Buf (Elt F) ((V d (cV L) (jV L)).loc cc0_scratch6)) (fo : Buf (Elt F) (oLoc d))
    (n : ℕ) (hn : n + 128 ≤ 204800) (hoff : k0_off7 L t 2#32 = ![n, 0])
    (hin : ∀ x, BitVec.toNat (View.read (Elt F) (s2V).view g' x) < S100000x128.size gathers_S100000x128_S128x128.axis)
    (hv : ∀ a : Fin 128, View.read (Elt F) (s2V).view g' (ix1 a) = fi (chunkIdx n hn a)) (hpre : ∀ j, (fi j).toNat < 100000) :
    iprop(Transfers.Flight (countersEmb (U := UU)) (V d (cV L) (jV L)) (SemLoc.dma cc0_scratch18.sem) (default : HIx 1) 524288
          iprop(((oM2 L t).view.loc (V d (cV L) (jV L)) ↦[(oM2 L t).view.set]{fullShare} (oM2 L t).view.writes (Elt F) fo [⟨Rect.whole S128x128, ReadAs.same.apply (View.read (Elt F) (r2V).view ((r2V).view.writes (Elt F) fr [⟨Rect.whole cc0_scratch6.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s2V).view g') rfl hin)⟩]))⟩])
            ∗ ((r2V).view.loc (V d (cV L) (jV L)) ↦[(r2V).view.set]{fullShare} (r2V).view.writes (Elt F) fr [⟨Rect.whole cc0_scratch6.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s2V).view g') rfl hin)⟩]))
        ∗ ((r2V).view.loc (V d (cV L) (jV L)) ↦[Finset.univ \ (r2V).view.set]{fullShare} (r2V).view.writes (Elt F) fr [⟨Rect.whole cc0_scratch6.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s2V).view g') rfl hin)⟩]) : sProp 𝕄)
      ⊢ rowSlot2 d L fi fx k := by
  subst hk
  have ht : t.val < 12 := trips_eq ▸ t.isLt
  unfold rowSlot2; rw [dif_pos (show 0 < t.val + 1 ∧ t.val + 1 ≤ 12 from ⟨Nat.succ_pos _, by omega⟩)]
  iintro ⟨Hf, Hr⟩
  iexists _
  isplitl [Hf]
  · iapply (Transfers.Flight_mono (countersEmb (U := UU)) (V d (cV L) (jV L)) (Entails.of_eq (by
      rw [pointsTo_congr (windowValueW_2 (F := F) d L g' fr fi fx fo n hn (k0_off7 L t 2#32) hoff _ _ _ _ hin hv hpre)]; rfl))) $$ Hf
  · iexact Hr

/-- Slot 3's write-out of trip `t`'s chunk, as the run leaves it (the row buffer filled by the gather off a list that holds
    the chunk's index words, copied out over the chunk), is the slot's part of the invariant before trip `t + 1`: on the
    chunk the landed contents are the gathered rows. -/
theorem rowSlot3_intro (k : ℕ) (t : Fin k0_t1_loop.trips) (hk : k = t.val + 1)
    (g' : Buf (Elt F) ((V d (cV L) (jV L)).loc cc0_scratch3)) (fr : Buf (Elt F) ((V d (cV L) (jV L)).loc cc0_scratch7)) (fo : Buf (Elt F) (oLoc d))
    (n : ℕ) (hn : n + 128 ≤ 204800) (hoff : k0_off7 L t 3#32 = ![n, 0])
    (hin : ∀ x, BitVec.toNat (View.read (Elt F) (s3V).view g' x) < S100000x128.size gathers_S100000x128_S128x128.axis)
    (hv : ∀ a : Fin 128, View.read (Elt F) (s3V).view g' (ix1 a) = fi (chunkIdx n hn a)) (hpre : ∀ j, (fi j).toNat < 100000) :
    iprop(Transfers.Flight (countersEmb (U := UU)) (V d (cV L) (jV L)) (SemLoc.dma cc0_scratch19.sem) (default : HIx 1) 524288
          iprop(((oM3 L t).view.loc (V d (cV L) (jV L)) ↦[(oM3 L t).view.set]{fullShare} (oM3 L t).view.writes (Elt F) fo [⟨Rect.whole S128x128, ReadAs.same.apply (View.read (Elt F) (r3V).view ((r3V).view.writes (Elt F) fr [⟨Rect.whole cc0_scratch7.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s3V).view g') rfl hin)⟩]))⟩])
            ∗ ((r3V).view.loc (V d (cV L) (jV L)) ↦[(r3V).view.set]{fullShare} (r3V).view.writes (Elt F) fr [⟨Rect.whole cc0_scratch7.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s3V).view g') rfl hin)⟩]))
        ∗ ((r3V).view.loc (V d (cV L) (jV L)) ↦[Finset.univ \ (r3V).view.set]{fullShare} (r3V).view.writes (Elt F) fr [⟨Rect.whole cc0_scratch7.ty.shape, SparseCore.gatherPayload gathers_S100000x128_S128x128
              (View.read (Elt F) ((xV).slice (Rect.unit ![0, 0] S100000x128.size inb_S100000x128_S100000x128_0_0) (fun _ => rfl)).view fx)
              (SparseCore.rows (View.read (Elt F) (s3V).view g') rfl hin)⟩]) : sProp 𝕄)
      ⊢ rowSlot3 d L fi fx k := by
  subst hk
  have ht : t.val < 12 := trips_eq ▸ t.isLt
  unfold rowSlot3; rw [dif_pos (show 0 < t.val + 1 ∧ t.val + 1 ≤ 12 from ⟨Nat.succ_pos _, by omega⟩)]
  iintro ⟨Hf, Hr⟩
  iexists _
  isplitl [Hf]
  · iapply (Transfers.Flight_mono (countersEmb (U := UU)) (V d (cV L) (jV L)) (Entails.of_eq (by
      rw [pointsTo_congr (windowValueW_3 (F := F) d L g' fr fi fx fo n hn (k0_off7 L t 3#32) hoff _ _ _ _ hin hv hpre)]; rfl))) $$ Hf
  · iexact Hr

end Intro

section Trip

variable [FloatOps F]
variable (d : Dev nD) (L : grid0.Coords)
variable (O : CellTallies nD τ sig (HIx 1)) (W : Waits sig (HIx 1)) (w : Fin 32)
variable (fi : Buf (Elt F) (iLoc d)) (fx : Buf (Elt F) (xLoc d)) (fo : Buf (Elt F) (oLoc d))

theorem tripOut_eq (t : Fin k0_t1_loop.trips) (f : Buf (Elt F) (oLoc d)) :
    tripOut d L t f = iprop((oLoc d ↦[oW0 L t]{fullShare} f) ∗ (oLoc d ↦[oW1 L t]{fullShare} f) ∗ (oLoc d ↦[oW2 L t]{fullShare} f) ∗ (oLoc d ↦[oW3 L t]{fullShare} f)) := rfl

set_option maxHeartbeats 4000000 in
theorem trip_first (hpre : ∀ j, (fi j).toNat < 100000) (k : Fin k0_t1_loop.trips) (h0 : k.val = 0) (v2 : BitVec 32) :
    inv d L O W w fi fx fo k.val ()
      ⊢ wp frame (wpE (defs₀ (F := F)) 𝒱₀ (V d (cV L) (jV L)) none) Set.univ
          (k0_t1_body L iV (Memref.isWhole_whole _) xV (Memref.isWhole_whole _) oV (Memref.isWhole_whole _)
            s0V (Memref.isWhole_whole _) s1V (Memref.isWhole_whole _) s2V (Memref.isWhole_whole _) s3V (Memref.isWhole_whole _)
            r0V (Memref.isWhole_whole _) r1V (Memref.isWhole_whole _) r2V (Memref.isWhole_whole _) r3V (Memref.isWhole_whole _)
            cc0_scratch8 cc0_scratch9 cc0_scratch10 cc0_scratch11 cc0_scratch12 cc0_scratch13 cc0_scratch14 cc0_scratch15 cc0_scratch16 cc0_scratch17 cc0_scratch18 cc0_scratch19 v2 k ())
          fun acc => inv d L O W w fi fx fo (k.val + 1) acc := by
  obtain ⟨k0_h1, k0_h2, k0_h3, k0_h4, k0_h5, k0_h6, k0_h7, k0_h8⟩ := conds_first k h0
  have hk12 : k.val < 12 := trips_eq ▸ k.isLt
  generalize hQ : (fun acc => inv d L O W w fi fx fo (k.val + 1) acc) = Q
  unfold k0_t1_body
  rw [k0_part1_eq_skeleton, k0_part2_eq_skeleton]; unfold k0_part1_skel k0_part2_skel
  unfold inv idxSlot0 idxSlot1 idxSlot2 idxSlot3 rowSlot0 rowSlot1 rowSlot2 rowSlot3 outPart
  rw [dif_pos (show 4 * k.val + 0 < 50 by omega), dif_pos (show 4 * k.val + 1 < 50 by omega), dif_pos (show 4 * k.val + 2 < 50 by omega), dif_pos (show 4 * k.val + 3 < 50 by omega),
    dif_neg (show ¬ (0 < k.val ∧ k.val ≤ 12) by omega), dif_neg (show ¬ (0 < k.val ∧ k.val ≤ 12) by omega), dif_neg (show ¬ (0 < k.val ∧ k.val ≤ 12) by omega), dif_neg (show ¬ (0 < k.val ∧ k.val ≤ 12) by omega)]
  rw [bigSep_from_fin (F := F) (fun t => tripOut d L t fo) k, tripOut_eq (F := F) d L k fo]
  iintro ⟨Hmw, ⟨%g0, %hv0, Hf0, Hit0⟩, ⟨%g1, %hv1, Hf1, Hit1⟩, ⟨%g2, %hv2, Hf2, Hit2⟩, ⟨%g3, %hv3, Hf3, Hit3⟩,
    ⟨⟨%fr0, Hr0⟩, Hc8⟩, ⟨⟨%fr1, Hr1⟩, Hc9⟩, ⟨⟨%fr2, Hr2⟩, Hc10⟩, ⟨⟨%fr3, Hr3⟩, Hc11⟩,
    ⟨Hxt4, Hc4⟩, ⟨Hxt5, Hc5⟩, ⟨Hxt6, Hc6⟩, ⟨Hxt7, Hc7⟩, ⟨⟨⟨Hw0, Hw1, Hw2, Hw3⟩, Htodo⟩, -, HT0, HT1⟩, %W', %hW', HO⟩
  have hin0 := hin_of_value_0 (F := F) d L g0 fi _ _ hv0 hpre
  have hin1 := hin_of_value_1 (F := F) d L g1 fi _ _ hv1 hpre
  have hin2 := hin_of_value_2 (F := F) d L g2 fi _ _ hv2 hpre
  have hin3 := hin_of_value_3 (F := F) d L g3 fi _ _ hv3 hpre
  ihave Hw0 := (Entails.of_eq (pts_oM0 (F := F) d L k fo).symm) $$ Hw0
  ihave Hw1 := (Entails.of_eq (pts_oM1 (F := F) d L k fo).symm) $$ Hw1
  ihave Hw2 := (Entails.of_eq (pts_oM2 (F := F) d L k fo).symm) $$ Hw2
  ihave Hw3 := (Entails.of_eq (pts_oM3 (F := F) d L k fo).symm) $$ Hw3
  sl_exec
  sl_step
  subst hQ
  beta_reduce
  unfold inv
  isplitl [Hmw]; · iexact Hmw
  isplitl [Hf0 Hit0]
  · iapply (idxSlot0_intro (F := F) d L w fi (k.val + 1) (by omega) _ (k0_off8 L k) (off8_eq L k) _
      (fun a => listValue_0 (F := F) d L g0 fi _ _ (k0_off8 L k) (off8_eq L k) _ _ a)) $$ [Hf0 Hit0]
    isplitl [Hf0]; · iexact Hf0
    iexact Hit0
  isplitl [Hf1 Hit1]
  · iapply (idxSlot1_intro (F := F) d L w fi (k.val + 1) (by omega) _ (k0_off9 L k) (off9_eq L k) _
      (fun a => listValue_1 (F := F) d L g1 fi _ _ (k0_off9 L k) (off9_eq L k) _ _ a)) $$ [Hf1 Hit1]
    isplitl [Hf1]; · iexact Hf1
    iexact Hit1
  isplitl [Hf2 Hit2]
  · iapply (idxSlot2_intro (F := F) d L w fi (k.val + 1) (by omega) _ (k0_off10 L k) (off10_eq L k) _
      (fun a => listValue_2 (F := F) d L g2 fi _ _ (k0_off10 L k) (off10_eq L k) _ _ a)) $$ [Hf2 Hit2]
    isplitl [Hf2]; · iexact Hf2
    iexact Hit2
  isplitl [Hf3 Hit3]
  · iapply (idxSlot3_intro (F := F) d L w fi (k.val + 1) (by omega) _ (k0_off11 L k) (off11_eq L k) _
      (fun a => listValue_3 (F := F) d L g3 fi _ _ (k0_off11 L k) (off11_eq L k) _ _ a)) $$ [Hf3 Hit3]
    isplitl [Hf3]; · iexact Hf3
    iexact Hit3
  isplitl [Hc8 Hr0]
  · iapply (rowSlot0_intro (F := F) d L fi fx (k.val + 1) k rfl g0 fr0 fo (nb L + 128 * (4 * k.val + 0)) (chunk_le L _ (by omega)) (off7_eq0 L k) hin0 hv0 hpre) $$ [Hc8 Hr0]
    isplitl [Hc8]; · iexact Hc8
    iexact Hr0
  isplitl [Hc9 Hr1]
  · iapply (rowSlot1_intro (F := F) d L fi fx (k.val + 1) k rfl g1 fr1 fo (nb L + 128 * (4 * k.val + 1)) (chunk_le L _ (by omega)) (off7_eq1 L k) hin1 hv1 hpre) $$ [Hc9 Hr1]
    isplitl [Hc9]; · iexact Hc9
    iexact Hr1
  isplitl [Hc10 Hr2]
  · iapply (rowSlot2_intro (F := F) d L fi fx (k.val + 1) k rfl g2 fr2 fo (nb L + 128 * (4 * k.val + 2)) (chunk_le L _ (by omega)) (off7_eq2 L k) hin2 hv2 hpre) $$ [Hc10 Hr2]
    isplitl [Hc10]; · iexact Hc10
    iexact Hr2
  isplitl [Hc11 Hr3]
  · iapply (rowSlot3_intro (F := F) d L fi fx (k.val + 1) k rfl g3 fr3 fo (nb L + 128 * (4 * k.val + 3)) (chunk_le L _ (by omega)) (off7_eq3 L k) hin3 hv3 hpre) $$ [Hc11 Hr3]
    isplitl [Hc11]; · iexact Hc11
    iexact Hr3
  isplitl [Hxt4 Hc4]
  · isplitl [Hxt4]; · iexact Hxt4
    iexact Hc4
  isplitl [Hxt5 Hc5]
  · isplitl [Hxt5]; · iexact Hxt5
    iexact Hc5
  isplitl [Hxt6 Hc6]
  · isplitl [Hxt6]; · iexact Hxt6
    iexact Hc6
  isplitl [Hxt7 Hc7]
  · isplitl [Hxt7]; · iexact Hxt7
    iexact Hc7
  isplitl [Htodo HT0 HT1]
  · unfold outPart
    isplitl [Htodo]; · iexact Htodo
    isplitr
    · rw [show k.val + 1 - 1 = 0 by omega, bigSep_upto_zero]; iempintro
    isplitl [HT0]; · iexact HT0
    iexact HT1
  iexists _; isplitr
  swap; · iexact HO
  ipureintro; intro p hp
  repeat (rcases Finset.mem_insert.mp hp with hp | hp; · exact .inr (hp ▸ rfl))
  exact hW' p hp

set_option maxHeartbeats 4000000 in
theorem trip_mid (hpre : ∀ j, (fi j).toNat < 100000) (k : Fin k0_t1_loop.trips) (h0 : 0 < k.val) (h11 : k.val < 11) (v2 : BitVec 32) :
    inv d L O W w fi fx fo k.val ()
      ⊢ wp frame (wpE (defs₀ (F := F)) 𝒱₀ (V d (cV L) (jV L)) none) Set.univ
          (k0_t1_body L iV (Memref.isWhole_whole _) xV (Memref.isWhole_whole _) oV (Memref.isWhole_whole _)
            s0V (Memref.isWhole_whole _) s1V (Memref.isWhole_whole _) s2V (Memref.isWhole_whole _) s3V (Memref.isWhole_whole _)
            r0V (Memref.isWhole_whole _) r1V (Memref.isWhole_whole _) r2V (Memref.isWhole_whole _) r3V (Memref.isWhole_whole _)
            cc0_scratch8 cc0_scratch9 cc0_scratch10 cc0_scratch11 cc0_scratch12 cc0_scratch13 cc0_scratch14 cc0_scratch15 cc0_scratch16 cc0_scratch17 cc0_scratch18 cc0_scratch19 v2 k ())
          fun acc => inv d L O W w fi fx fo (k.val + 1) acc := by
  obtain ⟨k0_h1, k0_h2, k0_h3, k0_h4, k0_h5, k0_h6, k0_h7, k0_h8⟩ := conds_mid k h0 h11
  have hk12 : k.val < 12 := trips_eq ▸ k.isLt
  generalize hQ : (fun acc => inv d L O W w fi fx fo (k.val + 1) acc) = Q
  unfold k0_t1_body
  rw [k0_part1_eq_skeleton, k0_part2_eq_skeleton]; unfold k0_part1_skel k0_part2_skel
  unfold inv idxSlot0 idxSlot1 idxSlot2 idxSlot3 rowSlot0 rowSlot1 rowSlot2 rowSlot3 outPart
  rw [dif_pos (show 4 * k.val + 0 < 50 by omega), dif_pos (show 4 * k.val + 1 < 50 by omega), dif_pos (show 4 * k.val + 2 < 50 by omega), dif_pos (show 4 * k.val + 3 < 50 by omega),
    dif_pos (show 0 < k.val ∧ k.val ≤ 12 from ⟨h0, by omega⟩), dif_pos (show 0 < k.val ∧ k.val ≤ 12 from ⟨h0, by omega⟩),
    dif_pos (show 0 < k.val ∧ k.val ≤ 12 from ⟨h0, by omega⟩), dif_pos (show 0 < k.val ∧ k.val ≤ 12 from ⟨h0, by omega⟩)]
  rw [bigSep_from_fin (F := F) (fun t => tripOut d L t fo) k, tripOut_eq (F := F) d L k fo]
  iintro ⟨Hmw, ⟨%g0, %hv0, Hf0, Hit0⟩, ⟨%g1, %hv1, Hf1, Hit1⟩, ⟨%g2, %hv2, Hf2, Hit2⟩, ⟨%g3, %hv3, Hf3, Hit3⟩,
    ⟨%fr0, Hc8, Hr0⟩, ⟨%fr1, Hc9, Hr1⟩, ⟨%fr2, Hc10, Hr2⟩, ⟨%fr3, Hc11, Hr3⟩,
    ⟨Hxt4, Hc4⟩, ⟨Hxt5, Hc5⟩, ⟨Hxt6, Hc6⟩, ⟨Hxt7, Hc7⟩, ⟨⟨⟨Hw0, Hw1, Hw2, Hw3⟩, Htodo⟩, Hdone, HT0, HT1⟩, %W', %hW', HO⟩
  have hin0 := hin_of_value_0 (F := F) d L g0 fi _ _ hv0 hpre
  have hin1 := hin_of_value_1 (F := F) d L g1 fi _ _ hv1 hpre
  have hin2 := hin_of_value_2 (F := F) d L g2 fi _ _ hv2 hpre
  have hin3 := hin_of_value_3 (F := F) d L g3 fi _ _ hv3 hpre
  ihave Hw0 := (Entails.of_eq (pts_oM0 (F := F) d L k fo).symm) $$ Hw0
  ihave Hw1 := (Entails.of_eq (pts_oM1 (F := F) d L k fo).symm) $$ Hw1
  ihave Hw2 := (Entails.of_eq (pts_oM2 (F := F) d L k fo).symm) $$ Hw2
  ihave Hw3 := (Entails.of_eq (pts_oM3 (F := F) d L k fo).symm) $$ Hw3
  sl_exec
  sl_step
  subst hQ
  beta_reduce
  unfold inv
  isplitl [Hmw]; · iexact Hmw
  isplitl [Hf0 Hit0]
  · iapply (idxSlot0_intro (F := F) d L w fi (k.val + 1) (by omega) _ (k0_off8 L k) (off8_eq L k) _
      (fun a => listValue_0 (F := F) d L g0 fi _ _ (k0_off8 L k) (off8_eq L k) _ _ a)) $$ [Hf0 Hit0]
    isplitl [Hf0]; · iexact Hf0
    iexact Hit0
  isplitl [Hf1 Hit1]
  · iapply (idxSlot1_intro (F := F) d L w fi (k.val + 1) (by omega) _ (k0_off9 L k) (off9_eq L k) _
      (fun a => listValue_1 (F := F) d L g1 fi _ _ (k0_off9 L k) (off9_eq L k) _ _ a)) $$ [Hf1 Hit1]
    isplitl [Hf1]; · iexact Hf1
    iexact Hit1
  isplitl [Hf2 Hit2]
  · iapply (idxSlot2_intro (F := F) d L w fi (k.val + 1) (by omega) _ (k0_off10 L k) (off10_eq L k) _
      (fun a => listValue_2 (F := F) d L g2 fi _ _ (k0_off10 L k) (off10_eq L k) _ _ a)) $$ [Hf2 Hit2]
    isplitl [Hf2]; · iexact Hf2
    iexact Hit2
  isplitl [Hf3 Hit3]
  · iapply (idxSlot3_intro (F := F) d L w fi (k.val + 1) (by omega) _ (k0_off11 L k) (off11_eq L k) _
      (fun a => listValue_3 (F := F) d L g3 fi _ _ (k0_off11 L k) (off11_eq L k) _ _ a)) $$ [Hf3 Hit3]
    isplitl [Hf3]; · iexact Hf3
    iexact Hit3
  isplitl [Hc8 Hr0]
  · iapply (rowSlot0_intro (F := F) d L fi fx (k.val + 1) k rfl g0 fr0 fo (nb L + 128 * (4 * k.val + 0)) (chunk_le L _ (by omega)) (off7_eq0 L k) hin0 hv0 hpre) $$ [Hc8 Hr0]
    isplitl [Hc8]; · iexact Hc8
    iexact Hr0
  isplitl [Hc9 Hr1]
  · iapply (rowSlot1_intro (F := F) d L fi fx (k.val + 1) k rfl g1 fr1 fo (nb L + 128 * (4 * k.val + 1)) (chunk_le L _ (by omega)) (off7_eq1 L k) hin1 hv1 hpre) $$ [Hc9 Hr1]
    isplitl [Hc9]; · iexact Hc9
    iexact Hr1
  isplitl [Hc10 Hr2]
  · iapply (rowSlot2_intro (F := F) d L fi fx (k.val + 1) k rfl g2 fr2 fo (nb L + 128 * (4 * k.val + 2)) (chunk_le L _ (by omega)) (off7_eq2 L k) hin2 hv2 hpre) $$ [Hc10 Hr2]
    isplitl [Hc10]; · iexact Hc10
    iexact Hr2
  isplitl [Hc11 Hr3]
  · iapply (rowSlot3_intro (F := F) d L fi fx (k.val + 1) k rfl g3 fr3 fo (nb L + 128 * (4 * k.val + 3)) (chunk_le L _ (by omega)) (off7_eq3 L k) hin3 hv3 hpre) $$ [Hc11 Hr3]
    isplitl [Hc11]; · iexact Hc11
    iexact Hr3
  isplitl [Hxt4 Hc4]
  · isplitl [Hxt4]; · iexact Hxt4
    iexact Hc4
  isplitl [Hxt5 Hc5]
  · isplitl [Hxt5]; · iexact Hxt5
    iexact Hc5
  isplitl [Hxt6 Hc6]
  · isplitl [Hxt6]; · iexact Hxt6
    iexact Hc6
  isplitl [Hxt7 Hc7]
  · isplitl [Hxt7]; · iexact Hxt7
    iexact Hc7
  isplitl [Htodo Hdone HT0 HT1 Hc8_dst Hc9_dst Hc10_dst Hc11_dst]
  · unfold outPart
    isplitl [Htodo]; · iexact Htodo
    isplitl [Hdone Hc8_dst Hc9_dst Hc10_dst Hc11_dst]
    · rw [show k.val + 1 - 1 = (k.val - 1) + 1 by omega,
        bigSep_upto_succ (fun t => tripOut d L t (Spec.Gflat fi fx : Buf (Elt F) (oLoc d))) (k.val - 1) (lt_of_le_of_lt (Nat.sub_le _ _) k.isLt), tripOut_eq]
      isplitl [Hc8_dst Hc9_dst Hc10_dst Hc11_dst]
      · isplitl [Hc8_dst]; · iexact Hc8_dst
        isplitl [Hc9_dst]; · iexact Hc9_dst
        isplitl [Hc10_dst]; · iexact Hc10_dst
        iexact Hc11_dst
      · iexact Hdone
    isplitl [HT0]; · iexact HT0
    iexact HT1
  iexists _; isplitr
  swap; · iexact HO
  ipureintro; intro p hp
  repeat (rcases Finset.mem_insert.mp hp with hp | hp; · exact .inr (hp ▸ rfl))
  exact hW' p hp

set_option maxHeartbeats 4000000 in
theorem trip_last (hpre : ∀ j, (fi j).toNat < 100000) (k : Fin k0_t1_loop.trips) (h11 : k.val = 11) (v2 : BitVec 32) :
    inv d L O W w fi fx fo k.val ()
      ⊢ wp frame (wpE (defs₀ (F := F)) 𝒱₀ (V d (cV L) (jV L)) none) Set.univ
          (k0_t1_body L iV (Memref.isWhole_whole _) xV (Memref.isWhole_whole _) oV (Memref.isWhole_whole _)
            s0V (Memref.isWhole_whole _) s1V (Memref.isWhole_whole _) s2V (Memref.isWhole_whole _) s3V (Memref.isWhole_whole _)
            r0V (Memref.isWhole_whole _) r1V (Memref.isWhole_whole _) r2V (Memref.isWhole_whole _) r3V (Memref.isWhole_whole _)
            cc0_scratch8 cc0_scratch9 cc0_scratch10 cc0_scratch11 cc0_scratch12 cc0_scratch13 cc0_scratch14 cc0_scratch15 cc0_scratch16 cc0_scratch17 cc0_scratch18 cc0_scratch19 v2 k ())
          fun acc => inv d L O W w fi fx fo (k.val + 1) acc := by
  obtain ⟨k0_h1, k0_h2, k0_h3, k0_h4, k0_h5, k0_h6, k0_h7, k0_h8⟩ := conds_last k h11
  have hk12 : k.val < 12 := trips_eq ▸ k.isLt
  generalize hQ : (fun acc => inv d L O W w fi fx fo (k.val + 1) acc) = Q
  unfold k0_t1_body
  rw [k0_part1_eq_skeleton, k0_part2_eq_skeleton]; unfold k0_part1_skel k0_part2_skel
  unfold inv idxSlot0 idxSlot1 idxSlot2 idxSlot3 rowSlot0 rowSlot1 rowSlot2 rowSlot3 outPart
  rw [dif_pos (show 4 * k.val + 0 < 50 by omega), dif_pos (show 4 * k.val + 1 < 50 by omega), dif_pos (show 4 * k.val + 2 < 50 by omega), dif_pos (show 4 * k.val + 3 < 50 by omega),
    dif_pos (show 0 < k.val ∧ k.val ≤ 12 by omega), dif_pos (show 0 < k.val ∧ k.val ≤ 12 by omega), dif_pos (show 0 < k.val ∧ k.val ≤ 12 by omega), dif_pos (show 0 < k.val ∧ k.val ≤ 12 by omega)]
  rw [bigSep_from_fin (F := F) (fun t => tripOut d L t fo) k, tripOut_eq (F := F) d L k fo]
  iintro ⟨Hmw, ⟨%g0, %hv0, Hf0, Hit0⟩, ⟨%g1, %hv1, Hf1, Hit1⟩, ⟨%g2, %hv2, Hf2, Hit2⟩, ⟨%g3, %hv3, Hf3, Hit3⟩,
    ⟨%fr0, Hc8, Hr0⟩, ⟨%fr1, Hc9, Hr1⟩, ⟨%fr2, Hc10, Hr2⟩, ⟨%fr3, Hc11, Hr3⟩,
    ⟨Hxt4, Hc4⟩, ⟨Hxt5, Hc5⟩, ⟨Hxt6, Hc6⟩, ⟨Hxt7, Hc7⟩, ⟨⟨⟨Hw0, Hw1, Hw2, Hw3⟩, Htodo⟩, Hdone, HT0, HT1⟩, %W', %hW', HO⟩
  have hin0 := hin_of_value_0 (F := F) d L g0 fi _ _ hv0 hpre
  have hin1 := hin_of_value_1 (F := F) d L g1 fi _ _ hv1 hpre
  have hin2 := hin_of_value_2 (F := F) d L g2 fi _ _ hv2 hpre
  have hin3 := hin_of_value_3 (F := F) d L g3 fi _ _ hv3 hpre
  ihave Hw0 := (Entails.of_eq (pts_oM0 (F := F) d L k fo).symm) $$ Hw0
  ihave Hw1 := (Entails.of_eq (pts_oM1 (F := F) d L k fo).symm) $$ Hw1
  ihave Hw2 := (Entails.of_eq (pts_oM2 (F := F) d L k fo).symm) $$ Hw2
  ihave Hw3 := (Entails.of_eq (pts_oM3 (F := F) d L k fo).symm) $$ Hw3
  sl_exec
  sl_step
  subst hQ
  beta_reduce
  unfold inv
  isplitl [Hmw]; · iexact Hmw
  isplitl [Hf0 Hit0]
  · iapply (idxSlot0_intro (F := F) d L w fi (k.val + 1) (by omega) _ (k0_off8 L k) (off8_eq L k) _
      (fun a => listValue_0 (F := F) d L g0 fi _ _ (k0_off8 L k) (off8_eq L k) _ _ a)) $$ [Hf0 Hit0]
    isplitl [Hf0]; · iexact Hf0
    iexact Hit0
  isplitl [Hf1 Hit1]
  · iapply (idxSlot1_intro (F := F) d L w fi (k.val + 1) (by omega) _ (k0_off9 L k) (off9_eq L k) _
      (fun a => listValue_1 (F := F) d L g1 fi _ _ (k0_off9 L k) (off9_eq L k) _ _ a)) $$ [Hf1 Hit1]
    isplitl [Hf1]; · iexact Hf1
    iexact Hit1
  isplitl [Hf2 Hit2 Hf2_dst]
  · unfold idxSlot2; rw [dif_neg (show ¬ 4 * (k.val + 1) + 2 < 50 by omega)]
    isplitl [Hf2_dst]; · iexists _; iexact Hf2_dst
    isplitl [Hf2]; · iexact Hf2
    iexact Hit2
  isplitl [Hf3 Hit3 Hf3_dst]
  · unfold idxSlot3; rw [dif_neg (show ¬ 4 * (k.val + 1) + 3 < 50 by omega)]
    isplitl [Hf3_dst]; · iexists _; iexact Hf3_dst
    isplitl [Hf3]; · iexact Hf3
    iexact Hit3
  isplitl [Hc8 Hr0]
  · iapply (rowSlot0_intro (F := F) d L fi fx (k.val + 1) k rfl g0 fr0 fo (nb L + 128 * (4 * k.val + 0)) (chunk_le L _ (by omega)) (off7_eq0 L k) hin0 hv0 hpre) $$ [Hc8 Hr0]
    isplitl [Hc8]; · iexact Hc8
    iexact Hr0
  isplitl [Hc9 Hr1]
  · iapply (rowSlot1_intro (F := F) d L fi fx (k.val + 1) k rfl g1 fr1 fo (nb L + 128 * (4 * k.val + 1)) (chunk_le L _ (by omega)) (off7_eq1 L k) hin1 hv1 hpre) $$ [Hc9 Hr1]
    isplitl [Hc9]; · iexact Hc9
    iexact Hr1
  isplitl [Hc10 Hr2]
  · iapply (rowSlot2_intro (F := F) d L fi fx (k.val + 1) k rfl g2 fr2 fo (nb L + 128 * (4 * k.val + 2)) (chunk_le L _ (by omega)) (off7_eq2 L k) hin2 hv2 hpre) $$ [Hc10 Hr2]
    isplitl [Hc10]; · iexact Hc10
    iexact Hr2
  isplitl [Hc11 Hr3]
  · iapply (rowSlot3_intro (F := F) d L fi fx (k.val + 1) k rfl g3 fr3 fo (nb L + 128 * (4 * k.val + 3)) (chunk_le L _ (by omega)) (off7_eq3 L k) hin3 hv3 hpre) $$ [Hc11 Hr3]
    isplitl [Hc11]; · iexact Hc11
    iexact Hr3
  isplitl [Hxt4 Hc4]
  · isplitl [Hxt4]; · iexact Hxt4
    iexact Hc4
  isplitl [Hxt5 Hc5]
  · isplitl [Hxt5]; · iexact Hxt5
    iexact Hc5
  isplitl [Hxt6 Hc6]
  · isplitl [Hxt6]; · iexact Hxt6
    iexact Hc6
  isplitl [Hxt7 Hc7]
  · isplitl [Hxt7]; · iexact Hxt7
    iexact Hc7
  isplitl [Htodo Hdone HT0 HT1 Hc8_dst Hc9_dst Hc10_dst Hc11_dst]
  · unfold outPart
    isplitl [Htodo]; · iexact Htodo
    isplitl [Hdone Hc8_dst Hc9_dst Hc10_dst Hc11_dst]
    · rw [show k.val + 1 - 1 = (k.val - 1) + 1 by omega,
        bigSep_upto_succ (fun t => tripOut d L t (Spec.Gflat fi fx : Buf (Elt F) (oLoc d))) (k.val - 1) (lt_of_le_of_lt (Nat.sub_le _ _) k.isLt), tripOut_eq]
      isplitl [Hc8_dst Hc9_dst Hc10_dst Hc11_dst]
      · isplitl [Hc8_dst]; · iexact Hc8_dst
        isplitl [Hc9_dst]; · iexact Hc9_dst
        isplitl [Hc10_dst]; · iexact Hc10_dst
        iexact Hc11_dst
      · iexact Hdone
    isplitl [HT0]; · iexact HT0
    iexact HT1
  iexists _; isplitr
  swap; · iexact HO
  ipureintro; intro p hp
  repeat (rcases Finset.mem_insert.mp hp with hp | hp; · exact .inr (hp ▸ rfl))
  exact hW' p hp

set_option maxHeartbeats 8000000 in
/-- The kernel on one vector subcore: the four index fetches before the loop, the loop by its invariant, the two last
    chunks and the closing waits. -/
theorem tile_body (hF : (K (F := F)).Facts) (hpre : ∀ j, (fi j).toNat < 100000) (hO : ∀ g, O g none = 0) :
    iprop(levAts (K (F := F)).L (K (F := F)).lev ∗ emp
        ∗ ((iLoc d ↦{wq (widL L)} fi : sProp 𝕄) ∗ (xLoc d ↦{wq (widL L)} fx : sProp 𝕄) ∗ (oLoc d ↦[oRegSet (widL L)]{fullShare} fo : sProp 𝕄))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iV (Memref.isWhole_whole _) xV (Memref.isWhole_whole _) oV (Memref.isWhole_whole _)
            s0V (Memref.isWhole_whole _) s1V (Memref.isWhole_whole _) s2V (Memref.isWhole_whole _) s3V (Memref.isWhole_whole _)
            r0V (Memref.isWhole_whole _) r1V (Memref.isWhole_whole _) r2V (Memref.isWhole_whole _) r3V (Memref.isWhole_whole _)
            cc0_scratch8 cc0_scratch9 cc0_scratch10 cc0_scratch11 cc0_scratch12 cc0_scratch13 cc0_scratch14 cc0_scratch15 cc0_scratch16 cc0_scratch17 cc0_scratch18 cc0_scratch19)
          fun _ => iprop(((iLoc d ↦{wq (widL L)} fi : sProp 𝕄) ∗ (xLoc d ↦{wq (widL L)} fx : sProp 𝕄)
              ∗ (oLoc d ↦[oRegSet (widL L)]{fullShare} (Spec.Gflat fi fx : Buf (Elt F) (oLoc d)) : sProp 𝕄))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  rw [oReg_split (F := F) d L fo, oReg_split (F := F) d L (Spec.Gflat fi fx : Buf (Elt F) (oLoc d))]
  iintro ⟨#Hlv, -, ⟨Hi, Hx, ⟨Hall, HT0, HT1⟩⟩, ⟨⟨%fs0, Hs0⟩, ⟨%fs1, Hs1⟩, ⟨%fs2, Hs2⟩, ⟨%fs3, Hs3⟩, ⟨%fr0, Hr0⟩, ⟨%fr1, Hr1⟩, ⟨%fr2, Hr2⟩, ⟨%fr3, Hr3⟩, Hbufs⟩, ⟨Hc0, Hc1, Hc2, Hc3, Hc4, Hc5, Hc6, Hc7, Hc8, Hc9, Hc10, Hc11, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hi := (Entails.of_eq (pts_iV (F := F) d L _ _).symm) $$ Hi
  ihave Hx := (Entails.of_eq (pts_xV (F := F) d L _ _).symm) $$ Hx
  ihave Hs0 := (Entails.of_eq (pts_s0V (F := F) d L _).symm) $$ Hs0
  ihave Hr0 := (Entails.of_eq (pts_r0V (F := F) d L _).symm) $$ Hr0
  ihave Hs1 := (Entails.of_eq (pts_s1V (F := F) d L _).symm) $$ Hs1
  ihave Hr1 := (Entails.of_eq (pts_r1V (F := F) d L _).symm) $$ Hr1
  ihave Hs2 := (Entails.of_eq (pts_s2V (F := F) d L _).symm) $$ Hs2
  ihave Hr2 := (Entails.of_eq (pts_r2V (F := F) d L _).symm) $$ Hr2
  ihave Hs3 := (Entails.of_eq (pts_s3V (F := F) d L _).symm) $$ Hs3
  ihave Hr3 := (Entails.of_eq (pts_r3V (F := F) d L _).symm) $$ Hr3
  ihave Hi := (Entails.of_eq (show ((iV).view.loc (V d (cV L) (jV L)) ↦{wq (widL L)} fi : sProp 𝕄) = ((iV).view.loc (V d (cV L) (jV L)) ↦{Transfers.shareDrop (wq (widL L)) 0} fi) from rfl)) $$ Hi
  ihave Hsp := (tok_succ (F := F) Finset.univ _ (wq (widL L)) 0).1 $$ Hi
  icases Hsp with ⟨Hi, Hit0⟩
  ihave Hsp := (tok_succ (F := F) Finset.univ _ (wq (widL L)) 1).1 $$ Hi
  icases Hsp with ⟨Hi, Hit1⟩
  ihave Hsp := (tok_succ (F := F) Finset.univ _ (wq (widL L)) 2).1 $$ Hi
  icases Hsp with ⟨Hi, Hit2⟩
  ihave Hsp := (tok_succ (F := F) Finset.univ _ (wq (widL L)) 3).1 $$ Hi
  icases Hsp with ⟨Hi, Hit3⟩
  ihave Hx := (Entails.of_eq (show ((xV).view.loc (V d (cV L) (jV L)) ↦{wq (widL L)} fx : sProp 𝕄) = ((xV).view.loc (V d (cV L) (jV L)) ↦{Transfers.shareDrop (wq (widL L)) 0} fx) from rfl)) $$ Hx
  ihave Hsp := (tok_succ (F := F) Finset.univ _ (wq (widL L)) 0).1 $$ Hx
  icases Hsp with ⟨Hx, Hxt0⟩
  ihave Hsp := (tok_succ (F := F) Finset.univ _ (wq (widL L)) 1).1 $$ Hx
  icases Hsp with ⟨Hx, Hxt1⟩
  ihave Hsp := (tok_succ (F := F) Finset.univ _ (wq (widL L)) 2).1 $$ Hx
  icases Hsp with ⟨Hx, Hxt2⟩
  ihave Hsp := (tok_succ (F := F) Finset.univ _ (wq (widL L)) 3).1 $$ Hx
  icases Hsp with ⟨Hx, Hxt3⟩
  ihave Hsp := (tok_succ (F := F) Finset.univ _ (wq (widL L)) 4).1 $$ Hx
  icases Hsp with ⟨Hx, Hxt4⟩
  ihave Hsp := (tok_succ (F := F) Finset.univ _ (wq (widL L)) 5).1 $$ Hx
  icases Hsp with ⟨Hx, Hxt5⟩
  ihave Hsp := (tok_succ (F := F) Finset.univ _ (wq (widL L)) 6).1 $$ Hx
  icases Hsp with ⟨Hx, Hxt6⟩
  ihave Hsp := (tok_succ (F := F) Finset.univ _ (wq (widL L)) 7).1 $$ Hx
  icases Hsp with ⟨Hx, Hxt7⟩
  sl_exec
  sl_for (inv d L O W (widL L) fi fx fo) $$ [Hmw Hc0 Hit0 Hc1 Hit1 Hc2 Hit2 Hc3 Hit3 Hr0 Hr1 Hr2 Hr3 Hc8 Hc9 Hc10 Hc11 Hxt4 Hxt5 Hxt6 Hxt7 Hc4 Hc5 Hc6 Hc7 Hall HT0 HT1 HO]
  case region =>
    intro k _
    have hk12 : k.val < 12 := trips_eq ▸ k.isLt
    by_cases h0 : k.val = 0
    · exact trip_first d L O W (widL L) fi fx fo hpre k h0 _
    by_cases h11 : k.val = 11
    · exact trip_last d L O W (widL L) fi fx fo hpre k h11 _
    · exact trip_mid d L O W (widL L) fi fx fo hpre k (by omega) (by omega) _
  · unfold inv
    isplitl [Hmw]; · iexact Hmw
    isplitl [Hc0 Hit0]
    · iapply (idxSlot0_intro (F := F) d L (widL L) fi 0 (by omega) _ (k0_off1 L 0#32) (off1_eq0 L) _
        (fun a => listValue_0 (F := F) d L fs0 fi _ _ (k0_off1 L 0#32) (off1_eq0 L) _ _ a)) $$ [Hc0 Hit0]
      isplitl [Hc0]; · iexact Hc0
      iexact Hit0
    isplitl [Hc1 Hit1]
    · iapply (idxSlot1_intro (F := F) d L (widL L) fi 0 (by omega) _ (k0_off1 L 128#32) (off1_eq1 L) _
        (fun a => listValue_1 (F := F) d L fs1 fi _ _ (k0_off1 L 128#32) (off1_eq1 L) _ _ a)) $$ [Hc1 Hit1]
      isplitl [Hc1]; · iexact Hc1
      iexact Hit1
    isplitl [Hc2 Hit2]
    · iapply (idxSlot2_intro (F := F) d L (widL L) fi 0 (by omega) _ (k0_off1 L 256#32) (off1_eq2 L) _
        (fun a => listValue_2 (F := F) d L fs2 fi _ _ (k0_off1 L 256#32) (off1_eq2 L) _ _ a)) $$ [Hc2 Hit2]
      isplitl [Hc2]; · iexact Hc2
      iexact Hit2
    isplitl [Hc3 Hit3]
    · iapply (idxSlot3_intro (F := F) d L (widL L) fi 0 (by omega) _ (k0_off1 L 384#32) (off1_eq3 L) _
        (fun a => listValue_3 (F := F) d L fs3 fi _ _ (k0_off1 L 384#32) (off1_eq3 L) _ _ a)) $$ [Hc3 Hit3]
      isplitl [Hc3]; · iexact Hc3
      iexact Hit3
    isplitl [Hr0 Hc8]
    · unfold rowSlot0; rw [dif_neg (show ¬ (0 < 0 ∧ 0 ≤ 12) by omega)]
      isplitl [Hr0]; · iexists _; iexact Hr0
      iexact Hc8
    isplitl [Hr1 Hc9]
    · unfold rowSlot1; rw [dif_neg (show ¬ (0 < 0 ∧ 0 ≤ 12) by omega)]
      isplitl [Hr1]; · iexists _; iexact Hr1
      iexact Hc9
    isplitl [Hr2 Hc10]
    · unfold rowSlot2; rw [dif_neg (show ¬ (0 < 0 ∧ 0 ≤ 12) by omega)]
      isplitl [Hr2]; · iexists _; iexact Hr2
      iexact Hc10
    isplitl [Hr3 Hc11]
    · unfold rowSlot3; rw [dif_neg (show ¬ (0 < 0 ∧ 0 ≤ 12) by omega)]
      isplitl [Hr3]; · iexists _; iexact Hr3
      iexact Hc11
    isplitl [Hxt4 Hc4]
    · isplitl [Hxt4]; · iexact Hxt4
      iexact Hc4
    isplitl [Hxt5 Hc5]
    · isplitl [Hxt5]; · iexact Hxt5
      iexact Hc5
    isplitl [Hxt6 Hc6]
    · isplitl [Hxt6]; · iexact Hxt6
      iexact Hc6
    isplitl [Hxt7 Hc7]
    · isplitl [Hxt7]; · iexact Hxt7
      iexact Hc7
    isplitl [Hall HT0 HT1]
    · unfold outPart
      isplitl [Hall]; · rw [bigSep_from_zero]; iexact Hall
      isplitr; · rw [show (0 : ℕ) - 1 = 0 from rfl, bigSep_upto_zero]; iempintro
      isplitl [HT0]; · iexact HT0
      iexact HT1
    iexists W; isplitr
    · ipureintro; exact fun p hp => .inl hp
    · iexact HO
  unfold inv idxSlot0 idxSlot1 idxSlot2 idxSlot3 rowSlot0 rowSlot1 rowSlot2 rowSlot3 outPart
  rw [show Scf.trips k0_t1_loop.lb k0_t1_loop.ub k0_t1_loop.st = 12 from trips_eq]
  rw [dif_pos (show 4 * 12 + 0 < 50 by omega), dif_pos (show 4 * 12 + 1 < 50 by omega), dif_neg (show ¬ 4 * 12 + 2 < 50 by omega), dif_neg (show ¬ 4 * 12 + 3 < 50 by omega),
    dif_pos (show 0 < 12 ∧ 12 ≤ 12 by omega), dif_pos (show 0 < 12 ∧ 12 ≤ 12 by omega), dif_pos (show 0 < 12 ∧ 12 ≤ 12 by omega), dif_pos (show 0 < 12 ∧ 12 ≤ 12 by omega)]
  iintro %_ ⟨-, ⟨%g0, %hv0, Hf0, Hit0⟩, ⟨%g1, %hv1, Hf1, Hit1⟩, ⟨⟨%g2, Hs2⟩, Hc2, Hit2⟩, ⟨⟨%g3, Hs3⟩, Hc3, Hit3⟩,
    ⟨%fr0, Hc8, Hr0⟩, ⟨%fr1, Hc9, Hr1⟩, ⟨%fr2, Hc10, Hr2⟩, ⟨%fr3, Hc11, Hr3⟩,
    ⟨Hxt4, Hc4⟩, ⟨Hxt5, Hc5⟩, ⟨Hxt6, Hc6⟩, ⟨Hxt7, Hc7⟩, ⟨-, Hdone, HT0, HT1⟩, %W', %hW', HO⟩
  have hin0 := hin_of_value_0 (F := F) d L g0 fi _ _ hv0 hpre
  have hin1 := hin_of_value_1 (F := F) d L g1 fi _ _ hv1 hpre
  ihave HT0 := (Entails.of_eq (pts_oMT0 (F := F) d L fo).symm) $$ HT0
  ihave HT1 := (Entails.of_eq (pts_oMT1 (F := F) d L fo).symm) $$ HT1
  sl_exec
  sl_step
  isplitl [Hi Hit0 Hit1 Hit2 Hit3 Hx Hxt0 Hxt1 Hxt2 Hxt3 Hxt4 Hxt5 Hxt6 Hxt7 Hdone Hc8_dst Hc9_dst Hc10_dst Hc11_dst HT0 HT1]
  · isplitl [Hi Hit0 Hit1 Hit2 Hit3]
    · ihave Hi := (tok_succ (F := F) Finset.univ _ (wq (widL L)) 3).2 $$ [Hi Hit3]
      · isplitl [Hi]; · iexact Hi
        iexact Hit3
      ihave Hi := (tok_succ (F := F) Finset.univ _ (wq (widL L)) 2).2 $$ [Hi Hit2]
      · isplitl [Hi]; · iexact Hi
        iexact Hit2
      ihave Hi := (tok_succ (F := F) Finset.univ _ (wq (widL L)) 1).2 $$ [Hi Hit1]
      · isplitl [Hi]; · iexact Hi
        iexact Hit1
      ihave Hi := (tok_succ (F := F) Finset.univ _ (wq (widL L)) 0).2 $$ [Hi Hit0]
      · isplitl [Hi]; · iexact Hi
        iexact Hit0
      iexact Hi
    isplitl [Hx Hxt0 Hxt1 Hxt2 Hxt3 Hxt4 Hxt5 Hxt6 Hxt7]
    · ihave Hx := (tok_succ (F := F) Finset.univ _ (wq (widL L)) 7).2 $$ [Hx Hxt7]
      · isplitl [Hx]; · iexact Hx
        iexact Hxt7
      ihave Hx := (tok_succ (F := F) Finset.univ _ (wq (widL L)) 6).2 $$ [Hx Hxt6]
      · isplitl [Hx]; · iexact Hx
        iexact Hxt6
      ihave Hx := (tok_succ (F := F) Finset.univ _ (wq (widL L)) 5).2 $$ [Hx Hxt5]
      · isplitl [Hx]; · iexact Hx
        iexact Hxt5
      ihave Hx := (tok_succ (F := F) Finset.univ _ (wq (widL L)) 4).2 $$ [Hx Hxt4]
      · isplitl [Hx]; · iexact Hx
        iexact Hxt4
      ihave Hx := (tok_succ (F := F) Finset.univ _ (wq (widL L)) 3).2 $$ [Hx Hxt3]
      · isplitl [Hx]; · iexact Hx
        iexact Hxt3
      ihave Hx := (tok_succ (F := F) Finset.univ _ (wq (widL L)) 2).2 $$ [Hx Hxt2]
      · isplitl [Hx]; · iexact Hx
        iexact Hxt2
      ihave Hx := (tok_succ (F := F) Finset.univ _ (wq (widL L)) 1).2 $$ [Hx Hxt1]
      · isplitl [Hx]; · iexact Hx
        iexact Hxt1
      ihave Hx := (tok_succ (F := F) Finset.univ _ (wq (widL L)) 0).2 $$ [Hx Hxt0]
      · isplitl [Hx]; · iexact Hx
        iexact Hxt0
      iexact Hx
    isplitl [Hdone Hc8_dst Hc9_dst Hc10_dst Hc11_dst]
    · rw [← bigSep_upto_top (fun t => tripOut d L t (Spec.Gflat fi fx : Buf (Elt F) (oLoc d))) (11 + 1) (le_of_eq trips_eq),
        bigSep_upto_succ (fun t => tripOut d L t (Spec.Gflat fi fx : Buf (Elt F) (oLoc d))) 11 (by rw [trips_eq]; omega), tripOut_eq]
      isplitl [Hc8_dst Hc9_dst Hc10_dst Hc11_dst]
      · isplitl [Hc8_dst]; · iexact Hc8_dst
        isplitl [Hc9_dst]; · iexact Hc9_dst
        isplitl [Hc10_dst]; · iexact Hc10_dst
        iexact Hc11_dst
      · iexact Hdone
    isplitl [HT0]
    · ihave HT0 := (Entails.of_eq (pointsTo_congr (windowValueW_0 (F := F) d L g0 fr0 fi fx fo (nb L + 128 * (4 * 12 + 0)) (chunk_le L _ (by omega)) (k0_off12 L 6144#32) (off12_eq0 L) _ _ _ _ hin0 hv0 hpre))) $$ HT0
      iexact HT0
    · ihave HT1 := (Entails.of_eq (pointsTo_congr (windowValueW_1 (F := F) d L g1 fr1 fi fx fo (nb L + 128 * (4 * 12 + 1)) (chunk_le L _ (by omega)) (k0_off12 L 6272#32) (off12_eq1 L) _ _ _ _ hin1 hv1 hpre))) $$ HT1
      iexact HT1
  isplitl [Hf0_dst Hf1_dst Hs2 Hs3 Hr0 Hr1 Hr2 Hr3 Hbufs]
  · isplitl [Hf0_dst]; · iexists _; iexact Hf0_dst
    isplitl [Hf1_dst]; · iexists _; iexact Hf1_dst
    isplitl [Hs2]; · iexists _; iexact Hs2
    isplitl [Hs3]; · iexists _; iexact Hs3
    isplitl [Hr0]; · iexists _; iexact Hr0
    isplitl [Hr1]; · iexists _; iexact Hr1
    isplitl [Hr2]; · iexists _; iexact Hr2
    isplitl [Hr3]; · iexists _; iexact Hr3
    iexact Hbufs
  isplitl [Hf0 Hf1 Hc2 Hc3 Hc4 Hc5 Hc6 Hc7 Hc8 Hc9 Hc10 Hc11 Hsems]
  · isplitl [Hf0]; · iexact Hf0
    isplitl [Hf1]; · iexact Hf1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    iexact Hsems
  iexists _; isplitr
  swap; · iexact HO
  ipureintro; intro p hp
  repeat (rcases Finset.mem_insert.mp hp with hp | hp; · exact .inr (hp ▸ rfl))
  exact hW' p hp

end Trip

/-- The kernel's body on every vector subcore. -/
theorem body_ok [FloatOps F] : BodyOK (F := F) :=
  fun d L hF fi fx fo hpre O W hO => tile_body d L O W fi fx fo hF hpre hO

end Cert.Proof.KB

end
-- ==== Proof.lean ====
/-
  The proof of `Cert.Claim`: the lookup kernel runs, at both instances, and at the ideal instance it and the reference
  end with the same result array.

  Both sides are proved against one specification (Proof/Spec.lean): entry (b, s, d) of the result is entry d of the
  table row named by word (s, b) of the index array. Under the precondition every word of the index array names a
  table row (Proof/PreDecode.lean). The kernel's program transposes and flattens the index array, gathers one table
  row per flattened word on the SparseCores' thirty-two workers, and reshapes the gathered rows; the reshape of the rows
  gathered at the flattened transposed index array is the specification (Proof/HostValue.lean), so the kernel's run
  ends with the result array at the specification and its arguments unchanged. The reference's run ends at the same
  function of arguments that agree (Proof/RefValue.lean). The kernel at the bit-exact instance is the same program
  text and the same development read at that instance; only its termination and its unchanged arguments are claimed.
  The idealization rewrote no operation, so what it preserves is trivial.
-/
import proofs.«206846_g4063039062876_cont_8to1_b_342_28_alg».proof.Defs
import proofs.«206846_g4063039062876_cont_8to1_b_342_28_alg».proof.Proof.Gen.Kernel
import proofs.«206846_g4063039062876_cont_8to1_b_342_28_alg».proof.Proof.Gen.Kernel.Skeleton
import proofs.«206846_g4063039062876_cont_8to1_b_342_28_alg».proof.Proof.Gen.KernelIdeal
import proofs.«206846_g4063039062876_cont_8to1_b_342_28_alg».proof.Proof.Gen.KernelIdeal.Skeleton
import proofs.«206846_g4063039062876_cont_8to1_b_342_28_alg».proof.Proof.Gen.ReferenceIdeal
import proofs.«206846_g4063039062876_cont_8to1_b_342_28_alg».proof.Proof.Gen.Pre_input_domain
import Idealize.ShloMosaic.Adequacy
import Idealize.ShloMosaic.Init
import proofs.«206846_g4063039062876_cont_8to1_b_342_28_alg».proof.Proof.PreDecode
import proofs.«206846_g4063039062876_cont_8to1_b_342_28_alg».proof.Proof.HostValue
import proofs.«206846_g4063039062876_cont_8to1_b_342_28_alg».proof.Proof.RefValue
import proofs.«206846_g4063039062876_cont_8to1_b_342_28_alg».proof.Proof.KIObl
import proofs.«206846_g4063039062876_cont_8to1_b_342_28_alg».proof.Proof.KIBody
import proofs.«206846_g4063039062876_cont_8to1_b_342_28_alg».proof.Proof.KBObl
import proofs.«206846_g4063039062876_cont_8to1_b_342_28_alg».proof.Proof.KBBody

noncomputable section

namespace Cert.Proof

open Idealize.ShloMosaic Idealize.SL.Sem

/-! ## The precondition: every word of the index argument names a table row -/

theorem preOK_bits (m : (ℓ : Loc Cert.Kernel.nD Cert.Kernel.τ Cert.Kernel.sig) → Buf (Elt Bits) ℓ)
    (h : Cert.Pre_Kernel m) : KB.PreOK m :=
  fun d j => PreDecode.inRange (F := Bits) _ _ (h d) j

theorem preOK_ideal (m : (ℓ : Loc Cert.KernelIdeal.nD Cert.KernelIdeal.τ Cert.KernelIdeal.sig) → Buf (Elt Ideal) ℓ)
    (h : Cert.Pre_KernelIdeal m) : KI.PreOK m :=
  fun d j => PreDecode.inRange (F := Ideal) _ _ (h d) j

/-! ## The three programs run and keep their arguments -/

theorem frame_bits : Cert.frame_Kernel := fun m ρ hpre =>
  (θ_run Cert.Kernel.defs _ _).mono (fun _ h c => ⟨(h c).2.1, (h c).2.2⟩)
    (KB.run (F := Bits) m ρ (preOK_bits m hpre) KB.body_ok)

theorem frame_ideal : Cert.frame_KernelIdeal := fun m ρ hpre =>
  (θ_run Cert.KernelIdeal.defs _ _).mono (fun _ h c => ⟨(h c).2.1, (h c).2.2⟩)
    (KI.run (F := Ideal) m ρ (preOK_ideal m hpre) KI.body_ok)

theorem frame_reference : Cert.frame_ReferenceIdeal := fun m ρ hpre =>
  (θ_run Cert.ReferenceIdeal.defs _ _).mono (fun _ h c => (h c).2)
    (Ref.run m ρ fun c j => PreDecode.inRange (F := Ideal) _ _ (hpre c) j)

/-! ## At the ideal instance the kernel and the reference end with the same result -/

/-- Both result arrays are the specification of the argument arrays: the kernel's as the reshape of the rows gathered
    at the flattened transposed index array, the reference's directly, at arguments that agree. -/
theorem algebraic : Cert.algebraic_KernelIdeal_ReferenceIdeal := by
  intro m ρ m' ρ' hpre hagree
  refine ⟨fun c => Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (KI.run (F := Ideal) m ρ (preOK_ideal m hpre) KI.body_ok)
    exact HostValue.result_eq _ _ _ _ _
  · have hpre' : ∀ (c : Dev Cert.ReferenceIdeal.nD) (j : Spec.Ssent.Idx),
        (m' ((c.tc : Thread Cert.ReferenceIdeal.nD Cert.ReferenceIdeal.τ).loc Cert.ReferenceIdeal.main_arg0) j).toNat < 100000 := by
      intro c j
      rw [(hagree c).1]
      exact preOK_ideal m hpre c j
    refine (θ_run Cert.ReferenceIdeal.defs _ _).mono (fun _ h c => ⟨(h c).1.trans ?_, (h c).2⟩) (Ref.run m' ρ' hpre')
    rw [(hagree c).1, (hagree c).2]

theorem claim : Cert.Claim :=
  ⟨Cert.Kernel.Gen.facts, Cert.KernelIdeal.Gen.facts, Cert.ReferenceIdeal.Gen.facts, Cert.Pre_input_domain.Gen.facts,
    frame_bits, frame_ideal, frame_reference, trivial, algebraic⟩

end Cert.Proof

end
